-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x20x9 : Shape := ⟨4, ![16, 768, 20, 9]⟩
abbrev S16x768x20 : Shape := ⟨3, ![16, 768, 20]⟩
abbrev S64x9 : Shape := ⟨2, ![64, 9]⟩
abbrev S64 : Shape := ⟨1, ![64]⟩
abbrev S64x128 : Shape := ⟨2, ![64, 128]⟩
abbrev S64x64 : Shape := ⟨2, ![64, 64]⟩
abbrev S256x64 : Shape := ⟨2, ![256, 64]⟩
abbrev S256 : Shape := ⟨1, ![256]⟩
abbrev S_ : Shape := ⟨0, ![]⟩

class Facts : Prop where
  bcast_S_S16x768x20x9 : S_.BroadcastsInDim S16x768x20x9 (![] : Fin 0 → Fin S16x768x20x9.rank)
  reducesTo_S16x768x20x9_S_d0_1_2_3 : S16x768x20x9.ReducesTo [0, 1, 2, 3] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S256x64 .f32) (main_arg14 : FVec F S256 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg13
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S64x64 .f32) (main_arg9 : FVec F S64 .f32) (main_arg10 : FVec F S64 .f32) (main_arg11 : FVec F S64x64 .f32) (main_arg12 : FVec F S64 .f32) (main_arg13 : FVec F S256x64 .f32) (main_arg14 : FVec F S256 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x128 .f32) (main_arg6 : FVec F S64 .f32) (main_arg7 : FVec F S64 .f32) (main_arg8 : FVec F S64x64 .f32) (main_arg9 : FVec F S64 .f32) (main_arg10 : FVec F S64 .f32) (main_arg11 : FVec F S64x64 .f32) (main_arg12 : FVec F S64 .f32) (main_arg13 : FVec F S256x64 .f32) (main_arg14 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S16x768x20x9 .f32) (main_arg1 : IVec S16x768x20 1) (main_arg2 : FVec F S64x9 .f32) (main_arg3 : FVec F S64 .f32) (main_arg4 : FVec F S64 .f32) (main_arg5 : FVec F S64x128 .f32) (main_arg6 : FVec F S64 .f32) (main_arg7 : FVec F S64 .f32) (main_arg8 : FVec F S64x64 .f32) (main_arg9 : FVec F S64 .f32) (main_arg10 : FVec F S64 .f32) (main_arg11 : FVec F S64x64 .f32) (main_arg12 : FVec F S64 .f32) (main_arg13 : FVec F S256x64 .f32) (main_arg14 : FVec F S256 .f32) : IVec S_ 1 :=
  let main_v0 : FVec F S16x768x20x9 .f32 := Host.absf main_arg0
  let main_cst : FVec F S_ .f32 := constant S_ .f32 0x7F800000#32
  let main_v1 : FVec F S16x768x20x9 .f32 := broadcastInDim S16x768x20x9 ![] bcast_S_S16x768x20x9 main_cst
  let main_v2 : IVec S16x768x20x9 1 := cmpf .olt main_v0 main_v1
  let main_c : IVec S_ 1 := constantI S_ 1 1#1
  let main_v3 : IVec S_ 1 := (fun x v => Host.reduce IntOp.andi x v reducesTo_S16x768x20x9_S_d0_1_2_3 h_S_) main_v2 main_c
  let main_v4 : FVec F S64x9 .f32 := Host.absf main_arg2
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S16x768x20x9 : Shape := ⟨4, ![16, 768, 20, 9]⟩
abbrev S16x768x20 : Shape := ⟨3, ![16, 768, 20]⟩
abbrev S64x9 : Shape := ⟨2, ![64, 9]⟩
abbrev S64 : Shape := ⟨1, ![64]⟩
abbrev S64x128 : Shape := ⟨2, ![64, 128]⟩
abbrev S64x64 : Shape := ⟨2, ![64, 64]⟩
abbrev S256x64 : Shape := ⟨2, ![256, 64]⟩
abbrev S256 : Shape := ⟨1, ![256]⟩
abbrev S20x16x768x9 : Shape := ⟨4, ![20, 16, 768, 9]⟩
abbrev S20x12288x9 : Shape := ⟨3, ![20, 12288, 9]⟩
abbrev S20x16x768 : Shape := ⟨3, ![20, 16, 768]⟩
abbrev S20x12288 : Shape := ⟨2, ![20, 12288]⟩
abbrev S9x64 : Shape := ⟨2, ![9, 64]⟩
abbrev S64x256 : Shape := ⟨2, ![64, 256]⟩
abbrev S1x64 : Shape := ⟨2, ![1, 64]⟩
abbrev S1x1 : Shape := ⟨2, ![1, 1]⟩
abbrev S20x256x9 : Shape := ⟨3, ![20, 256, 9]⟩
abbrev S20x256 : Shape := ⟨2, ![20, 256]⟩
abbrev S5120x9 : Shape := ⟨2, ![5120, 9]⟩
abbrev S5120x64 : Shape := ⟨2, ![5120, 64]⟩
abbrev S20x256x64 : Shape := ⟨3, ![20, 256, 64]⟩
abbrev S20x256x1 : Shape := ⟨3, ![20, 256, 1]⟩
abbrev S1x20x256 : Shape := ⟨3, ![1, 20, 256]⟩
abbrev S1 : Shape := ⟨1, ![1]⟩
abbrev S1x1x1 : Shape := ⟨3, ![1, 1, 1]⟩
abbrev S_ : Shape := ⟨0, ![]⟩
abbrev S20x12288x64 : Shape := ⟨3, ![20, 12288, 64]⟩
abbrev S1x1x64 : Shape := ⟨3, ![1, 1, 64]⟩
abbrev S1x256x64 : Shape := ⟨3, ![1, 256, 64]⟩
abbrev S1x256 : Shape := ⟨2, ![1, 256]⟩
abbrev S12288x256 : Shape := ⟨2, ![12288, 256]⟩
abbrev S256x256 : Shape := ⟨2, ![256, 256]⟩
abbrev S256x1 : Shape := ⟨2, ![256, 1]⟩
abbrev S16x768x256 : Shape := ⟨3, ![16, 768, 256]⟩

abbrev nBuf : Space → Nat
  | .hbm => 104
  | .vmem => 44
  | .smem => 0
  | _ => 0

abbrev bufTy : (tb : Table) → Fin (tcTables nBuf tb) → BufTy
  | .hbm, ⟨0, _⟩ => ⟨S16x768x20x9, .f32⟩
  | .hbm, ⟨1, _⟩ => ⟨S16x768x20, .i1⟩
  | .hbm, ⟨2, _⟩ => ⟨S64x9, .f32⟩
  | .hbm, ⟨3, _⟩ => ⟨S64, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S256x64, .f32⟩
  | .hbm, ⟨14, _⟩ => ⟨S256, .f32⟩
  | .hbm, ⟨15, _⟩ => ⟨S20x16x768x9, .f32⟩
  | .hbm, ⟨16, _⟩ => ⟨S20x12288x9, .f32⟩
  | .hbm, ⟨17, _⟩ => ⟨S20x16x768, .i1⟩
  | .hbm, ⟨18, _⟩ => ⟨S20x12288, .i1⟩
  | .hbm, ⟨19, _⟩ => ⟨S20x12288, .f32⟩
  | .hbm, ⟨20, _⟩ => ⟨S9x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x256, .f32⟩
  | .hbm, ⟨28, _⟩ => ⟨S1x64, .f32⟩
  | .hbm, ⟨29, _⟩ => ⟨S1x64, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S20x12288x64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S20x12288x64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x256, .f32⟩
  | .hbm, ⟨102, _⟩ => ⟨S12288x256, .f32⟩
  | .hbm, ⟨103, _⟩ => ⟨S16x768x256, .f32⟩
  | .local _ .vmem, ⟨0, _⟩ => ⟨S20x256x9, .f32⟩
  | .local _ .vmem, ⟨1, _⟩ => ⟨S20x256x9, .f32⟩
  | .local _ .vmem, ⟨2, _⟩ => ⟨S20x256, .f32⟩
  | .local _ .vmem, ⟨3, _⟩ => ⟨S20x256, .f32⟩
  | .local _ .vmem, ⟨4, _⟩ => ⟨S9x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S20x256x9, .f32⟩
  | .local _ .vmem, ⟨9, _⟩ => ⟨S20x256x9, .f32⟩
  | .local _ .vmem, ⟨10, _⟩ => ⟨S20x256, .f32⟩
  | .local _ .vmem, ⟨11, _⟩ => ⟨S20x256, .f32⟩
  | .local _ .vmem, ⟨12, _⟩ => ⟨S9x64, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S20x256x64, .f32⟩
  | .local _ .vmem, ⟨20, _⟩ => ⟨S20x256x64, .f32⟩
  | .local _ .vmem, ⟨21, _⟩ => ⟨S20x256x64, .f32⟩
  | .local _ .vmem, ⟨22, _⟩ => ⟨S20x256x64, .f32⟩
  | .local _ .vmem, ⟨23, _⟩ => ⟨S20x256, .f32⟩
  | .local _ .vmem, ⟨24, _⟩ => ⟨S20x256, .f32⟩
  | .local _ .vmem, ⟨25, _⟩ => ⟨S1x64, .f32⟩
  | .local _ .vmem, ⟨26, _⟩ => ⟨S1x64, .f32⟩
  | .local _ .vmem, ⟨27, _⟩ => ⟨S64x64, .f32⟩
  | .local _ .vmem, ⟨28, _⟩ => ⟨S1x64, .f32⟩
  | .local _ .vmem, ⟨29, _⟩ => ⟨S1x64, .f32⟩
  | .local _ .vmem, ⟨30, _⟩ => ⟨S20x256x64, .f32⟩
  | .local _ .vmem, ⟨31, _⟩ => ⟨S20x256x64, .f32⟩
  | .local _ .vmem, ⟨32, _⟩ => ⟨S20x256x64, .f32⟩
  | .local _ .vmem, ⟨33, _⟩ => ⟨S20x256x64, .f32⟩
  | .local _ .vmem, ⟨34, _⟩ => ⟨S20x256, .f32⟩
  | .local _ .vmem, ⟨35, _⟩ => ⟨S20x256, .f32⟩
  | .local _ .vmem, ⟨36, _⟩ => ⟨S1x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S64x256, .f32⟩
  | .local _ .vmem, ⟨41, _⟩ => ⟨S1x256, .f32⟩
  | .local _ .vmem, ⟨42, _⟩ => ⟨S256x256, .f32⟩
  | .local _ .vmem, ⟨43, _⟩ => ⟨S256x256, .f32⟩
  | _, _ => ⟨S16x768x20x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v53_2 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20x256x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![48], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S20x256x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S20x256x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![48], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S20x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S20x256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![48], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20x256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  transposes_S16x768x20x9_S20x16x768x9_2_0_1_3 : S16x768x20x9.Transposes [2, 0, 1, 3] S20x16x768x9
  shapeCasts_S20x16x768x9_S20x12288x9 : S20x16x768x9.ShapeCasts S20x12288x9
  transposes_S16x768x20_S20x16x768_2_0_1 : S16x768x20.Transposes [2, 0, 1] S20x16x768
  shapeCasts_S20x16x768_S20x12288 : S20x16x768.ShapeCasts S20x12288
  transposes_S64x9_S9x64_1_0 : S64x9.Transposes [1, 0] S9x64
  slices_S64x128_S64x64_0_0 : S64x128.Slices ![0, 0] S64x64
  transposes_S64x64_S64x64_1_0 : S64x64.Transposes [1, 0] S64x64
  slices_S64x128_S64x64_0_64 : S64x128.Slices ![0, 64] S64x64
  transposes_S256x64_S64x256_1_0 : S256x64.Transposes [1, 0] S64x256
  inb_S20x256_S20x256_0_0 : ∀ a, (![0, 0] : Fin 2 → Nat) a + S20x256.size a ≤ S20x256.size a
  h_S20x256 : 0 < S20x256.numel
  shapeCasts_S20x256_S20x256 : S20x256.ShapeCasts S20x256
  inb_S20x256x9_S20x256x9_0_0_0 : ∀ a, (![0, 0, 0] : Fin 3 → Nat) a + S20x256x9.size a ≤ S20x256x9.size a
  h_S20x256x9 : 0 < S20x256x9.numel
  shapeCasts_S20x256x9_S20x256x9 : S20x256x9.ShapeCasts S20x256x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  shapeCasts_S20x256x9_S5120x9 : S20x256x9.ShapeCasts S5120x9
  shapeCasts_S5120x64_S20x256x64 : S5120x64.ShapeCasts S20x256x64
  shapeCasts_S20x256_S20x256x1 : S20x256.ShapeCasts S20x256x1
  broadcasts_S20x256x1_S20x256x64 : S20x256x1.Broadcasts S20x256x64
  reduces_S20x256x64_S64 : S20x256x64.Reduces [0, 1] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S20x256_S1x20x256 : S20x256.ShapeCasts S1x20x256
  reduces_S1x20x256_S1 : S1x20x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  shapeCasts_S1x64_S64 : S1x64.ShapeCasts S64
  bcast_S_S64 : S_.BroadcastsInDim S64 (![] : Fin 0 → Fin S64.rank)
  bcast_S64_S1x64_1 : S64.BroadcastsInDim S1x64 (![1] : Fin 1 → Fin S1x64.rank)
  shapeCasts_S64_S1x1x64 : S64.ShapeCasts S1x1x64
  broadcasts_S1x1x64_S20x256x64 : S1x1x64.Broadcasts S20x256x64
  reduces_S20x256x64_S256x64 : S20x256x64.Reduces [0] S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S20x256x64_S5120x64 : S20x256x64.ShapeCasts S5120x64
  shapeCasts_S256x64_S1x256x64 : S256x64.ShapeCasts S1x256x64
  broadcasts_S1x256x64_S20x256x64 : S1x256x64.Broadcasts S20x256x64
  inb_S20x256x64_S20x256x64_0_0_0 : ∀ a, (![0, 0, 0] : Fin 3 → Nat) a + S20x256x64.size a ≤ S20x256x64.size a
  h_S20x256x64 : 0 < S20x256x64.numel
  shapeCasts_S20x256x64_S20x256x64 : S20x256x64.ShapeCasts S20x256x64
  shapeCasts_S256_S1x256 : S256.ShapeCasts S1x256
  reduces_S20x256_S256 : S20x256.Reduces [0] S256
  broadcasts_S1x64_S256x64 : S1x64.Broadcasts S256x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S256x256 : S1x256.Broadcasts S256x256
  shapeCasts_S256_S256x1 : S256.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  shapeCasts_S12288x256_S16x768x256 : S12288x256.ShapeCasts S16x768x256
  dot_S5120x9_S9x64_S5120x64_1_0_0_1_n_n_wf : DotDims.WF S5120x9 S9x64 S5120x64 [1] [0] [0] [1] [] []
  dot_S256x64_S64x64_S256x64_1_0_0_1_n_n_wf : DotDims.WF S256x64 S64x64 S256x64 [1] [0] [0] [1] [] []
  dot_S5120x64_S64x64_S5120x64_1_0_0_1_n_n_wf : DotDims.WF S5120x64 S64x64 S5120x64 [1] [0] [0] [1] [] []
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x256x9.size a ≤ S20x12288x9.size a
  hwx0_0 : ∀ i : grid0.Coords, EltTy.bits .f32 = 32 ∨ (Rect.block (s := S20x12288x9) S20x256x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x256.size a ≤ S20x12288.size a
  hwx0_1 : ∀ i : grid0.Coords, EltTy.bits .f32 = 32 ∨ (Rect.block (s := S20x12288) S20x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20x256x9.size a ≤ S20x12288x9.size a
  hwx1_0 : ∀ i : grid1.Coords, EltTy.bits .f32 = 32 ∨ (Rect.block (s := S20x12288x9) S20x256x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20x256.size a ≤ S20x12288.size a
  hwx1_1 : ∀ i : grid1.Coords, EltTy.bits .f32 = 32 ∨ (Rect.block (s := S20x12288) S20x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x64.size a ≤ S9x64.size a
  hwx1_2 : ∀ i : grid1.Coords, EltTy.bits .f32 = 32 ∨ (Rect.block (s := S9x64) S9x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S20x256x64.size a ≤ S20x12288x64.size a
  hwx1_9 : ∀ i : grid1.Coords, EltTy.bits .f32 = 32 ∨ (Rect.block (s := S20x12288x64) S20x256x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20x256x64.size a ≤ S20x12288x64.size a
  hwx2_0 : ∀ i : grid2.Coords, EltTy.bits .f32 = 32 ∨ (Rect.block (s := S20x12288x64) S20x256x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20x256.size a ≤ S20x12288.size a
  hwx2_1 : ∀ i : grid2.Coords, EltTy.bits .f32 = 32 ∨ (Rect.block (s := S20x12288) S20x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S20x256x64.size a ≤ S20x12288x64.size a
  hwx2_7 : ∀ i : grid2.Coords, EltTy.bits .f32 = 32 ∨ (Rect.block (s := S20x12288x64) S20x256x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20x256x64.size a ≤ S20x12288x64.size a
  hwx3_0 : ∀ i : grid3.Coords, EltTy.bits .f32 = 32 ∨ (Rect.block (s := S20x12288x64) S20x256x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20x256.size a ≤ S20x12288.size a
  hwx3_1 : ∀ i : grid3.Coords, EltTy.bits .f32 = 32 ∨ (Rect.block (s := S20x12288) S20x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x256.size a ≤ S64x256.size a
  hwx3_6 : ∀ i : grid3.Coords, EltTy.bits .f32 = 32 ∨ (Rect.block (s := S64x256) S64x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S12288x256.size a
  hwx3_8 : ∀ i : grid3.Coords, EltTy.bits .f32 = 32 ∨ (Rect.block (s := S12288x256) S256x256.size (cc3_transform_8 i) (hinb3_8 i)).WholeWords (EltTy.packing .f32)

variable [Facts₀]

def dot_S5120x9_S9x64_S5120x64_1_0_0_1_n_n : DotDims S5120x9 S9x64 S5120x64 where
  lhsContracting := [1]
  rhsContracting := [0]
  lhsNonContracting := [0]
  rhsNonContracting := [1]
  lhsBatch := []
  rhsBatch := []
  wf := dot_S5120x9_S9x64_S5120x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_v1) S20x256x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S20x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S20x256x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S20x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S9x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34_0) S1x64.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34_2) S20x256x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v34_2) S20x256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S20x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53_0) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53_2) S20x256x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53_2) S20x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S20x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S64x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v74) S256x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S16x768x20x9 : Shape := ⟨4, ![16, 768, 20, 9]⟩
abbrev S16x768x20 : Shape := ⟨3, ![16, 768, 20]⟩
abbrev S64x9 : Shape := ⟨2, ![64, 9]⟩
abbrev S64 : Shape := ⟨1, ![64]⟩
abbrev S64x128 : Shape := ⟨2, ![64, 128]⟩
abbrev S64x64 : Shape := ⟨2, ![64, 64]⟩
abbrev S256x64 : Shape := ⟨2, ![256, 64]⟩
abbrev S256 : Shape := ⟨1, ![256]⟩
abbrev S245760 : Shape := ⟨1, ![245760]⟩
abbrev S245760x9 : Shape := ⟨2, ![245760, 9]⟩
abbrev S9x64 : Shape := ⟨2, ![9, 64]⟩
abbrev S245760x64 : Shape := ⟨2, ![245760, 64]⟩
abbrev S245760x1 : Shape := ⟨2, ![245760, 1]⟩
abbrev S_ : Shape := ⟨0, ![]⟩
abbrev S1x64 : Shape := ⟨2, ![1, 64]⟩
abbrev S16x768x20x64 : Shape := ⟨4, ![16, 768, 20, 64]⟩
abbrev S16x768x64 : Shape := ⟨3, ![16, 768, 64]⟩
abbrev S16x768x1x64 : Shape := ⟨4, ![16, 768, 1, 64]⟩
abbrev S16x768x20x128 : Shape := ⟨4, ![16, 768, 20, 128]⟩
abbrev S245760x128 : Shape := ⟨2, ![245760, 128]⟩
abbrev S128x64 : Shape := ⟨2, ![128, 64]⟩
abbrev S16x768 : Shape := ⟨2, ![16, 768]⟩
abbrev S12288 : Shape := ⟨1, ![12288]⟩
abbrev S12288x1 : Shape := ⟨2, ![12288, 1]⟩
abbrev S12288x64 : Shape := ⟨2, ![12288, 64]⟩
abbrev S64x256 : Shape := ⟨2, ![64, 256]⟩
abbrev S12288x256 : Shape := ⟨2, ![12288, 256]⟩
abbrev S1x256 : Shape := ⟨2, ![1, 256]⟩
abbrev S16x768x256 : Shape := ⟨3, ![16, 768, 256]⟩

abbrev nBuf : Space → Nat
  | .hbm => 188
  | .vmem => 0
  | .smem => 0
  | _ => 0

abbrev hbmTy0_0 (i : Nat) : BufTy := match i % 128 with
  | 0 => ⟨S16x768x20x9, .f32⟩
  | 1 => ⟨S16x768x20, .i1⟩
  | 2 => ⟨S64x9, .f32⟩
  | 3 => ⟨S64, .f32⟩
  | 4 => ⟨S64, .f32⟩
  | 5 => ⟨S64x128, .f32⟩
  | 6 => ⟨S64, .f32⟩
  | 7 => ⟨S64, .f32⟩
  | 8 => ⟨S64x64, .f32⟩
  | 9 => ⟨S64, .f32⟩
  | 10 => ⟨S64, .f32⟩
  | 11 => ⟨S64x64, .f32⟩
  | 12 => ⟨S64, .f32⟩
  | 13 => ⟨S256x64, .f32⟩
  | 14 => ⟨S256, .f32⟩
  | 15 => ⟨S245760, .i1⟩
  | 16 => ⟨S245760x9, .f32⟩
  | 17 => ⟨S9x64, .f32⟩
  | 18 => ⟨S245760x64, .f32⟩
  | 19 => ⟨S245760x1, .i1⟩
  | 20 => ⟨S245760x1, .f32⟩
  | 21 => ⟨S_, .f32⟩
  | 22 => ⟨S_, .f32⟩
  | 23 => ⟨S_, .f32⟩
  | 24 => ⟨S_, .f32⟩
  | 25 => ⟨S245760x64, .f32⟩
  | 26 => ⟨S245760x64, .f32⟩
  | 27 => ⟨S_, .f32⟩
  | 28 => ⟨S64, .f32⟩
  | 29 => ⟨S64, .f32⟩
  | 30 => ⟨S64, .f32⟩
  | 31 => ⟨S1x64, .f32⟩
  | 32 => ⟨S245760x64, .f32⟩
  | 33 => ⟨S245760x64, .f32⟩
  | 34 => ⟨S245760x64, .f32⟩
  | 35 => ⟨S245760x64, .f32⟩
  | 36 => ⟨S245760x64, .f32⟩
  | 37 => ⟨S_, .f32⟩
  | 38 => ⟨S64, .f32⟩
  | 39 => ⟨S64, .f32⟩
  | 40 => ⟨S64, .f32⟩
  | 41 => ⟨S1x64, .f32⟩
  | 42 => ⟨S245760x64, .f32⟩
  | 43 => ⟨S245760x64, .f32⟩
  | 44 => ⟨S_, .f32⟩
  | 45 => ⟨S64, .f32⟩
  | 46 => ⟨S64, .f32⟩
  | 47 => ⟨S64, .f32⟩
  | 48 => ⟨S1x64, .f32⟩
  | 49 => ⟨S245760x64, .f32⟩
  | 50 => ⟨S245760x64, .f32⟩
  | 51 => ⟨S1x64, .f32⟩
  | 52 => ⟨S245760x64, .f32⟩
  | 53 => ⟨S245760x64, .f32⟩
  | 54 => ⟨S1x64, .f32⟩
  | 55 => ⟨S245760x64, .f32⟩
  | 56 => ⟨S245760x64, .f32⟩
  | 57 => ⟨S_, .f32⟩
  | 58 => ⟨S245760x64, .f32⟩
  | 59 => ⟨S245760x64, .f32⟩
  | 60 => ⟨S245760x64, .f32⟩
  | 61 => ⟨S245760x64, .f32⟩
  | 62 => ⟨S16x768x20x64, .f32⟩
  | 63 => ⟨S_, .f32⟩
  | 64 => ⟨S16x768x64, .f32⟩
  | 65 => ⟨S16x768x1x64, .f32⟩
  | 66 => ⟨S16x768x20x64, .f32⟩
  | 67 => ⟨S16x768x20x128, .f32⟩
  | 68 => ⟨S245760x128, .f32⟩
  | 69 => ⟨S128x64, .f32⟩
  | 70 => ⟨S245760x64, .f32⟩
  | 71 => ⟨S245760x1, .i1⟩
  | 72 => ⟨S245760x1, .f32⟩
  | 73 => ⟨S_, .f32⟩
  | 74 => ⟨S_, .f32⟩
  | 75 => ⟨S_, .f32⟩
  | 76 => ⟨S_, .f32⟩
  | 77 => ⟨S245760x64, .f32⟩
  | 78 => ⟨S245760x64, .f32⟩
  | 79 => ⟨S_, .f32⟩
  | 80 => ⟨S64, .f32⟩
  | 81 => ⟨S64, .f32⟩
  | 82 => ⟨S64, .f32⟩
  | 83 => ⟨S1x64, .f32⟩
  | 84 => ⟨S245760x64, .f32⟩
  | 85 => ⟨S245760x64, .f32⟩
  | 86 => ⟨S245760x64, .f32⟩
  | 87 => ⟨S245760x64, .f32⟩
  | 88 => ⟨S245760x64, .f32⟩
  | 89 => ⟨S_, .f32⟩
  | 90 => ⟨S64, .f32⟩
  | 91 => ⟨S64, .f32⟩
  | 92 => ⟨S64, .f32⟩
  | 93 => ⟨S1x64, .f32⟩
  | 94 => ⟨S245760x64, .f32⟩
  | 95 => ⟨S245760x64, .f32⟩
  | 96 => ⟨S_, .f32⟩
  | 97 => ⟨S64, .f32⟩
  | 98 => ⟨S64, .f32⟩
  | 99 => ⟨S64, .f32⟩
  | 100 => ⟨S1x64, .f32⟩
  | 101 => ⟨S245760x64, .f32⟩
  | 102 => ⟨S245760x64, .f32⟩
  | 103 => ⟨S1x64, .f32⟩
  | 104 => ⟨S245760x64, .f32⟩
  | 105 => ⟨S245760x64, .f32⟩
  | 106 => ⟨S1x64, .f32⟩
  | 107 => ⟨S245760x64, .f32⟩
  | 108 => ⟨S245760x64, .f32⟩
  | 109 => ⟨S_, .f32⟩
  | 110 => ⟨S245760x64, .f32⟩
  | 111 => ⟨S245760x64, .f32⟩
  | 112 => ⟨S245760x64, .f32⟩
  | 113 => ⟨S245760x64, .f32⟩
  | 114 => ⟨S64x64, .f32⟩
  | 115 => ⟨S245760x64, .f32⟩
  | 116 => ⟨S245760x1, .i1⟩
  | 117 => ⟨S245760x1, .f32⟩
  | 118 => ⟨S_, .f32⟩
  | 119 => ⟨S_, .f32⟩
  | 120 => ⟨S_, .f32⟩
  | 121 => ⟨S_, .f32⟩
  | 122 => ⟨S245760x64, .f32⟩
  | 123 => ⟨S245760x64, .f32⟩
  | 124 => ⟨S_, .f32⟩
  | 125 => ⟨S64, .f32⟩
  | 126 => ⟨S64, .f32⟩
  | 127 => ⟨S64, .f32⟩
  | _ => ⟨S16x768x20x9, .f32⟩

abbrev hbmTy0_1 (i : Nat) : BufTy := match i % 128 with
  | 0 => ⟨S1x64, .f32⟩
  | 1 => ⟨S245760x64, .f32⟩
  | 2 => ⟨S245760x64, .f32⟩
  | 3 => ⟨S245760x64, .f32⟩
  | 4 => ⟨S245760x64, .f32⟩
  | 5 => ⟨S245760x64, .f32⟩
  | 6 => ⟨S_, .f32⟩
  | 7 => ⟨S64, .f32⟩
  | 8 => ⟨S64, .f32⟩
  | 9 => ⟨S64, .f32⟩
  | 10 => ⟨S1x64, .f32⟩
  | 11 => ⟨S245760x64, .f32⟩
  | 12 => ⟨S245760x64, .f32⟩
  | 13 => ⟨S_, .f32⟩
  | 14 => ⟨S64, .f32⟩
  | 15 => ⟨S64, .f32⟩
  | 16 => ⟨S64, .f32⟩
  | 17 => ⟨S1x64, .f32⟩
  | 18 => ⟨S245760x64, .f32⟩
  | 19 => ⟨S245760x64, .f32⟩
  | 20 => ⟨S1x64, .f32⟩
  | 21 => ⟨S245760x64, .f32⟩
  | 22 => ⟨S245760x64, .f32⟩
  | 23 => ⟨S1x64, .f32⟩
  | 24 => ⟨S245760x64, .f32⟩
  | 25 => ⟨S245760x64, .f32⟩
  | 26 => ⟨S_, .f32⟩
  | 27 => ⟨S245760x64, .f32⟩
  | 28 => ⟨S245760x64, .f32⟩
  | 29 => ⟨S245760x64, .f32⟩
  | 30 => ⟨S245760x64, .f32⟩
  | 31 => ⟨S16x768x20x64, .f32⟩
  | 32 => ⟨S_, .f32⟩
  | 33 => ⟨S16x768x64, .f32⟩
  | 34 => ⟨S16x768x20, .i32⟩
  | 35 => ⟨S_, .i32⟩
  | 36 => ⟨S16x768, .i32⟩
  | 37 => ⟨S_, .i32⟩
  | 38 => ⟨S16x768, .i32⟩
  | 39 => ⟨S16x768, .i1⟩
  | 40 => ⟨S12288, .i1⟩
  | 41 => ⟨S12288x1, .i1⟩
  | 42 => ⟨S12288x1, .f32⟩
  | 43 => ⟨S12288x64, .f32⟩
  | 44 => ⟨S64x64, .f32⟩
  | 45 => ⟨S12288x64, .f32⟩
  | 46 => ⟨S1x64, .f32⟩
  | 47 => ⟨S12288x64, .f32⟩
  | 48 => ⟨S12288x64, .f32⟩
  | 49 => ⟨S_, .f32⟩
  | 50 => ⟨S12288x64, .f32⟩
  | 51 => ⟨S12288x64, .f32⟩
  | 52 => ⟨S64x256, .f32⟩
  | 53 => ⟨S12288x256, .f32⟩
  | 54 => ⟨S1x256, .f32⟩
  | 55 => ⟨S12288x256, .f32⟩
  | 56 => ⟨S12288x256, .f32⟩
  | 57 => ⟨S12288x256, .f32⟩
  | 58 => ⟨S12288x256, .f32⟩
  | 59 => ⟨S16x768x256, .f32⟩
  | _ => ⟨S16x768x20x9, .f32⟩

abbrev hbmTy (i : Nat) : BufTy := match i / 128 with
  | 0 => hbmTy0_0 i
  | 1 => hbmTy0_1 i
  | _ => ⟨S16x768x20x9, .f32⟩

abbrev bufTy : (tb : Table) → Fin (tcTables nBuf tb) → BufTy
  | .hbm, ⟨i, _⟩ => hbmTy i
  | _, _ => ⟨S16x768x20x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_10 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_14 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call2_cst : Ref sig .tc := ⟨.hbm, 154, rfl⟩
abbrev main_call2_v0 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_15 : Ref sig .tc := ⟨.hbm, 160, rfl⟩
abbrev main_v123 : Ref sig .tc := ⟨.hbm, 161, rfl⟩
abbrev main_v124 : Ref sig .tc := ⟨.hbm, 162, rfl⟩
abbrev main_c : Ref sig .tc := ⟨.hbm, 163, rfl⟩
abbrev main_v125 : Ref sig .tc := ⟨.hbm, 164, rfl⟩
abbrev main_c_16 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_call3_cst : Ref sig .tc := ⟨.hbm, 177, rfl⟩
abbrev main_call3_v0 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩

abbrev nD : Nat := 1
abbrev τ : Topo := Topo.v7x

variable {F : FTy → Type} [FloatOps F]

class Facts₀ : Prop where
  shapeCasts_S16x768x20_S245760 : S16x768x20.ShapeCasts S245760
  shapeCasts_S16x768x20x9_S245760x9 : S16x768x20x9.ShapeCasts S245760x9
  transposes_S64x9_S9x64_1_0 : S64x9.Transposes [1, 0] S9x64
  bcast_S245760_S245760x1_0 : S245760.BroadcastsInDim S245760x1 (![0] : Fin 1 → Fin S245760x1.rank)
  reducesTo_S245760x1_S_d0_1 : S245760x1.ReducesTo [0, 1] S_
  h_S_ : 0 < S_.numel
  bcast_S245760x1_S245760x64_0_1 : S245760x1.BroadcastsInDim S245760x64 (![0, 1] : Fin 2 → Fin S245760x64.rank)
  reducesTo_S245760x64_S64_d0 : S245760x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S245760x64_0_1 : S1x64.BroadcastsInDim S245760x64 (![0, 1] : Fin 2 → Fin S245760x64.rank)
  bcast_S_S245760x64 : S_.BroadcastsInDim S245760x64 (![] : Fin 0 → Fin S245760x64.rank)
  shapeCasts_S245760x64_S16x768x20x64 : S245760x64.ShapeCasts S16x768x20x64
  reducesTo_S16x768x20x64_S16x768x64_d2 : S16x768x20x64.ReducesTo [2] S16x768x64
  bcast_S16x768x64_S16x768x1x64_0_1_3 : S16x768x64.BroadcastsInDim S16x768x1x64 (![0, 1, 3] : Fin 3 → Fin S16x768x1x64.rank)
  bcast_S16x768x1x64_S16x768x20x64_0_1_2_3 : S16x768x1x64.BroadcastsInDim S16x768x20x64 (![0, 1, 2, 3] : Fin 4 → Fin S16x768x20x64.rank)
  concatenates_S16x768x20x64_S16x768x20x64_S16x768x20x128_d3 : Shape.Concatenates [S16x768x20x64, S16x768x20x64] S16x768x20x128 3
  shapeCasts_S16x768x20x128_S245760x128 : S16x768x20x128.ShapeCasts S245760x128
  transposes_S64x128_S128x64_1_0 : S64x128.Transposes [1, 0] S128x64
  transposes_S64x64_S64x64_1_0 : S64x64.Transposes [1, 0] S64x64
  natLt_1_32 : 1 < 32
  reducesTo_S16x768x20_S16x768_d2 : S16x768x20.ReducesTo [2] S16x768
  bcast_S_S16x768 : S_.BroadcastsInDim S16x768 (![] : Fin 0 → Fin S16x768.rank)
  shapeCasts_S16x768_S12288 : S16x768.ShapeCasts S12288
  bcast_S12288_S12288x1_0 : S12288.BroadcastsInDim S12288x1 (![0] : Fin 1 → Fin S12288x1.rank)
  shapeCasts_S16x768x64_S12288x64 : S16x768x64.ShapeCasts S12288x64
  bcast_S1x64_S12288x64_0_1 : S1x64.BroadcastsInDim S12288x64 (![0, 1] : Fin 2 → Fin S12288x64.rank)
  bcast_S_S12288x64 : S_.BroadcastsInDim S12288x64 (![] : Fin 0 → Fin S12288x64.rank)
  transposes_S256x64_S64x256_1_0 : S256x64.Transposes [1, 0] S64x256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S12288x1_S12288x256_0_1 : S12288x1.BroadcastsInDim S12288x256 (![0, 1] : Fin 2 → Fin S12288x256.rank)
  shapeCasts_S12288x256_S16x768x256 : S12288x256.ShapeCasts S16x768x256
  dot_S245760x9_S9x64_S245760x64_1_0_0_1_n_n_wf : DotDims.WF S245760x9 S9x64 S245760x64 [1] [0] [0] [1] [] []
  dot_S245760x128_S128x64_S245760x64_1_0_0_1_n_n_wf : DotDims.WF S245760x128 S128x64 S245760x64 [1] [0] [0] [1] [] []
  dot_S245760x64_S64x64_S245760x64_1_0_0_1_n_n_wf : DotDims.WF S245760x64 S64x64 S245760x64 [1] [0] [0] [1] [] []
  dot_S12288x64_S64x64_S12288x64_1_0_0_1_n_n_wf : DotDims.WF S12288x64 S64x64 S12288x64 [1] [0] [0] [1] [] []
  dot_S12288x64_S64x256_S12288x256_1_0_0_1_n_n_wf : DotDims.WF S12288x64 S64x256 S12288x256 [1] [0] [0] [1] [] []

variable [Facts₀]

def dot_S245760x9_S9x64_S245760x64_1_0_0_1_n_n : DotDims S245760x9 S9x64 S245760x64 where
  lhsContracting := [1]
  rhsContracting := [0]
  lhsNonContracting := [0]
  rhsNonContracting := [1]
  lhsBatch := []
  rhsBatch := []
  wf := dot_S245760x9_S9x64_S245760x64_1_0_0_1_n_n_wf
def dot_S245760x128_S128x64_S245760x64_1_0_0_1_n_n : DotDims S245760x128 S128x64 S245760x64 where
  lhsContracting := [1]
  rhsContracting := [0]
  lhsNonContracting := [0]
  rhsNonContracting := [1]
  lhsBatch := []
  rhsBatch := []
  wf := dot_S245760x128_S128x64_S245760x64_1_0_0_1_n_n_wf
def dot_S245760x64_S64x64_S245760x64_1_0_0_1_n_n : DotDims S245760x64 S64x64 S245760x64 where
  lhsContracting := [1]
  rhsContracting := [0]
  lhsNonContracting := [0]
  rhsNonContracting := [1]
  lhsBatch := []
  rhsBatch := []
  wf := dot_S245760x64_S64x64_S245760x64_1_0_0_1_n_n_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x256_S12288x256_1_0_0_1_n_n : DotDims S12288x64 S64x256 S12288x256 where
  lhsContracting := [1]
  rhsContracting := [0]
  lhsNonContracting := [0]
  rhsNonContracting := [1]
  lhsBatch := []
  rhsBatch := []
  wf := dot_S12288x64_S64x256_S12288x256_1_0_0_1_n_n_wf

class Facts : Prop extends Facts₀ where

variable [Facts]
-- ==== Proof.Frames.lean ====
/-
  The two kernel programs' frame conjuncts and the idealization conjunct.

  Each kernel program is four pipelined regions among stretches of host operations; its frame (every weakly fair
  execution terminates, nothing faults, the argument arrays end as launched) is the generated run over those
  segments, at the word-level instance and at the extended reals alike. The ideal pass rewrote
  no operation of the kernel, so the idealization conjunct is the trivial proposition.
-/
import proofs.«135113_g11922829214230_retrytranche1_1894_3_alg».proof.Defs
import proofs.«135113_g11922829214230_retrytranche1_1894_3_alg».proof.Proof.Gen.Kernel.Frame
import proofs.«135113_g11922829214230_retrytranche1_1894_3_alg».proof.Proof.Gen.KernelIdeal.Frame
import proofs.«135113_g11922829214230_retrytranche1_1894_3_alg».proof.Proof.Gen.Pre_finite_inputs

noncomputable section

namespace Cert.Proof.Frames

open Idealize.ShloMosaic Idealize.SL.Sem

/-- The word-level kernel terminates without a fault and leaves its fifteen argument arrays as launched. -/
theorem frame_kernel : Cert.frame_Kernel := fun m ρ _ => Cert.Kernel.Gen.frame m ρ

/-- The same of the kernel read at the extended reals. -/
theorem frame_kernelIdeal : Cert.frame_KernelIdeal := fun m ρ _ => Cert.KernelIdeal.Gen.frame m ρ

/-- No operation was rewritten on the way to the idealized kernel: nothing to preserve. -/
theorem preserves : Cert.preserves_Kernel_KernelIdeal := trivial

end Cert.Proof.Frames

end
-- ==== Proof.RefFrame.lean ====
/-
  The reference's frame conjunct.

  The reference has no kernel: its @main is a straight line of host operations. Its run ends with the result at the
  composed term of the arguments and with the arguments as launched; the frame keeps the second half.
-/
import proofs.«135113_g11922829214230_retrytranche1_1894_3_alg».proof.Defs
import proofs.«135113_g11922829214230_retrytranche1_1894_3_alg».proof.Proof.ReferenceRun
import proofs.«135113_g11922829214230_retrytranche1_1894_3_alg».proof.Proof.Gen.Pre_finite_inputs

noncomputable section

namespace Cert.Proof.Frames

open Idealize.ShloMosaic Idealize.SL.Sem

/-- The reference terminates without a fault and leaves its fifteen argument arrays as launched. -/
theorem frame_referenceIdeal : Cert.frame_ReferenceIdeal := fun m ρ _ =>
  (θ_run Cert.ReferenceIdeal.defs _ _).mono (fun _ h c => (h c).2) (Cert.ReferenceIdeal.ValueP.run (F := Ideal) m ρ)

end Cert.Proof.Frames

end
-- ==== Proof.KernelRun.lean ====
/-
  The idealized kernel's run with every buffer named.

  The program is nine segments: five stretches of host operations and, between them, four pipelined regions. The
  contents of the TensorCore's unscoped buffers at each segment boundary are a fold from the launch memory: a host
  stretch applies its operations, a region replaces each of its windows' arrays by what its write-backs leave. The
  last boundary's contents are the fold's ninth stage. Every weakly fair execution terminates without a fault in a
  state whose unscoped buffers ALL hold that stage — the result buffer and the argument buffers among them. The
  launch is the one the frame uses; only the final reading differs: the frame keeps the fifteen arguments, here
  every buffer is kept.
-/
import proofs.«135113_g11922829214230_retrytranche1_1894_3_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates, nothing faulting,
    and in the final state every unscoped buffer of every device holds the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- The result buffer is unscoped. -/
theorem result_unscoped : Proc.devRef .tc main_v75 ∈ Pipeline.ucRefs τ sig := mem_uc main_v75 (by decide)

end Cert.KernelIdeal.Named

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KernelCarry.lean ====
/-
  The kernel's buffers between its segments.

  The program's buffers at each boundary are a fold from the launch memory: a stretch of host operations applies its
  operations, a region replaces its windows' arrays by what its write-backs leave. A buffer that a stretch does not
  write, and that a region either does not touch or only reads, is the same on both sides of the segment. The first
  stretch lays the arguments out for the regions: the features and the mask with the points leading and the 12288
  polylines merged — polyline `768 b + p` is polyline `p` of batch `b` —, and every weight matrix transposed.
-/
import proofs.«135113_g11922829214230_retrytranche1_1894_3_alg».proof.Proof.Gen.KernelIdeal.Frame
import proofs.«135113_g11922829214230_retrytranche1_1894_3_alg».proof.Proof.LibMatmul
import Idealize.ShloMosaic.Lib.Pipeline.Value
import Idealize.ShloMosaic.PureOps.Ideal.Laws
import Idealize.ShloMosaic.Lib.ValueIdx
import Idealize.ShloMosaic.Lib.StableHlo.Run
import Idealize.ShloMosaic.Lib.Tactic

noncomputable section

namespace Cert.KernelIdeal.Carry

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- A stretch of host operations none of which writes `b` leaves `b` as it was: each operation's one written
    reference is compared with `b`. -/
macro "host_keeps" ops:ident : tactic => `(tactic|
  (refine StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

variable (m : (ℓ : Loc nD τ sig) → Buf (Elt Ideal) ℓ) (ρ : Dev nD → PrngReg)

/-- Polyline `p` of batch `b` among the 12288. -/
def poly (b : Fin 16) (p : Fin 768) : Fin 12288 := ⟨768 * b.val + p.val, by have := b.isLt; have := p.isLt; omega⟩

/-! ## The arguments, typed -/

def argX (c : Dev nD) : Vec Ideal S16x768x20x9 .f32 := m ((c : Thread nD τ).loc main_arg0)
def argMask (c : Dev nD) : IVec S16x768x20 1 := m ((c : Thread nD τ).loc main_arg1)
def argWp (c : Dev nD) : Vec Ideal S64x9 .f32 := m ((c : Thread nD τ).loc main_arg2)

/-! ## What the first stretch leaves for region 0 -/

def entX (c : Dev nD) : Vec Ideal S20x12288x9 .f32 := V1 m ρ c main_v1
def entM (c : Dev nD) : Vec Ideal S20x12288 .f32 := V1 m ρ c main_v4
def entW (c : Dev nD) : Vec Ideal S9x64 .f32 := V1 m ρ c main_v5

theorem entX_eq (c : Dev nD) : entX m ρ c
    = shapeCast S20x12288x9 (transpose S20x16x768x9 [2, 0, 1, 3] (argX m c) transposes_S16x768x20x9_S20x16x768x9_2_0_1_3)
        shapeCasts_S20x16x768x9_S20x12288x9 := by
  show StableHlo.after hostOps0 (W0 m ρ c) (Proc.devRef .tc main_v1) = _
  after_results
  rfl

/-- The features as region 0 finds them: point `n` of polyline `768 b + p` is point `n` of polyline `p` of batch `b`. -/
theorem entX_apply (c : Dev nD) (b : Fin 16) (p : Fin 768) (n : Fin 20) (k : Fin 9) :
    entX m ρ c (ix3 n (poly b p) k) = argX m c (ix4 b p n k) := by
  rw [entX_eq]
  refine (shapeCast_apply _ _ (ix3 n (poly b p) k) (ix4 n b p k) (by
    rw [Shape.rowMajor_val_four, Shape.rowMajor_val_three]
    show ((n.val * 16 + b.val) * 768 + p.val) * 9 + k.val = (n.val * 12288 + (768 * b.val + p.val)) * 9 + k.val
    omega)).trans ?_
  exact transpose_apply [2, 0, 1, 3] _ _ (ix4 n b p k) (ix4 b p n k) (fun d => match d with
    | ⟨0, _⟩ => rfl
    | ⟨1, _⟩ => rfl
    | ⟨2, _⟩ => rfl
    | ⟨3, _⟩ => rfl)

theorem entM_eq (c : Dev nD) : entM m ρ c
    = uitofp (F := Ideal) .f32 (shapeCast S20x12288 (transpose S20x16x768 [2, 0, 1] (argMask m c) transposes_S16x768x20_S20x16x768_2_0_1)
        shapeCasts_S20x16x768_S20x12288) := by
  show StableHlo.after hostOps0 (W0 m ρ c) (Proc.devRef .tc main_v4) = _
  after_results
  rfl

/-- The mask numbers as region 0 finds them. -/
theorem entM_apply (c : Dev nD) (b : Fin 16) (p : Fin 768) (n : Fin 20) :
    entM m ρ c (ix2 n (poly b p)) = (((argMask m c (ix3 b p n)).toNat : ℝ) : EReal) := by
  rw [entM_eq]
  show ((((shapeCast S20x12288 (transpose S20x16x768 [2, 0, 1] (argMask m c) transposes_S16x768x20_S20x16x768_2_0_1)
      shapeCasts_S20x16x768_S20x12288) (ix2 n (poly b p))).toNat : ℝ) : EReal) = _
  refine congrArg (fun w : BitVec 1 => ((w.toNat : ℝ) : EReal)) ?_
  refine (shapeCast_apply _ _ (ix2 n (poly b p)) (ix3 n b p) (by
    rw [Shape.rowMajor_val_three, Shape.rowMajor_val_two]
    show (n.val * 16 + b.val) * 768 + p.val = n.val * 12288 + (768 * b.val + p.val)
    omega)).trans ?_
  exact transpose_apply [2, 0, 1] _ _ (ix3 n b p) (ix3 b p n) (fun d => match d with
    | ⟨0, _⟩ => rfl
    | ⟨1, _⟩ => rfl
    | ⟨2, _⟩ => rfl)

theorem entW_eq (c : Dev nD) : entW m ρ c = transpose S9x64 [1, 0] (argWp m c) transposes_S64x9_S9x64_1_0 := by
  show StableHlo.after hostOps0 (W0 m ρ c) (Proc.devRef .tc main_v5) = _
  after_results
  rfl

/-- The first weight matrix as region 0 finds it: transposed. -/
theorem entW_apply (c : Dev nD) (k : Fin 9) (ch : Fin 64) : entW m ρ c (ix2 k ch) = argWp m c (ix2 ch k) := by
  rw [entW_eq]
  exact Cert.MatOps.transpose10_apply _ _ k ch

/-! ## The other weight matrices, as the first stretch leaves them -/

def argW1 (c : Dev nD) : Vec Ideal S64x128 .f32 := m ((c : Thread nD τ).loc main_arg5)
def argW2 (c : Dev nD) : Vec Ideal S64x64 .f32 := m ((c : Thread nD τ).loc main_arg8)
def argWo1 (c : Dev nD) : Vec Ideal S64x64 .f32 := m ((c : Thread nD τ).loc main_arg11)
def argWo2 (c : Dev nD) : Vec Ideal S256x64 .f32 := m ((c : Thread nD τ).loc main_arg13)

def entW1a (c : Dev nD) : Vec Ideal S64x64 .f32 := W1 m ρ c (Proc.devRef .tc main_v7)
theorem entW1a_eq (c : Dev nD) : entW1a m ρ c
    = transpose S64x64 [1, 0] (extractStridedSlice S64x64 ![0, 0] (argW1 m c) slices_S64x128_S64x64_0_0) transposes_S64x64_S64x64_1_0 := by
  show StableHlo.after hostOps0 (W0 m ρ c) (Proc.devRef .tc main_v7) = _
  after_results
  rfl
/-- The second layer's weights on a row's own features: the first sixty-four columns, transposed. -/
theorem entW1a_apply (c : Dev nD) (k ch : Fin 64) : entW1a m ρ c (ix2 k ch) = argW1 m c (ix2 ch (Fin.castAdd 64 k)) := by
  rw [entW1a_eq]
  refine (Cert.MatOps.transpose10_apply _ _ k ch).trans ?_
  exact extractStridedSlice_apply _ _ _ (ix2 ch k) (ix2 ch (Fin.castAdd 64 k)) (fun a => match a with
    | ⟨0, _⟩ => (Nat.zero_add _).symm
    | ⟨1, _⟩ => (Nat.zero_add _).symm)

def entW1b (c : Dev nD) : Vec Ideal S64x64 .f32 := W1 m ρ c (Proc.devRef .tc main_v9)
theorem entW1b_eq (c : Dev nD) : entW1b m ρ c
    = transpose S64x64 [1, 0] (extractStridedSlice S64x64 ![0, 64] (argW1 m c) slices_S64x128_S64x64_0_64) transposes_S64x64_S64x64_1_0 := by
  show StableHlo.after hostOps0 (W0 m ρ c) (Proc.devRef .tc main_v9) = _
  after_results
  rfl
/-- The second layer's weights on the pooled features: the last sixty-four columns, transposed. -/
theorem entW1b_apply (c : Dev nD) (k ch : Fin 64) : entW1b m ρ c (ix2 k ch) = argW1 m c (ix2 ch (Fin.natAdd 64 k)) := by
  rw [entW1b_eq]
  refine (Cert.MatOps.transpose10_apply _ _ k ch).trans ?_
  exact extractStridedSlice_apply _ _ _ (ix2 ch k) (ix2 ch (Fin.natAdd 64 k)) (fun a => match a with
    | ⟨0, _⟩ => (Nat.zero_add _).symm
    | ⟨1, _⟩ => rfl)

def entW2 (c : Dev nD) : Vec Ideal S64x64 .f32 := W1 m ρ c (Proc.devRef .tc main_v10)
theorem entW2_eq (c : Dev nD) : entW2 m ρ c = transpose S64x64 [1, 0] (argW2 m c) transposes_S64x64_S64x64_1_0 := by
  show StableHlo.after hostOps0 (W0 m ρ c) (Proc.devRef .tc main_v10) = _
  after_results
  rfl
/-- The third layer's weights, transposed. -/
theorem entW2_apply (c : Dev nD) (k : Fin 64) (ch : Fin 64) : entW2 m ρ c (ix2 k ch) = argW2 m c (ix2 ch k) := by
  rw [entW2_eq]
  exact Cert.MatOps.transpose10_apply _ _ k ch

def entWo1 (c : Dev nD) : Vec Ideal S64x64 .f32 := W1 m ρ c (Proc.devRef .tc main_v11)
theorem entWo1_eq (c : Dev nD) : entWo1 m ρ c = transpose S64x64 [1, 0] (argWo1 m c) transposes_S64x64_S64x64_1_0 := by
  show StableHlo.after hostOps0 (W0 m ρ c) (Proc.devRef .tc main_v11) = _
  after_results
  rfl
/-- The hidden layer's weights, transposed. -/
theorem entWo1_apply (c : Dev nD) (k : Fin 64) (ch : Fin 64) : entWo1 m ρ c (ix2 k ch) = argWo1 m c (ix2 ch k) := by
  rw [entWo1_eq]
  exact Cert.MatOps.transpose10_apply _ _ k ch

def entWo2 (c : Dev nD) : Vec Ideal S64x256 .f32 := W1 m ρ c (Proc.devRef .tc main_v12)
theorem entWo2_eq (c : Dev nD) : entWo2 m ρ c = transpose S64x256 [1, 0] (argWo2 m c) transposes_S256x64_S64x256_1_0 := by
  show StableHlo.after hostOps0 (W0 m ρ c) (Proc.devRef .tc main_v12) = _
  after_results
  rfl
/-- The output layer's weights, transposed. -/
theorem entWo2_apply (c : Dev nD) (k : Fin 64) (ch : Fin 256) : entWo2 m ρ c (ix2 k ch) = argWo2 m c (ix2 ch k) := by
  rw [entWo2_eq]
  exact Cert.MatOps.transpose10_apply _ _ k ch

/-! ## Buffers carried unchanged across segments -/

/-- The features reach region 1 as region 0 found them. -/
theorem keep_v1_3 (c : Dev nD) : W3 m ρ c (Proc.devRef .tc main_v1) = W1 m ρ c (Proc.devRef .tc main_v1) :=
  ((show StableHlo.after hostOps1 (W2 m ρ c) (Proc.devRef .tc main_v1) = W2 m ρ c (Proc.devRef .tc main_v1) from by host_keeps hostOps1).trans ((W2_arr m ρ c 0).trans (((dat0 (V1 m ρ) c).arrAt_in 0 rfl cfg0.N).trans (A_eq0 (V1 m ρ) c 0))))

/-- The mask numbers reach region 1 as region 0 found them. -/
theorem keep_v4_3 (c : Dev nD) : W3 m ρ c (Proc.devRef .tc main_v4) = W1 m ρ c (Proc.devRef .tc main_v4) :=
  ((show StableHlo.after hostOps1 (W2 m ρ c) (Proc.devRef .tc main_v4) = W2 m ρ c (Proc.devRef .tc main_v4) from by host_keeps hostOps1).trans ((W2_arr m ρ c 1).trans (((dat0 (V1 m ρ) c).arrAt_in 1 rfl cfg0.N).trans (A_eq0 (V1 m ρ) c 1))))

/-- The first weight matrix reaches region 1 as region 0 found it. -/
theorem keep_v5_3 (c : Dev nD) : W3 m ρ c (Proc.devRef .tc main_v5) = W1 m ρ c (Proc.devRef .tc main_v5) :=
  ((show StableHlo.after hostOps1 (W2 m ρ c) (Proc.devRef .tc main_v5) = W2 m ρ c (Proc.devRef .tc main_v5) from by host_keeps hostOps1).trans ((W2_arr m ρ c 2).trans (((dat0 (V1 m ρ) c).arrAt_in 2 rfl cfg0.N).trans (A_eq0 (V1 m ρ) c 2))))

/-- The second layer's own-feature weights reach region 1 as the first stretch left them. -/
theorem keep_v7_3 (c : Dev nD) : W3 m ρ c (Proc.devRef .tc main_v7) = W1 m ρ c (Proc.devRef .tc main_v7) :=
  ((show StableHlo.after hostOps1 (W2 m ρ c) (Proc.devRef .tc main_v7) = W2 m ρ c (Proc.devRef .tc main_v7) from by host_keeps hostOps1).trans (W2_of_ne m ρ c main_v7 (by decide)))

/-- The second layer's pooled-feature weights reach region 1 as the first stretch left them. -/
theorem keep_v9_3 (c : Dev nD) : W3 m ρ c (Proc.devRef .tc main_v9) = W1 m ρ c (Proc.devRef .tc main_v9) :=
  ((show StableHlo.after hostOps1 (W2 m ρ c) (Proc.devRef .tc main_v9) = W2 m ρ c (Proc.devRef .tc main_v9) from by host_keeps hostOps1).trans (W2_of_ne m ρ c main_v9 (by decide)))

/-- The mask numbers reach region 2 as region 1 found them. -/
theorem keep_v4_5 (c : Dev nD) : W5 m ρ c (Proc.devRef .tc main_v4) = W3 m ρ c (Proc.devRef .tc main_v4) :=
  ((show StableHlo.after hostOps2 (W4 m ρ c) (Proc.devRef .tc main_v4) = W4 m ρ c (Proc.devRef .tc main_v4) from by host_keeps hostOps2).trans ((W4_arr m ρ c 1).trans (((dat1 (V3 m ρ) c).arrAt_in 1 rfl cfg1.N).trans (A_eq1 (V3 m ρ) c 1))))

/-- The third layer's weights reach region 2 as the first stretch left them. -/
theorem keep_v10_5 (c : Dev nD) : W5 m ρ c (Proc.devRef .tc main_v10) = W1 m ρ c (Proc.devRef .tc main_v10) :=
  ((show StableHlo.after hostOps2 (W4 m ρ c) (Proc.devRef .tc main_v10) = W4 m ρ c (Proc.devRef .tc main_v10) from by host_keeps hostOps2).trans ((W4_of_ne m ρ c main_v10 (by decide)).trans ((show StableHlo.after hostOps1 (W2 m ρ c) (Proc.devRef .tc main_v10) = W2 m ρ c (Proc.devRef .tc main_v10) from by host_keeps hostOps1).trans (W2_of_ne m ρ c main_v10 (by decide)))))

/-- Region 1's second-layer array reaches region 2 as region 1 left it. -/
theorem keep_v34_2_5 (c : Dev nD) : W5 m ρ c (Proc.devRef .tc main_v34_2) = W4 m ρ c (Proc.devRef .tc main_v34_2) :=
  (show StableHlo.after hostOps2 (W4 m ρ c) (Proc.devRef .tc main_v34_2) = W4 m ρ c (Proc.devRef .tc main_v34_2) from by host_keeps hostOps2)

/-- The mask numbers reach region 3 as region 2 found them. -/
theorem keep_v4_7 (c : Dev nD) : W7 m ρ c (Proc.devRef .tc main_v4) = W5 m ρ c (Proc.devRef .tc main_v4) :=
  ((show StableHlo.after hostOps3 (W6 m ρ c) (Proc.devRef .tc main_v4) = W6 m ρ c (Proc.devRef .tc main_v4) from by host_keeps hostOps3).trans ((W6_arr m ρ c 1).trans (((dat2 (V5 m ρ) c).arrAt_in 1 rfl cfg2.N).trans (A_eq2 (V5 m ρ) c 1))))

/-- The hidden layer's weights reach region 3 as the first stretch left them. -/
theorem keep_v11_7 (c : Dev nD) : W7 m ρ c (Proc.devRef .tc main_v11) = W1 m ρ c (Proc.devRef .tc main_v11) :=
  ((show StableHlo.after hostOps3 (W6 m ρ c) (Proc.devRef .tc main_v11) = W6 m ρ c (Proc.devRef .tc main_v11) from by host_keeps hostOps3).trans ((W6_of_ne m ρ c main_v11 (by decide)).trans ((show StableHlo.after hostOps2 (W4 m ρ c) (Proc.devRef .tc main_v11) = W4 m ρ c (Proc.devRef .tc main_v11) from by host_keeps hostOps2).trans ((W4_of_ne m ρ c main_v11 (by decide)).trans ((show StableHlo.after hostOps1 (W2 m ρ c) (Proc.devRef .tc main_v11) = W2 m ρ c (Proc.devRef .tc main_v11) from by host_keeps hostOps1).trans (W2_of_ne m ρ c main_v11 (by decide)))))))

/-- The output layer's weights reach region 3 as the first stretch left them. -/
theorem keep_v12_7 (c : Dev nD) : W7 m ρ c (Proc.devRef .tc main_v12) = W1 m ρ c (Proc.devRef .tc main_v12) :=
  ((show StableHlo.after hostOps3 (W6 m ρ c) (Proc.devRef .tc main_v12) = W6 m ρ c (Proc.devRef .tc main_v12) from by host_keeps hostOps3).trans ((W6_of_ne m ρ c main_v12 (by decide)).trans ((show StableHlo.after hostOps2 (W4 m ρ c) (Proc.devRef .tc main_v12) = W4 m ρ c (Proc.devRef .tc main_v12) from by host_keeps hostOps2).trans ((W4_of_ne m ρ c main_v12 (by decide)).trans ((show StableHlo.after hostOps1 (W2 m ρ c) (Proc.devRef .tc main_v12) = W2 m ρ c (Proc.devRef .tc main_v12) from by host_keeps hostOps1).trans (W2_of_ne m ρ c main_v12 (by decide)))))))

/-- Region 2's third-layer array reaches region 3 as region 2 left it. -/
theorem keep_v53_2_7 (c : Dev nD) : W7 m ρ c (Proc.devRef .tc main_v53_2) = W6 m ρ c (Proc.devRef .tc main_v53_2) :=
  (show StableHlo.after hostOps3 (W6 m ρ c) (Proc.devRef .tc main_v53_2) = W6 m ρ c (Proc.devRef .tc main_v53_2) from by host_keeps hostOps3)

/-- The count reaches the third stretch as the second stretch computed it. -/
theorem keep_v15_4 (c : Dev nD) : W4 m ρ c (Proc.devRef .tc main_v15) = W3 m ρ c (Proc.devRef .tc main_v15) :=
  (W4_of_ne m ρ c main_v15 (by decide))

/-- The count reaches the fourth stretch as the second stretch computed it. -/
theorem keep_v15_6 (c : Dev nD) : W6 m ρ c (Proc.devRef .tc main_v15) = W3 m ρ c (Proc.devRef .tc main_v15) :=
  ((W6_of_ne m ρ c main_v15 (by decide)).trans ((show StableHlo.after hostOps2 (W4 m ρ c) (Proc.devRef .tc main_v15) = W4 m ρ c (Proc.devRef .tc main_v15) from by host_keeps hostOps2).trans (W4_of_ne m ρ c main_v15 (by decide))))

/-- Argument `main_arg3` is untouched up to boundary 2. -/
theorem keep_arg3_2 (c : Dev nD) : W2 m ρ c (Proc.devRef .tc main_arg3) = W0 m ρ c (Proc.devRef .tc main_arg3) :=
  ((W2_of_ne m ρ c main_arg3 (by decide)).trans (show StableHlo.after hostOps0 (W0 m ρ c) (Proc.devRef .tc main_arg3) = W0 m ρ c (Proc.devRef .tc main_arg3) from by host_keeps hostOps0))

/-- Argument `main_arg4` is untouched up to boundary 2. -/
theorem keep_arg4_2 (c : Dev nD) : W2 m ρ c (Proc.devRef .tc main_arg4) = W0 m ρ c (Proc.devRef .tc main_arg4) :=
  ((W2_of_ne m ρ c main_arg4 (by decide)).trans (show StableHlo.after hostOps0 (W0 m ρ c) (Proc.devRef .tc main_arg4) = W0 m ρ c (Proc.devRef .tc main_arg4) from by host_keeps hostOps0))

/-- Argument `main_arg6` is untouched up to boundary 4. -/
theorem keep_arg6_4 (c : Dev nD) : W4 m ρ c (Proc.devRef .tc main_arg6) = W0 m ρ c (Proc.devRef .tc main_arg6) :=
  ((W4_of_ne m ρ c main_arg6 (by decide)).trans ((show StableHlo.after hostOps1 (W2 m ρ c) (Proc.devRef .tc main_arg6) = W2 m ρ c (Proc.devRef .tc main_arg6) from by host_keeps hostOps1).trans ((W2_of_ne m ρ c main_arg6 (by decide)).trans (show StableHlo.after hostOps0 (W0 m ρ c) (Proc.devRef .tc main_arg6) = W0 m ρ c (Proc.devRef .tc main_arg6) from by host_keeps hostOps0))))

/-- Argument `main_arg7` is untouched up to boundary 4. -/
theorem keep_arg7_4 (c : Dev nD) : W4 m ρ c (Proc.devRef .tc main_arg7) = W0 m ρ c (Proc.devRef .tc main_arg7) :=
  ((W4_of_ne m ρ c main_arg7 (by decide)).trans ((show StableHlo.after hostOps1 (W2 m ρ c) (Proc.devRef .tc main_arg7) = W2 m ρ c (Proc.devRef .tc main_arg7) from by host_keeps hostOps1).trans ((W2_of_ne m ρ c main_arg7 (by decide)).trans (show StableHlo.after hostOps0 (W0 m ρ c) (Proc.devRef .tc main_arg7) = W0 m ρ c (Proc.devRef .tc main_arg7) from by host_keeps hostOps0))))

/-- Argument `main_arg9` is untouched up to boundary 6. -/
theorem keep_arg9_6 (c : Dev nD) : W6 m ρ c (Proc.devRef .tc main_arg9) = W0 m ρ c (Proc.devRef .tc main_arg9) :=
  ((W6_of_ne m ρ c main_arg9 (by decide)).trans ((show StableHlo.after hostOps2 (W4 m ρ c) (Proc.devRef .tc main_arg9) = W4 m ρ c (Proc.devRef .tc main_arg9) from by host_keeps hostOps2).trans ((W4_of_ne m ρ c main_arg9 (by decide)).trans ((show StableHlo.after hostOps1 (W2 m ρ c) (Proc.devRef .tc main_arg9) = W2 m ρ c (Proc.devRef .tc main_arg9) from by host_keeps hostOps1).trans ((W2_of_ne m ρ c main_arg9 (by decide)).trans (show StableHlo.after hostOps0 (W0 m ρ c) (Proc.devRef .tc main_arg9) = W0 m ρ c (Proc.devRef .tc main_arg9) from by host_keeps hostOps0))))))

/-- Argument `main_arg10` is untouched up to boundary 6. -/
theorem keep_arg10_6 (c : Dev nD) : W6 m ρ c (Proc.devRef .tc main_arg10) = W0 m ρ c (Proc.devRef .tc main_arg10) :=
  ((W6_of_ne m ρ c main_arg10 (by decide)).trans ((show StableHlo.after hostOps2 (W4 m ρ c) (Proc.devRef .tc main_arg10) = W4 m ρ c (Proc.devRef .tc main_arg10) from by host_keeps hostOps2).trans ((W4_of_ne m ρ c main_arg10 (by decide)).trans ((show StableHlo.after hostOps1 (W2 m ρ c) (Proc.devRef .tc main_arg10) = W2 m ρ c (Proc.devRef .tc main_arg10) from by host_keeps hostOps1).trans ((W2_of_ne m ρ c main_arg10 (by decide)).trans (show StableHlo.after hostOps0 (W0 m ρ c) (Proc.devRef .tc main_arg10) = W0 m ρ c (Proc.devRef .tc main_arg10) from by host_keeps hostOps0))))))

/-- Argument `main_arg12` is untouched up to boundary 6. -/
theorem keep_arg12_6 (c : Dev nD) : W6 m ρ c (Proc.devRef .tc main_arg12) = W0 m ρ c (Proc.devRef .tc main_arg12) :=
  ((W6_of_ne m ρ c main_arg12 (by decide)).trans ((show StableHlo.after hostOps2 (W4 m ρ c) (Proc.devRef .tc main_arg12) = W4 m ρ c (Proc.devRef .tc main_arg12) from by host_keeps hostOps2).trans ((W4_of_ne m ρ c main_arg12 (by decide)).trans ((show StableHlo.after hostOps1 (W2 m ρ c) (Proc.devRef .tc main_arg12) = W2 m ρ c (Proc.devRef .tc main_arg12) from by host_keeps hostOps1).trans ((W2_of_ne m ρ c main_arg12 (by decide)).trans (show StableHlo.after hostOps0 (W0 m ρ c) (Proc.devRef .tc main_arg12) = W0 m ρ c (Proc.devRef .tc main_arg12) from by host_keeps hostOps0))))))

/-- Argument `main_arg14` is untouched up to boundary 6. -/
theorem keep_arg14_6 (c : Dev nD) : W6 m ρ c (Proc.devRef .tc main_arg14) = W0 m ρ c (Proc.devRef .tc main_arg14) :=
  ((W6_of_ne m ρ c main_arg14 (by decide)).trans ((show StableHlo.after hostOps2 (W4 m ρ c) (Proc.devRef .tc main_arg14) = W4 m ρ c (Proc.devRef .tc main_arg14) from by host_keeps hostOps2).trans ((W4_of_ne m ρ c main_arg14 (by decide)).trans ((show StableHlo.after hostOps1 (W2 m ρ c) (Proc.devRef .tc main_arg14) = W2 m ρ c (Proc.devRef .tc main_arg14) from by host_keeps hostOps1).trans ((W2_of_ne m ρ c main_arg14 (by decide)).trans (show StableHlo.after hostOps0 (W0 m ρ c) (Proc.devRef .tc main_arg14) = W0 m ρ c (Proc.devRef .tc main_arg14) from by host_keeps hostOps0))))))

/-! ## The scale and the shift of a norm, from its moments

  Each of the three stretches between the regions computes, per channel, from the sum `s`, the sum of squares `q`,
  the count and the gain `g` and bias `b`: the mean `s / cnt`, the variance `max (q / cnt - mean * mean) 0`, the
  scale `g * rsqrt (variance + eps)` and the shift `b - mean * scale`. -/

/-- The word of one denotes one. -/
theorem ofBits_one_f32 : Ideal.ofBits .f32 0x3F800000#32 = 1 := by
  simp [Ideal.ofBits, Ideal.ieee]
  exact_mod_cast (by norm_num : ((8388608 : ℝ) * ((2 : ℝ) ^ 23)⁻¹) = 1)

/-- The count from the region's raw count: at least one. -/
def cntOf (C : FVec Ideal S1x1 .f32) : FVec Ideal S_ .f32 :=
  maximumf (shapeCast S_ C shapeCasts_S1x1_S_) (constant (F := Ideal) S_ .f32 0x3F800000#32)

/-- The per-channel mean. -/
def meanOf (s : FVec Ideal S64 .f32) (cnt : FVec Ideal S_ .f32) : FVec Ideal S64 .f32 :=
  Host.divf (F := Ideal) s (broadcastInDim S64 ![] bcast_S_S64 cnt)

/-- The per-channel scale. -/
def scaleOf (s q : FVec Ideal S64 .f32) (cnt : FVec Ideal S_ .f32) (g : FVec Ideal S64 .f32) : FVec Ideal S64 .f32 :=
  mulf g (Host.rsqrt (F := Ideal) (addf (maximumf (subf (Host.divf (F := Ideal) q (broadcastInDim S64 ![] bcast_S_S64 cnt))
      (mulf (meanOf s cnt) (meanOf s cnt)))
    (broadcastInDim S64 ![] bcast_S_S64 (constant (F := Ideal) S_ .f32 0x00000000#32)))
    (broadcastInDim S64 ![] bcast_S_S64 (constant (F := Ideal) S_ .f32 0x3727C5AC#32))))

/-- The per-channel shift. -/
def shiftOf (s q : FVec Ideal S64 .f32) (cnt : FVec Ideal S_ .f32) (g b : FVec Ideal S64 .f32) : FVec Ideal S64 .f32 :=
  subf b (mulf (meanOf s cnt) (scaleOf s q cnt g))

/-- A `[64]` vector laid out as a `[1, 64]` row. -/
def rowOf64 (v : FVec Ideal S64 .f32) : FVec Ideal S1x64 .f32 := broadcastInDim S1x64 ![1] bcast_S64_S1x64_1 v

theorem rowOf64_apply (v : FVec Ideal S64 .f32) (z : Fin 1) (ch : Fin 64) : rowOf64 v (ix2 z ch) = v (ix1 ch) :=
  broadcastInDim_apply ![1] bcast_S64_S1x64_1 v (ix2 z ch) (ix1 ch) (fun a => match a with | ⟨0, _⟩ => rfl)

theorem cntOf_apply (C : FVec Ideal S1x1 .f32) : cntOf C ix0 = max (C (ix2 0 0)) 1 := by
  unfold cntOf
  rw [maximumf_apply, constant_apply]
  refine congrArg₂ max ?_ ofBits_one_f32
  exact shapeCast_apply C shapeCasts_S1x1_S_ ix0 (ix2 0 0) (by rw [Shape.rowMajor_val_two]; rfl)

theorem meanOf_apply (s : FVec Ideal S64 .f32) (cnt : FVec Ideal S_ .f32) (ch : Fin 64) :
    meanOf s cnt (ix1 ch) = Ideal.div (s (ix1 ch)) (cnt ix0) := by
  unfold meanOf
  show Ideal.div (s (ix1 ch)) (broadcastInDim S64 ![] bcast_S_S64 cnt (ix1 ch)) = _
  rw [broadcastInDim_apply ![] bcast_S_S64 cnt (ix1 ch) ix0 (fun a => a.elim0)]

theorem scaleOf_apply (s q : FVec Ideal S64 .f32) (cnt : FVec Ideal S_ .f32) (g : FVec Ideal S64 .f32) (ch : Fin 64) :
    scaleOf s q cnt g (ix1 ch)
      = g (ix1 ch) * Ideal.rsqrt (max (Ideal.div (q (ix1 ch)) (cnt ix0) - meanOf s cnt (ix1 ch) * meanOf s cnt (ix1 ch)) 0
          + Ideal.ofBits .f32 0x3727C5AC#32) := by
  unfold scaleOf
  show g (ix1 ch) * Ideal.rsqrt (max (Ideal.div (q (ix1 ch)) (broadcastInDim S64 ![] bcast_S_S64 cnt (ix1 ch))
      - meanOf s cnt (ix1 ch) * meanOf s cnt (ix1 ch))
        (broadcastInDim S64 ![] bcast_S_S64 (constant (F := Ideal) S_ .f32 0x00000000#32) (ix1 ch))
      + broadcastInDim S64 ![] bcast_S_S64 (constant (F := Ideal) S_ .f32 0x3727C5AC#32) (ix1 ch)) = _
  rw [broadcastInDim_apply ![] bcast_S_S64 cnt (ix1 ch) ix0 (fun a => a.elim0),
    broadcastInDim_apply ![] bcast_S_S64 (constant (F := Ideal) S_ .f32 0x00000000#32) (ix1 ch) ix0 (fun a => a.elim0),
    broadcastInDim_apply ![] bcast_S_S64 (constant (F := Ideal) S_ .f32 0x3727C5AC#32) (ix1 ch) ix0 (fun a => a.elim0),
    constant_apply, constant_apply, Ideal.ofBits_zero_f32]

theorem shiftOf_apply (s q : FVec Ideal S64 .f32) (cnt : FVec Ideal S_ .f32) (g b : FVec Ideal S64 .f32) (ch : Fin 64) :
    shiftOf s q cnt g b (ix1 ch) = b (ix1 ch) - meanOf s cnt (ix1 ch) * scaleOf s q cnt g (ix1 ch) := rfl

/-! ## What the stretches between the regions compute -/

set_option maxHeartbeats 4000000 in
/-- The stretch's equation for `main_v15`, from any contents at its start. -/
theorem cnt3_of (Wv : Valuation τ sig (Elt Ideal)) :
    (StableHlo.after hostOps1 Wv (Proc.devRef .tc main_v15) : FVec Ideal S_ .f32) = cntOf (Wv (Proc.devRef .tc main_v13_2)) := by
  after_results
  rfl

/-- The count, as the second stretch computes it from region 0's raw count. -/
def cnt3 (c : Dev nD) : FVec Ideal S_ .f32 := W3 m ρ c (Proc.devRef .tc main_v15)
theorem cnt3_eq (c : Dev nD) : cnt3 m ρ c = cntOf (W2 m ρ c (Proc.devRef .tc main_v13_2)) :=
  cnt3_of (W2 m ρ c)

set_option maxHeartbeats 4000000 in
/-- The stretch's equation for `main_v32`, from any contents at its start. -/
theorem sc0_of (Wv : Valuation τ sig (Elt Ideal)) :
    (StableHlo.after hostOps1 Wv (Proc.devRef .tc main_v32) : FVec Ideal S1x64 .f32) = rowOf64 (scaleOf (shapeCast S64 (Wv (Proc.devRef .tc main_v13_0)) shapeCasts_S1x64_S64) (shapeCast S64 (Wv (Proc.devRef .tc main_v13_1)) shapeCasts_S1x64_S64) (cntOf (Wv (Proc.devRef .tc main_v13_2))) (Wv (Proc.devRef .tc main_arg3))) := by
  after_results
  rfl

/-- The first norm's scale, as region 1 finds it. -/
def sc0 (c : Dev nD) : FVec Ideal S1x64 .f32 := W3 m ρ c (Proc.devRef .tc main_v32)
theorem sc0_eq (c : Dev nD) : sc0 m ρ c = rowOf64 (scaleOf (shapeCast S64 (W2 m ρ c (Proc.devRef .tc main_v13_0)) shapeCasts_S1x64_S64) (shapeCast S64 (W2 m ρ c (Proc.devRef .tc main_v13_1)) shapeCasts_S1x64_S64) (cntOf (W2 m ρ c (Proc.devRef .tc main_v13_2))) (W2 m ρ c (Proc.devRef .tc main_arg3))) :=
  sc0_of (W2 m ρ c)

set_option maxHeartbeats 4000000 in
/-- The stretch's equation for `main_v33`, from any contents at its start. -/
theorem sh0_of (Wv : Valuation τ sig (Elt Ideal)) :
    (StableHlo.after hostOps1 Wv (Proc.devRef .tc main_v33) : FVec Ideal S1x64 .f32) = rowOf64 (shiftOf (shapeCast S64 (Wv (Proc.devRef .tc main_v13_0)) shapeCasts_S1x64_S64) (shapeCast S64 (Wv (Proc.devRef .tc main_v13_1)) shapeCasts_S1x64_S64) (cntOf (Wv (Proc.devRef .tc main_v13_2))) (Wv (Proc.devRef .tc main_arg3)) (Wv (Proc.devRef .tc main_arg4))) := by
  after_results
  rfl

/-- The first norm's shift, as region 1 finds it. -/
def sh0 (c : Dev nD) : FVec Ideal S1x64 .f32 := W3 m ρ c (Proc.devRef .tc main_v33)
theorem sh0_eq (c : Dev nD) : sh0 m ρ c = rowOf64 (shiftOf (shapeCast S64 (W2 m ρ c (Proc.devRef .tc main_v13_0)) shapeCasts_S1x64_S64) (shapeCast S64 (W2 m ρ c (Proc.devRef .tc main_v13_1)) shapeCasts_S1x64_S64) (cntOf (W2 m ρ c (Proc.devRef .tc main_v13_2))) (W2 m ρ c (Proc.devRef .tc main_arg3)) (W2 m ρ c (Proc.devRef .tc main_arg4))) :=
  sh0_of (W2 m ρ c)

set_option maxHeartbeats 4000000 in
/-- The stretch's equation for `main_v51`, from any contents at its start. -/
theorem sc1_of (Wv : Valuation τ sig (Elt Ideal)) :
    (StableHlo.after hostOps2 Wv (Proc.devRef .tc main_v51) : FVec Ideal S1x64 .f32) = rowOf64 (scaleOf (shapeCast S64 (Wv (Proc.devRef .tc main_v34_0)) shapeCasts_S1x64_S64) (shapeCast S64 (Wv (Proc.devRef .tc main_v34_1)) shapeCasts_S1x64_S64) (Wv (Proc.devRef .tc main_v15)) (Wv (Proc.devRef .tc main_arg6))) := by
  after_results
  rfl

/-- The second norm's scale, as region 2 finds it. -/
def sc1 (c : Dev nD) : FVec Ideal S1x64 .f32 := W5 m ρ c (Proc.devRef .tc main_v51)
theorem sc1_eq (c : Dev nD) : sc1 m ρ c = rowOf64 (scaleOf (shapeCast S64 (W4 m ρ c (Proc.devRef .tc main_v34_0)) shapeCasts_S1x64_S64) (shapeCast S64 (W4 m ρ c (Proc.devRef .tc main_v34_1)) shapeCasts_S1x64_S64) (W4 m ρ c (Proc.devRef .tc main_v15)) (W4 m ρ c (Proc.devRef .tc main_arg6))) :=
  sc1_of (W4 m ρ c)

set_option maxHeartbeats 4000000 in
/-- The stretch's equation for `main_v52`, from any contents at its start. -/
theorem sh1_of (Wv : Valuation τ sig (Elt Ideal)) :
    (StableHlo.after hostOps2 Wv (Proc.devRef .tc main_v52) : FVec Ideal S1x64 .f32) = rowOf64 (shiftOf (shapeCast S64 (Wv (Proc.devRef .tc main_v34_0)) shapeCasts_S1x64_S64) (shapeCast S64 (Wv (Proc.devRef .tc main_v34_1)) shapeCasts_S1x64_S64) (Wv (Proc.devRef .tc main_v15)) (Wv (Proc.devRef .tc main_arg6)) (Wv (Proc.devRef .tc main_arg7))) := by
  after_results
  rfl

/-- The second norm's shift, as region 2 finds it. -/
def sh1 (c : Dev nD) : FVec Ideal S1x64 .f32 := W5 m ρ c (Proc.devRef .tc main_v52)
theorem sh1_eq (c : Dev nD) : sh1 m ρ c = rowOf64 (shiftOf (shapeCast S64 (W4 m ρ c (Proc.devRef .tc main_v34_0)) shapeCasts_S1x64_S64) (shapeCast S64 (W4 m ρ c (Proc.devRef .tc main_v34_1)) shapeCasts_S1x64_S64) (W4 m ρ c (Proc.devRef .tc main_v15)) (W4 m ρ c (Proc.devRef .tc main_arg6)) (W4 m ρ c (Proc.devRef .tc main_arg7))) :=
  sh1_of (W4 m ρ c)

set_option maxHeartbeats 4000000 in
/-- The stretch's equation for `main_v70`, from any contents at its start. -/
theorem sc2_of (Wv : Valuation τ sig (Elt Ideal)) :
    (StableHlo.after hostOps3 Wv (Proc.devRef .tc main_v70) : FVec Ideal S1x64 .f32) = rowOf64 (scaleOf (shapeCast S64 (Wv (Proc.devRef .tc main_v53_0)) shapeCasts_S1x64_S64) (shapeCast S64 (Wv (Proc.devRef .tc main_v53_1)) shapeCasts_S1x64_S64) (Wv (Proc.devRef .tc main_v15)) (Wv (Proc.devRef .tc main_arg9))) := by
  after_results
  rfl

/-- The third norm's scale, as region 3 finds it. -/
def sc2 (c : Dev nD) : FVec Ideal S1x64 .f32 := W7 m ρ c (Proc.devRef .tc main_v70)
theorem sc2_eq (c : Dev nD) : sc2 m ρ c = rowOf64 (scaleOf (shapeCast S64 (W6 m ρ c (Proc.devRef .tc main_v53_0)) shapeCasts_S1x64_S64) (shapeCast S64 (W6 m ρ c (Proc.devRef .tc main_v53_1)) shapeCasts_S1x64_S64) (W6 m ρ c (Proc.devRef .tc main_v15)) (W6 m ρ c (Proc.devRef .tc main_arg9))) :=
  sc2_of (W6 m ρ c)

set_option maxHeartbeats 4000000 in
/-- The stretch's equation for `main_v71`, from any contents at its start. -/
theorem sh2_of (Wv : Valuation τ sig (Elt Ideal)) :
    (StableHlo.after hostOps3 Wv (Proc.devRef .tc main_v71) : FVec Ideal S1x64 .f32) = rowOf64 (shiftOf (shapeCast S64 (Wv (Proc.devRef .tc main_v53_0)) shapeCasts_S1x64_S64) (shapeCast S64 (Wv (Proc.devRef .tc main_v53_1)) shapeCasts_S1x64_S64) (Wv (Proc.devRef .tc main_v15)) (Wv (Proc.devRef .tc main_arg9)) (Wv (Proc.devRef .tc main_arg10))) := by
  after_results
  rfl

/-- The third norm's shift, as region 3 finds it. -/
def sh2 (c : Dev nD) : FVec Ideal S1x64 .f32 := W7 m ρ c (Proc.devRef .tc main_v71)
theorem sh2_eq (c : Dev nD) : sh2 m ρ c = rowOf64 (shiftOf (shapeCast S64 (W6 m ρ c (Proc.devRef .tc main_v53_0)) shapeCasts_S1x64_S64) (shapeCast S64 (W6 m ρ c (Proc.devRef .tc main_v53_1)) shapeCasts_S1x64_S64) (W6 m ρ c (Proc.devRef .tc main_v15)) (W6 m ρ c (Proc.devRef .tc main_arg9)) (W6 m ρ c (Proc.devRef .tc main_arg10))) :=
  sh2_of (W6 m ρ c)

set_option maxHeartbeats 4000000 in
/-- The stretch's equation for `main_v72`, from any contents at its start. -/
theorem bo1row_of (Wv : Valuation τ sig (Elt Ideal)) :
    (StableHlo.after hostOps3 Wv (Proc.devRef .tc main_v72) : FVec Ideal S1x64 .f32) = shapeCast S1x64 (Wv (Proc.devRef .tc main_arg12)) shapeCasts_S64_S1x64 := by
  after_results
  rfl

/-- The hidden layer's bias as a row, as region 3 finds it. -/
def bo1row (c : Dev nD) : FVec Ideal S1x64 .f32 := W7 m ρ c (Proc.devRef .tc main_v72)
theorem bo1row_eq (c : Dev nD) : bo1row m ρ c = shapeCast S1x64 (W6 m ρ c (Proc.devRef .tc main_arg12)) shapeCasts_S64_S1x64 :=
  bo1row_of (W6 m ρ c)

set_option maxHeartbeats 4000000 in
/-- The stretch's equation for `main_v73`, from any contents at its start. -/
theorem bo2row_of (Wv : Valuation τ sig (Elt Ideal)) :
    (StableHlo.after hostOps3 Wv (Proc.devRef .tc main_v73) : FVec Ideal S1x256 .f32) = shapeCast S1x256 (Wv (Proc.devRef .tc main_arg14)) shapeCasts_S256_S1x256 := by
  after_results
  rfl

/-- The output layer's bias as a row, as region 3 finds it. -/
def bo2row (c : Dev nD) : FVec Ideal S1x256 .f32 := W7 m ρ c (Proc.devRef .tc main_v73)
theorem bo2row_eq (c : Dev nD) : bo2row m ρ c = shapeCast S1x256 (W6 m ρ c (Proc.devRef .tc main_arg14)) shapeCasts_S256_S1x256 :=
  bo2row_of (W6 m ρ c)

set_option maxHeartbeats 4000000 in
/-- The stretch's equation for `main_v75`, from any contents at its start. -/
theorem outArr_of (Wv : Valuation τ sig (Elt Ideal)) :
    (StableHlo.after hostOps4 Wv (Proc.devRef .tc main_v75) : FVec Ideal S16x768x256 .f32) = shapeCast S16x768x256 (Wv (Proc.devRef .tc main_v74)) shapeCasts_S12288x256_S16x768x256 := by
  after_results
  rfl

/-- The result: region 3's array with the polylines split into batches. -/
def outArr (c : Dev nD) : FVec Ideal S16x768x256 .f32 := W9 m ρ c (Proc.devRef .tc main_v75)
theorem outArr_eq (c : Dev nD) : outArr m ρ c = shapeCast S16x768x256 (W8 m ρ c (Proc.devRef .tc main_v74)) shapeCasts_S12288x256_S16x768x256 :=
  outArr_of (W8 m ρ c)

/-- The result at batch `b`, polyline `p`, channel `o` is region 3's array at polyline `768 b + p`. -/
theorem outArr_apply (c : Dev nD) (b : Fin 16) (p : Fin 768) (o : Fin 256) :
    outArr m ρ c (ix3 b p o) = (W8 m ρ c (Proc.devRef .tc main_v74) : FVec Ideal S12288x256 .f32) (ix2 (poly b p) o) := by
  rw [outArr_eq]
  exact shapeCast_apply _ _ (ix3 b p o) (ix2 (poly b p) o) (by
    rw [Shape.rowMajor_val_two, Shape.rowMajor_val_three]
    show (768 * b.val + p.val) * 256 + o.val = (b.val * 768 + p.val) * 256 + o.val
    omega)

end Cert.KernelIdeal.Carry

end
-- ==== Proof.Region0.lean ====
/-
  The first region, point by point: what its body leaves in its three accumulators.

  The region runs over forty-eight blocks of 256 polylines. Its body multiplies the block's points by the first
  weight matrix, masks the products, and adds to three accumulators that stay in place from point to point: the masked
  sum of the products per channel, the masked sum of their squares per channel, and the number of unmasked points.
  At the first point each accumulator is first set to zero, so it ends at zero plus the block's contribution; at every
  later point it ends at what the point before left plus the block's contribution. The contribution is the body's
  arithmetic as one pure term of the block's three inputs. So what the three accumulators hold after point `n` is a
  recursion on `n` over those terms, and the region's own account of its outputs, point by point, is that recursion:
  by induction on the point.
-/
import proofs.«135113_g11922829214230_retrytranche1_1894_3_alg».proof.Proof.Gen.KernelIdeal.Frame
import Idealize.ShloMosaic.Lib.Pipeline.Value
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic Idealize.SL.Sem

variable {F : FTy → Type} [FloatOps F]

/-- The zero offsets of a two-axis rectangle. -/
theorem hz2 : (![0, 0] : Fin 2 → Nat) = fun _ => 0 := funext fun a => by fin_cases a <;> rfl
/-- The zero offsets of a three-axis rectangle. -/
theorem hz3 : (![0, 0, 0] : Fin 3 → Nat) = fun _ => 0 := funext fun a => by fin_cases a <;> rfl

/-- A later point leaves, in the sum accumulator holding `p3`, `p3` plus the block's masked channel sums. -/
theorem outB3 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : ¬cond0_0 i) (hc1 : ¬cond0_1 i) (hc2 : ¬cond0_2 i)
    (x0 : Vec F S20x256x9 .f32) (x1 : Vec F S20x256 .f32) (x2 : Vec F S9x64 .f32) (p3 : Vec F S1x64 .f32) (p4 : Vec F S1x64 .f32) (p5 : Vec F S1x1 .f32) :
    out0_B_3 c i a1 h1 a2 h2 a3 h3 a4 h4 a5 h5 a6 h6 hc0 hc1 hc2 x0 x1 x2 p3 p4 p5 = k0_pay7 x1 x0 x2 p3 := by
  unfold out0_B_3
  rw [View.read_writes_eq_canon _ _ _ (cover0_B_3 c i a1 h1 a2 h2 a3 h3 a4 h4 a5 h5 a6 h6 hc0 hc1 hc2 x0 x1 x2 p3 p4 p5)]
  unfold kernelRun0_B
  dsimp only
  rw [View.canon_unit_zero hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-- A later point leaves, in the square accumulator holding `p4`, `p4` plus the block's masked sums of squares. -/
theorem outB4 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : ¬cond0_0 i) (hc1 : ¬cond0_1 i) (hc2 : ¬cond0_2 i)
    (x0 : Vec F S20x256x9 .f32) (x1 : Vec F S20x256 .f32) (x2 : Vec F S9x64 .f32) (p3 : Vec F S1x64 .f32) (p4 : Vec F S1x64 .f32) (p5 : Vec F S1x1 .f32) :
    out0_B_4 c i a1 h1 a2 h2 a3 h3 a4 h4 a5 h5 a6 h6 hc0 hc1 hc2 x0 x1 x2 p3 p4 p5 = k0_pay9 x1 x0 x2 p4 := by
  unfold out0_B_4
  rw [View.read_writes_eq_canon _ _ _ (cover0_B_4 c i a1 h1 a2 h2 a3 h3 a4 h4 a5 h5 a6 h6 hc0 hc1 hc2 x0 x1 x2 p3 p4 p5)]
  unfold kernelRun0_B
  dsimp only
  rw [View.canon_unit_zero hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-- A later point leaves, in the count accumulator holding `p5`, `p5` plus the block's number of unmasked points. -/
theorem outB5 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : ¬cond0_0 i) (hc1 : ¬cond0_1 i) (hc2 : ¬cond0_2 i)
    (x0 : Vec F S20x256x9 .f32) (x1 : Vec F S20x256 .f32) (x2 : Vec F S9x64 .f32) (p3 : Vec F S1x64 .f32) (p4 : Vec F S1x64 .f32) (p5 : Vec F S1x1 .f32) :
    out0_B_5 c i a1 h1 a2 h2 a3 h3 a4 h4 a5 h5 a6 h6 hc0 hc1 hc2 x0 x1 x2 p3 p4 p5 = k0_pay2 (k0_pay10 x1) p5 := by
  unfold out0_B_5
  rw [View.read_writes_eq_canon _ _ _ (cover0_B_5 c i a1 h1 a2 h2 a3 h3 a4 h4 a5 h5 a6 h6 hc0 hc1 hc2 x0 x1 x2 p3 p4 p5)]
  unfold kernelRun0_B
  dsimp only
  sl_unfold_words
  rw [View.canon_unit_zero hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-- The first point leaves zero plus the block's masked channel sums. -/
theorem outA3 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : cond0_0 i) (hc1 : cond0_1 i) (hc2 : cond0_2 i)
    (x0 : Vec F S20x256x9 .f32) (x1 : Vec F S20x256 .f32) (x2 : Vec F S9x64 .f32) :
    out0_A_3 c i a1 h1 a2 h2 a3 h3 a4 h4 a5 h5 a6 h6 hc0 hc1 hc2 x0 x1 x2 = k0_pay7 x1 x0 x2 (k0_pay6 (F := F)) := by
  unfold out0_A_3
  rw [View.read_writes_eq_canon _ _ _ (cover0_A_3 c i a1 h1 a2 h2 a3 h3 a4 h4 a5 h5 a6 h6 hc0 hc1 hc2 x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-- The first point leaves zero plus the block's masked sums of squares. -/
theorem outA4 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : cond0_0 i) (hc1 : cond0_1 i) (hc2 : cond0_2 i)
    (x0 : Vec F S20x256x9 .f32) (x1 : Vec F S20x256 .f32) (x2 : Vec F S9x64 .f32) :
    out0_A_4 c i a1 h1 a2 h2 a3 h3 a4 h4 a5 h5 a6 h6 hc0 hc1 hc2 x0 x1 x2 = k0_pay9 x1 x0 x2 (k0_pay8 (F := F)) := by
  unfold out0_A_4
  rw [View.read_writes_eq_canon _ _ _ (cover0_A_4 c i a1 h1 a2 h2 a3 h3 a4 h4 a5 h5 a6 h6 hc0 hc1 hc2 x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-- The first point leaves zero plus the block's number of unmasked points. -/
theorem outA5 (c : Dev nD) (i : grid0.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S1x1 .f32) (h6 : a6.IsWhole) (hc0 : cond0_0 i) (hc1 : cond0_1 i) (hc2 : cond0_2 i)
    (x0 : Vec F S20x256x9 .f32) (x1 : Vec F S20x256 .f32) (x2 : Vec F S9x64 .f32) :
    out0_A_5 c i a1 h1 a2 h2 a3 h3 a4 h4 a5 h5 a6 h6 hc0 hc1 hc2 x0 x1 x2 = k0_pay2 (k0_pay10 x1) (k0_pay1 (F := F)) := by
  unfold out0_A_5
  rw [View.read_writes_eq_canon _ _ _ (cover0_A_5 c i a1 h1 a2 h2 a3 h3 a4 h4 a5 h5 a6 h6 hc0 hc1 hc2 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    View.ld_unit_zero (S := S20x256) hz2, View.ld_unit_zero (S := S20x256x9) hz3, View.ld_unit_zero (S := S9x64) hz2,
    View.ld_unit_zero (S := S1x64) hz2, View.ld_unit_zero (S := S1x1) hz2]

/-! ## The accumulators after each point -/

variable (V : (c : Dev nD) → (b : Ref sig .tc) → Buf (Elt F) ((c : Thread nD τ).loc b))

/-- The three accumulators after point `n`: at the first point, zero plus the block's contribution; at a later one,
    what the point before left plus the block's contribution. -/
def acc (c : Dev nD) : (n : ℕ) → n < cfg0.N → Vec F S1x64 .f32 × Vec F S1x64 .f32 × Vec F S1x1 .f32
  | 0, h => (k0_pay7 (iblk0 V c 1 ⟨0, h⟩) (iblk0 V c 0 ⟨0, h⟩) (iblk0 V c 2 ⟨0, h⟩) (k0_pay6 (F := F)),
             k0_pay9 (iblk0 V c 1 ⟨0, h⟩) (iblk0 V c 0 ⟨0, h⟩) (iblk0 V c 2 ⟨0, h⟩) (k0_pay8 (F := F)),
             k0_pay2 (k0_pay10 (iblk0 V c 1 ⟨0, h⟩)) (k0_pay1 (F := F)))
  | n + 1, h => (k0_pay7 (iblk0 V c 1 ⟨n + 1, h⟩) (iblk0 V c 0 ⟨n + 1, h⟩) (iblk0 V c 2 ⟨n + 1, h⟩) (acc c n (Nat.lt_of_succ_lt h)).1,
                 k0_pay9 (iblk0 V c 1 ⟨n + 1, h⟩) (iblk0 V c 0 ⟨n + 1, h⟩) (iblk0 V c 2 ⟨n + 1, h⟩) (acc c n (Nat.lt_of_succ_lt h)).2.1,
                 k0_pay2 (k0_pay10 (iblk0 V c 1 ⟨n + 1, h⟩)) (acc c n (Nat.lt_of_succ_lt h)).2.2)

/-- What the region's proof data says the accumulators hold after point `n` is that recursion: by induction on the
    point, the first point by the first case's three values, a later one by the other case's. -/
theorem outsAt_eq (c : Dev nD) : ∀ (n : ℕ) (h : n < cfg0.N), outsAt0 V c n h = acc V c n h
  | 0, h => by
    rw [outsAt0_A V c ⟨0, h⟩ rfl rfl rfl, outA3, outA4, outA5]
    rfl
  | n + 1, h => by
    have hN : cfg0.N = 48 := N_0
    have hB : ¬(⟨n + 1, h⟩ : Fin cfg0.N).val % 48 = 0 := by dsimp only; omega
    rw [outsAt0_B V c ⟨n + 1, h⟩ hB hB hB, outB3, outB4, outB5]
    show (k0_pay7 _ _ _ (outsAt0 V c n _).1, k0_pay9 _ _ _ (outsAt0 V c n _).2.1, k0_pay2 _ (outsAt0 V c n _).2.2) = _
    rw [outsAt_eq c n]
    rfl

end Cert.KernelIdeal.R0

end
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.LibReduceLeading.lean ====
/-
  Sums over the leading axes of a rank-three array.

  An index of an array of extents `[A, B, C]` is its three coordinates, so a sum over all indices is a triple sum.
  Reducing such an array over its two leading axes keeps the last axis: an index reduces to `j` exactly when its last
  coordinate is `j`'s only coordinate, so the sum of the entries that reduce to `j` is the double sum, over the two
  leading coordinates, of the entries whose last coordinate is that one.
-/
import Idealize.ShloMosaic.PureOps.Ideal.Laws
import Idealize.ShloMosaic.Lib.ValueIdx

open scoped BigOperators

noncomputable section

namespace Cert.ReduceLeading

open Idealize.ShloMosaic Idealize.ShloMosaic.ValueIdx

variable {M : Type*} [AddCommMonoid M] {A B C : Nat}

/-- A rank-three index is its three coordinates. -/
def idxEquiv3 : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over all indices of a rank-three array is the triple sum over its coordinates. -/
theorem sum_idx3 (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm, Fintype.sum_prod_type]
  refine Finset.sum_congr rfl fun a _ => ?_
  rw [Fintype.sum_prod_type]
  rfl

/-- An index reduces, over the two leading axes, to the index with coordinate `jc` exactly when its last coordinate
    is `jc`. -/
theorem drop_lead2_eq_iff (h : (⟨3, ![A, B, C]⟩ : Shape).Reduces [0, 1] ⟨1, ![C]⟩) (a : Fin A) (b : Fin B) (c jc : Fin C) :
    h.drop (ix3 a b c) = ix1 jc ↔ c = jc := by
  have hlen : (0 : Nat) < ((⟨3, ![A, B, C]⟩ : Shape).kept [0, 1]).length :=
    Nat.lt_of_lt_of_eq Nat.zero_lt_one (by rfl)
  have hv : ((h.drop (ix3 a b c) 0 : Fin C) : Nat) = (c : Nat) :=
    h.drop_apply_val_of_eq (ix3 a b c) 0 2 hlen (by rfl)
  constructor
  · intro e
    apply Fin.ext
    have e0 : (h.drop (ix3 a b c) 0 : Fin C) = jc := congrFun e 0
    rw [← e0]
    exact hv.symm
  · intro e
    funext d
    match d with
    | ⟨0, _⟩ =>
      apply Fin.ext
      exact hv.trans (congrArg Fin.val e)

/-- The sum of the entries that reduce to the index with coordinate `jc` over the two leading axes is the double sum
    over those axes of the entries whose last coordinate is `jc`. -/
theorem sum_filter_drop_lead2 (h : (⟨3, ![A, B, C]⟩ : Shape).Reduces [0, 1] ⟨1, ![C]⟩)
    (x : (⟨3, ![A, B, C]⟩ : Shape).Idx → M) (jc : Fin C) :
    ∑ i ∈ Finset.univ.filter (fun i => h.drop i = ix1 jc), x i = ∑ a : Fin A, ∑ b : Fin B, x (ix3 a b jc) := by
  classical
  rw [Finset.sum_filter, sum_idx3]
  refine Finset.sum_congr rfl fun a _ => Finset.sum_congr rfl fun b _ => ?_
  have hc : ∀ c : Fin C, (h.drop (ix3 a b c) = ix1 jc) ↔ c = jc := fun c => drop_lead2_eq_iff h a b c jc
  simp only [hc]
  rw [Finset.sum_ite_eq' Finset.univ jc fun c => x (ix3 a b c)]
  simp

/-- So the exact reduction by addition over the two leading axes, at the index with coordinate `jc`, is that double
    sum. -/
theorem reduceAdd_lead2 (h : (⟨3, ![A, B, C]⟩ : Shape).Reduces [0, 1] ⟨1, ![C]⟩)
    (x : (⟨3, ![A, B, C]⟩ : Shape).Idx → EReal) (jc : Fin C) :
    Ideal.reduceAdd h x (ix1 jc) = ∑ a : Fin A, ∑ b : Fin B, x (ix3 a b jc) :=
  sum_filter_drop_lead2 h x jc

end Cert.ReduceLeading

end
-- ==== Proof.Region0Ideal.lean ====
/-
  The first region's block contributions, read at the extended reals.

  For a block of 256 polylines — twenty points each with nine features `x`, their mask numbers `m`, and the first
  weight matrix `w` — the body's first linear layer has, at point `a` of polyline `r` and channel `c`, the nine-term
  sum of `x(a, r, k) * w(k, c)`: the points are laid out as 5120 rows for the matrix unit and back, which moves no
  entry. The masked layer multiplies that by `m(a, r)`. The three accumulators each add, to what they held, a sum over
  the block's 5120 points: of the masked layer per channel, of the masked layer times the layer per channel, and of
  the mask numbers.
-/
import proofs.«135113_g11922829214230_retrytranche1_1894_3_alg».proof.Proof.Region0
import proofs.«135113_g11922829214230_retrytranche1_1894_3_alg».proof.Proof.LibLayout3
import proofs.«135113_g11922829214230_retrytranche1_1894_3_alg».proof.Proof.LibReduceLeading
import proofs.«135113_g11922829214230_retrytranche1_1894_3_alg».proof.Proof.LibMatmul
import Idealize.ShloMosaic.PureOps.Ideal.Laws
import Idealize.ShloMosaic.Lib.ValueLayout

open scoped BigOperators

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

/-- The first layer's contraction is the plain one: `[5120, 9]` by `[9, 64]`. -/
theorem dot9_eq : dot_S5120x9_S9x64_S5120x64_1_0_0_1_n_n = DotDims.plain 5120 9 64 := rfl

/-- A sum-reduction over the two leading axes of a rank-three array, at the extended reals, is the double sum. -/
theorem multiReduction_add_lead2 {A B C : ℕ} (src : FVec Ideal ⟨3, ![A, B, C]⟩ .f32)
    (h : (⟨3, ![A, B, C]⟩ : Shape).Reduces [0, 1] ⟨1, ![C]⟩) (hφ : FKind.Formats .f32)
    (hacc : (0x00000000#32 : BitVec 32) = 0x00000000#32) (jc : Fin C) :
    multiReduction .add [0, 1] ⟨1, ![C]⟩ src 0x00000000#32 h hφ hacc (ix1 jc) = ∑ a : Fin A, ∑ b : Fin B, src (ix3 a b jc) :=
  Cert.ReduceLeading.sum_filter_drop_lead2 h src jc

/-- The first linear layer of a block at point `a` of polyline `r`, channel `c`: the nine-term sum. -/
theorem pay4_apply (x0 : Vec Ideal S20x256x9 .f32) (x2 : Vec Ideal S9x64 .f32) (a : Fin 20) (r : Fin 256) (c : Fin 64) :
    k0_pay4 x0 x2 (ix3 a r c) = ∑ k : Fin 9, x0 (ix3 a r k) * x2 (ix2 k c) := by
  have hlt : a.val * 256 + r.val < 5120 := by have := a.isLt; have := r.isLt; omega
  unfold k0_pay4
  rw [Cert.Layout3.shapeCast_mk_abk_apply _ _ a r c ⟨a.val * 256 + r.val, hlt⟩ rfl, dot9_eq,
    Cert.MatOps.matmul_plain_zero_apply]
  refine Finset.sum_congr rfl fun k _ => ?_
  rw [Cert.Layout3.shapeCast_abk_mk_apply _ _ a r k ⟨a.val * 256 + r.val, hlt⟩ rfl, shapeCast_self, shapeCast_self]

/-- The masked layer: the layer times the point's mask number. -/
theorem pay5_apply (x1 : Vec Ideal S20x256 .f32) (x0 : Vec Ideal S20x256x9 .f32) (x2 : Vec Ideal S9x64 .f32)
    (a : Fin 20) (r : Fin 256) (c : Fin 64) :
    k0_pay5 x1 x0 x2 (ix3 a r c) = k0_pay4 x0 x2 (ix3 a r c) * x1 (ix2 a r) := by
  unfold k0_pay5 k0_pay3
  dsimp only
  rw [mulf_apply, Cert.Layout3.broadcastTo_ab1_abc_apply _ _ a r c 0, Cert.Layout3.shapeCast_ab_ab1_apply, shapeCast_self]

/-- The sum accumulator's step: what it held plus the block's masked layer summed over the block's points. -/
theorem pay7_apply (x1 : Vec Ideal S20x256 .f32) (x0 : Vec Ideal S20x256x9 .f32) (x2 : Vec Ideal S9x64 .f32)
    (p : Vec Ideal S1x64 .f32) (z : Fin 1) (c : Fin 64) :
    k0_pay7 x1 x0 x2 p (ix2 z c) = p (ix2 z c) + ∑ a : Fin 20, ∑ r : Fin 256, k0_pay5 x1 x0 x2 (ix3 a r c) := by
  unfold k0_pay7
  dsimp only
  rw [addf_apply, shapeCast_self, shapeCast_a_1a_apply]
  exact congrArg (p (ix2 z c) + ·) (multiReduction_add_lead2 (k0_pay5 x1 x0 x2) _ _ _ c)

/-- The square accumulator's step: what it held plus the masked layer times the layer, summed over the block. -/
theorem pay9_apply (x1 : Vec Ideal S20x256 .f32) (x0 : Vec Ideal S20x256x9 .f32) (x2 : Vec Ideal S9x64 .f32)
    (p : Vec Ideal S1x64 .f32) (z : Fin 1) (c : Fin 64) :
    k0_pay9 x1 x0 x2 p (ix2 z c)
      = p (ix2 z c) + ∑ a : Fin 20, ∑ r : Fin 256, k0_pay5 x1 x0 x2 (ix3 a r c) * k0_pay4 x0 x2 (ix3 a r c) := by
  unfold k0_pay9
  dsimp only
  rw [addf_apply, shapeCast_self, shapeCast_a_1a_apply]
  exact congrArg (p (ix2 z c) + ·) (multiReduction_add_lead2 (mulf (k0_pay5 x1 x0 x2) (k0_pay4 x0 x2)) _ _ _ c)

/-- A sum-reduction of a `[1, 20, 256]` array over its two trailing axes, at the extended reals, is the double sum. -/
theorem multiReduction_add_trail2 (src : FVec Ideal S1x20x256 .f32) (h : S1x20x256.Reduces [1, 2] S1)
    (hφ : FKind.Formats .f32) (hacc : (0x00000000#32 : BitVec 32) = 0x00000000#32) :
    multiReduction .add [1, 2] S1 src 0x00000000#32 h hφ hacc (ix1 0) = ∑ a : Fin 20, ∑ r : Fin 256, src (ix3 0 a r) := by
  refine (Ideal.multiReduction_add_total src 0x00000000#32 h (fun b => by fin_cases b; rfl) hφ hacc (ix1 0)).trans ?_
  rw [Cert.ReduceLeading.sum_idx3, Fin.sum_univ_one]

/-- The count accumulator's step: what it held plus the block's mask numbers summed over the block's points. -/
theorem pay2_apply (x1 : Vec Ideal S20x256 .f32) (p : Vec Ideal S1x1 .f32) (z z' : Fin 1) :
    k0_pay2 (k0_pay10 x1) p (ix2 z z') = p (ix2 z z') + ∑ a : Fin 20, ∑ r : Fin 256, x1 (ix2 a r) := by
  unfold k0_pay2 k0_pay10 k0_pay3
  rw [addf_apply, shapeCast_self]
  refine congrArg (p (ix2 z z') + ·) ?_
  rw [broadcast_apply]
  unfold extractAt
  refine (shapeCast_apply _ _ _ (ix1 (0 : Fin 1)) (by
    rw [Shape.rowMajor_val_one, Shape.rowMajor_val_three]; rfl)).trans ?_
  refine (multiReduction_add_trail2 _ _ _ _).trans ?_
  refine Finset.sum_congr rfl fun a _ => Finset.sum_congr rfl fun r _ => ?_
  rw [shapeCast_ab_1ab_apply, shapeCast_self]

/-! ## The accumulators after each point, as partial sums over the blocks -/

variable (V : (c : Dev nD) → (b : Ref sig .tc) → Buf (Elt Ideal) ((c : Thread nD τ).loc b))

/-- Block `t`'s contribution to the sum accumulator at channel `ch` (zero past the last block). -/
def blkS (c : Dev nD) (ch : Fin 64) (t : ℕ) : EReal :=
  if h : t < cfg0.N then ∑ a : Fin 20, ∑ r : Fin 256, k0_pay5 (iblk0 V c 1 ⟨t, h⟩) (iblk0 V c 0 ⟨t, h⟩) (iblk0 V c 2 ⟨t, h⟩) (ix3 a r ch) else 0

/-- Block `t`'s contribution to the square accumulator at channel `ch`. -/
def blkQ (c : Dev nD) (ch : Fin 64) (t : ℕ) : EReal :=
  if h : t < cfg0.N then ∑ a : Fin 20, ∑ r : Fin 256,
    k0_pay5 (iblk0 V c 1 ⟨t, h⟩) (iblk0 V c 0 ⟨t, h⟩) (iblk0 V c 2 ⟨t, h⟩) (ix3 a r ch) * k0_pay4 (iblk0 V c 0 ⟨t, h⟩) (iblk0 V c 2 ⟨t, h⟩) (ix3 a r ch) else 0

/-- The mask number of point `a` of polyline `r` of block `t`. -/
def mblk (c : Dev nD) (t : Fin cfg0.N) (a : Fin 20) (r : Fin 256) : EReal :=
  (iblk0 V c 1 t : Vec Ideal S20x256 .f32) (ix2 a r)

/-- Block `t`'s contribution to the count accumulator. -/
def blkC (c : Dev nD) (t : ℕ) : EReal :=
  if h : t < cfg0.N then ∑ a : Fin 20, ∑ r : Fin 256, mblk V c ⟨t, h⟩ a r else 0

theorem blkS_of_lt (c : Dev nD) (ch : Fin 64) {t : ℕ} (h : t < cfg0.N) :
    blkS V c ch t = ∑ a : Fin 20, ∑ r : Fin 256, k0_pay5 (iblk0 V c 1 ⟨t, h⟩) (iblk0 V c 0 ⟨t, h⟩) (iblk0 V c 2 ⟨t, h⟩) (ix3 a r ch) := dif_pos h
theorem blkQ_of_lt (c : Dev nD) (ch : Fin 64) {t : ℕ} (h : t < cfg0.N) :
    blkQ V c ch t = ∑ a : Fin 20, ∑ r : Fin 256,
      k0_pay5 (iblk0 V c 1 ⟨t, h⟩) (iblk0 V c 0 ⟨t, h⟩) (iblk0 V c 2 ⟨t, h⟩) (ix3 a r ch) * k0_pay4 (iblk0 V c 0 ⟨t, h⟩) (iblk0 V c 2 ⟨t, h⟩) (ix3 a r ch) := dif_pos h
theorem blkC_of_lt (c : Dev nD) {t : ℕ} (h : t < cfg0.N) :
    blkC V c t = ∑ a : Fin 20, ∑ r : Fin 256, mblk V c ⟨t, h⟩ a r := dif_pos h

/-- The zero blocks the first point stores are zero at every index. -/
theorem pay6_apply (i : S1x64.Idx) : k0_pay6 (F := Ideal) i = 0 := Ideal.ofBits_zero_f32
theorem pay8_apply (i : S1x64.Idx) : k0_pay8 (F := Ideal) i = 0 := Ideal.ofBits_zero_f32
theorem pay1_apply (i : S1x1.Idx) : k0_pay1 (F := Ideal) i = 0 := Ideal.ofBits_zero_f32

/-- After point `n` the sum accumulator holds, at channel `ch`, the contributions of blocks `0 … n` added up. -/
theorem acc_fst (c : Dev nD) (z : Fin 1) (ch : Fin 64) : ∀ (n : ℕ) (h : n < cfg0.N),
    (acc V c n h).1 (ix2 z ch) = ∑ t ∈ Finset.range (n + 1), blkS V c ch t
  | 0, h => by
    refine (pay7_apply (iblk0 V c 1 ⟨0, h⟩) (iblk0 V c 0 ⟨0, h⟩) (iblk0 V c 2 ⟨0, h⟩) (k0_pay6 (F := Ideal)) z ch).trans ?_
    rw [Finset.sum_range_one, blkS_of_lt V c ch h, pay6_apply, zero_add]
  | n + 1, h => by
    refine (pay7_apply (iblk0 V c 1 ⟨n + 1, h⟩) (iblk0 V c 0 ⟨n + 1, h⟩) (iblk0 V c 2 ⟨n + 1, h⟩) (acc V c n (Nat.lt_of_succ_lt h)).1 z ch).trans ?_
    rw [acc_fst c z ch n, Finset.sum_range_succ _ (n + 1), blkS_of_lt V c ch h]

/-- After point `n` the square accumulator holds the square contributions of blocks `0 … n` added up. -/
theorem acc_snd (c : Dev nD) (z : Fin 1) (ch : Fin 64) : ∀ (n : ℕ) (h : n < cfg0.N),
    (acc V c n h).2.1 (ix2 z ch) = ∑ t ∈ Finset.range (n + 1), blkQ V c ch t
  | 0, h => by
    refine (pay9_apply (iblk0 V c 1 ⟨0, h⟩) (iblk0 V c 0 ⟨0, h⟩) (iblk0 V c 2 ⟨0, h⟩) (k0_pay8 (F := Ideal)) z ch).trans ?_
    rw [Finset.sum_range_one, blkQ_of_lt V c ch h, pay8_apply, zero_add]
  | n + 1, h => by
    refine (pay9_apply (iblk0 V c 1 ⟨n + 1, h⟩) (iblk0 V c 0 ⟨n + 1, h⟩) (iblk0 V c 2 ⟨n + 1, h⟩) (acc V c n (Nat.lt_of_succ_lt h)).2.1 z ch).trans ?_
    rw [acc_snd c z ch n, Finset.sum_range_succ _ (n + 1), blkQ_of_lt V c ch h]

/-- After point `n` the count accumulator holds the counts of blocks `0 … n` added up. -/
theorem acc_trd (c : Dev nD) (z z' : Fin 1) : ∀ (n : ℕ) (h : n < cfg0.N),
    (acc V c n h).2.2 (ix2 z z') = ∑ t ∈ Finset.range (n + 1), blkC V c t
  | 0, h => by
    refine (pay2_apply (iblk0 V c 1 ⟨0, h⟩) (k0_pay1 (F := Ideal)) z z').trans ?_
    rw [Finset.sum_range_one, blkC_of_lt V c h, pay1_apply, zero_add]
    rfl
  | n + 1, h => by
    refine (pay2_apply (iblk0 V c 1 ⟨n + 1, h⟩) (acc V c n (Nat.lt_of_succ_lt h)).2.2 z z').trans ?_
    rw [acc_trd c z z' n, Finset.sum_range_succ _ (n + 1), blkC_of_lt V c h]
    rfl

/-! ## The blocks as parts of the arrays, and the accumulators' arrays after the region -/

/-- Where each moving window's block sits at point `t`: block `t` along the polyline axis, block zero elsewhere. -/
theorem idx_facts : ∀ t : Fin cfg0.N, (win0_0.index t 0 = 0 ∧ win0_0.index t 1 = t.val ∧ win0_0.index t 2 = 0)
    ∧ (win0_1.index t 0 = 0 ∧ win0_1.index t 1 = t.val) ∧ (win0_2.index t 0 = 0 ∧ win0_2.index t 1 = 0) :=
  (by decide +kernel : ∀ t : Fin grid0.N, _)

/-- Polyline `r` of block `t` is polyline `256 t + r`. -/
theorem row_lt (t : Fin cfg0.N) (r : Fin 256) : 256 * t.val + r.val < 12288 := by
  have hN : cfg0.N = 48 := N_0
  have := t.isLt; have := r.isLt; omega

/-- The feature block at point `t` reads the feature array at polyline `256 t + r`. -/
theorem iblk0_x (c : Dev nD) (t : Fin cfg0.N) (a : Fin 20) (r : Fin 256) (k : Fin 9) :
    (iblk0 V c 0 t : Vec Ideal S20x256x9 .f32) (ix3 a r k)
      = (V c main_v1 : Vec Ideal S20x12288x9 .f32) (ix3 a ⟨256 * t.val + r.val, row_lt t r⟩ k) := by
  unfold iblk0
  rw [View.read_apply]
  show V c main_v1 _ = V c main_v1 _
  refine congrArg (V c main_v1) ?_
  funext d
  apply Fin.ext
  match d with
  | ⟨0, _⟩ => show win0_0.index t 0 * 20 + 1 * a.val = a.val; rw [(idx_facts t).1.1]; omega
  | ⟨1, _⟩ => show win0_0.index t 1 * 256 + 1 * r.val = 256 * t.val + r.val; rw [(idx_facts t).1.2.1]; omega
  | ⟨2, _⟩ => show win0_0.index t 2 * 9 + 1 * k.val = k.val; rw [(idx_facts t).1.2.2]; omega

/-- The mask block at point `t` reads the mask array at polyline `256 t + r`. -/
theorem iblk0_m (c : Dev nD) (t : Fin cfg0.N) (a : Fin 20) (r : Fin 256) :
    (iblk0 V c 1 t : Vec Ideal S20x256 .f32) (ix2 a r)
      = (V c main_v4 : Vec Ideal S20x12288 .f32) (ix2 a ⟨256 * t.val + r.val, row_lt t r⟩) := by
  unfold iblk0
  rw [View.read_apply]
  show V c main_v4 _ = V c main_v4 _
  refine congrArg (V c main_v4) ?_
  funext d
  apply Fin.ext
  match d with
  | ⟨0, _⟩ => show win0_1.index t 0 * 20 + 1 * a.val = a.val; rw [(idx_facts t).2.1.1]; omega
  | ⟨1, _⟩ => show win0_1.index t 1 * 256 + 1 * r.val = 256 * t.val + r.val; rw [(idx_facts t).2.1.2]; omega

/-- The weight block at every point is the whole weight array. -/
theorem iblk0_w (c : Dev nD) (t : Fin cfg0.N) (k : Fin 9) (ch : Fin 64) :
    (iblk0 V c 2 t : Vec Ideal S9x64 .f32) (ix2 k ch) = (V c main_v5 : Vec Ideal S9x64 .f32) (ix2 k ch) := by
  unfold iblk0
  rw [View.read_apply]
  show V c main_v5 _ = V c main_v5 _
  refine congrArg (V c main_v5) ?_
  funext d
  apply Fin.ext
  match d with
  | ⟨0, _⟩ => show win0_2.index t 0 * 9 + 1 * k.val = k.val; rw [(idx_facts t).2.2.1]; omega
  | ⟨1, _⟩ => show win0_2.index t 1 * 64 + 1 * ch.val = ch.val; rw [(idx_facts t).2.2.2]; omega

/-- The last point of the grid. -/
abbrev tLast : Fin cfg0.N := ⟨47, by rw [show cfg0.N = 48 from N_0]; decide⟩

/-- The one write-back of window 3, at the last point, writes what the recursion holds there: its block is the whole
    array read through zero offsets. -/
theorem flushed3 (c : Dev nD) (t : Fin cfg0.N) (hf : (cfg0.win 3).flush t = true) :
    (dat0 V c).flushed 3 t = ((cfg0.win 3).blk t).view.read (Elt Ideal) ((acc V c 47 tLast.isLt).1) := by
  have hN : cfg0.N = 48 := N_0
  have h47 : t.val = 47 := by have := (flush0_3 t).mp hf; have := t.isLt; omega
  obtain rfl : t = tLast := Fin.ext h47
  show (cfg0.win 3).cut (grid0.coords tLast) ((dat0 V c).after 3 tLast) = _
  rw [after0_3, outsAt_eq]
  have hz' : (fun a => win0_3.index tLast a * main_v13_0.ty.shape.size a) = fun _ => 0 :=
    funext fun a => by fin_cases a <;> decide +kernel
  exact (Memref.read_access_unit_zero (Elt Ideal) main_v13_0 hz' (fun a => by rw [congrFun hz' a]; simp) _).symm

/-- So after the region the array of window 3 holds the sum accumulator after the last point. -/
theorem final3 (c : Dev nD) : (dat0 V c).arrAt 3 cfg0.N = (acc V c 47 tLast.isLt).1 :=
  (dat0 V c).arrAt_eq_of_cover 3 _ (flushed3 V c) fun i =>
    ⟨tLast, (flush0_3 tLast).mpr rfl, by
      show i ∈ ((View.whole main_v13_0).slice (win0_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 64 from by decide +kernel]; omega⟩

/-- The one write-back of window 4, at the last point, writes what the recursion holds there: its block is the whole
    array read through zero offsets. -/
theorem flushed4 (c : Dev nD) (t : Fin cfg0.N) (hf : (cfg0.win 4).flush t = true) :
    (dat0 V c).flushed 4 t = ((cfg0.win 4).blk t).view.read (Elt Ideal) ((acc V c 47 tLast.isLt).2.1) := by
  have hN : cfg0.N = 48 := N_0
  have h47 : t.val = 47 := by have := (flush0_4 t).mp hf; have := t.isLt; omega
  obtain rfl : t = tLast := Fin.ext h47
  show (cfg0.win 4).cut (grid0.coords tLast) ((dat0 V c).after 4 tLast) = _
  rw [after0_4, outsAt_eq]
  have hz' : (fun a => win0_4.index tLast a * main_v13_1.ty.shape.size a) = fun _ => 0 :=
    funext fun a => by fin_cases a <;> decide +kernel
  exact (Memref.read_access_unit_zero (Elt Ideal) main_v13_1 hz' (fun a => by rw [congrFun hz' a]; simp) _).symm

/-- So after the region the array of window 4 holds the square accumulator after the last point. -/
theorem final4 (c : Dev nD) : (dat0 V c).arrAt 4 cfg0.N = (acc V c 47 tLast.isLt).2.1 :=
  (dat0 V c).arrAt_eq_of_cover 4 _ (flushed4 V c) fun i =>
    ⟨tLast, (flush0_4 tLast).mpr rfl, by
      show i ∈ ((View.whole main_v13_1).slice (win0_4.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 64 from by decide +kernel]; omega⟩

/-- The one write-back of window 5, at the last point, writes what the recursion holds there: its block is the whole
    array read through zero offsets. -/
theorem flushed5 (c : Dev nD) (t : Fin cfg0.N) (hf : (cfg0.win 5).flush t = true) :
    (dat0 V c).flushed 5 t = ((cfg0.win 5).blk t).view.read (Elt Ideal) ((acc V c 47 tLast.isLt).2.2) := by
  have hN : cfg0.N = 48 := N_0
  have h47 : t.val = 47 := by have := (flush0_5 t).mp hf; have := t.isLt; omega
  obtain rfl : t = tLast := Fin.ext h47
  show (cfg0.win 5).cut (grid0.coords tLast) ((dat0 V c).after 5 tLast) = _
  rw [after0_5, outsAt_eq]
  have hz' : (fun a => win0_5.index tLast a * main_v13_2.ty.shape.size a) = fun _ => 0 :=
    funext fun a => by fin_cases a <;> decide +kernel
  exact (Memref.read_access_unit_zero (Elt Ideal) main_v13_2 hz' (fun a => by rw [congrFun hz' a]; simp) _).symm

/-- So after the region the array of window 5 holds the count accumulator after the last point. -/
theorem final5 (c : Dev nD) : (dat0 V c).arrAt 5 cfg0.N = (acc V c 47 tLast.isLt).2.2 :=
  (dat0 V c).arrAt_eq_of_cover 5 _ (flushed5 V c) fun i =>
    ⟨tLast, (flush0_5 tLast).mpr rfl, by
      show i ∈ ((View.whole main_v13_2).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 1 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [show win0_5.index tLast 1 * win0_5.size 1 = 0 from by decide +kernel, show win0_5.xsize (grid0.coords tLast) 1 = 1 from by decide +kernel]; omega⟩

/-! ## The region's contract: its three result arrays as sums over blocks, points and polylines of the entry arrays -/

/-- The feature array as the region finds it: twenty points by 12288 polylines by nine features. -/
def arrX (c : Dev nD) : Vec Ideal S20x12288x9 .f32 := V c main_v1
/-- The mask numbers as the region finds them. -/
def arrM (c : Dev nD) : Vec Ideal S20x12288 .f32 := V c main_v4
/-- The first weight matrix as the region finds it: nine features by sixty-four channels. -/
def arrW (c : Dev nD) : Vec Ideal S9x64 .f32 := V c main_v5

/-- The first linear layer at point `a` of polyline `j`, channel `ch`, from the arrays as the region finds them. -/
def lin (c : Dev nD) (a : Fin 20) (j : Fin 12288) (ch : Fin 64) : EReal :=
  ∑ k : Fin 9, arrX V c (ix3 a j k) * arrW V c (ix2 k ch)

/-- The mask number of point `a` of polyline `j`, from the array as the region finds it. -/
def msk (c : Dev nD) (a : Fin 20) (j : Fin 12288) : EReal := arrM V c (ix2 a j)

/-- Polyline `r` of block `t`. -/
def rowOf (t : Fin cfg0.N) (r : Fin 256) : Fin 12288 := ⟨256 * t.val + r.val, row_lt t r⟩

theorem pay4_blk (c : Dev nD) (t : Fin cfg0.N) (a : Fin 20) (r : Fin 256) (ch : Fin 64) :
    k0_pay4 (iblk0 V c 0 t) (iblk0 V c 2 t) (ix3 a r ch) = lin V c a (rowOf t r) ch := by
  refine (pay4_apply (iblk0 V c 0 t) (iblk0 V c 2 t) a r ch).trans ?_
  refine Finset.sum_congr rfl fun k _ => ?_
  rw [iblk0_x V c t a r k, iblk0_w V c t k ch]
  rfl

theorem pay5_blk (c : Dev nD) (t : Fin cfg0.N) (a : Fin 20) (r : Fin 256) (ch : Fin 64) :
    k0_pay5 (iblk0 V c 1 t) (iblk0 V c 0 t) (iblk0 V c 2 t) (ix3 a r ch) = lin V c a (rowOf t r) ch * msk V c a (rowOf t r) := by
  refine (pay5_apply (iblk0 V c 1 t) (iblk0 V c 0 t) (iblk0 V c 2 t) a r ch).trans ?_
  rw [pay4_blk V c t a r ch, iblk0_m V c t a r]
  rfl

/-- A sum over the first `cfg0.N` naturals of a function that is defined through the bound is the sum over the points. -/
theorem sum_range_points (f : ℕ → EReal) : ∑ t ∈ Finset.range (47 + 1), f t = ∑ t : Fin cfg0.N, f t.val := by
  have hN : cfg0.N = 48 := N_0
  rw [← Fin.sum_univ_eq_sum_range f 48]
  exact (Fintype.sum_equiv (finCongr hN) _ _ fun _ => rfl).symm

/-- After the region the sum array holds, at channel `ch`, the masked layer summed over every block, point and polyline. -/
theorem region0_sum (c : Dev nD) (z : Fin 1) (ch : Fin 64) :
    (dat0 V c).arrAt 3 cfg0.N (ix2 z ch)
      = ∑ t : Fin cfg0.N, ∑ a : Fin 20, ∑ r : Fin 256, lin V c a (rowOf t r) ch * msk V c a (rowOf t r) := by
  rw [final3 V c]
  refine (acc_fst V c z ch 47 tLast.isLt).trans ?_
  rw [sum_range_points]
  refine Finset.sum_congr rfl fun t _ => ?_
  rw [blkS_of_lt V c ch t.isLt]
  exact Finset.sum_congr rfl fun a _ => Finset.sum_congr rfl fun r _ => pay5_blk V c t a r ch

/-- After the region the square array holds the masked layer times the layer, summed likewise. -/
theorem region0_sq (c : Dev nD) (z : Fin 1) (ch : Fin 64) :
    (dat0 V c).arrAt 4 cfg0.N (ix2 z ch)
      = ∑ t : Fin cfg0.N, ∑ a : Fin 20, ∑ r : Fin 256,
          (lin V c a (rowOf t r) ch * msk V c a (rowOf t r)) * lin V c a (rowOf t r) ch := by
  rw [final4 V c]
  refine (acc_snd V c z ch 47 tLast.isLt).trans ?_
  rw [sum_range_points]
  refine Finset.sum_congr rfl fun t _ => ?_
  rw [blkQ_of_lt V c ch t.isLt]
  refine Finset.sum_congr rfl fun a _ => Finset.sum_congr rfl fun r _ => ?_
  rw [pay5_blk V c t a r ch, pay4_blk V c t a r ch]

/-- After the region the count array holds the mask numbers summed likewise. -/
theorem region0_cnt (c : Dev nD) (z z' : Fin 1) :
    (dat0 V c).arrAt 5 cfg0.N (ix2 z z') = ∑ t : Fin cfg0.N, ∑ a : Fin 20, ∑ r : Fin 256, msk V c a (rowOf t r) := by
  rw [final5 V c]
  refine (acc_trd V c z z' 47 tLast.isLt).trans ?_
  rw [sum_range_points]
  refine Finset.sum_congr rfl fun t _ => ?_
  rw [blkC_of_lt V c t.isLt]
  refine Finset.sum_congr rfl fun a _ => Finset.sum_congr rfl fun r _ => ?_
  exact iblk0_m V c t a r

end Cert.KernelIdeal.R0

end
-- ==== Proof.LibMaskedBatchNorm.lean ====
import Mathlib
import Idealize.ShloMosaic.PureOps.Ideal

/-!
# Masked batch normalisation: two spellings, one value

Fix a finite index set, data `h`, a mask `μ` with values in `{0, 1}`, a gain `g`, a bias `b`,
a positive `ε` and a point `x`. Put

  `C = ∑ μ`,  `S = ∑ h·μ`,  `Q = ∑ (h·μ)·h`,  `cnt = max C 1`,  `mean = S / cnt`.

The FIRST spelling (`Cert.BN.normMoments`) takes the variance from the raw moments and clamps it at
zero,

  `var = max (Q / cnt - mean·mean) 0`,  `scale = g · (var + ε)^(-1/2)`,  `shift = b - mean·scale`,
  `y = x·scale + shift`,

and the SECOND spelling (`Cert.BN.normDeviations`) takes it from the centred data, unclamped,

  `var' = (∑ ((h - mean)·(h - mean))·μ) / cnt`,  `y' = (x - mean) / √(var' + ε) · g + b`.

Over the reals the two agree. Expanding the square,
`∑ (h - mean)²·μ = Q - 2·mean·S + mean²·C`. If `1 ≤ C` then `cnt = C`, `S = mean·C`, and the quotient by
`cnt` is `Q / cnt - mean²`; being a sum of nonnegative terms over a positive number it is
nonnegative, so the clamp does nothing. If `C < 1` then no mask entry is `1` (one such entry already
forces `1 ≤ C`, every entry being nonnegative), so the mask vanishes, `S = Q = C = 0`, `mean = 0`, and
both variances are `0`. With `v = var + ε = var' + ε > 0` the two outputs differ by a rearrangement:
`x·(g·(√v)⁻¹) + (b - mean·(g·(√v)⁻¹)) = (x - mean) / √v · g + b`.

On the extended reals the same operations are read exactly: sum, difference, product and maximum
are `EReal`'s own, and quotient, square root and reciprocal square root are the total operations
`Ideal.div`, `Ideal.sqrt`, `Ideal.rsqrt`. At arguments that are (coercions of) reals no corner of
those operations is met — every divisor is `cnt ≥ 1` or `√v > 0`, every radicand is `v > 0` — so each
intermediate value is the coercion of the corresponding real, and the real identity transfers.

Contents: the two spellings as definitions on `EReal` (namespace `Cert.BN`); then, in namespace
`Cert.Lib.MaskedBatchNorm`: (a) coercion of finite sums and of a maximum; (b) the two variances
over `ℝ`; (c) the rearrangement; (d) equality of the two spellings at real arguments, and that the
common value is a real; (e) every intermediate value is a real, the count at least one.
-/

open scoped BigOperators

noncomputable section

namespace Cert.BN

open Idealize.ShloMosaic

variable {ι : Type*} [Fintype ι]

/-- The number of unmasked rows, at least one. -/
def cnt (mu : ι → EReal) : EReal := max (∑ i, mu i) 1

/-- The masked mean of `h`. -/
def mean (h mu : ι → EReal) : EReal := Ideal.div (∑ i, h i * mu i) (cnt mu)

/-- The variance as the clamped difference of the masked second moment and the squared mean. -/
def varMoments (h mu : ι → EReal) : EReal :=
  max (Ideal.div (∑ i, (h i * mu i) * h i) (cnt mu) - mean h mu * mean h mu) 0

/-- The multiplier of the first spelling. -/
def scale (h mu : ι → EReal) (g eps : EReal) : EReal := g * Ideal.rsqrt (varMoments h mu + eps)

/-- The offset of the first spelling. -/
def shift (h mu : ι → EReal) (g b eps : EReal) : EReal := b - mean h mu * scale h mu g eps

/-- The first spelling: one multiplication and one addition. -/
def normMoments (h mu : ι → EReal) (g b eps x : EReal) : EReal := x * scale h mu g eps + shift h mu g b eps

/-- The variance as the masked mean of squared deviations. -/
def varDeviations (h mu : ι → EReal) : EReal :=
  Ideal.div (∑ i, ((h i - mean h mu) * (h i - mean h mu)) * mu i) (cnt mu)

/-- The second spelling: subtract the mean, divide by the standard deviation, scale, shift. -/
def normDeviations (h mu : ι → EReal) (g b eps x : EReal) : EReal :=
  Ideal.div (x - mean h mu) (Ideal.sqrt (varDeviations h mu + eps)) * g + b

end Cert.BN

namespace Cert.Lib.MaskedBatchNorm

local notation "idiv" => Idealize.ShloMosaic.Ideal.div
local notation "isqrt" => Idealize.ShloMosaic.Ideal.sqrt
local notation "irsqrt" => Idealize.ShloMosaic.Ideal.rsqrt

variable {ι : Type*} [Fintype ι]

/-! ## (a) Coercions -/

/-- The coercion `ℝ → EReal` commutes with a sum over a finset. -/
theorem coe_finset_sum {κ : Type*} (s : Finset κ) (f : κ → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion `ℝ → EReal` commutes with the sum over a finite type. -/
theorem coe_sum (f : ι → ℝ) : ((∑ i, f i : ℝ) : EReal) = ∑ i, ((f i : ℝ) : EReal) :=
  coe_finset_sum Finset.univ f

/-- The coercion `ℝ → EReal` commutes with `max` (it is monotone). -/
theorem coe_max (a b : ℝ) : ((max a b : ℝ) : EReal) = max (a : EReal) (b : EReal) :=
  EReal.coe_strictMono.monotone.map_max

/-- A sum of products of coerced reals is the coercion of the real sum of products. -/
theorem sum_mul_coe (f k : ι → ℝ) :
    ∑ i, ((f i : ℝ) : EReal) * ((k i : ℝ) : EReal) = ((∑ i, f i * k i : ℝ) : EReal) := by
  simp only [coe_sum, EReal.coe_mul]

/-- The total quotient of two coerced reals, the divisor nonzero, is the coerced real quotient. -/
theorem div_coe_coe (a : ℝ) {c : ℝ} (hc : c ≠ 0) :
    idiv (a : EReal) (c : EReal) = ((a / c : ℝ) : EReal) := by
  rw [Idealize.ShloMosaic.Ideal.div_coe hc, ← EReal.coe_mul, mul_one_div]

/-- The total square root of a coerced nonnegative real is the coerced real square root. -/
theorem sqrt_coe_nonneg {v : ℝ} (hv : 0 ≤ v) : isqrt (v : EReal) = ((Real.sqrt v : ℝ) : EReal) := by
  rw [Idealize.ShloMosaic.Ideal.sqrt_coe, if_neg (not_lt.mpr hv)]

/-- The total reciprocal square root of a coerced positive real is the coerced real
    `(√v)⁻¹`. -/
theorem rsqrt_coe_pos {v : ℝ} (hv : 0 < v) :
    irsqrt (v : EReal) = (((Real.sqrt v)⁻¹ : ℝ) : EReal) := by
  rw [Idealize.ShloMosaic.Ideal.rsqrt_coe, if_neg (not_lt.mpr hv.le), if_neg hv.ne']

/-! ## (b) The two variances over the reals -/

/-- The masked count clamped below by one: `cnt = max (∑ μ) 1`. -/
def rCnt (mu : ι → ℝ) : ℝ := max (∑ i, mu i) 1

/-- The masked mean: `mean = (∑ h·μ) / cnt`. -/
def rMean (h mu : ι → ℝ) : ℝ := (∑ i, h i * mu i) / rCnt mu

/-- The one-pass variance: raw second moment minus squared mean, clamped at zero. -/
def rVarKernel (h mu : ι → ℝ) : ℝ :=
  max ((∑ i, (h i * mu i) * h i) / rCnt mu - rMean h mu * rMean h mu) 0

/-- The two-pass variance: masked mean of the squared deviations, unclamped. -/
def rVarReference (h mu : ι → ℝ) : ℝ :=
  (∑ i, ((h i - rMean h mu) * (h i - rMean h mu)) * mu i) / rCnt mu

/-- The clamped count is positive. -/
theorem rCnt_pos (mu : ι → ℝ) : 0 < rCnt mu := lt_max_of_lt_right one_pos

/-- A mask with values in `{0, 1}` is nonnegative. -/
theorem mask_nonneg {mu : ι → ℝ} (hmu : ∀ i, mu i = 0 ∨ mu i = 1) (i : ι) : 0 ≤ mu i := by
  rcases hmu i with h0 | h1
  · rw [h0]
  · rw [h1]; exact zero_le_one

/-- A mask with values in `{0, 1}` whose sum is below one vanishes identically: a single entry
    equal to one already makes the sum at least one. -/
theorem mask_eq_zero_of_sum_lt_one {mu : ι → ℝ} (hmu : ∀ i, mu i = 0 ∨ mu i = 1)
    (hC : ∑ i, mu i < 1) (j : ι) : mu j = 0 := by
  rcases hmu j with h0 | h1
  · exact h0
  · exfalso
    have hle : mu j ≤ ∑ i, mu i :=
      Finset.single_le_sum (fun i _ => mask_nonneg hmu i) (Finset.mem_univ j)
    rw [h1] at hle
    exact absurd hC (not_lt.mpr hle)

/-- Expansion of the masked sum of squared deviations from any `m`:
    `∑ (h - m)²·μ = Q - 2·m·S + m²·C`. -/
theorem sum_sq_dev (h mu : ι → ℝ) (m : ℝ) :
    ∑ i, ((h i - m) * (h i - m)) * mu i
      = (∑ i, (h i * mu i) * h i) - 2 * m * (∑ i, h i * mu i) + m * m * (∑ i, mu i) := by
  rw [Finset.mul_sum, Finset.mul_sum, ← Finset.sum_sub_distrib, ← Finset.sum_add_distrib]
  exact Finset.sum_congr rfl (fun i _ => by ring)

/-- The algebraic core: with a nonzero count `C` and mean `S / C`, the raw-moment variance equals the
    expanded centred one. -/
theorem var_algebra (Q S C : ℝ) (hC : C ≠ 0) :
    Q / C - (S / C) * (S / C) = (Q - 2 * (S / C) * S + (S / C) * (S / C) * C) / C := by
  field_simp
  ring

/-- The two-pass variance is nonnegative: a sum of nonnegative terms over a positive number. -/
theorem rVarReference_nonneg (h mu : ι → ℝ) (hmu : ∀ i, mu i = 0 ∨ mu i = 1) :
    0 ≤ rVarReference h mu :=
  div_nonneg
    (Finset.sum_nonneg (fun i _ => mul_nonneg (mul_self_nonneg _) (mask_nonneg hmu i)))
    (rCnt_pos mu).le

/-- The one-pass variance is nonnegative (it is clamped). -/
theorem rVarKernel_nonneg (h mu : ι → ℝ) : 0 ≤ rVarKernel h mu := le_max_right _ _

/-- **The two variances agree** for a mask with values in `{0, 1}`. -/
theorem var_eq (h mu : ι → ℝ) (hmu : ∀ i, mu i = 0 ∨ mu i = 1) :
    rVarKernel h mu = rVarReference h mu := by
  rcases le_or_gt 1 (∑ i, mu i) with hC | hC
  · have hc : rCnt mu = ∑ i, mu i := max_eq_left hC
    have hne : (∑ i, mu i) ≠ 0 := (lt_of_lt_of_le one_pos hC).ne'
    have key : (∑ i, (h i * mu i) * h i) / rCnt mu - rMean h mu * rMean h mu
        = rVarReference h mu := by
      unfold rVarReference
      rw [sum_sq_dev]
      unfold rMean
      rw [hc]
      exact var_algebra _ _ _ hne
    unfold rVarKernel
    rw [key]
    exact max_eq_left (rVarReference_nonneg h mu hmu)
  · have hz := mask_eq_zero_of_sum_lt_one hmu hC
    simp [rVarKernel, rVarReference, rMean, hz]

/-- The same statement with every quantity written out, together with the two side facts:
    the common variance is nonnegative and the clamped count is positive. -/
theorem var_eq_explicit (h mu : ι → ℝ) (hmu : ∀ i, mu i = 0 ∨ mu i = 1) :
    max ((∑ i, (h i * mu i) * h i) / max (∑ i, mu i) 1
          - (∑ i, h i * mu i) / max (∑ i, mu i) 1 * ((∑ i, h i * mu i) / max (∑ i, mu i) 1)) 0
      = (∑ i, ((h i - (∑ i, h i * mu i) / max (∑ i, mu i) 1)
                * (h i - (∑ i, h i * mu i) / max (∑ i, mu i) 1)) * mu i) / max (∑ i, mu i) 1
    ∧ 0 ≤ (∑ i, ((h i - (∑ i, h i * mu i) / max (∑ i, mu i) 1)
                * (h i - (∑ i, h i * mu i) / max (∑ i, mu i) 1)) * mu i) / max (∑ i, mu i) 1
    ∧ 0 < max (∑ i, mu i) 1 :=
  ⟨var_eq h mu hmu, rVarReference_nonneg h mu hmu, rCnt_pos mu⟩

/-! ## (c) The rearrangement -/

/-- Scale-and-shift equals centre-divide-gain-bias. It is an identity of the field, so it needs no
    sign condition on `v`; it is used at `v > 0`. -/
theorem normalise_eq (x g b m v : ℝ) :
    x * (g * (Real.sqrt v)⁻¹) + (b - m * (g * (Real.sqrt v)⁻¹))
      = (x - m) / Real.sqrt v * g + b := by
  ring

/-- The one-pass scale over the reals: `g · (√(var + ε))⁻¹`. -/
def rScale (h mu : ι → ℝ) (g eps : ℝ) : ℝ := g * (Real.sqrt (rVarKernel h mu + eps))⁻¹

/-- The one-pass shift over the reals: `b - mean · scale`. -/
def rShift (h mu : ι → ℝ) (g b eps : ℝ) : ℝ := b - rMean h mu * rScale h mu g eps

/-- The one-pass output over the reals: `x · scale + shift`. -/
def rYKernel (h mu : ι → ℝ) (g b eps x : ℝ) : ℝ := x * rScale h mu g eps + rShift h mu g b eps

/-- The two-pass output over the reals: `(x - mean) / √(var' + ε) · g + b`. -/
def rYReference (h mu : ι → ℝ) (g b eps x : ℝ) : ℝ :=
  (x - rMean h mu) / Real.sqrt (rVarReference h mu + eps) * g + b

/-- **The two outputs agree over the reals** for a mask with values in `{0, 1}`. -/
theorem rY_eq (h mu : ι → ℝ) (hmu : ∀ i, mu i = 0 ∨ mu i = 1) (g b eps x : ℝ) :
    rYKernel h mu g b eps x = rYReference h mu g b eps x := by
  unfold rYKernel rYReference rShift rScale
  rw [var_eq h mu hmu]
  exact normalise_eq _ _ _ _ _

/-! ## (d) The two spellings at real arguments

Each intermediate value, at real arguments, is the coercion of its real namesake. -/

/-- The clamped count of a coerced mask is the coerced real clamped count. -/
theorem cnt_coe (mu : ι → ℝ) :
    Cert.BN.cnt (fun i => ((mu i : ℝ) : EReal)) = ((rCnt mu : ℝ) : EReal) := by
  simp only [Cert.BN.cnt, rCnt, coe_max, coe_sum, EReal.coe_one]

/-- The masked mean at coerced arguments is the coerced real masked mean. -/
theorem mean_coe (h mu : ι → ℝ) :
    Cert.BN.mean (fun i => ((h i : ℝ) : EReal)) (fun i => ((mu i : ℝ) : EReal)) = ((rMean h mu : ℝ) : EReal) := by
  unfold Cert.BN.mean
  rw [cnt_coe, sum_mul_coe, div_coe_coe _ (rCnt_pos mu).ne']
  rfl

/-- The moment variance at coerced arguments is the coerced real one-pass variance. -/
theorem varMoments_coe (h mu : ι → ℝ) :
    Cert.BN.varMoments (fun i => ((h i : ℝ) : EReal)) (fun i => ((mu i : ℝ) : EReal)) = ((rVarKernel h mu : ℝ) : EReal) := by
  have hQ : ∑ i, ((h i : ℝ) : EReal) * ((mu i : ℝ) : EReal) * ((h i : ℝ) : EReal)
      = ((∑ i, (h i * mu i) * h i : ℝ) : EReal) := by
    simp only [coe_sum, EReal.coe_mul]
  unfold Cert.BN.varMoments
  rw [mean_coe, cnt_coe, hQ, div_coe_coe _ (rCnt_pos mu).ne', ← EReal.coe_mul, ← EReal.coe_sub,
    ← EReal.coe_zero, ← coe_max]
  rfl

/-- The deviation variance at coerced arguments is the coerced real two-pass variance. -/
theorem varDeviations_coe (h mu : ι → ℝ) :
    Cert.BN.varDeviations (fun i => ((h i : ℝ) : EReal)) (fun i => ((mu i : ℝ) : EReal)) = ((rVarReference h mu : ℝ) : EReal) := by
  have hD : ∑ i, (((h i : ℝ) : EReal) - ((rMean h mu : ℝ) : EReal))
        * (((h i : ℝ) : EReal) - ((rMean h mu : ℝ) : EReal)) * ((mu i : ℝ) : EReal)
      = ((∑ i, ((h i - rMean h mu) * (h i - rMean h mu)) * mu i : ℝ) : EReal) := by
    simp only [coe_sum, EReal.coe_mul, EReal.coe_sub]
  unfold Cert.BN.varDeviations
  rw [mean_coe, cnt_coe, hD, div_coe_coe _ (rCnt_pos mu).ne']
  rfl

/-- The multiplier at coerced arguments, `ε` positive, is the coerced real multiplier. -/
theorem scale_coe (h mu : ι → ℝ) (g eps : ℝ) (heps : 0 < eps) :
    Cert.BN.scale (fun i => ((h i : ℝ) : EReal)) (fun i => ((mu i : ℝ) : EReal)) (g : EReal) (eps : EReal) = ((rScale h mu g eps : ℝ) : EReal) := by
  unfold Cert.BN.scale
  rw [varMoments_coe, ← EReal.coe_add,
    rsqrt_coe_pos (add_pos_of_nonneg_of_pos (rVarKernel_nonneg h mu) heps), ← EReal.coe_mul]
  rfl

/-- The offset at coerced arguments, `ε` positive, is the coerced real offset. -/
theorem shift_coe (h mu : ι → ℝ) (g b eps : ℝ) (heps : 0 < eps) :
    Cert.BN.shift (fun i => ((h i : ℝ) : EReal)) (fun i => ((mu i : ℝ) : EReal)) (g : EReal) (b : EReal) (eps : EReal)
      = ((rShift h mu g b eps : ℝ) : EReal) := by
  unfold Cert.BN.shift
  rw [mean_coe, scale_coe h mu g eps heps, ← EReal.coe_mul, ← EReal.coe_sub]
  rfl

/-- The first spelling at coerced arguments, `ε` positive, is the coerced real one-pass output. -/
theorem normMoments_coe (h mu : ι → ℝ) (g b eps x : ℝ) (heps : 0 < eps) :
    Cert.BN.normMoments (fun i => ((h i : ℝ) : EReal)) (fun i => ((mu i : ℝ) : EReal)) (g : EReal) (b : EReal) (eps : EReal) (x : EReal)
      = ((rYKernel h mu g b eps x : ℝ) : EReal) := by
  unfold Cert.BN.normMoments
  rw [scale_coe h mu g eps heps, shift_coe h mu g b eps heps, ← EReal.coe_mul, ← EReal.coe_add]
  rfl

/-- The second spelling at coerced arguments, the mask in `{0, 1}` and `ε` positive, is the coerced
    real two-pass output. -/
theorem normDeviations_coe (h mu : ι → ℝ) (hmu : ∀ i, mu i = 0 ∨ mu i = 1) (g b eps x : ℝ)
    (heps : 0 < eps) :
    Cert.BN.normDeviations (fun i => ((h i : ℝ) : EReal)) (fun i => ((mu i : ℝ) : EReal)) (g : EReal) (b : EReal) (eps : EReal) (x : EReal)
      = ((rYReference h mu g b eps x : ℝ) : EReal) := by
  have hv : 0 < rVarReference h mu + eps :=
    add_pos_of_nonneg_of_pos (rVarReference_nonneg h mu hmu) heps
  unfold Cert.BN.normDeviations
  rw [varDeviations_coe, mean_coe, ← EReal.coe_add, sqrt_coe_nonneg hv.le, ← EReal.coe_sub,
    div_coe_coe _ (Real.sqrt_pos.mpr hv).ne', ← EReal.coe_mul, ← EReal.coe_add]
  rfl

/-- **(d1) The two spellings agree at real arguments**: data, mask, gain, bias, `ε` and point all
    coercions of reals, the mask with values in `{0, 1}`, `ε` positive. -/
theorem normMoments_eq_normDeviations (h mu : ι → ℝ) (hmu : ∀ i, mu i = 0 ∨ mu i = 1)
    (g b eps x : ℝ) (heps : 0 < eps) :
    Cert.BN.normMoments (fun i => ((h i : ℝ) : EReal)) (fun i => ((mu i : ℝ) : EReal)) (g : EReal) (b : EReal) (eps : EReal) (x : EReal)
      = Cert.BN.normDeviations (fun i => ((h i : ℝ) : EReal)) (fun i => ((mu i : ℝ) : EReal)) (g : EReal) (b : EReal) (eps : EReal) (x : EReal) := by
  rw [normMoments_coe h mu g b eps x heps, normDeviations_coe h mu hmu g b eps x heps,
    rY_eq h mu hmu]

/-- **(d2) The common value is a real.** -/
theorem normMoments_finite (h mu : ι → ℝ) (g b eps x : ℝ) (heps : 0 < eps) :
    ∃ r : ℝ, Cert.BN.normMoments (fun i => ((h i : ℝ) : EReal)) (fun i => ((mu i : ℝ) : EReal)) (g : EReal) (b : EReal) (eps : EReal) (x : EReal)
      = (r : EReal) :=
  ⟨_, normMoments_coe h mu g b eps x heps⟩

/-- The second spelling's value is a real as well. -/
theorem normDeviations_finite (h mu : ι → ℝ) (hmu : ∀ i, mu i = 0 ∨ mu i = 1)
    (g b eps x : ℝ) (heps : 0 < eps) :
    ∃ r : ℝ, Cert.BN.normDeviations (fun i => ((h i : ℝ) : EReal)) (fun i => ((mu i : ℝ) : EReal)) (g : EReal) (b : EReal) (eps : EReal) (x : EReal)
      = (r : EReal) :=
  ⟨_, normDeviations_coe h mu hmu g b eps x heps⟩

/-! ## (e) Every intermediate value is a real -/

/-- The clamped count of a real mask is a real, and that real is at least one. -/
theorem cnt_finite (mu : ι → ℝ) :
    ∃ c : ℝ, 1 ≤ c ∧ Cert.BN.cnt (fun i => ((mu i : ℝ) : EReal)) = (c : EReal) :=
  ⟨rCnt mu, le_max_right _ _, cnt_coe mu⟩

/-- The masked mean of real data under a real mask is a real. -/
theorem mean_finite (h mu : ι → ℝ) :
    ∃ r : ℝ, Cert.BN.mean (fun i => ((h i : ℝ) : EReal)) (fun i => ((mu i : ℝ) : EReal)) = (r : EReal) :=
  ⟨_, mean_coe h mu⟩

/-- The multiplier at real arguments, `ε` positive, is a real. -/
theorem scale_finite (h mu : ι → ℝ) (g eps : ℝ) (heps : 0 < eps) :
    ∃ r : ℝ, Cert.BN.scale (fun i => ((h i : ℝ) : EReal)) (fun i => ((mu i : ℝ) : EReal)) (g : EReal) (eps : EReal) = (r : EReal) :=
  ⟨_, scale_coe h mu g eps heps⟩

/-- The offset at real arguments, `ε` positive, is a real. -/
theorem shift_finite (h mu : ι → ℝ) (g b eps : ℝ) (heps : 0 < eps) :
    ∃ r : ℝ, Cert.BN.shift (fun i => ((h i : ℝ) : EReal)) (fun i => ((mu i : ℝ) : EReal)) (g : EReal) (b : EReal) (eps : EReal) = (r : EReal) :=
  ⟨_, shift_coe h mu g b eps heps⟩

/-- The moment variance at real arguments is a nonnegative real. -/
theorem varMoments_finite (h mu : ι → ℝ) :
    ∃ v : ℝ, 0 ≤ v ∧ Cert.BN.varMoments (fun i => ((h i : ℝ) : EReal)) (fun i => ((mu i : ℝ) : EReal)) = (v : EReal) :=
  ⟨_, rVarKernel_nonneg h mu, varMoments_coe h mu⟩

/-- The deviation variance at real arguments, the mask in `{0, 1}`, is a nonnegative real. -/
theorem varDeviations_finite (h mu : ι → ℝ) (hmu : ∀ i, mu i = 0 ∨ mu i = 1) :
    ∃ v : ℝ, 0 ≤ v ∧ Cert.BN.varDeviations (fun i => ((h i : ℝ) : EReal)) (fun i => ((mu i : ℝ) : EReal)) = (v : EReal) :=
  ⟨_, rVarReference_nonneg h mu hmu, varDeviations_coe h mu⟩

/-! ## The same two statements with the realness as hypotheses -/

/-- (d1) for arbitrary extended-real arguments that are pointwise coercions of reals. -/
theorem normMoments_eq_normDeviations_of_eq {h mu : ι → EReal} {g b eps x : EReal}
    {hr mur : ι → ℝ} {gr br epsr xr : ℝ}
    (hh : ∀ i, h i = ((hr i : ℝ) : EReal)) (hm : ∀ i, mu i = ((mur i : ℝ) : EReal))
    (hg : g = (gr : EReal)) (hb : b = (br : EReal)) (he : eps = (epsr : EReal))
    (hx : x = (xr : EReal))
    (hmask : ∀ i, mur i = 0 ∨ mur i = 1) (heps : 0 < epsr) :
    Cert.BN.normMoments h mu g b eps x = Cert.BN.normDeviations h mu g b eps x := by
  obtain rfl : h = fun i => ((hr i : ℝ) : EReal) := funext hh
  obtain rfl : mu = fun i => ((mur i : ℝ) : EReal) := funext hm
  subst hg hb he hx
  exact normMoments_eq_normDeviations hr mur hmask gr br epsr xr heps

/-- (d2) for arbitrary extended-real arguments that are pointwise coercions of reals. -/
theorem normMoments_finite_of_eq {h mu : ι → EReal} {g b eps x : EReal}
    {hr mur : ι → ℝ} {gr br epsr xr : ℝ}
    (hh : ∀ i, h i = ((hr i : ℝ) : EReal)) (hm : ∀ i, mu i = ((mur i : ℝ) : EReal))
    (hg : g = (gr : EReal)) (hb : b = (br : EReal)) (he : eps = (epsr : EReal))
    (hx : x = (xr : EReal)) (heps : 0 < epsr) :
    ∃ r : ℝ, Cert.BN.normMoments h mu g b eps x = (r : EReal) := by
  obtain rfl : h = fun i => ((hr i : ℝ) : EReal) := funext hh
  obtain rfl : mu = fun i => ((mur i : ℝ) : EReal) := funext hm
  subst hg hb he hx
  exact normMoments_finite hr mur gr br epsr xr heps

end Cert.Lib.MaskedBatchNorm

end
-- ==== Proof.Net.lean ====
/-
  The network both programs compute, as one function of the fifteen argument arrays, on the extended reals.

  A ROW is a point of a polyline: batch `b < 16`, polyline `p < 768`, point `n < 20`; there are 245760 rows and
  12288 polylines. Each row has a mask bit; `mu` is that bit as the number 0 or 1.

    h1(row, c)  = sum over k < 9 of x(row, k) * wp(c, k)
    f1          = mask * relu (norm h1)              the norm's statistics taken over ALL rows, per channel c
    pool1(b, p, c) = max over n of f1((b, p, n), c)  the maximum taken from minus infinity
    h2(row, c)  = sum over k < 64 of f1(row, k) * w1(c, k)  +  sum over k < 64 of pool1(b, p, k) * w1(c, 64 + k)
    f2          = mask * relu (norm h2)
    h3(row, c)  = sum over k < 64 of f2(row, k) * w2(c, k)
    f3          = mask * relu (norm h3)
    pool3(b, p, c) = max over n of f3((b, p, n), c)
    valid(b, p) = max over n of mu(b, p, n)
    t(b, p, k)  = relu (sum over c < 64 of pool3(b, p, c) * wo1(k, c) + bo1(k))
    out(b, p, o) = (sum over k < 64 of t(b, p, k) * wo2(o, k) + bo2(o)) * valid(b, p)

  The norm is masked batch normalisation in its moment spelling: the mean and the variance of a channel are taken
  over the unmasked rows, the count of unmasked rows is at least one, and a value is normalised by one
  multiplication and one addition. `eps` is the single-precision number nearest to one hundred-thousandth.
-/
import Idealize.ShloMosaic.PureOps.Ideal
import Idealize.ShloMosaic.Lib.ValueIdx
import proofs.«135113_g11922829214230_retrytranche1_1894_3_alg».proof.Proof.LibMaskedBatchNorm

open scoped BigOperators

noncomputable section

namespace Cert.Net

open Idealize.ShloMosaic Idealize.ShloMosaic.ValueIdx

/-- A row: batch, polyline, point. -/
abbrev Row := Fin 16 × Fin 768 × Fin 20

/-- The fifteen argument arrays, in the programs' argument order. -/
structure Args where
  x : (⟨4, ![16, 768, 20, 9]⟩ : Shape).Idx → EReal
  msk : (⟨3, ![16, 768, 20]⟩ : Shape).Idx → BitVec 1
  wp : (⟨2, ![64, 9]⟩ : Shape).Idx → EReal
  gp : (⟨1, ![64]⟩ : Shape).Idx → EReal
  bp : (⟨1, ![64]⟩ : Shape).Idx → EReal
  w1 : (⟨2, ![64, 128]⟩ : Shape).Idx → EReal
  g1 : (⟨1, ![64]⟩ : Shape).Idx → EReal
  b1 : (⟨1, ![64]⟩ : Shape).Idx → EReal
  w2 : (⟨2, ![64, 64]⟩ : Shape).Idx → EReal
  g2 : (⟨1, ![64]⟩ : Shape).Idx → EReal
  b2 : (⟨1, ![64]⟩ : Shape).Idx → EReal
  wo1 : (⟨2, ![64, 64]⟩ : Shape).Idx → EReal
  bo1 : (⟨1, ![64]⟩ : Shape).Idx → EReal
  wo2 : (⟨2, ![256, 64]⟩ : Shape).Idx → EReal
  bo2 : (⟨1, ![256]⟩ : Shape).Idx → EReal

variable (A : Args)

/-- A row's mask bit as the number 0 or 1. -/
def mu (r : Row) : EReal := (((A.msk (ix3 r.1 r.2.1 r.2.2)).toNat : ℝ) : EReal)

/-- The stabiliser added to a variance. -/
def eps : EReal := Ideal.ofBits .f32 0x3727C5AC#32

/-- Masked batch normalisation of the channels of `h`, then the rectifier, then the mask again. -/
def normRelu (h : Row → Fin 64 → EReal) (g b : (⟨1, ![64]⟩ : Shape).Idx → EReal) (r : Row) (c : Fin 64) : EReal :=
  max (Cert.BN.normMoments (fun r' => h r' c) (mu A) (g (ix1 c)) (b (ix1 c)) eps (h r c)) 0 * mu A r

/-- The maximum over a polyline's twenty points, taken from minus infinity. -/
def pool (f : Row → Fin 64 → EReal) (b : Fin 16) (p : Fin 768) (c : Fin 64) : EReal :=
  (Finset.univ : Finset (Fin 20)).fold max ⊥ fun n => f (b, p, n) c

/-- The first linear layer: nine input features to sixty-four channels. -/
def h1 (r : Row) (c : Fin 64) : EReal := ∑ k : Fin 9, A.x (ix4 r.1 r.2.1 r.2.2 k) * A.wp (ix2 c k)

def f1 : Row → Fin 64 → EReal := normRelu A (h1 A) A.gp A.bp

/-- The second linear layer reads a row's own features and its polyline's pooled features. -/
def h2 (r : Row) (c : Fin 64) : EReal :=
  (∑ k : Fin 64, f1 A r k * A.w1 (ix2 c (Fin.castAdd 64 k)))
    + ∑ k : Fin 64, pool (f1 A) r.1 r.2.1 k * A.w1 (ix2 c (Fin.natAdd 64 k))

def f2 : Row → Fin 64 → EReal := normRelu A (h2 A) A.g1 A.b1

def h3 (r : Row) (c : Fin 64) : EReal := ∑ k : Fin 64, f2 A r k * A.w2 (ix2 c k)

def f3 : Row → Fin 64 → EReal := normRelu A (h3 A) A.g2 A.b2

/-- One if the polyline has an unmasked point, else zero: the maximum of its mask numbers. -/
def valid (b : Fin 16) (p : Fin 768) : EReal :=
  (Finset.univ : Finset (Fin 20)).fold max ⊥ fun n => mu A (b, p, n)

def hidden (b : Fin 16) (p : Fin 768) (k : Fin 64) : EReal :=
  max ((∑ c : Fin 64, pool (f3 A) b p c * A.wo1 (ix2 k c)) + A.bo1 (ix1 k)) 0

/-- The result at batch `b`, polyline `p`, output channel `o`. -/
def out (b : Fin 16) (p : Fin 768) (o : Fin 256) : EReal :=
  ((∑ k : Fin 64, hidden A b p k * A.wo2 (ix2 o k)) + A.bo2 (ix1 o)) * valid A b p

/-- The result array. -/
def result : (⟨3, ![16, 768, 256]⟩ : Shape).Idx → EReal := fun i => out A (i 0) (i 1) (i 2)

/-! ## The same network in the reference's spelling

  The norm in its deviation spelling; the second layer as ONE contraction over the 128 concatenated features (a row's
  own sixty-four, then its polyline's pooled sixty-four); a polyline's validity as "some point is unmasked". -/

/-- Masked batch normalisation in the deviation spelling, then the rectifier, then the mask. -/
def normReluDev (h : Row → Fin 64 → EReal) (g b : (⟨1, ![64]⟩ : Shape).Idx → EReal) (r : Row) (c : Fin 64) : EReal :=
  max (Cert.BN.normDeviations (fun r' => h r' c) (mu A) (g (ix1 c)) (b (ix1 c)) eps (h r c)) 0 * mu A r

def f1Ref : Row → Fin 64 → EReal := normReluDev A (h1 A) A.gp A.bp

/-- A row's own features followed by its polyline's pooled features. -/
def cat (f : Row → Fin 64 → EReal) (r : Row) (k : Fin 128) : EReal :=
  if hk : k.val < 64 then f r ⟨k.val, hk⟩ else pool f r.1 r.2.1 ⟨k.val - 64, by have := k.isLt; omega⟩

def h2Ref (r : Row) (c : Fin 64) : EReal := ∑ k : Fin 128, cat (f1Ref A) r k * A.w1 (ix2 c k)

def f2Ref : Row → Fin 64 → EReal := normReluDev A (h2Ref A) A.g1 A.b1

def h3Ref (r : Row) (c : Fin 64) : EReal := ∑ k : Fin 64, f2Ref A r k * A.w2 (ix2 c k)

def f3Ref : Row → Fin 64 → EReal := normReluDev A (h3Ref A) A.g2 A.b2

/-- One if some point of the polyline is unmasked, else zero. -/
def validRef (b : Fin 16) (p : Fin 768) : EReal :=
  if ∃ n : Fin 20, A.msk (ix3 b p n) = 1#1 then 1 else 0

def hiddenRef (b : Fin 16) (p : Fin 768) (k : Fin 64) : EReal :=
  max ((∑ c : Fin 64, pool (f3Ref A) b p c * A.wo1 (ix2 k c)) + A.bo1 (ix1 k)) 0

def outRef (b : Fin 16) (p : Fin 768) (o : Fin 256) : EReal :=
  ((∑ k : Fin 64, hiddenRef A b p k * A.wo2 (ix2 o k)) + A.bo2 (ix1 o)) * validRef A b p

/-- The result array in the reference's spelling. -/
def resultRef : (⟨3, ![16, 768, 256]⟩ : Shape).Idx → EReal := fun i => outRef A (i 0) (i 1) (i 2)

/-- Every float argument array has only real entries. -/
structure Args.AllReal : Prop where
  x : ∀ i, ∃ r : ℝ, A.x i = (r : EReal)
  wp : ∀ i, ∃ r : ℝ, A.wp i = (r : EReal)
  gp : ∀ i, ∃ r : ℝ, A.gp i = (r : EReal)
  bp : ∀ i, ∃ r : ℝ, A.bp i = (r : EReal)
  w1 : ∀ i, ∃ r : ℝ, A.w1 i = (r : EReal)
  g1 : ∀ i, ∃ r : ℝ, A.g1 i = (r : EReal)
  b1 : ∀ i, ∃ r : ℝ, A.b1 i = (r : EReal)
  w2 : ∀ i, ∃ r : ℝ, A.w2 i = (r : EReal)
  g2 : ∀ i, ∃ r : ℝ, A.g2 i = (r : EReal)
  b2 : ∀ i, ∃ r : ℝ, A.b2 i = (r : EReal)
  wo1 : ∀ i, ∃ r : ℝ, A.wo1 i = (r : EReal)
  bo1 : ∀ i, ∃ r : ℝ, A.bo1 i = (r : EReal)
  wo2 : ∀ i, ∃ r : ℝ, A.wo2 i = (r : EReal)
  bo2 : ∀ i, ∃ r : ℝ, A.bo2 i = (r : EReal)

end Cert.Net

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.KernelValue.lean ====
/-
  The kernel's value: the result buffer at the last boundary is the network of the arguments.

  The first stretch lays the arguments out; region 0 sums the first layer's masked moments over all rows; the second
  stretch turns them into the first norm's scale and shift; region 1 applies that norm, pools, and computes the second
  layer and its moments; and so on through region 3, which applies the third norm, pools, and computes the hidden and
  output layers, gated by each polyline's validity; the last stretch only re-shapes. Sums over the 48 blocks of 256
  polylines, the 20 points and the positions inside a block are sums over all rows: polyline `256 t + r` of the blocks
  is polyline `768 b + p` of the batches.
-/
import proofs.«135113_g11922829214230_retrytranche1_1894_3_alg».proof.Proof.KernelCarry
import proofs.«135113_g11922829214230_retrytranche1_1894_3_alg».proof.Proof.Region0Ideal
import proofs.«135113_g11922829214230_retrytranche1_1894_3_alg».proof.Proof.Net
import proofs.«135113_g11922829214230_retrytranche1_1894_3_alg».proof.Proof.LibBlockSum
import Idealize.ShloMosaic.Lib.ValueLayout

open scoped BigOperators

noncomputable section

namespace Cert.KernelIdeal.Value

open Cert.KernelIdeal Cert.KernelIdeal.Gen Cert.KernelIdeal.Carry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The kernel's fifteen argument arrays on device `c` of a memory. -/
def argsK (c : Dev nD) : Cert.Net.Args where
  x := m ((c : Thread nD τ).loc main_arg0)
  msk := m ((c : Thread nD τ).loc main_arg1)
  wp := m ((c : Thread nD τ).loc main_arg2)
  gp := m ((c : Thread nD τ).loc main_arg3)
  bp := m ((c : Thread nD τ).loc main_arg4)
  w1 := m ((c : Thread nD τ).loc main_arg5)
  g1 := m ((c : Thread nD τ).loc main_arg6)
  b1 := m ((c : Thread nD τ).loc main_arg7)
  w2 := m ((c : Thread nD τ).loc main_arg8)
  g2 := m ((c : Thread nD τ).loc main_arg9)
  b2 := m ((c : Thread nD τ).loc main_arg10)
  wo1 := m ((c : Thread nD τ).loc main_arg11)
  bo1 := m ((c : Thread nD τ).loc main_arg12)
  wo2 := m ((c : Thread nD τ).loc main_arg13)
  bo2 := m ((c : Thread nD τ).loc main_arg14)

/-! ## Sums over blocks, points and positions are sums over rows -/

/-- A sum over the 12288 polylines, as batches of 768. -/
theorem sum_poly (f : Fin 12288 → EReal) : ∑ j, f j = ∑ b : Fin 16, ∑ p : Fin 768, f (poly b p) :=
  Cert.BlockSum.sum_fin_blocks (A := 16) (B := 768) (by norm_num) f

/-- A sum over the 12288 polylines, as 48 blocks of 256. -/
theorem sum_blocks (f : Fin 12288 → EReal) :
    ∑ j, f j = ∑ t : Fin 48, ∑ r : Fin 256, f ⟨256 * t.val + r.val, Cert.BlockSum.blk_lt (A := 48) t r⟩ :=
  Cert.BlockSum.sum_fin_blocks (A := 48) (B := 256) (by norm_num) f

/-- A sum over blocks, points and positions is the sum over all rows. -/
theorem sum_rows (F : Fin 20 → Fin 12288 → EReal) :
    ∑ t : Fin 48, ∑ a : Fin 20, ∑ r : Fin 256, F a ⟨256 * t.val + r.val, Cert.BlockSum.blk_lt (A := 48) t r⟩
      = ∑ q : Cert.Net.Row, F q.2.2 (poly q.1 q.2.1) := by
  rw [Cert.BlockSum.sum_triple]
  calc ∑ t : Fin 48, ∑ a : Fin 20, ∑ r : Fin 256, F a ⟨256 * t.val + r.val, Cert.BlockSum.blk_lt (A := 48) t r⟩
      = ∑ a : Fin 20, ∑ t : Fin 48, ∑ r : Fin 256, F a ⟨256 * t.val + r.val, Cert.BlockSum.blk_lt (A := 48) t r⟩ := Finset.sum_comm
    _ = ∑ a : Fin 20, ∑ j : Fin 12288, F a j := Finset.sum_congr rfl fun a _ => (sum_blocks (F a)).symm
    _ = ∑ a : Fin 20, ∑ b : Fin 16, ∑ p : Fin 768, F a (poly b p) := Finset.sum_congr rfl fun a _ => sum_poly (F a)
    _ = ∑ b : Fin 16, ∑ a : Fin 20, ∑ p : Fin 768, F a (poly b p) := Finset.sum_comm
    _ = ∑ b : Fin 16, ∑ p : Fin 768, ∑ a : Fin 20, F a (poly b p) := Finset.sum_congr rfl fun b _ => Finset.sum_comm

/-- The same with the blocks indexed by region 0's grid points. -/
theorem sum_rows0 (F : Fin 20 → Fin 12288 → EReal) :
    ∑ t : Fin cfg0.N, ∑ a : Fin 20, ∑ r : Fin 256, F a (R0.rowOf t r) = ∑ q : Cert.Net.Row, F q.2.2 (poly q.1 q.2.1) := by
  rw [← sum_rows F]
  exact Fintype.sum_equiv (finCongr N_0) _ _ (fun t => rfl)

/-! ## A norm's scale and shift from its moments -/

/-- When the two moments of a channel and the count are the sums over all rows, the stretch's scale and shift are the
    moment spelling's multiplier and offset. -/
theorem scale_shift_eq (s q : FVec Ideal S64 .f32) (cnt : FVec Ideal S_ .f32) (g b : FVec Ideal S64 .f32)
    (h mu : Cert.Net.Row → EReal) (ch : Fin 64)
    (hs : s (ix1 ch) = ∑ i, h i * mu i) (hq : q (ix1 ch) = ∑ i, (h i * mu i) * h i) (hc : cnt ix0 = Cert.BN.cnt mu) :
    scaleOf s q cnt g (ix1 ch) = Cert.BN.scale h mu (g (ix1 ch)) Cert.Net.eps
      ∧ shiftOf s q cnt g b (ix1 ch) = Cert.BN.shift h mu (g (ix1 ch)) (b (ix1 ch)) Cert.Net.eps := by
  have hm : meanOf s cnt (ix1 ch) = Cert.BN.mean h mu := by rw [meanOf_apply, hs, hc]; rfl
  have hsc : scaleOf s q cnt g (ix1 ch) = Cert.BN.scale h mu (g (ix1 ch)) Cert.Net.eps := by
    rw [scaleOf_apply, hm, hq, hc]; rfl
  exact ⟨hsc, by rw [shiftOf_apply, hm, hsc]; rfl⟩

/-! ## The regions' result arrays at the boundaries, typed -/

/-- Region 0's sum, square and count arrays at the boundary after it. -/
def s0arr (c : Dev nD) : FVec Ideal S1x64 .f32 := W2 m ρ c (Proc.devRef .tc main_v13_0)
def q0arr (c : Dev nD) : FVec Ideal S1x64 .f32 := W2 m ρ c (Proc.devRef .tc main_v13_1)
def c0arr (c : Dev nD) : FVec Ideal S1x1 .f32 := W2 m ρ c (Proc.devRef .tc main_v13_2)
/-- Region 1's sum and square arrays and its second-layer array at the boundary after it. -/
def s1arr (c : Dev nD) : FVec Ideal S1x64 .f32 := W4 m ρ c (Proc.devRef .tc main_v34_0)
def q1arr (c : Dev nD) : FVec Ideal S1x64 .f32 := W4 m ρ c (Proc.devRef .tc main_v34_1)
def h2arr (c : Dev nD) : FVec Ideal S20x12288x64 .f32 := W4 m ρ c (Proc.devRef .tc main_v34_2)
/-- Region 2's sum and square arrays and its third-layer array at the boundary after it. -/
def s2arr (c : Dev nD) : FVec Ideal S1x64 .f32 := W6 m ρ c (Proc.devRef .tc main_v53_0)
def q2arr (c : Dev nD) : FVec Ideal S1x64 .f32 := W6 m ρ c (Proc.devRef .tc main_v53_1)
def h3arr (c : Dev nD) : FVec Ideal S20x12288x64 .f32 := W6 m ρ c (Proc.devRef .tc main_v53_2)
/-- The mask numbers as regions 2 and 3 find them. -/
def m5arr (c : Dev nD) : FVec Ideal S20x12288 .f32 := W5 m ρ c (Proc.devRef .tc main_v4)
def m7arr (c : Dev nD) : FVec Ideal S20x12288 .f32 := W7 m ρ c (Proc.devRef .tc main_v4)
/-- Region 3's result array at the boundary after it. -/
def outK (c : Dev nD) : FVec Ideal S12288x256 .f32 := W8 m ρ c (Proc.devRef .tc main_v74)

/-! ## Region 0 and the second stretch: the first norm's constants -/

/-- The first layer as region 0 computes it, at polyline `768 b + p`, is the network's first layer. -/
theorem lin0 (c : Dev nD) (b : Fin 16) (p : Fin 768) (n : Fin 20) (ch : Fin 64) :
    R0.lin (V1 m ρ) c n (poly b p) ch = Cert.Net.h1 (argsK m c) (b, p, n) ch := by
  unfold R0.lin Cert.Net.h1
  refine Finset.sum_congr rfl fun k _ => ?_
  show entX m ρ c (ix3 n (poly b p) k) * entW m ρ c (ix2 k ch) = _
  rw [entX_apply, entW_apply]
  rfl

/-- The mask numbers as region 0 finds them are the network's. -/
theorem msk0 (c : Dev nD) (b : Fin 16) (p : Fin 768) (n : Fin 20) :
    R0.msk (V1 m ρ) c n (poly b p) = Cert.Net.mu (argsK m c) (b, p, n) := by
  show entM m ρ c (ix2 n (poly b p)) = _
  rw [entM_apply]
  rfl

/-- After region 0 the sum array holds the first layer's masked sum over all rows. -/
theorem S0_eq (c : Dev nD) (z : Fin 1) (ch : Fin 64) :
    s0arr m ρ c (ix2 z ch)
      = ∑ q : Cert.Net.Row, Cert.Net.h1 (argsK m c) q ch * Cert.Net.mu (argsK m c) q := by
  rw [show s0arr m ρ c = (dat0 (V1 m ρ) c).arrAt 3 cfg0.N from W2_arr m ρ c 3]
  rw [R0.region0_sum (V1 m ρ) c z ch, sum_rows0 (fun a j => R0.lin (V1 m ρ) c a j ch * R0.msk (V1 m ρ) c a j)]
  exact Finset.sum_congr rfl fun q _ => by rw [lin0, msk0]

/-- After region 0 the square array holds the first layer's masked sum of squares over all rows. -/
theorem Q0_eq (c : Dev nD) (z : Fin 1) (ch : Fin 64) :
    q0arr m ρ c (ix2 z ch)
      = ∑ q : Cert.Net.Row, (Cert.Net.h1 (argsK m c) q ch * Cert.Net.mu (argsK m c) q) * Cert.Net.h1 (argsK m c) q ch := by
  rw [show q0arr m ρ c = (dat0 (V1 m ρ) c).arrAt 4 cfg0.N from W2_arr m ρ c 4]
  rw [R0.region0_sq (V1 m ρ) c z ch,
    sum_rows0 (fun a j => (R0.lin (V1 m ρ) c a j ch * R0.msk (V1 m ρ) c a j) * R0.lin (V1 m ρ) c a j ch)]
  exact Finset.sum_congr rfl fun q _ => by rw [lin0, msk0]

/-- After region 0 the count array holds the number of unmasked rows. -/
theorem C0_eq (c : Dev nD) (z z' : Fin 1) :
    c0arr m ρ c (ix2 z z') = ∑ q : Cert.Net.Row, Cert.Net.mu (argsK m c) q := by
  rw [show c0arr m ρ c = (dat0 (V1 m ρ) c).arrAt 5 cfg0.N from W2_arr m ρ c 5]
  rw [R0.region0_cnt (V1 m ρ) c z z', sum_rows0 (fun a j => R0.msk (V1 m ρ) c a j)]
  exact Finset.sum_congr rfl fun q _ => msk0 m ρ c q.1 q.2.1 q.2.2

/-- The count the second stretch computes is the network's. -/
theorem cnt3_apply (c : Dev nD) : cnt3 m ρ c ix0 = Cert.BN.cnt (Cert.Net.mu (argsK m c)) := by
  rw [cnt3_eq, cntOf_apply]
  show max (c0arr m ρ c (ix2 0 0)) 1 = _
  rw [C0_eq]
  rfl

/-- Argument arrays, read at the boundary before the second stretch, are the launch memory's. -/
theorem gp_apply (c : Dev nD) (ch : Fin 64) :
    ((W2 m ρ c (Proc.devRef .tc main_arg3)) : FVec Ideal S64 .f32) (ix1 ch) = (argsK m c).gp (ix1 ch) :=
  congrFun (keep_arg3_2 m ρ c) (ix1 ch)
theorem bp_apply (c : Dev nD) (ch : Fin 64) :
    ((W2 m ρ c (Proc.devRef .tc main_arg4)) : FVec Ideal S64 .f32) (ix1 ch) = (argsK m c).bp (ix1 ch) :=
  congrFun (keep_arg4_2 m ρ c) (ix1 ch)

/-- The first norm's scale and shift, as region 1 finds them, are the moment spelling's of the first layer. -/
theorem norm0 (c : Dev nD) (z : Fin 1) (ch : Fin 64) :
    sc0 m ρ c (ix2 z ch)
        = Cert.BN.scale (fun q => Cert.Net.h1 (argsK m c) q ch) (Cert.Net.mu (argsK m c)) ((argsK m c).gp (ix1 ch)) Cert.Net.eps
      ∧ sh0 m ρ c (ix2 z ch)
        = Cert.BN.shift (fun q => Cert.Net.h1 (argsK m c) q ch) (Cert.Net.mu (argsK m c)) ((argsK m c).gp (ix1 ch))
            ((argsK m c).bp (ix1 ch)) Cert.Net.eps := by
  have key := scale_shift_eq (shapeCast S64 (W2 m ρ c (Proc.devRef .tc main_v13_0)) shapeCasts_S1x64_S64)
    (shapeCast S64 (W2 m ρ c (Proc.devRef .tc main_v13_1)) shapeCasts_S1x64_S64) (cntOf (W2 m ρ c (Proc.devRef .tc main_v13_2)))
    (W2 m ρ c (Proc.devRef .tc main_arg3)) (W2 m ρ c (Proc.devRef .tc main_arg4))
    (fun q => Cert.Net.h1 (argsK m c) q ch) (Cert.Net.mu (argsK m c)) ch
    ((shapeCast_1a_a_apply _ _ ch).trans (S0_eq m ρ c 0 ch))
    ((shapeCast_1a_a_apply _ _ ch).trans (Q0_eq m ρ c 0 ch))
    ((cntOf_apply _).trans (by show max (c0arr m ρ c (ix2 0 0)) 1 = _; rw [C0_eq m ρ c 0 0]; rfl))
  rw [gp_apply, bp_apply] at key
  exact ⟨by rw [sc0_eq, rowOf64_apply]; exact key.1, by rw [sh0_eq, rowOf64_apply]; exact key.2⟩

end Cert.KernelIdeal.Value

end
-- ==== Proof.LibLayoutUnit.lean ====
/-
  Unit axes put in front of a vector or a matrix and copied along, read at an index.

  Casting `[C]` to `[1, 1, C]` puts two unit axes in front: entry `(0, 0, c)` is entry `c`, both having row-major
  position `c`. Broadcasting `[1, 1, C]` to `[A, B, C]` copies entry `(0, 0, c)` to every `(a, b, c)`, and broadcasting
  `[1, B, C]` to `[A, B, C]` copies entry `(0, b, c)` to every `(a, b, c)`.
-/
import Idealize.ShloMosaic.Lib.Pipeline.Value
import Idealize.ShloMosaic.Lib.ValueIdx

namespace Cert.LayoutUnit

open Idealize.ShloMosaic Idealize.ShloMosaic.ValueIdx

variable {α : Type}

/-- `[C]` cast to `[1, 1, C]`: at `(u, v, c)`, the operand at `c`, whatever the unit coordinates `u` and `v`. -/
theorem shapeCast_c_11c_apply {C : ℕ} (x : (⟨1, ![C]⟩ : Shape).Idx → α)
    (h : (⟨1, ![C]⟩ : Shape).ShapeCasts ⟨3, ![1, 1, C]⟩) (u v : Fin 1) (c : Fin C) :
    shapeCast ⟨3, ![1, 1, C]⟩ x h (ix3 u v c) = x (ix1 c) :=
  shapeCast_apply x h _ _ (by
    have hu : u.val = 0 := by omega
    have hv : v.val = 0 := by omega
    rw [Shape.rowMajor_val_one, Shape.rowMajor_val_three]
    show c.val = (u.val * 1 + v.val) * C + c.val
    rw [hu, hv]
    simp)

/-- `[1, 1, C]` broadcast to `[A, B, C]`: at `(a, b, c)`, the operand at `(0, 0, c)`. -/
theorem broadcastTo_11c_abc_apply {A B C : ℕ} (v : (⟨3, ![1, 1, C]⟩ : Shape).Idx → α)
    (h : (⟨3, ![1, 1, C]⟩ : Shape).Broadcasts ⟨3, ![A, B, C]⟩) (a : Fin A) (b : Fin B) (c : Fin C) :
    broadcastTo ⟨3, ![A, B, C]⟩ v h (ix3 a b c) = v (ix3 (0 : Fin 1) (0 : Fin 1) c) := by
  refine broadcastTo_apply v h (ix3 a b c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

/-- `[1, B, C]` broadcast to `[A, B, C]`: at `(a, b, c)`, the operand at `(0, b, c)`. -/
theorem broadcastTo_1bc_abc_apply {A B C : ℕ} (v : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

end Cert.LayoutUnit
-- ==== Proof.LibLayoutMax.lean ====
/-
  A max-reduction over the leading axis, and a row vector spread over a rank-three array, read at an index.

  A max-reduction of an `[A, B, C]` (or `[A, B]`) array over its leading axis, started from minus infinity, has at
  `(b, c)` (at `b`) the maximum over `k` of the entries `(k, b, c)` (`(k, b)`), the maximum of no entry being bottom:
  the word of minus infinity denotes the bottom extended real, and the reduction's source index over a reduced index
  puts the leading coordinate back in front.
  A vector of `c` numbers cast to `[1, 1, c]` keeps entry `i` at `(0, 0, i)`: both have row-major position `i`.
  A `[1, 1, C]` array broadcast to `[A, B, C]` copies entry `(0, 0, c)` to every `(a, b, c)`.
-/
import Idealize.ShloMosaic.PureOps.Ideal.Laws
import Idealize.ShloMosaic.Lib.Pipeline.Value
import Idealize.ShloMosaic.Lib.ValueIdx
import Idealize.ShloMosaic.Lib.ValueLayout

open scoped BigOperators

noncomputable section

namespace Cert.LeadMax

open Idealize.ShloMosaic Idealize.ShloMosaic.ValueIdx

/-- The word of minus infinity denotes the bottom extended real. -/
theorem ofBits_neg_inf_f32 : Ideal.ofBits .f32 0xFF800000#32 = (⊥ : EReal) := by simp [Ideal.ofBits, Ideal.ieee]

/-- Over the index `(b, c)` of the reduced array, the source index with leading coordinate `k` is `(k, b, c)`. -/
theorem lift0_ix3 {A B C : ℕ} (h : (⟨3, ![A, B, C]⟩ : Shape).Reduces [0] ⟨2, ![B, C]⟩) (b : Fin B) (c : Fin C) (k : Fin A) :
    h.lift (ix2 b c) k = ix3 k b c := by
  funext d
  apply Fin.ext
  match d with
  | ⟨0, _⟩ => rfl
  | ⟨1, _⟩ => rfl
  | ⟨2, _⟩ => rfl

/-- Over the index `b` of the reduced vector, the source index with leading coordinate `k` is `(k, b)`. -/
theorem lift0_ix2 {A B : ℕ} (h : (⟨2, ![A, B]⟩ : Shape).Reduces [0] ⟨1, ![B]⟩) (b : Fin B) (k : Fin A) :
    h.lift (ix1 b) k = ix2 k b := by
  funext d
  apply Fin.ext
  match d with
  | ⟨0, _⟩ => rfl
  | ⟨1, _⟩ => rfl

/-- A max-reduction of an `[A, B, C]` array over its leading axis from minus infinity, at the extended reals, is at
    `(b, c)` the maximum over `k` of the entries `(k, b, c)`, starting from bottom. -/
theorem multiReduction_max_lead3 {A B C : ℕ} (src : FVec Ideal ⟨3, ![A, B, C]⟩ .f32)
    (h : (⟨3, ![A, B, C]⟩ : Shape).Reduces [0] ⟨2, ![B, C]⟩) (hφ : FKind.Formats .f32)
    (hacc : (0xFF800000#32 : BitVec 32) = 0xFF800000#32) (b : Fin B) (c : Fin C) :
    multiReduction .maximumf [0] ⟨2, ![B, C]⟩ src 0xFF800000#32 h hφ hacc (ix2 b c)
      = (Finset.univ : Finset (Fin A)).fold max ⊥ fun k => src (ix3 k b c) := by
  refine (Ideal.multiReduction_maximumf_single src 0xFF800000#32 h hφ hacc (ix2 b c)).trans ?_
  have e : (src ∘ h.lift (ix2 b c)) = fun k : Fin A => src (ix3 k b c) := funext fun k => congrArg src (lift0_ix3 h b c k)
  show (Finset.univ : Finset (Fin A)).fold max (Ideal.ofBits .f32 0xFF800000#32) (src ∘ h.lift (ix2 b c)) = _
  rw [e, ofBits_neg_inf_f32]
  rfl

/-- A max-reduction of an `[A, B]` array over its leading axis from minus infinity, at the extended reals, is at `b`
    the maximum over `k` of the entries `(k, b)`, starting from bottom. -/
theorem multiReduction_max_lead2 {A B : ℕ} (src : FVec Ideal ⟨2, ![A, B]⟩ .f32)
    (h : (⟨2, ![A, B]⟩ : Shape).Reduces [0] ⟨1, ![B]⟩) (hφ : FKind.Formats .f32)
    (hacc : (0xFF800000#32 : BitVec 32) = 0xFF800000#32) (b : Fin B) :
    multiReduction .maximumf [0] ⟨1, ![B]⟩ src 0xFF800000#32 h hφ hacc (ix1 b)
      = (Finset.univ : Finset (Fin A)).fold max ⊥ fun k => src (ix2 k b) := by
  refine (Ideal.multiReduction_maximumf_single src 0xFF800000#32 h hφ hacc (ix1 b)).trans ?_
  have e : (src ∘ h.lift (ix1 b)) = fun k : Fin A => src (ix2 k b) := funext fun k => congrArg src (lift0_ix2 h b k)
  show (Finset.univ : Finset (Fin A)).fold max (Ideal.ofBits .f32 0xFF800000#32) (src ∘ h.lift (ix1 b)) = _
  rw [e, ofBits_neg_inf_f32]
  rfl

variable {α : Type}

/-- A `[c]` vector cast to `[1, 1, c]` reads, at `(u, u', i)`, the operand at `i`, whatever the unit coordinates. -/
theorem shapeCast_c_11c_apply {c : ℕ} (x : (⟨1, ![c]⟩ : Shape).Idx → α) (h : (⟨1, ![c]⟩ : Shape).ShapeCasts ⟨3, ![1, 1, c]⟩)
    (u u' : Fin 1) (i : Fin c) : shapeCast ⟨3, ![1, 1, c]⟩ x h (ix3 u u' i) = x (ix1 i) :=
  shapeCast_apply x h _ _ (by
    have hu : u.val = 0 := by omega
    have hu' : u'.val = 0 := by omega
    rw [Shape.rowMajor_val_one, Shape.rowMajor_val_three]
    show i.val = (u.val * 1 + u'.val) * c + i.val
    simp only [hu, hu', Nat.zero_mul, Nat.zero_add])

/-- A `[1, 1, C]` array broadcast to `[A, B, C]` reads, at `(a, b, c)`, the operand's one row at `c`. -/
theorem broadcastTo_11c_abc_apply {A B C : ℕ} (v : (⟨3, ![1, 1, C]⟩ : Shape).Idx → α)
    (h : (⟨3, ![1, 1, C]⟩ : Shape).Broadcasts ⟨3, ![A, B, C]⟩) (a : Fin A) (b : Fin B) (c : Fin C) :
    broadcastTo ⟨3, ![A, B, C]⟩ v h (ix3 a b c) = v (ix3 (0 : Fin 1) (0 : Fin 1) c) := by
  refine broadcastTo_apply v h (ix3 a b c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

end Cert.LeadMax

end
-- ==== Proof.Region1.lean ====
/-
  The second region, point by point: what its body leaves in its three outputs.

  The region runs over forty-eight blocks of 256 polylines. Its body recomputes the first layer of the block's points,
  normalizes it with the finished scale and shift, clamps it at zero and masks it; takes the largest value over the
  twenty points of each polyline; and forms the second linear layer as the masked features times one weight matrix plus
  the pooled features times another. That block of the second layer is stored whole at every point. Two accumulators
  stay in place from point to point: the masked sum of the second layer per channel and the masked sum of its squares
  per channel. At the first point each accumulator is first set to zero, so it ends at zero plus the block's
  contribution; at every later point it ends at what the point before left plus the block's contribution. Each value
  is the body's arithmetic as one pure term of the block's seven inputs. So what the outputs hold after point `n` is a
  recursion on `n` over those terms, and the region's own account of its outputs, point by point, is that recursion:
  by induction on the point.

  The second half reads those terms at the extended reals, where every operation is exact. The block of the second
  layer at a point is, entry by entry, the second layer of the region's entry arrays at the block's polylines: the
  matrix products are finite sums, the reshapes around them move no entry, the scale, the shift and the mask are copied
  along the axes they lack, and the pooled features are the largest of the twenty. The accumulators after the last
  point are the sums of the blocks' contributions over all forty-eight blocks. Every point writes its block of the
  second layer back and the blocks fill the array, and the accumulators are written back once, after the last point:
  so the region's three result arrays are the second layer, its masked sum per channel and the masked sum of its
  squares per channel, all in terms of the arrays as the region finds them.
-/
import proofs.«135113_g11922829214230_retrytranche1_1894_3_alg».proof.Proof.Gen.KernelIdeal.Frame
import Idealize.ShloMosaic.Lib.Pipeline.Value
import Idealize.ShloMosaic.Lib.Tactic
import proofs.«135113_g11922829214230_retrytranche1_1894_3_alg».proof.Proof.LibLayout3
import proofs.«135113_g11922829214230_retrytranche1_1894_3_alg».proof.Proof.LibReduceLeading
import proofs.«135113_g11922829214230_retrytranche1_1894_3_alg».proof.Proof.LibMatmul
import proofs.«135113_g11922829214230_retrytranche1_1894_3_alg».proof.Proof.LibLayoutUnit
import proofs.«135113_g11922829214230_retrytranche1_1894_3_alg».proof.Proof.LibLayoutMax
import Idealize.ShloMosaic.PureOps.Ideal.Laws
import Idealize.ShloMosaic.Lib.ValueLayout

noncomputable section

namespace Cert.KernelIdeal.R1

open Cert.KernelIdeal Cert.KernelIdeal.Gen
open Idealize.ShloMosaic Idealize.ShloMosaic.TcCoe Idealize.ShloMosaic.Tactic Idealize.SL.Sem

variable {F : FTy → Type} [FloatOps F]

/-- The zero offsets of a two-axis rectangle. -/
theorem hz2 : (![0, 0] : Fin 2 → Nat) = fun _ => 0 := funext fun a => by fin_cases a <;> rfl
/-- The zero offsets of a three-axis rectangle. -/
theorem hz3 : (![0, 0, 0] : Fin 3 → Nat) = fun _ => 0 := funext fun a => by fin_cases a <;> rfl

/-- A later point stores the block of the second layer. -/
theorem outB9 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : ¬cond1_0 i) (hc1 : ¬cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) (p7 : Vec F S1x64 .f32) (p8 : Vec F S1x64 .f32) :
    out1_B_9 c i a1 h1 a2 h2 a3 h3 a4 h4 a5 h5 a6 h6 a7 h7 a8 h8 a9 h9 a10 h10 hc0 hc1 x0 x1 x2 x3 x4 x5 x6 p7 p8 = k1_pay7 x1 x0 x2 x3 x4 x6 x5 := by
  unfold out1_B_9
  rw [View.read_writes_eq_canon _ _ _ (cover1_B_9 c i a1 h1 a2 h2 a3 h3 a4 h4 a5 h5 a6 h6 a7 h7 a8 h8 a9 h9 a10 h10 hc0 hc1 x0 x1 x2 x3 x4 x5 x6 p7 p8)]
  unfold kernelRun1_B
  dsimp only
  sl_unfold_words
  rw [View.canon_unit_zero hz3]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-- A later point leaves, in the sum accumulator holding `p7`, `p7` plus the block's masked channel sums of the second layer. -/
theorem outB7 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : ¬cond1_0 i) (hc1 : ¬cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) (p7 : Vec F S1x64 .f32) (p8 : Vec F S1x64 .f32) :
    out1_B_7 c i a1 h1 a2 h2 a3 h3 a4 h4 a5 h5 a6 h6 a7 h7 a8 h8 a9 h9 a10 h10 hc0 hc1 x0 x1 x2 x3 x4 x5 x6 p7 p8 = k1_pay3 (k1_pay6 x1) (k1_pay7 x1 x0 x2 x3 x4 x6 x5) p7 := by
  unfold out1_B_7
  rw [View.read_writes_eq_canon _ _ _ (cover1_B_7 c i a1 h1 a2 h2 a3 h3 a4 h4 a5 h5 a6 h6 a7 h7 a8 h8 a9 h9 a10 h10 hc0 hc1 x0 x1 x2 x3 x4 x5 x6 p7 p8)]
  unfold kernelRun1_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-- A later point leaves, in the square accumulator holding `p8`, `p8` plus the block's masked channel sums of squares. -/
theorem outB8 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : ¬cond1_0 i) (hc1 : ¬cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) (p7 : Vec F S1x64 .f32) (p8 : Vec F S1x64 .f32) :
    out1_B_8 c i a1 h1 a2 h2 a3 h3 a4 h4 a5 h5 a6 h6 a7 h7 a8 h8 a9 h9 a10 h10 hc0 hc1 x0 x1 x2 x3 x4 x5 x6 p7 p8 = k1_pay5 (k1_pay6 x1) (k1_pay7 x1 x0 x2 x3 x4 x6 x5) p8 := by
  unfold out1_B_8
  rw [View.read_writes_eq_canon _ _ _ (cover1_B_8 c i a1 h1 a2 h2 a3 h3 a4 h4 a5 h5 a6 h6 a7 h7 a8 h8 a9 h9 a10 h10 hc0 hc1 x0 x1 x2 x3 x4 x5 x6 p7 p8)]
  unfold kernelRun1_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-- The first point stores the block of the second layer. -/
theorem outA9 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : cond1_0 i) (hc1 : cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) :
    out1_A_9 c i a1 h1 a2 h2 a3 h3 a4 h4 a5 h5 a6 h6 a7 h7 a8 h8 a9 h9 a10 h10 hc0 hc1 x0 x1 x2 x3 x4 x5 x6 = k1_pay7 x1 x0 x2 x3 x4 x6 x5 := by
  unfold out1_A_9
  rw [View.read_writes_eq_canon _ _ _ (cover1_A_9 c i a1 h1 a2 h2 a3 h3 a4 h4 a5 h5 a6 h6 a7 h7 a8 h8 a9 h9 a10 h10 hc0 hc1 x0 x1 x2 x3 x4 x5 x6)]
  unfold kernelRun1_A
  dsimp only
  sl_unfold_words
  rw [View.canon_unit_zero hz3]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-- The first point leaves zero plus the block's masked channel sums of the second layer. -/
theorem outA7 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : cond1_0 i) (hc1 : cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) :
    out1_A_7 c i a1 h1 a2 h2 a3 h3 a4 h4 a5 h5 a6 h6 a7 h7 a8 h8 a9 h9 a10 h10 hc0 hc1 x0 x1 x2 x3 x4 x5 x6 = k1_pay3 (k1_pay6 x1) (k1_pay7 x1 x0 x2 x3 x4 x6 x5) (k1_pay2 (F := F)) := by
  unfold out1_A_7
  rw [View.read_writes_eq_canon _ _ _ (cover1_A_7 c i a1 h1 a2 h2 a3 h3 a4 h4 a5 h5 a6 h6 a7 h7 a8 h8 a9 h9 a10 h10 hc0 hc1 x0 x1 x2 x3 x4 x5 x6)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-- The first point leaves zero plus the block's masked channel sums of squares. -/
theorem outA8 (c : Dev nD) (i : grid1.Coords) (a1 : Memref sig .tc .vmem S20x256x9 .f32) (h1 : a1.IsWhole) (a2 : Memref sig .tc .vmem S20x256 .f32) (h2 : a2.IsWhole) (a3 : Memref sig .tc .vmem S9x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S20x256x64 .f32) (h10 : a10.IsWhole) (hc0 : cond1_0 i) (hc1 : cond1_1 i)
    (x0 : Vec F S20x256x9 .f32) (x1 : Vec F S20x256 .f32) (x2 : Vec F S9x64 .f32) (x3 : Vec F S1x64 .f32) (x4 : Vec F S1x64 .f32) (x5 : Vec F S64x64 .f32) (x6 : Vec F S64x64 .f32) :
    out1_A_8 c i a1 h1 a2 h2 a3 h3 a4 h4 a5 h5 a6 h6 a7 h7 a8 h8 a9 h9 a10 h10 hc0 hc1 x0 x1 x2 x3 x4 x5 x6 = k1_pay5 (k1_pay6 x1) (k1_pay7 x1 x0 x2 x3 x4 x6 x5) (k1_pay4 (F := F)) := by
  unfold out1_A_8
  rw [View.read_writes_eq_canon _ _ _ (cover1_A_8 c i a1 h1 a2 h2 a3 h3 a4 h4 a5 h5 a6 h6 a7 h7 a8 h8 a9 h9 a10 h10 hc0 hc1 x0 x1 x2 x3 x4 x5 x6)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    h7.read_unread, h8.read_unread, h9.read_unread, h10.read_unread,
    View.ld_unit_zero (S := S20x256) hz2, View.ld_unit_zero (S := S20x256x9) hz3, View.ld_unit_zero (S := S9x64) hz2,
    View.ld_unit_zero (S := S1x64) hz2, View.ld_unit_zero (S := S64x64) hz2, View.ld_unit_zero (S := S20x256x64) hz3]

/-! ## The outputs after each point -/

variable (V : (c : Dev nD) → (b : Ref sig .tc) → Buf (Elt F) ((c : Thread nD τ).loc b))

/-- The block of the second layer at point `t`: the body's term of the point's seven input blocks. -/
def hblk (c : Dev nD) (t : Fin cfg1.N) : Vec F S20x256x64 .f32 :=
  k1_pay7 (iblk1 V c 1 t) (iblk1 V c 0 t) (iblk1 V c 2 t) (iblk1 V c 3 t) (iblk1 V c 4 t) (iblk1 V c 6 t) (iblk1 V c 5 t)

/-- The mask of point `t`'s block with a unit channel axis, as the body multiplies by it. -/
def mblk3 (c : Dev nD) (t : Fin cfg1.N) : Vec F S20x256x1 .f32 := k1_pay6 (iblk1 V c 1 t)

/-- The three outputs after point `n`: the two accumulators — at the first point, zero plus the block's contribution; at
    a later one, what the point before left plus the block's contribution — and the point's block of the second layer. -/
def acc (c : Dev nD) : (n : ℕ) → n < cfg1.N → Vec F S1x64 .f32 × Vec F S1x64 .f32 × Vec F S20x256x64 .f32
  | 0, h => (k1_pay3 (mblk3 V c ⟨0, h⟩) (hblk V c ⟨0, h⟩) (k1_pay2 (F := F)),
             k1_pay5 (mblk3 V c ⟨0, h⟩) (hblk V c ⟨0, h⟩) (k1_pay4 (F := F)),
             hblk V c ⟨0, h⟩)
  | n + 1, h => (k1_pay3 (mblk3 V c ⟨n + 1, h⟩) (hblk V c ⟨n + 1, h⟩) (acc c n (Nat.lt_of_succ_lt h)).1,
                 k1_pay5 (mblk3 V c ⟨n + 1, h⟩) (hblk V c ⟨n + 1, h⟩) (acc c n (Nat.lt_of_succ_lt h)).2.1,
                 hblk V c ⟨n + 1, h⟩)

/-- What the region's proof data says the outputs hold after point `n` is that recursion: by induction on the point,
    the first point by the first case's three values, a later one by the other case's. -/
theorem outsAt_eq (c : Dev nD) : ∀ (n : ℕ) (h : n < cfg1.N), outsAt1 V c n h = acc V c n h
  | 0, h => by
    rw [outsAt1_A V c ⟨0, h⟩ rfl rfl, outA7, outA8, outA9]
    rfl
  | n + 1, h => by
    have hN : cfg1.N = 48 := N_1
    have hB : ¬(⟨n + 1, h⟩ : Fin cfg1.N).val % 48 = 0 := by dsimp only; omega
    rw [outsAt1_B V c ⟨n + 1, h⟩ hB hB, outB7, outB8, outB9]
    show (k1_pay3 _ _ (outsAt1 V c n _).1, k1_pay5 _ _ (outsAt1 V c n _).2.1, _) = _
    rw [outsAt_eq c n]
    rfl

/-- The third output after any point is that point's block of the second layer. -/
theorem acc_trd (c : Dev nD) : ∀ (n : ℕ) (h : n < cfg1.N), (acc V c n h).2.2 = hblk V c ⟨n, h⟩
  | 0, _ => rfl
  | _ + 1, _ => rfl

end Cert.KernelIdeal.R1

/-! ## The block's values, read at the extended reals -/

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The first layer's contraction is the plain one: `[5120, 9]` by `[9, 64]`. -/
theorem dot9_eq : dot_S5120x9_S9x64_S5120x64_1_0_0_1_n_n = DotDims.plain 5120 9 64 := rfl
/-- The second layer's contraction of the features is the plain one: `[5120, 64]` by `[64, 64]`. -/
theorem dot5120_eq : dot_S5120x64_S64x64_S5120x64_1_0_0_1_n_n = DotDims.plain 5120 64 64 := rfl
/-- The second layer's contraction of the pooled features is the plain one: `[256, 64]` by `[64, 64]`. -/
theorem dot256_eq : dot_S256x64_S64x64_S256x64_1_0_0_1_n_n = DotDims.plain 256 64 64 := rfl

/-- A sum-reduction over the two leading axes of a rank-three array, at the extended reals, is the double sum. -/
theorem multiReduction_add_lead2 {A B C : ℕ} (src : FVec Ideal ⟨3, ![A, B, C]⟩ .f32)
    (h : (⟨3, ![A, B, C]⟩ : Shape).Reduces [0, 1] ⟨1, ![C]⟩) (hφ : FKind.Formats .f32)
    (hacc : (0x00000000#32 : BitVec 32) = 0x00000000#32) (jc : Fin C) :
    multiReduction .add [0, 1] ⟨1, ![C]⟩ src 0x00000000#32 h hφ hacc (ix1 jc) = ∑ a : Fin A, ∑ b : Fin B, src (ix3 a b jc) :=
  Cert.ReduceLeading.sum_filter_drop_lead2 h src jc

/-- The first linear layer of a block: its points, laid out as 5120 rows, times the first weight matrix, laid out
    back as twenty points of 256 polylines. -/
def lin (x0 : Vec Ideal S20x256x9 .f32) (x2 : Vec Ideal S9x64 .f32) : FVec Ideal S20x256x64 .f32 :=
  have v5 : FVec Ideal S20x256x9 .f32 := shapeCast S20x256x9 x0 shapeCasts_S20x256x9_S20x256x9
  have v7 : FVec Ideal S9x64 .f32 := shapeCast S9x64 x2 shapeCasts_S9x64_S9x64
  have v8 : FVec Ideal S5120x9 .f32 := shapeCast S5120x9 v5 shapeCasts_S20x256x9_S5120x9
  have cst : FVec Ideal S5120x64 .f32 := constant S5120x64 .f32 0x00000000#32
  have v9 : FVec Ideal S5120x64 .f32 := matmul dot_S5120x9_S9x64_S5120x64_1_0_0_1_n_n none v8 v7 cst
  shapeCast S20x256x64 v9 shapeCasts_S5120x64_S20x256x64

/-- The block's features: the first layer times the scale plus the shift, clamped at zero, times the mask. -/
def fea (x1 : Vec Ideal S20x256 .f32) (x0 : Vec Ideal S20x256x9 .f32) (x2 : Vec Ideal S9x64 .f32)
    (x3 : Vec Ideal S1x64 .f32) (x4 : Vec Ideal S1x64 .f32) : FVec Ideal S20x256x64 .f32 :=
  have v12 : FVec Ideal S64 .f32 := shapeCast S64 x3 shapeCasts_S1x64_S64
  have v13 : FVec Ideal S1x1x64 .f32 := shapeCast S1x1x64 v12 shapeCasts_S64_S1x1x64
  have v14 : FVec Ideal S20x256x64 .f32 := broadcastTo S20x256x64 v13 broadcasts_S1x1x64_S20x256x64
  have v15 : FVec Ideal S20x256x64 .f32 := mulf (lin x0 x2) v14
  have v17 : FVec Ideal S64 .f32 := shapeCast S64 x4 shapeCasts_S1x64_S64
  have v18 : FVec Ideal S1x1x64 .f32 := shapeCast S1x1x64 v17 shapeCasts_S64_S1x1x64
  have v19 : FVec Ideal S20x256x64 .f32 := broadcastTo S20x256x64 v18 broadcasts_S1x1x64_S20x256x64
  have v20 : FVec Ideal S20x256x64 .f32 := addf v15 v19
  have cst_10 : Ideal .f32 := Scalar.ofBits .f32 0x00000000#32
  have v21 : FVec Ideal S20x256x64 .f32 := broadcast S20x256x64 cst_10
  have v22 : FVec Ideal S20x256x64 .f32 := maximumf v20 v21
  have v23 : FVec Ideal S20x256x64 .f32 := broadcastTo S20x256x64 (k1_pay6 x1) broadcasts_S20x256x1_S20x256x64
  mulf v22 v23

/-- The block's pooled features: per polyline and channel, the largest feature over the twenty points. -/
def pool (x1 : Vec Ideal S20x256 .f32) (x0 : Vec Ideal S20x256x9 .f32) (x2 : Vec Ideal S9x64 .f32)
    (x3 : Vec Ideal S1x64 .f32) (x4 : Vec Ideal S1x64 .f32) : FVec Ideal S256x64 .f32 :=
  multiReduction .maximumf [0] S256x64 (fea x1 x0 x2 x3 x4) 0xFF800000#32 reduces_S20x256x64_S256x64 (.inl rfl) rfl

/-- The block of the second layer is the features times one weight matrix plus the pooled features times the other,
    the latter copied to each of the twenty points. -/
theorem pay7_eq (x1 : Vec Ideal S20x256 .f32) (x0 : Vec Ideal S20x256x9 .f32) (x2 : Vec Ideal S9x64 .f32)
    (x3 : Vec Ideal S1x64 .f32) (x4 : Vec Ideal S1x64 .f32) (x6 : Vec Ideal S64x64 .f32) (x5 : Vec Ideal S64x64 .f32) :
    k1_pay7 x1 x0 x2 x3 x4 x6 x5
      = (have v27 : FVec Ideal S64x64 .f32 := shapeCast S64x64 x6 shapeCasts_S64x64_S64x64
         have cst_14 : FVec Ideal S256x64 .f32 := constant S256x64 .f32 0x00000000#32
         have v28 : FVec Ideal S256x64 .f32 := matmul dot_S256x64_S64x64_S256x64_1_0_0_1_n_n none (pool x1 x0 x2 x3 x4) v27 cst_14
         have v30 : FVec Ideal S64x64 .f32 := shapeCast S64x64 x5 shapeCasts_S64x64_S64x64
         have v31 : FVec Ideal S5120x64 .f32 := shapeCast S5120x64 (fea x1 x0 x2 x3 x4) shapeCasts_S20x256x64_S5120x64
         have cst_17 : FVec Ideal S5120x64 .f32 := constant S5120x64 .f32 0x00000000#32
         have v32 : FVec Ideal S5120x64 .f32 := matmul dot_S5120x64_S64x64_S5120x64_1_0_0_1_n_n none v31 v30 cst_17
         have v33 : FVec Ideal S20x256x64 .f32 := shapeCast S20x256x64 v32 shapeCasts_S5120x64_S20x256x64
         have v34 : FVec Ideal S1x256x64 .f32 := shapeCast S1x256x64 v28 shapeCasts_S256x64_S1x256x64
         have v35 : FVec Ideal S20x256x64 .f32 := broadcastTo S20x256x64 v34 broadcasts_S1x256x64_S20x256x64
         addf v33 v35) := rfl

/-- The first layer at point `a` of polyline `r`, channel `c`: the nine-term sum. -/
theorem lin_apply (x0 : Vec Ideal S20x256x9 .f32) (x2 : Vec Ideal S9x64 .f32) (a : Fin 20) (r : Fin 256) (c : Fin 64) :
    lin x0 x2 (ix3 a r c) = ∑ k : Fin 9, x0 (ix3 a r k) * x2 (ix2 k c) := by
  have hlt : a.val * 256 + r.val < 5120 := by have := a.isLt; have := r.isLt; omega
  unfold lin
  rw [Cert.Layout3.shapeCast_mk_abk_apply _ _ a r c ⟨a.val * 256 + r.val, hlt⟩ rfl, dot9_eq,
    Cert.MatOps.matmul_plain_zero_apply]
  refine Finset.sum_congr rfl fun k _ => ?_
  rw [Cert.Layout3.shapeCast_abk_mk_apply _ _ a r k ⟨a.val * 256 + r.val, hlt⟩ rfl, shapeCast_self, shapeCast_self]

/-- The features at point `a` of polyline `r`, channel `c`. -/
theorem fea_apply (x1 : Vec Ideal S20x256 .f32) (x0 : Vec Ideal S20x256x9 .f32) (x2 : Vec Ideal S9x64 .f32)
    (x3 : Vec Ideal S1x64 .f32) (x4 : Vec Ideal S1x64 .f32) (a : Fin 20) (r : Fin 256) (c : Fin 64) :
    fea x1 x0 x2 x3 x4 (ix3 a r c)
      = max (lin x0 x2 (ix3 a r c) * x3 (ix2 (0 : Fin 1) c) + x4 (ix2 (0 : Fin 1) c)) 0 * x1 (ix2 a r) := by
  unfold fea k1_pay6
  rw [mulf_apply, maximumf_apply, addf_apply, mulf_apply, broadcast_apply,
    Cert.LayoutUnit.broadcastTo_11c_abc_apply, Cert.LayoutUnit.shapeCast_c_11c_apply, shapeCast_1a_a_apply,
    Cert.LayoutUnit.broadcastTo_11c_abc_apply, Cert.LayoutUnit.shapeCast_c_11c_apply, shapeCast_1a_a_apply,
    Cert.Layout3.broadcastTo_ab1_abc_apply _ _ a r c 0, Cert.Layout3.shapeCast_ab_ab1_apply, shapeCast_self]
  rw [show (Scalar.ofBits .f32 0x00000000#32 : Ideal .f32) = (0 : EReal) from Ideal.ofBits_zero_f32]

/-- The pooled features of polyline `r`, channel `k`: the largest of the twenty features, from the least extended real. -/
theorem pool_apply (x1 : Vec Ideal S20x256 .f32) (x0 : Vec Ideal S20x256x9 .f32) (x2 : Vec Ideal S9x64 .f32)
    (x3 : Vec Ideal S1x64 .f32) (x4 : Vec Ideal S1x64 .f32) (r : Fin 256) (k : Fin 64) :
    pool x1 x0 x2 x3 x4 (ix2 r k) = (Finset.univ : Finset (Fin 20)).fold max ⊥ fun a => fea x1 x0 x2 x3 x4 (ix3 a r k) :=
  Cert.LeadMax.multiReduction_max_lead3 (fea x1 x0 x2 x3 x4) _ _ _ r k

/-- The second layer at point `a` of polyline `r`, channel `ch`. -/
theorem pay7_apply (x1 : Vec Ideal S20x256 .f32) (x0 : Vec Ideal S20x256x9 .f32) (x2 : Vec Ideal S9x64 .f32)
    (x3 : Vec Ideal S1x64 .f32) (x4 : Vec Ideal S1x64 .f32) (x6 : Vec Ideal S64x64 .f32) (x5 : Vec Ideal S64x64 .f32)
    (a : Fin 20) (r : Fin 256) (ch : Fin 64) :
    k1_pay7 x1 x0 x2 x3 x4 x6 x5 (ix3 a r ch)
      = (∑ k : Fin 64, fea x1 x0 x2 x3 x4 (ix3 a r k) * x5 (ix2 k ch))
        + ∑ k : Fin 64, pool x1 x0 x2 x3 x4 (ix2 r k) * x6 (ix2 k ch) := by
  have hlt : a.val * 256 + r.val < 5120 := by have := a.isLt; have := r.isLt; omega
  rw [pay7_eq]
  dsimp only
  rw [addf_apply, Cert.Layout3.shapeCast_mk_abk_apply _ _ a r ch ⟨a.val * 256 + r.val, hlt⟩ rfl, dot5120_eq,
    Cert.MatOps.matmul_plain_zero_apply, Cert.LayoutUnit.broadcastTo_1bc_abc_apply, shapeCast_ab_1ab_apply, dot256_eq,
    Cert.MatOps.matmul_plain_zero_apply]
  refine congrArg₂ (· + ·) ?_ ?_
  · refine Finset.sum_congr rfl fun k _ => ?_
    rw [Cert.Layout3.shapeCast_abk_mk_apply _ _ a r k ⟨a.val * 256 + r.val, hlt⟩ rfl, shapeCast_self]
  · refine Finset.sum_congr rfl fun k _ => ?_
    rw [shapeCast_self]

/-- The masked second layer: the layer times the point's mask number. -/
theorem pay1_apply (m3 : FVec Ideal S20x256x1 .f32) (h : FVec Ideal S20x256x64 .f32) (a : Fin 20) (r : Fin 256) (c : Fin 64) :
    k1_pay1 m3 h (ix3 a r c) = h (ix3 a r c) * m3 (ix3 a r (0 : Fin 1)) := by
  unfold k1_pay1
  rw [mulf_apply, Cert.Layout3.broadcastTo_ab1_abc_apply _ _ a r c 0]

/-- The sum accumulator's step: what it held plus the block's masked second layer summed over the block's points. -/
theorem pay3_apply (m3 : FVec Ideal S20x256x1 .f32) (h : FVec Ideal S20x256x64 .f32) (p : Vec Ideal S1x64 .f32) (z : Fin 1) (c : Fin 64) :
    k1_pay3 m3 h p (ix2 z c) = p (ix2 z c) + ∑ a : Fin 20, ∑ r : Fin 256, k1_pay1 m3 h (ix3 a r c) := by
  unfold k1_pay3
  dsimp only
  rw [addf_apply, shapeCast_self, shapeCast_a_1a_apply]
  exact congrArg (p (ix2 z c) + ·) (multiReduction_add_lead2 (k1_pay1 m3 h) _ _ _ c)

/-- The square accumulator's step: what it held plus the masked layer times the layer, summed over the block. -/
theorem pay5_apply (m3 : FVec Ideal S20x256x1 .f32) (h : FVec Ideal S20x256x64 .f32) (p : Vec Ideal S1x64 .f32) (z : Fin 1) (c : Fin 64) :
    k1_pay5 m3 h p (ix2 z c) = p (ix2 z c) + ∑ a : Fin 20, ∑ r : Fin 256, k1_pay1 m3 h (ix3 a r c) * h (ix3 a r c) := by
  unfold k1_pay5
  dsimp only
  rw [addf_apply, shapeCast_self, shapeCast_a_1a_apply]
  exact congrArg (p (ix2 z c) + ·) (multiReduction_add_lead2 (mulf (k1_pay1 m3 h) h) _ _ _ c)

/-- The mask with a unit channel axis reads the mask number. -/
theorem pay6_apply (x1 : Vec Ideal S20x256 .f32) (a : Fin 20) (r : Fin 256) (u : Fin 1) :
    k1_pay6 x1 (ix3 a r u) = x1 (ix2 a r) := by
  unfold k1_pay6
  rw [Cert.Layout3.shapeCast_ab_ab1_apply, shapeCast_self]

/-! ## The accumulators after each point, as partial sums over the blocks -/

variable (V : (c : Dev nD) → (b : Ref sig .tc) → Buf (Elt Ideal) ((c : Thread nD τ).loc b))

/-- Block `t`'s contribution to the sum accumulator at channel `ch` (zero past the last block). -/
def blkS (c : Dev nD) (ch : Fin 64) (t : ℕ) : EReal :=
  if h : t < cfg1.N then ∑ a : Fin 20, ∑ r : Fin 256, k1_pay1 (mblk3 V c ⟨t, h⟩) (hblk V c ⟨t, h⟩) (ix3 a r ch) else 0

/-- Block `t`'s contribution to the square accumulator at channel `ch`. -/
def blkQ (c : Dev nD) (ch : Fin 64) (t : ℕ) : EReal :=
  if h : t < cfg1.N then ∑ a : Fin 20, ∑ r : Fin 256,
    k1_pay1 (mblk3 V c ⟨t, h⟩) (hblk V c ⟨t, h⟩) (ix3 a r ch) * (hblk V c ⟨t, h⟩ : FVec Ideal S20x256x64 .f32) (ix3 a r ch) else 0

theorem blkS_of_lt (c : Dev nD) (ch : Fin 64) {t : ℕ} (h : t < cfg1.N) :
    blkS V c ch t = ∑ a : Fin 20, ∑ r : Fin 256, k1_pay1 (mblk3 V c ⟨t, h⟩) (hblk V c ⟨t, h⟩) (ix3 a r ch) := dif_pos h
theorem blkQ_of_lt (c : Dev nD) (ch : Fin 64) {t : ℕ} (h : t < cfg1.N) :
    blkQ V c ch t = ∑ a : Fin 20, ∑ r : Fin 256,
      k1_pay1 (mblk3 V c ⟨t, h⟩) (hblk V c ⟨t, h⟩) (ix3 a r ch) * (hblk V c ⟨t, h⟩ : FVec Ideal S20x256x64 .f32) (ix3 a r ch) := dif_pos h

/-- The zero blocks the first point stores are zero at every index. -/
theorem pay2_apply (i : S1x64.Idx) : k1_pay2 (F := Ideal) i = 0 := Ideal.ofBits_zero_f32
theorem pay4_apply (i : S1x64.Idx) : k1_pay4 (F := Ideal) i = 0 := Ideal.ofBits_zero_f32

/-- After point `n` the sum accumulator holds, at channel `ch`, the contributions of blocks `0 … n` added up. -/
theorem acc_fst (c : Dev nD) (z : Fin 1) (ch : Fin 64) : ∀ (n : ℕ) (h : n < cfg1.N),
    (acc V c n h).1 (ix2 z ch) = ∑ t ∈ Finset.range (n + 1), blkS V c ch t
  | 0, h => by
    refine (pay3_apply (mblk3 V c ⟨0, h⟩) (hblk V c ⟨0, h⟩) (k1_pay2 (F := Ideal)) z ch).trans ?_
    rw [Finset.sum_range_one, blkS_of_lt V c ch h, pay2_apply, zero_add]
  | n + 1, h => by
    refine (pay3_apply (mblk3 V c ⟨n + 1, h⟩) (hblk V c ⟨n + 1, h⟩) (acc V c n (Nat.lt_of_succ_lt h)).1 z ch).trans ?_
    rw [acc_fst c z ch n, Finset.sum_range_succ _ (n + 1), blkS_of_lt V c ch h]

/-- After point `n` the square accumulator holds the square contributions of blocks `0 … n` added up. -/
theorem acc_snd (c : Dev nD) (z : Fin 1) (ch : Fin 64) : ∀ (n : ℕ) (h : n < cfg1.N),
    (acc V c n h).2.1 (ix2 z ch) = ∑ t ∈ Finset.range (n + 1), blkQ V c ch t
  | 0, h => by
    refine (pay5_apply (mblk3 V c ⟨0, h⟩) (hblk V c ⟨0, h⟩) (k1_pay4 (F := Ideal)) z ch).trans ?_
    rw [Finset.sum_range_one, blkQ_of_lt V c ch h, pay4_apply, zero_add]
  | n + 1, h => by
    refine (pay5_apply (mblk3 V c ⟨n + 1, h⟩) (hblk V c ⟨n + 1, h⟩) (acc V c n (Nat.lt_of_succ_lt h)).2.1 z ch).trans ?_
    rw [acc_snd c z ch n, Finset.sum_range_succ _ (n + 1), blkQ_of_lt V c ch h]

/-! ## The blocks as parts of the arrays -/

example : Pipeline.arrRef spec1 0 = main_v1 := rfl
example : Pipeline.arrRef spec1 1 = main_v4 := rfl
example : Pipeline.arrRef spec1 2 = main_v5 := rfl
example : Pipeline.arrRef spec1 3 = main_v32 := rfl
example : Pipeline.arrRef spec1 4 = main_v33 := rfl
example : Pipeline.arrRef spec1 5 = main_v7 := rfl
example : Pipeline.arrRef spec1 6 = main_v9 := rfl
example : Pipeline.arrRef spec1 7 = main_v34_0 := rfl
example : Pipeline.arrRef spec1 8 = main_v34_1 := rfl
example : Pipeline.arrRef spec1 9 = main_v34_2 := rfl

/-- The feature array as the region finds it: twenty points by 12288 polylines by nine features. -/
def arrX (c : Dev nD) : Vec Ideal S20x12288x9 .f32 := V c main_v1
/-- The mask numbers as the region finds them. -/
def arrM (c : Dev nD) : Vec Ideal S20x12288 .f32 := V c main_v4
/-- The first weight matrix as the region finds it. -/
def arrWp (c : Dev nD) : Vec Ideal S9x64 .f32 := V c main_v5
/-- The first layer's scale as the region finds it. -/
def arrSc (c : Dev nD) : Vec Ideal S1x64 .f32 := V c main_v32
/-- The first layer's shift as the region finds it. -/
def arrSh (c : Dev nD) : Vec Ideal S1x64 .f32 := V c main_v33
/-- The second layer's weight matrix for the features, as the region finds it. -/
def arrWa (c : Dev nD) : Vec Ideal S64x64 .f32 := V c main_v7
/-- The second layer's weight matrix for the pooled features, as the region finds it. -/
def arrWb (c : Dev nD) : Vec Ideal S64x64 .f32 := V c main_v9

/-- Where each window's block sits at point `t`: block `t` along the polyline axis, block zero elsewhere. -/
theorem idx_facts : ∀ t : Fin cfg1.N, (win1_0.index t 0 = 0 ∧ win1_0.index t 1 = t.val ∧ win1_0.index t 2 = 0)
    ∧ (win1_1.index t 0 = 0 ∧ win1_1.index t 1 = t.val) ∧ (win1_2.index t 0 = 0 ∧ win1_2.index t 1 = 0)
    ∧ (win1_3.index t 0 = 0 ∧ win1_3.index t 1 = 0) ∧ (win1_4.index t 0 = 0 ∧ win1_4.index t 1 = 0)
    ∧ (win1_5.index t 0 = 0 ∧ win1_5.index t 1 = 0) ∧ (win1_6.index t 0 = 0 ∧ win1_6.index t 1 = 0)
    ∧ (win1_9.index t 0 = 0 ∧ win1_9.index t 1 = t.val ∧ win1_9.index t 2 = 0) :=
  (by decide +kernel : ∀ t : Fin grid1.N, _)

/-- Polyline `r` of block `t` is polyline `256 t + r`. -/
theorem row_lt (t : Fin cfg1.N) (r : Fin 256) : 256 * t.val + r.val < 12288 := by
  have hN : cfg1.N = 48 := N_1
  have := t.isLt; have := r.isLt; omega

/-- Polyline `r` of block `t`. -/
def rowOf (t : Fin cfg1.N) (r : Fin 256) : Fin 12288 := ⟨256 * t.val + r.val, row_lt t r⟩

/-- The feature block at point `t` reads the feature array at polyline `256 t + r`. -/
theorem iblk1_x (c : Dev nD) (t : Fin cfg1.N) (a : Fin 20) (r : Fin 256) (k : Fin 9) :
    (iblk1 V c 0 t : Vec Ideal S20x256x9 .f32) (ix3 a r k) = arrX V c (ix3 a (rowOf t r) k) := by
  unfold iblk1
  rw [View.read_apply]
  show V c main_v1 _ = V c main_v1 _
  refine congrArg (V c main_v1) ?_
  funext d
  apply Fin.ext
  match d with
  | ⟨0, _⟩ => show win1_0.index t 0 * 20 + 1 * a.val = a.val; rw [(idx_facts t).1.1]; omega
  | ⟨1, _⟩ => show win1_0.index t 1 * 256 + 1 * r.val = 256 * t.val + r.val; rw [(idx_facts t).1.2.1]; omega
  | ⟨2, _⟩ => show win1_0.index t 2 * 9 + 1 * k.val = k.val; rw [(idx_facts t).1.2.2]; omega

/-- The mask block at point `t` reads the mask array at polyline `256 t + r`. -/
theorem iblk1_m (c : Dev nD) (t : Fin cfg1.N) (a : Fin 20) (r : Fin 256) :
    (iblk1 V c 1 t : Vec Ideal S20x256 .f32) (ix2 a r) = arrM V c (ix2 a (rowOf t r)) := by
  unfold iblk1
  rw [View.read_apply]
  show V c main_v4 _ = V c main_v4 _
  refine congrArg (V c main_v4) ?_
  funext d
  apply Fin.ext
  match d with
  | ⟨0, _⟩ => show win1_1.index t 0 * 20 + 1 * a.val = a.val; rw [(idx_facts t).2.1.1]; omega
  | ⟨1, _⟩ => show win1_1.index t 1 * 256 + 1 * r.val = 256 * t.val + r.val; rw [(idx_facts t).2.1.2]; omega

/-- The first weight block at every point is the whole weight array. -/
theorem iblk1_wp (c : Dev nD) (t : Fin cfg1.N) (k : Fin 9) (ch : Fin 64) :
    (iblk1 V c 2 t : Vec Ideal S9x64 .f32) (ix2 k ch) = arrWp V c (ix2 k ch) := by
  unfold iblk1
  rw [View.read_apply]
  show V c main_v5 _ = V c main_v5 _
  refine congrArg (V c main_v5) ?_
  funext d
  apply Fin.ext
  match d with
  | ⟨0, _⟩ => show win1_2.index t 0 * 9 + 1 * k.val = k.val; rw [(idx_facts t).2.2.1.1]; omega
  | ⟨1, _⟩ => show win1_2.index t 1 * 64 + 1 * ch.val = ch.val; rw [(idx_facts t).2.2.1.2]; omega

/-- The scale block at every point is the whole scale array. -/
theorem iblk1_sc (c : Dev nD) (t : Fin cfg1.N) (z : Fin 1) (ch : Fin 64) :
    (iblk1 V c 3 t : Vec Ideal S1x64 .f32) (ix2 z ch) = arrSc V c (ix2 z ch) := by
  unfold iblk1
  rw [View.read_apply]
  show V c main_v32 _ = V c main_v32 _
  refine congrArg (V c main_v32) ?_
  funext d
  apply Fin.ext
  match d with
  | ⟨0, _⟩ => show win1_3.index t 0 * 1 + 1 * z.val = z.val; rw [(idx_facts t).2.2.2.1.1]; omega
  | ⟨1, _⟩ => show win1_3.index t 1 * 64 + 1 * ch.val = ch.val; rw [(idx_facts t).2.2.2.1.2]; omega

/-- The shift block at every point is the whole shift array. -/
theorem iblk1_sh (c : Dev nD) (t : Fin cfg1.N) (z : Fin 1) (ch : Fin 64) :
    (iblk1 V c 4 t : Vec Ideal S1x64 .f32) (ix2 z ch) = arrSh V c (ix2 z ch) := by
  unfold iblk1
  rw [View.read_apply]
  show V c main_v33 _ = V c main_v33 _
  refine congrArg (V c main_v33) ?_
  funext d
  apply Fin.ext
  match d with
  | ⟨0, _⟩ => show win1_4.index t 0 * 1 + 1 * z.val = z.val; rw [(idx_facts t).2.2.2.2.1.1]; omega
  | ⟨1, _⟩ => show win1_4.index t 1 * 64 + 1 * ch.val = ch.val; rw [(idx_facts t).2.2.2.2.1.2]; omega

/-- The block of the features' weight matrix at every point is the whole matrix. -/
theorem iblk1_wa (c : Dev nD) (t : Fin cfg1.N) (k : Fin 64) (ch : Fin 64) :
    (iblk1 V c 5 t : Vec Ideal S64x64 .f32) (ix2 k ch) = arrWa V c (ix2 k ch) := by
  unfold iblk1
  rw [View.read_apply]
  show V c main_v7 _ = V c main_v7 _
  refine congrArg (V c main_v7) ?_
  funext d
  apply Fin.ext
  match d with
  | ⟨0, _⟩ => show win1_5.index t 0 * 64 + 1 * k.val = k.val; rw [(idx_facts t).2.2.2.2.2.1.1]; omega
  | ⟨1, _⟩ => show win1_5.index t 1 * 64 + 1 * ch.val = ch.val; rw [(idx_facts t).2.2.2.2.2.1.2]; omega

/-- The block of the pooled features' weight matrix at every point is the whole matrix. -/
theorem iblk1_wb (c : Dev nD) (t : Fin cfg1.N) (k : Fin 64) (ch : Fin 64) :
    (iblk1 V c 6 t : Vec Ideal S64x64 .f32) (ix2 k ch) = arrWb V c (ix2 k ch) := by
  unfold iblk1
  rw [View.read_apply]
  show V c main_v9 _ = V c main_v9 _
  refine congrArg (V c main_v9) ?_
  funext d
  apply Fin.ext
  match d with
  | ⟨0, _⟩ => show win1_6.index t 0 * 64 + 1 * k.val = k.val; rw [(idx_facts t).2.2.2.2.2.2.1.1]; omega
  | ⟨1, _⟩ => show win1_6.index t 1 * 64 + 1 * ch.val = ch.val; rw [(idx_facts t).2.2.2.2.2.2.1.2]; omega

/-! ## The block's values in terms of the arrays -/

/-- The features of point `n` of polyline `j` at channel `ch`: the first layer (the nine-term sum) times the scale plus
    the shift, clamped at zero, times the point's mask number. -/
def feat (X : Vec Ideal S20x12288x9 .f32) (M : Vec Ideal S20x12288 .f32) (wp : Vec Ideal S9x64 .f32)
    (sc0 sh0 : Vec Ideal S1x64 .f32) (n : Fin 20) (j : Fin 12288) (ch : Fin 64) : EReal :=
  max ((∑ k : Fin 9, X (ix3 n j k) * wp (ix2 k ch)) * sc0 (ix2 (0 : Fin 1) ch) + sh0 (ix2 (0 : Fin 1) ch)) 0 * M (ix2 n j)

/-- The second layer of point `n` of polyline `j` at channel `ch`: the features times one weight matrix plus the
    polyline's largest features over its twenty points times the other. -/
def h2 (X : Vec Ideal S20x12288x9 .f32) (M : Vec Ideal S20x12288 .f32) (wp : Vec Ideal S9x64 .f32)
    (sc0 sh0 : Vec Ideal S1x64 .f32) (w1a w1b : Vec Ideal S64x64 .f32) (n : Fin 20) (j : Fin 12288) (ch : Fin 64) : EReal :=
  (∑ k : Fin 64, feat X M wp sc0 sh0 n j k * w1a (ix2 k ch))
    + ∑ k : Fin 64, ((Finset.univ : Finset (Fin 20)).fold max ⊥ fun n' => feat X M wp sc0 sh0 n' j k) * w1b (ix2 k ch)

/-- The features of the arrays as the region finds them. -/
abbrev featV (c : Dev nD) (n : Fin 20) (j : Fin 12288) (ch : Fin 64) : EReal :=
  feat (arrX V c) (arrM V c) (arrWp V c) (arrSc V c) (arrSh V c) n j ch
/-- The second layer of the arrays as the region finds them. -/
abbrev h2V (c : Dev nD) (n : Fin 20) (j : Fin 12288) (ch : Fin 64) : EReal :=
  h2 (arrX V c) (arrM V c) (arrWp V c) (arrSc V c) (arrSh V c) (arrWa V c) (arrWb V c) n j ch

/-- The first layer of block `t` is the first layer of the arrays at the block's polylines. -/
theorem lin_blk (c : Dev nD) (t : Fin cfg1.N) (a : Fin 20) (r : Fin 256) (ch : Fin 64) :
    lin (iblk1 V c 0 t) (iblk1 V c 2 t) (ix3 a r ch) = ∑ k : Fin 9, arrX V c (ix3 a (rowOf t r) k) * arrWp V c (ix2 k ch) := by
  refine (lin_apply (iblk1 V c 0 t) (iblk1 V c 2 t) a r ch).trans ?_
  refine Finset.sum_congr rfl fun k _ => ?_
  rw [iblk1_x V c t a r k, iblk1_wp V c t k ch]

/-- The features of block `t` are the features of the arrays at the block's polylines. -/
theorem fea_blk (c : Dev nD) (t : Fin cfg1.N) (a : Fin 20) (r : Fin 256) (k : Fin 64) :
    fea (iblk1 V c 1 t) (iblk1 V c 0 t) (iblk1 V c 2 t) (iblk1 V c 3 t) (iblk1 V c 4 t) (ix3 a r k) = featV V c a (rowOf t r) k := by
  refine (fea_apply (iblk1 V c 1 t) (iblk1 V c 0 t) (iblk1 V c 2 t) (iblk1 V c 3 t) (iblk1 V c 4 t) a r k).trans ?_
  rw [lin_blk V c t a r k, iblk1_sc V c t 0 k, iblk1_sh V c t 0 k, iblk1_m V c t a r]
  rfl

/-- The block of the second layer at point `t` is the second layer of the arrays at the block's polylines. -/
theorem hblk_apply (c : Dev nD) (t : Fin cfg1.N) (a : Fin 20) (r : Fin 256) (ch : Fin 64) :
    (hblk V c t : FVec Ideal S20x256x64 .f32) (ix3 a r ch) = h2V V c a (rowOf t r) ch := by
  unfold hblk
  refine (pay7_apply (iblk1 V c 1 t) (iblk1 V c 0 t) (iblk1 V c 2 t) (iblk1 V c 3 t) (iblk1 V c 4 t) (iblk1 V c 6 t) (iblk1 V c 5 t) a r ch).trans ?_
  refine congrArg₂ (· + ·) (Finset.sum_congr rfl fun k _ => ?_) (Finset.sum_congr rfl fun k _ => ?_)
  · rw [fea_blk V c t a r k, iblk1_wa V c t k ch]
  · rw [pool_apply, iblk1_wb V c t k ch]
    refine congrArg (· * arrWb V c (ix2 k ch)) ?_
    exact congrArg ((Finset.univ : Finset (Fin 20)).fold max ⊥) (funext fun a' => fea_blk V c t a' r k)

/-- The masked second layer of block `t`. -/
theorem pay1_blk (c : Dev nD) (t : Fin cfg1.N) (a : Fin 20) (r : Fin 256) (ch : Fin 64) :
    k1_pay1 (mblk3 V c t) (hblk V c t) (ix3 a r ch) = h2V V c a (rowOf t r) ch * arrM V c (ix2 a (rowOf t r)) := by
  refine (pay1_apply (mblk3 V c t) (hblk V c t) a r ch).trans ?_
  rw [hblk_apply V c t a r ch]
  unfold mblk3
  rw [pay6_apply, iblk1_m V c t a r]

/-! ## The arrays after the region -/

/-- The last point of the grid. -/
abbrev tLast : Fin cfg1.N := ⟨47, by rw [show cfg1.N = 48 from N_1]; decide⟩

/-- The one write-back of window 7, at the last point, writes what the recursion holds there: its block is the whole
    array read through zero offsets. -/
theorem flushed7 (c : Dev nD) (t : Fin cfg1.N) (hf : (cfg1.win 7).flush t = true) :
    (dat1 V c).flushed 7 t = ((cfg1.win 7).blk t).view.read (Elt Ideal) ((acc V c 47 tLast.isLt).1) := by
  have hN : cfg1.N = 48 := N_1
  have h47 : t.val = 47 := by have := (flush1_7 t).mp hf; have := t.isLt; omega
  obtain rfl : t = tLast := Fin.ext h47
  show (cfg1.win 7).cut (grid1.coords tLast) ((dat1 V c).after 7 tLast) = _
  rw [after1_7, outsAt_eq]
  have hz' : (fun a => win1_7.index tLast a * main_v34_0.ty.shape.size a) = fun _ => 0 :=
    funext fun a => by fin_cases a <;> decide +kernel
  exact (Memref.read_access_unit_zero (Elt Ideal) main_v34_0 hz' (fun a => by rw [congrFun hz' a]; simp) _).symm

/-- So after the region the array of window 7 holds the sum accumulator after the last point. -/
theorem final7 (c : Dev nD) : (dat1 V c).arrAt 7 cfg1.N = (acc V c 47 tLast.isLt).1 :=
  (dat1 V c).arrAt_eq_of_cover 7 _ (flushed7 V c) fun i =>
    ⟨tLast, (flush1_7 tLast).mpr rfl, by
      show i ∈ ((View.whole main_v34_0).slice (win1_7.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_7.index tLast 0 * win1_7.size 0 ≤ (i 0 : Nat) ∧ (i 0 : Nat) < win1_7.index tLast 0 * win1_7.size 0 + win1_7.xsize (grid1.coords tLast) 0
        rw [show win1_7.index tLast 0 * win1_7.size 0 = 0 from by decide +kernel, show win1_7.xsize (grid1.coords tLast) 0 = 1 from by decide +kernel]; omega
      | ⟨1, _⟩ =>
        show win1_7.index tLast 1 * win1_7.size 1 ≤ (i 1 : Nat) ∧ (i 1 : Nat) < win1_7.index tLast 1 * win1_7.size 1 + win1_7.xsize (grid1.coords tLast) 1
        rw [show win1_7.index tLast 1 * win1_7.size 1 = 0 from by decide +kernel, show win1_7.xsize (grid1.coords tLast) 1 = 64 from by decide +kernel]; omega⟩

/-- The one write-back of window 8, at the last point, writes what the recursion holds there. -/
theorem flushed8 (c : Dev nD) (t : Fin cfg1.N) (hf : (cfg1.win 8).flush t = true) :
    (dat1 V c).flushed 8 t = ((cfg1.win 8).blk t).view.read (Elt Ideal) ((acc V c 47 tLast.isLt).2.1) := by
  have hN : cfg1.N = 48 := N_1
  have h47 : t.val = 47 := by have := (flush1_8 t).mp hf; have := t.isLt; omega
  obtain rfl : t = tLast := Fin.ext h47
  show (cfg1.win 8).cut (grid1.coords tLast) ((dat1 V c).after 8 tLast) = _
  rw [after1_8, outsAt_eq]
  have hz' : (fun a => win1_8.index tLast a * main_v34_1.ty.shape.size a) = fun _ => 0 :=
    funext fun a => by fin_cases a <;> decide +kernel
  exact (Memref.read_access_unit_zero (Elt Ideal) main_v34_1 hz' (fun a => by rw [congrFun hz' a]; simp) _).symm

/-- So after the region the array of window 8 holds the square accumulator after the last point. -/
theorem final8 (c : Dev nD) : (dat1 V c).arrAt 8 cfg1.N = (acc V c 47 tLast.isLt).2.1 :=
  (dat1 V c).arrAt_eq_of_cover 8 _ (flushed8 V c) fun i =>
    ⟨tLast, (flush1_8 tLast).mpr rfl, by
      show i ∈ ((View.whole main_v34_1).slice (win1_8.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_8.index tLast 0 * win1_8.size 0 ≤ (i 0 : Nat) ∧ (i 0 : Nat) < win1_8.index tLast 0 * win1_8.size 0 + win1_8.xsize (grid1.coords tLast) 0
        rw [show win1_8.index tLast 0 * win1_8.size 0 = 0 from by decide +kernel, show win1_8.xsize (grid1.coords tLast) 0 = 1 from by decide +kernel]; omega
      | ⟨1, _⟩ =>
        show win1_8.index tLast 1 * win1_8.size 1 ≤ (i 1 : Nat) ∧ (i 1 : Nat) < win1_8.index tLast 1 * win1_8.size 1 + win1_8.xsize (grid1.coords tLast) 1
        rw [show win1_8.index tLast 1 * win1_8.size 1 = 0 from by decide +kernel, show win1_8.xsize (grid1.coords tLast) 1 = 64 from by decide +kernel]; omega⟩

/-- The second layer of the arrays as the region finds them, as one array of twenty points by 12288 polylines by
    sixty-four channels. -/
def arrH (c : Dev nD) : Vec Ideal S20x12288x64 .f32 := fun i => h2V V c (i 0) (i 1) (i 2)

/-- What point `t` writes back of window 9 is block `t` of that array. -/
theorem flushed9 (c : Dev nD) (t : Fin cfg1.N) :
    (dat1 V c).flushed 9 t = ((cfg1.win 9).blk t).view.read (Elt Ideal) (arrH V c) := by
  show (cfg1.win 9).cut (grid1.coords t) ((dat1 V c).after 9 t) = _
  rw [after1_9, outsAt_eq, acc_trd]
  obtain ⟨-, -, -, -, -, -, -, e0, e1, e2⟩ := idx_facts t
  funext j
  obtain ⟨a, r, k, rfl⟩ : ∃ (a : Fin 20) (r : Fin 256) (k : Fin 64), j = ix3 a r k :=
    ⟨j 0, j 1, j 2, eq_ix3 (n0 := 20) (n1 := 256) (n2 := 64) j⟩
  have hemb : ((cfg1.win 9).blk t).view.emb (ix3 a r k) = ix3 a (rowOf t r) k := by
    funext d
    apply Fin.ext
    match d with
    | ⟨0, _⟩ => show win1_9.index t 0 * 20 + 1 * a.val = a.val; rw [e0]; omega
    | ⟨1, _⟩ => show win1_9.index t 1 * 256 + 1 * r.val = 256 * t.val + r.val; rw [e1]; omega
    | ⟨2, _⟩ => show win1_9.index t 2 * 64 + 1 * k.val = k.val; rw [e2]; omega
  rw [View.read_apply]
  show (hblk V c t : FVec Ideal S20x256x64 .f32) (ix3 a r k) = arrH V c (((cfg1.win 9).blk t).view.emb (ix3 a r k))
  rw [hblk_apply V c t a r k, hemb]
  rfl

/-- An index of the array is in point `t`'s block of window 9 exactly when each coordinate is in the block's range. -/
theorem mem_blk9 (t : Fin cfg1.N) (i : S20x12288x64.Idx) :
    i ∈ ((cfg1.win 9).blk t).view.set ↔ ∀ a : Fin 3, win1_9.index t a * S20x256x64.size a ≤ (i a).val
      ∧ (i a).val < win1_9.index t a * S20x256x64.size a + S20x256x64.size a := by
  show i ∈ ((View.whole main_v34_2).slice (win1_9.rect t)).set ↔ _
  rw [View.set_slice_whole, Rect.mem_set_unit]
  exact Iff.rfl

/-- Every polyline lies in the block of the point numbered by its quotient by 256, so the blocks of window 9 fill the
    array, and after the region it holds the second layer of the arrays as the region found them. -/
theorem final9 (c : Dev nD) : (dat1 V c).arrAt 9 cfg1.N = arrH V c :=
  (dat1 V c).arrAt_eq_of_cover 9 _ (fun t _ => flushed9 V c t) fun i => by
    have hN : cfg1.N = 48 := N_1
    have h0 : (i 0 : Nat) < 20 := (i 0).isLt
    have h1 : (i 1 : Nat) < 12288 := (i 1).isLt
    have h2 : (i 2 : Nat) < 64 := (i 2).isLt
    have ht : (i 1 : Nat) / 256 < cfg1.N := by rw [hN]; omega
    refine ⟨⟨(i 1 : Nat) / 256, ht⟩, flush1_9 _, ?_⟩
    rw [mem_blk9]
    obtain ⟨-, -, -, -, -, -, -, e0, e1, e2⟩ := idx_facts ⟨(i 1 : Nat) / 256, ht⟩
    intro a
    match a with
    | ⟨0, _⟩ =>
      show win1_9.index ⟨(i 1 : Nat) / 256, ht⟩ 0 * 20 ≤ (i 0 : Nat) ∧ (i 0 : Nat) < win1_9.index ⟨(i 1 : Nat) / 256, ht⟩ 0 * 20 + 20
      rw [e0]; omega
    | ⟨1, _⟩ =>
      show win1_9.index ⟨(i 1 : Nat) / 256, ht⟩ 1 * 256 ≤ (i 1 : Nat) ∧ (i 1 : Nat) < win1_9.index ⟨(i 1 : Nat) / 256, ht⟩ 1 * 256 + 256
      rw [e1]; dsimp only; omega
    | ⟨2, _⟩ =>
      show win1_9.index ⟨(i 1 : Nat) / 256, ht⟩ 2 * 64 ≤ (i 2 : Nat) ∧ (i 2 : Nat) < win1_9.index ⟨(i 1 : Nat) / 256, ht⟩ 2 * 64 + 64
      rw [e2]; omega

/-! ## The region's contract: its three result arrays in terms of the entry arrays -/

/-- A sum over the first forty-eight naturals is the sum over the points. -/
theorem sum_range_points (f : ℕ → EReal) : ∑ t ∈ Finset.range (47 + 1), f t = ∑ t : Fin cfg1.N, f t.val := by
  have hN : cfg1.N = 48 := N_1
  rw [← Fin.sum_univ_eq_sum_range f 48]
  exact (Fintype.sum_equiv (finCongr hN) _ _ fun _ => rfl).symm

/-- After the region the array of window 9 holds, at point `n` of polyline `j` and channel `ch`, the second layer. -/
theorem region1_h2 (c : Dev nD) (n : Fin 20) (j : Fin 12288) (ch : Fin 64) :
    (dat1 V c).arrAt 9 cfg1.N (ix3 n j ch) = h2V V c n j ch := by
  rw [final9 V c]
  rfl

/-- After the region the sum array holds, at channel `ch`, the masked second layer summed over every block, point and
    polyline. -/
theorem region1_sum (c : Dev nD) (z : Fin 1) (ch : Fin 64) :
    (dat1 V c).arrAt 7 cfg1.N (ix2 z ch)
      = ∑ t : Fin cfg1.N, ∑ a : Fin 20, ∑ r : Fin 256, h2V V c a (rowOf t r) ch * arrM V c (ix2 a (rowOf t r)) := by
  rw [final7 V c]
  refine (acc_fst V c z ch 47 tLast.isLt).trans ?_
  rw [sum_range_points]
  refine Finset.sum_congr rfl fun t _ => ?_
  rw [blkS_of_lt V c ch t.isLt]
  exact Finset.sum_congr rfl fun a _ => Finset.sum_congr rfl fun r _ => pay1_blk V c t a r ch

/-- After the region the square array holds the masked second layer times the layer, summed likewise. -/
theorem region1_sq (c : Dev nD) (z : Fin 1) (ch : Fin 64) :
    (dat1 V c).arrAt 8 cfg1.N (ix2 z ch)
      = ∑ t : Fin cfg1.N, ∑ a : Fin 20, ∑ r : Fin 256,
          (h2V V c a (rowOf t r) ch * arrM V c (ix2 a (rowOf t r))) * h2V V c a (rowOf t r) ch := by
  rw [final8 V c]
  refine (acc_snd V c z ch 47 tLast.isLt).trans ?_
  rw [sum_range_points]
  refine Finset.sum_congr rfl fun t _ => ?_
  rw [blkQ_of_lt V c ch t.isLt]
  refine Finset.sum_congr rfl fun a _ => Finset.sum_congr rfl fun r _ => ?_
  rw [pay1_blk V c t a r ch, hblk_apply V c t a r ch]

end Cert.KernelIdeal.R1

end
-- ==== Proof.KernelStage1.lean ====
/-
  Region 1's results and the second norm's constants, in the network's terms.

  Region 1 finds the features, the mask numbers and the first weight matrix as the first stretch laid them out —
  polyline `768 b + p` is polyline `p` of batch `b`, the weights transposed —, the first norm's scale and shift as
  the second stretch computed them, and the two halves of the second weight matrix transposed. So the nine-term sum it
  forms is the network's first layer; the scale and the shift are the moment spelling's multiplier and offset of that
  layer, so one multiplication and one addition normalise it and the clamped, masked result is the network's first
  features; the largest over a polyline's twenty points is the network's pool; and the two sixty-four-term sums are
  the network's second layer. The region's array of the second layer therefore holds the network's second layer at
  every row, its two accumulators hold that layer's masked sum and masked sum of squares over all rows — the sum over
  blocks, points and positions being the sum over rows —, and the third stretch turns those, with the count, the gain
  and the bias, into the moment spelling's multiplier and offset of the second layer. The mask numbers reach region 2
  as the first stretch left them.
-/
import proofs.«135113_g11922829214230_retrytranche1_1894_3_alg».proof.Proof.KernelValue
import proofs.«135113_g11922829214230_retrytranche1_1894_3_alg».proof.Proof.Region1

open scoped BigOperators

noncomputable section

namespace Cert.KernelIdeal.Stage1

open Cert.KernelIdeal Cert.KernelIdeal.Gen Cert.KernelIdeal.Carry Cert.KernelIdeal.Value
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 1's entry arrays -/

/-- The features as region 1 finds them: point `n` of polyline `768 b + p` is point `n` of polyline `p` of batch `b`. -/
theorem x3 (c : Dev nD) (b : Fin 16) (p : Fin 768) (n : Fin 20) (k : Fin 9) :
    R1.arrX (V3 m ρ) c (ix3 n (poly b p) k) = argX m c (ix4 b p n k) := by
  rw [show R1.arrX (V3 m ρ) c = entX m ρ c from keep_v1_3 m ρ c]
  exact entX_apply m ρ c b p n k

/-- The mask numbers as region 1 finds them are the network's. -/
theorem m3 (c : Dev nD) (b : Fin 16) (p : Fin 768) (n : Fin 20) :
    R1.arrM (V3 m ρ) c (ix2 n (poly b p)) = Cert.Net.mu (argsK m c) (b, p, n) := by
  rw [show R1.arrM (V3 m ρ) c = entM m ρ c from keep_v4_3 m ρ c, entM_apply]
  rfl

/-- The first weight matrix as region 1 finds it: transposed. -/
theorem wp3 (c : Dev nD) (k : Fin 9) (ch : Fin 64) :
    R1.arrWp (V3 m ρ) c (ix2 k ch) = argWp m c (ix2 ch k) := by
  rw [show R1.arrWp (V3 m ρ) c = entW m ρ c from keep_v5_3 m ρ c]
  exact entW_apply m ρ c k ch

/-- The second layer's weights on a row's own features as region 1 finds them: the first sixty-four columns, transposed. -/
theorem wa3 (c : Dev nD) (k ch : Fin 64) :
    R1.arrWa (V3 m ρ) c (ix2 k ch) = argW1 m c (ix2 ch (Fin.castAdd 64 k)) := by
  rw [show R1.arrWa (V3 m ρ) c = entW1a m ρ c from keep_v7_3 m ρ c]
  exact entW1a_apply m ρ c k ch

/-- The second layer's weights on the pooled features as region 1 finds them: the last sixty-four columns, transposed. -/
theorem wb3 (c : Dev nD) (k ch : Fin 64) :
    R1.arrWb (V3 m ρ) c (ix2 k ch) = argW1 m c (ix2 ch (Fin.natAdd 64 k)) := by
  rw [show R1.arrWb (V3 m ρ) c = entW1b m ρ c from keep_v9_3 m ρ c]
  exact entW1b_apply m ρ c k ch

/-- The scale region 1 finds is the moment spelling's multiplier of the first layer. -/
theorem sc3 (c : Dev nD) (z : Fin 1) (ch : Fin 64) :
    R1.arrSc (V3 m ρ) c (ix2 z ch)
      = Cert.BN.scale (fun q => Cert.Net.h1 (argsK m c) q ch) (Cert.Net.mu (argsK m c)) ((argsK m c).gp (ix1 ch)) Cert.Net.eps :=
  (norm0 m ρ c z ch).1

/-- The shift region 1 finds is the moment spelling's offset of the first layer. -/
theorem sh3 (c : Dev nD) (z : Fin 1) (ch : Fin 64) :
    R1.arrSh (V3 m ρ) c (ix2 z ch)
      = Cert.BN.shift (fun q => Cert.Net.h1 (argsK m c) q ch) (Cert.Net.mu (argsK m c)) ((argsK m c).gp (ix1 ch))
          ((argsK m c).bp (ix1 ch)) Cert.Net.eps :=
  (norm0 m ρ c z ch).2

/-! ## Region 1's features and second layer are the network's -/

/-- The nine-term sum region 1 forms at polyline `768 b + p` is the network's first layer. -/
theorem lin3 (c : Dev nD) (b : Fin 16) (p : Fin 768) (n : Fin 20) (ch : Fin 64) :
    (∑ k : Fin 9, R1.arrX (V3 m ρ) c (ix3 n (poly b p) k) * R1.arrWp (V3 m ρ) c (ix2 k ch))
      = Cert.Net.h1 (argsK m c) (b, p, n) ch := by
  unfold Cert.Net.h1
  refine Finset.sum_congr rfl fun k _ => ?_
  rw [x3, wp3]
  rfl

/-- Region 1's features at polyline `768 b + p` are the network's first features. -/
theorem feat_eq (c : Dev nD) (b : Fin 16) (p : Fin 768) (n : Fin 20) (k : Fin 64) :
    R1.feat (R1.arrX (V3 m ρ) c) (R1.arrM (V3 m ρ) c) (R1.arrWp (V3 m ρ) c) (R1.arrSc (V3 m ρ) c) (R1.arrSh (V3 m ρ) c)
      n (poly b p) k = Cert.Net.f1 (argsK m c) (b, p, n) k := by
  unfold R1.feat
  rw [lin3, sc3, sh3, m3]
  rfl

/-- Region 1's second layer at polyline `768 b + p` is the network's second layer. -/
theorem h2V_eq (c : Dev nD) (b : Fin 16) (p : Fin 768) (n : Fin 20) (ch : Fin 64) :
    R1.h2V (V3 m ρ) c n (poly b p) ch = Cert.Net.h2 (argsK m c) (b, p, n) ch := by
  unfold R1.h2V R1.h2 Cert.Net.h2
  refine congrArg₂ (· + ·) (Finset.sum_congr rfl fun k _ => ?_) (Finset.sum_congr rfl fun k _ => ?_)
  · rw [feat_eq, wa3]
    rfl
  · rw [wb3]
    refine congrArg₂ (· * ·) ?_ rfl
    unfold Cert.Net.pool
    exact congrArg ((Finset.univ : Finset (Fin 20)).fold max ⊥) (funext fun n' => feat_eq m ρ c b p n' k)

/-! ## Region 1's three result arrays -/

/-- A sum over region 1's blocks, the points and the positions inside a block is the sum over all rows. -/
theorem sum_rows1 (F : Fin 20 → Fin 12288 → EReal) :
    ∑ t : Fin cfg1.N, ∑ a : Fin 20, ∑ r : Fin 256, F a (R1.rowOf t r) = ∑ q : Cert.Net.Row, F q.2.2 (poly q.1 q.2.1) := by
  rw [← sum_rows F]
  exact Fintype.sum_equiv (finCongr N_1) _ _ (fun t => rfl)

/-- After region 1 its array of the second layer holds the network's second layer at every row. -/
theorem h2_eq (c : Dev nD) (b : Fin 16) (p : Fin 768) (n : Fin 20) (ch : Fin 64) :
    h2arr m ρ c (ix3 n (poly b p) ch) = Cert.Net.h2 (argsK m c) (b, p, n) ch := by
  rw [show h2arr m ρ c = (dat1 (V3 m ρ) c).arrAt 9 cfg1.N from W4_arr m ρ c 9]
  rw [R1.region1_h2 (V3 m ρ) c n (poly b p) ch]
  exact h2V_eq m ρ c b p n ch

/-- After region 1 the sum array holds the second layer's masked sum over all rows. -/
theorem S1_eq (c : Dev nD) (z : Fin 1) (ch : Fin 64) :
    s1arr m ρ c (ix2 z ch) = ∑ q : Cert.Net.Row, Cert.Net.h2 (argsK m c) q ch * Cert.Net.mu (argsK m c) q := by
  rw [show s1arr m ρ c = (dat1 (V3 m ρ) c).arrAt 7 cfg1.N from W4_arr m ρ c 7]
  rw [R1.region1_sum (V3 m ρ) c z ch,
    sum_rows1 (fun a j => R1.h2V (V3 m ρ) c a j ch * R1.arrM (V3 m ρ) c (ix2 a j))]
  exact Finset.sum_congr rfl fun q _ => by rw [h2V_eq, m3]

/-- After region 1 the square array holds the second layer's masked sum of squares over all rows. -/
theorem Q1_eq (c : Dev nD) (z : Fin 1) (ch : Fin 64) :
    q1arr m ρ c (ix2 z ch)
      = ∑ q : Cert.Net.Row, (Cert.Net.h2 (argsK m c) q ch * Cert.Net.mu (argsK m c) q) * Cert.Net.h2 (argsK m c) q ch := by
  rw [show q1arr m ρ c = (dat1 (V3 m ρ) c).arrAt 8 cfg1.N from W4_arr m ρ c 8]
  rw [R1.region1_sq (V3 m ρ) c z ch,
    sum_rows1 (fun a j => (R1.h2V (V3 m ρ) c a j ch * R1.arrM (V3 m ρ) c (ix2 a j)) * R1.h2V (V3 m ρ) c a j ch)]
  exact Finset.sum_congr rfl fun q _ => by rw [h2V_eq, m3]

/-! ## The third stretch: the second norm's constants -/

/-- The count reaches the third stretch as the network's count. -/
theorem cnt4_apply (c : Dev nD) :
    (W4 m ρ c (Proc.devRef .tc main_v15) : FVec Ideal S_ .f32) ix0 = Cert.BN.cnt (Cert.Net.mu (argsK m c)) :=
  (congrFun (keep_v15_4 m ρ c) ix0).trans (cnt3_apply m ρ c)

/-- The second norm's gain and bias, read at the boundary before the third stretch, are the launch memory's. -/
theorem g1_apply (c : Dev nD) (ch : Fin 64) :
    ((W4 m ρ c (Proc.devRef .tc main_arg6)) : FVec Ideal S64 .f32) (ix1 ch) = (argsK m c).g1 (ix1 ch) :=
  congrFun (keep_arg6_4 m ρ c) (ix1 ch)
theorem b1_apply (c : Dev nD) (ch : Fin 64) :
    ((W4 m ρ c (Proc.devRef .tc main_arg7)) : FVec Ideal S64 .f32) (ix1 ch) = (argsK m c).b1 (ix1 ch) :=
  congrFun (keep_arg7_4 m ρ c) (ix1 ch)

/-- The second norm's scale and shift, as region 2 finds them, are the moment spelling's of the second layer. -/
theorem norm1 (c : Dev nD) (z : Fin 1) (ch : Fin 64) :
    sc1 m ρ c (ix2 z ch)
        = Cert.BN.scale (fun q => Cert.Net.h2 (argsK m c) q ch) (Cert.Net.mu (argsK m c)) ((argsK m c).g1 (ix1 ch)) Cert.Net.eps
      ∧ sh1 m ρ c (ix2 z ch)
        = Cert.BN.shift (fun q => Cert.Net.h2 (argsK m c) q ch) (Cert.Net.mu (argsK m c)) ((argsK m c).g1 (ix1 ch))
            ((argsK m c).b1 (ix1 ch)) Cert.Net.eps := by
  have key := scale_shift_eq (shapeCast S64 (W4 m ρ c (Proc.devRef .tc main_v34_0)) shapeCasts_S1x64_S64)
    (shapeCast S64 (W4 m ρ c (Proc.devRef .tc main_v34_1)) shapeCasts_S1x64_S64) (W4 m ρ c (Proc.devRef .tc main_v15))
    (W4 m ρ c (Proc.devRef .tc main_arg6)) (W4 m ρ c (Proc.devRef .tc main_arg7))
    (fun q => Cert.Net.h2 (argsK m c) q ch) (Cert.Net.mu (argsK m c)) ch
    ((shapeCast_1a_a_apply _ _ ch).trans (S1_eq m ρ c 0 ch))
    ((shapeCast_1a_a_apply _ _ ch).trans (Q1_eq m ρ c 0 ch))
    (cnt4_apply m ρ c)
  rw [g1_apply, b1_apply] at key
  exact ⟨by rw [sc1_eq, rowOf64_apply]; exact key.1, by rw [sh1_eq, rowOf64_apply]; exact key.2⟩

/-! ## The mask numbers at region 2's entry -/

/-- The mask numbers as region 2 finds them are the network's. -/
theorem m5_eq (c : Dev nD) (b : Fin 16) (p : Fin 768) (n : Fin 20) :
    m5arr m ρ c (ix2 n (poly b p)) = Cert.Net.mu (argsK m c) (b, p, n) := by
  rw [show m5arr m ρ c = entM m ρ c from (keep_v4_5 m ρ c).trans (keep_v4_3 m ρ c), entM_apply]
  rfl

end Cert.KernelIdeal.Stage1

end
-- ==== Proof.Region2.lean ====
/-
  The third region, point by point and read at the extended reals: its three output arrays as functions of its five
  input arrays.

  The region runs over forty-eight blocks of 256 polylines. Its body normalizes the block's second layer with the
  finished scale and shift, clamps it at zero and masks it, and multiplies by one weight matrix: the third layer, whose
  block is stored whole at every point. Two accumulators stay in place from point to point: the masked sum of the
  third layer per channel and the masked sum of its squares per channel. At the first point each accumulator is first
  set to zero, so it ends at zero plus the block's contribution; at every later point it ends at what the point before
  left plus the block's contribution. Each value is the body's arithmetic as one pure term of the block's five inputs,
  so what the outputs hold after point `n` is a recursion on `n` over those terms, and the region's own account of its
  outputs is that recursion, by induction on the point. Read at the extended reals the third layer at point `a` of
  polyline `r` and channel `ch` is a 64-term sum (the points are laid out as 5120 rows for the matrix unit and back,
  which moves no entry), and each accumulator adds a sum over the block's 5120 points. Only the second layer and the
  mask move with the point; the three small arrays are read whole at every point. So the third layer's array ends
  holding one function of the five arrays, and the accumulators' arrays the sums over all blocks and points.
-/
import proofs.«135113_g11922829214230_retrytranche1_1894_3_alg».proof.Proof.Gen.KernelIdeal.Frame
import proofs.«135113_g11922829214230_retrytranche1_1894_3_alg».proof.Proof.LibLayout3
import proofs.«135113_g11922829214230_retrytranche1_1894_3_alg».proof.Proof.LibReduceLeading
import proofs.«135113_g11922829214230_retrytranche1_1894_3_alg».proof.Proof.LibMatmul
import proofs.«135113_g11922829214230_retrytranche1_1894_3_alg».proof.Proof.LibLayoutMax
import proofs.«135113_g11922829214230_retrytranche1_1894_3_alg».proof.Proof.LibBlockSum
import Idealize.ShloMosaic.PureOps.Ideal.Laws
import Idealize.ShloMosaic.Lib.Pipeline.Value
import Idealize.ShloMosaic.Lib.ValueLayout
import Idealize.ShloMosaic.Lib.Tactic

open scoped BigOperators

noncomputable section

namespace Cert.KernelIdeal.R2

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

/-- The zero offsets of a two-axis rectangle. -/
theorem hz2 : (![0, 0] : Fin 2 → Nat) = fun _ => 0 := funext fun a => by fin_cases a <;> rfl
/-- The zero offsets of a three-axis rectangle. -/
theorem hz3 : (![0, 0, 0] : Fin 3 → Nat) = fun _ => 0 := funext fun a => by fin_cases a <;> rfl

/-! ## What the body leaves in each output's buffer, case by case -/

section Pieces

variable {F : FTy → Type} [FloatOps F]

/-- A later point stores the block of the third layer. -/
theorem outB7 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : ¬cond2_0 i) (hc1 : ¬cond2_1 i)
    (x0 : Vec F S20x256x64 .f32) (x1 : Vec F S20x256 .f32) (x2 : Vec F S1x64 .f32) (x3 : Vec F S1x64 .f32) (x4 : Vec F S64x64 .f32) (p5 : Vec F S1x64 .f32) (p6 : Vec F S1x64 .f32) :
    out2_B_7 c i a1 h1 a2 h2 a3 h3 a4 h4 a5 h5 a6 h6 a7 h7 a8 h8 hc0 hc1 x0 x1 x2 x3 x4 p5 p6 = k2_pay4 x1 x0 x2 x3 x4 := by
  unfold out2_B_7
  rw [View.read_writes_eq_canon _ _ _ (cover2_B_7 c i a1 h1 a2 h2 a3 h3 a4 h4 a5 h5 a6 h6 a7 h7 a8 h8 hc0 hc1 x0 x1 x2 x3 x4 p5 p6)]
  unfold kernelRun2_B
  dsimp only
  sl_unfold_words
  rw [View.canon_unit_zero hz3]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-- A later point leaves, in the sum accumulator holding `p5`, `p5` plus the block's masked channel sums of the third layer. -/
theorem outB5 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : ¬cond2_0 i) (hc1 : ¬cond2_1 i)
    (x0 : Vec F S20x256x64 .f32) (x1 : Vec F S20x256 .f32) (x2 : Vec F S1x64 .f32) (x3 : Vec F S1x64 .f32) (x4 : Vec F S64x64 .f32) (p5 : Vec F S1x64 .f32) (p6 : Vec F S1x64 .f32) :
    out2_B_5 c i a1 h1 a2 h2 a3 h3 a4 h4 a5 h5 a6 h6 a7 h7 a8 h8 hc0 hc1 x0 x1 x2 x3 x4 p5 p6 = k2_pay7 x1 x0 x2 x3 x4 p5 := by
  unfold out2_B_5
  rw [View.read_writes_eq_canon _ _ _ (cover2_B_5 c i a1 h1 a2 h2 a3 h3 a4 h4 a5 h5 a6 h6 a7 h7 a8 h8 hc0 hc1 x0 x1 x2 x3 x4 p5 p6)]
  unfold kernelRun2_B
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-- A later point leaves, in the square accumulator holding `p6`, `p6` plus the block's masked channel sums of squares. -/
theorem outB6 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : ¬cond2_0 i) (hc1 : ¬cond2_1 i)
    (x0 : Vec F S20x256x64 .f32) (x1 : Vec F S20x256 .f32) (x2 : Vec F S1x64 .f32) (x3 : Vec F S1x64 .f32) (x4 : Vec F S64x64 .f32) (p5 : Vec F S1x64 .f32) (p6 : Vec F S1x64 .f32) :
    out2_B_6 c i a1 h1 a2 h2 a3 h3 a4 h4 a5 h5 a6 h6 a7 h7 a8 h8 hc0 hc1 x0 x1 x2 x3 x4 p5 p6 = k2_pay2 (k2_pay4 x1 x0 x2 x3 x4) (k2_pay5 x1 x0 x2 x3 x4) p6 := by
  unfold out2_B_6
  rw [View.read_writes_eq_canon _ _ _ (cover2_B_6 c i a1 h1 a2 h2 a3 h3 a4 h4 a5 h5 a6 h6 a7 h7 a8 h8 hc0 hc1 x0 x1 x2 x3 x4 p5 p6)]
  unfold kernelRun2_B
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-- The first point stores the block of the third layer. -/
theorem outA7 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : cond2_0 i) (hc1 : cond2_1 i)
    (x0 : Vec F S20x256x64 .f32) (x1 : Vec F S20x256 .f32) (x2 : Vec F S1x64 .f32) (x3 : Vec F S1x64 .f32) (x4 : Vec F S64x64 .f32) :
    out2_A_7 c i a1 h1 a2 h2 a3 h3 a4 h4 a5 h5 a6 h6 a7 h7 a8 h8 hc0 hc1 x0 x1 x2 x3 x4 = k2_pay4 x1 x0 x2 x3 x4 := by
  unfold out2_A_7
  rw [View.read_writes_eq_canon _ _ _ (cover2_A_7 c i a1 h1 a2 h2 a3 h3 a4 h4 a5 h5 a6 h6 a7 h7 a8 h8 hc0 hc1 x0 x1 x2 x3 x4)]
  unfold kernelRun2_A
  dsimp only
  sl_unfold_words
  rw [View.canon_unit_zero hz3]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-- The first point leaves zero plus the block's masked channel sums of the third layer. -/
theorem outA5 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : cond2_0 i) (hc1 : cond2_1 i)
    (x0 : Vec F S20x256x64 .f32) (x1 : Vec F S20x256 .f32) (x2 : Vec F S1x64 .f32) (x3 : Vec F S1x64 .f32) (x4 : Vec F S64x64 .f32) :
    out2_A_5 c i a1 h1 a2 h2 a3 h3 a4 h4 a5 h5 a6 h6 a7 h7 a8 h8 hc0 hc1 x0 x1 x2 x3 x4 = k2_pay7 x1 x0 x2 x3 x4 (k2_pay6 (F := F)) := by
  unfold out2_A_5
  rw [View.read_writes_eq_canon _ _ _ (cover2_A_5 c i a1 h1 a2 h2 a3 h3 a4 h4 a5 h5 a6 h6 a7 h7 a8 h8 hc0 hc1 x0 x1 x2 x3 x4)]
  unfold kernelRun2_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-- The first point leaves zero plus the block's masked channel sums of squares. -/
theorem outA6 (c : Dev nD) (i : grid2.Coords) (a1 : Memref sig .tc .vmem S20x256x64 .f32) (h1 : a1.IsWhole) (a2 : Memref sig .tc .vmem S20x256 .f32) (h2 : a2.IsWhole) (a3 : Memref sig .tc .vmem S1x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S1x64 .f32) (h7 : a7.IsWhole) (a8 : Memref sig .tc .vmem S20x256x64 .f32) (h8 : a8.IsWhole) (hc0 : cond2_0 i) (hc1 : cond2_1 i)
    (x0 : Vec F S20x256x64 .f32) (x1 : Vec F S20x256 .f32) (x2 : Vec F S1x64 .f32) (x3 : Vec F S1x64 .f32) (x4 : Vec F S64x64 .f32) :
    out2_A_6 c i a1 h1 a2 h2 a3 h3 a4 h4 a5 h5 a6 h6 a7 h7 a8 h8 hc0 hc1 x0 x1 x2 x3 x4 = k2_pay2 (k2_pay4 x1 x0 x2 x3 x4) (k2_pay5 x1 x0 x2 x3 x4) (k2_pay1 (F := F)) := by
  unfold out2_A_6
  rw [View.read_writes_eq_canon _ _ _ (cover2_A_6 c i a1 h1 a2 h2 a3 h3 a4 h4 a5 h5 a6 h6 a7 h7 a8 h8 hc0 hc1 x0 x1 x2 x3 x4)]
  unfold kernelRun2_A
  dsimp only
  sl_unfold_words
  rw [View.canon_cons_unit_zero (S := S1x64) hz2, View.readCov_unit_zero (S := S1x64) _ hz2]
  simp only [View.readAt_eq_ld, h1.read_unread, h2.read_unread, h3.read_unread, h4.read_unread, h5.read_unread, h6.read_unread,
    h7.read_unread, h8.read_unread,
    View.ld_unit_zero (S := S20x256) hz2, View.ld_unit_zero (S := S20x256x64) hz3, View.ld_unit_zero (S := S1x64) hz2,
    View.ld_unit_zero (S := S64x64) hz2]

/-! ## The outputs after each point -/

variable (V : (c : Dev nD) → (b : Ref sig .tc) → Buf (Elt F) ((c : Thread nD τ).loc b))

/-- The two accumulators and the third layer's block after point `n`: at the first point, zero plus the block's
    contributions; at a later one, what the point before left plus the block's contributions; the block itself at both. -/
def acc (c : Dev nD) : (n : ℕ) → n < cfg2.N → Vec F S1x64 .f32 × Vec F S1x64 .f32 × Vec F S20x256x64 .f32
  | 0, h => (k2_pay7 (iblk2 V c 1 ⟨0, h⟩) (iblk2 V c 0 ⟨0, h⟩) (iblk2 V c 2 ⟨0, h⟩) (iblk2 V c 3 ⟨0, h⟩) (iblk2 V c 4 ⟨0, h⟩) (k2_pay6 (F := F)),
             k2_pay2 (k2_pay4 (iblk2 V c 1 ⟨0, h⟩) (iblk2 V c 0 ⟨0, h⟩) (iblk2 V c 2 ⟨0, h⟩) (iblk2 V c 3 ⟨0, h⟩) (iblk2 V c 4 ⟨0, h⟩))
               (k2_pay5 (iblk2 V c 1 ⟨0, h⟩) (iblk2 V c 0 ⟨0, h⟩) (iblk2 V c 2 ⟨0, h⟩) (iblk2 V c 3 ⟨0, h⟩) (iblk2 V c 4 ⟨0, h⟩)) (k2_pay1 (F := F)),
             k2_pay4 (iblk2 V c 1 ⟨0, h⟩) (iblk2 V c 0 ⟨0, h⟩) (iblk2 V c 2 ⟨0, h⟩) (iblk2 V c 3 ⟨0, h⟩) (iblk2 V c 4 ⟨0, h⟩))
  | n + 1, h => (k2_pay7 (iblk2 V c 1 ⟨n + 1, h⟩) (iblk2 V c 0 ⟨n + 1, h⟩) (iblk2 V c 2 ⟨n + 1, h⟩) (iblk2 V c 3 ⟨n + 1, h⟩) (iblk2 V c 4 ⟨n + 1, h⟩) (acc c n (Nat.lt_of_succ_lt h)).1,
                 k2_pay2 (k2_pay4 (iblk2 V c 1 ⟨n + 1, h⟩) (iblk2 V c 0 ⟨n + 1, h⟩) (iblk2 V c 2 ⟨n + 1, h⟩) (iblk2 V c 3 ⟨n + 1, h⟩) (iblk2 V c 4 ⟨n + 1, h⟩))
                   (k2_pay5 (iblk2 V c 1 ⟨n + 1, h⟩) (iblk2 V c 0 ⟨n + 1, h⟩) (iblk2 V c 2 ⟨n + 1, h⟩) (iblk2 V c 3 ⟨n + 1, h⟩) (iblk2 V c 4 ⟨n + 1, h⟩)) (acc c n (Nat.lt_of_succ_lt h)).2.1,
                 k2_pay4 (iblk2 V c 1 ⟨n + 1, h⟩) (iblk2 V c 0 ⟨n + 1, h⟩) (iblk2 V c 2 ⟨n + 1, h⟩) (iblk2 V c 3 ⟨n + 1, h⟩) (iblk2 V c 4 ⟨n + 1, h⟩))

/-- What the region's proof data says the outputs hold after point `n` is that recursion: by induction on the point,
    the first point by the first case's three values, a later one by the other case's. -/
theorem outsAt_eq (c : Dev nD) : ∀ (n : ℕ) (h : n < cfg2.N), outsAt2 V c n h = acc V c n h
  | 0, h => by
    rw [outsAt2_A V c ⟨0, h⟩ rfl rfl, outA5, outA6, outA7]
    rfl
  | n + 1, h => by
    have hN : cfg2.N = 48 := N_2
    have hB : ¬(⟨n + 1, h⟩ : Fin cfg2.N).val % 48 = 0 := by dsimp only; omega
    rw [outsAt2_B V c ⟨n + 1, h⟩ hB hB, outB5, outB6, outB7]
    show (k2_pay7 _ _ _ _ _ (outsAt2 V c n _).1, k2_pay2 _ _ (outsAt2 V c n _).2.1, k2_pay4 _ _ _ _ _) = _
    rw [outsAt_eq c n]
    rfl

end Pieces

/-! ## The payloads read at the extended reals -/

open Cert.LeadMax

/-- The third layer's contraction is the plain one: `[5120, 64]` by `[64, 64]`. -/
theorem dot64_eq : dot_S5120x64_S64x64_S5120x64_1_0_0_1_n_n = DotDims.plain 5120 64 64 := rfl

/-- A sum-reduction over the two leading axes of a rank-three array, at the extended reals, is the double sum. -/
theorem multiReduction_add_lead2 {A B C : ℕ} (src : FVec Ideal ⟨3, ![A, B, C]⟩ .f32)
    (h : (⟨3, ![A, B, C]⟩ : Shape).Reduces [0, 1] ⟨1, ![C]⟩) (hφ : FKind.Formats .f32)
    (hacc : (0x00000000#32 : BitVec 32) = 0x00000000#32) (jc : Fin C) :
    multiReduction .add [0, 1] ⟨1, ![C]⟩ src 0x00000000#32 h hφ hacc (ix1 jc) = ∑ a : Fin A, ∑ b : Fin B, src (ix3 a b jc) :=
  Cert.ReduceLeading.sum_filter_drop_lead2 h src jc

/-- The third layer of a block at point `a` of polyline `r`, channel `ch`: the 64-term sum of the masked normalized
    second layer times the weights. -/
theorem pay4_apply (x1 : Vec Ideal S20x256 .f32) (x0 : Vec Ideal S20x256x64 .f32) (x2 x3 : Vec Ideal S1x64 .f32)
    (x4 : Vec Ideal S64x64 .f32) (a : Fin 20) (r : Fin 256) (ch : Fin 64) :
    k2_pay4 x1 x0 x2 x3 x4 (ix3 a r ch)
      = ∑ k : Fin 64, (max (x0 (ix3 a r k) * x2 (ix2 0 k) + x3 (ix2 0 k)) 0 * x1 (ix2 a r)) * x4 (ix2 k ch) := by
  have hz : (FloatOps.ofBits FTy.f32 0#32 : Ideal .f32) = (0 : EReal) := Ideal.ofBits_zero_f32
  have hlt : a.val * 256 + r.val < 5120 := by have := a.isLt; have := r.isLt; omega
  unfold k2_pay4 k2_pay3
  dsimp only
  rw [Cert.Layout3.shapeCast_mk_abk_apply _ _ a r ch ⟨a.val * 256 + r.val, hlt⟩ rfl, dot64_eq,
    Cert.MatOps.matmul_plain_zero_apply]
  refine Finset.sum_congr rfl fun k _ => ?_
  rw [Cert.Layout3.shapeCast_abk_mk_apply _ _ a r k ⟨a.val * 256 + r.val, hlt⟩ rfl]
  simp only [shapeCast_self]
  rw [mulf_apply, maximumf_apply, addf_apply, mulf_apply, broadcast_apply, hz,
    broadcastTo_11c_abc_apply, shapeCast_c_11c_apply, shapeCast_1a_a_apply,
    broadcastTo_11c_abc_apply, shapeCast_c_11c_apply, shapeCast_1a_a_apply,
    Cert.Layout3.broadcastTo_ab1_abc_apply _ _ a r k 0, Cert.Layout3.shapeCast_ab_ab1_apply]

/-- The masked third layer: the layer times the point's mask number. -/
theorem pay5_apply (x1 : Vec Ideal S20x256 .f32) (x0 : Vec Ideal S20x256x64 .f32) (x2 x3 : Vec Ideal S1x64 .f32)
    (x4 : Vec Ideal S64x64 .f32) (a : Fin 20) (r : Fin 256) (ch : Fin 64) :
    k2_pay5 x1 x0 x2 x3 x4 (ix3 a r ch) = k2_pay4 x1 x0 x2 x3 x4 (ix3 a r ch) * x1 (ix2 a r) := by
  unfold k2_pay5 k2_pay3
  dsimp only
  rw [mulf_apply, Cert.Layout3.broadcastTo_ab1_abc_apply _ _ a r ch 0, Cert.Layout3.shapeCast_ab_ab1_apply, shapeCast_self]

/-- The sum accumulator's step: what it held plus the block's masked layer summed over the block's points. -/
theorem pay7_apply (x1 : Vec Ideal S20x256 .f32) (x0 : Vec Ideal S20x256x64 .f32) (x2 x3 : Vec Ideal S1x64 .f32)
    (x4 : Vec Ideal S64x64 .f32) (p : Vec Ideal S1x64 .f32) (z : Fin 1) (ch : Fin 64) :
    k2_pay7 x1 x0 x2 x3 x4 p (ix2 z ch) = p (ix2 z ch) + ∑ a : Fin 20, ∑ r : Fin 256, k2_pay5 x1 x0 x2 x3 x4 (ix3 a r ch) := by
  unfold k2_pay7
  dsimp only
  rw [addf_apply, shapeCast_self, shapeCast_a_1a_apply]
  exact congrArg (p (ix2 z ch) + ·) (multiReduction_add_lead2 (k2_pay5 x1 x0 x2 x3 x4) _ _ _ ch)

/-- The square accumulator's step: what it held plus the masked layer times the layer, summed over the block. -/
theorem pay2_apply (v24 v27 : FVec Ideal S20x256x64 .f32) (p : Vec Ideal S1x64 .f32) (z : Fin 1) (ch : Fin 64) :
    k2_pay2 v24 v27 p (ix2 z ch) = p (ix2 z ch) + ∑ a : Fin 20, ∑ r : Fin 256, v27 (ix3 a r ch) * v24 (ix3 a r ch) := by
  unfold k2_pay2
  dsimp only
  rw [addf_apply, shapeCast_self, shapeCast_a_1a_apply]
  exact congrArg (p (ix2 z ch) + ·) (multiReduction_add_lead2 (mulf v27 v24) _ _ _ ch)

/-- The zero blocks the first point stores are zero at every index. -/
theorem pay6_apply (i : S1x64.Idx) : k2_pay6 (F := Ideal) i = 0 := Ideal.ofBits_zero_f32
theorem pay1_apply (i : S1x64.Idx) : k2_pay1 (F := Ideal) i = 0 := Ideal.ofBits_zero_f32

/-! ## The accumulators after each point, as partial sums over the blocks -/

variable (V : (c : Dev nD) → (b : Ref sig .tc) → Buf (Elt Ideal) ((c : Thread nD τ).loc b))

/-- Block `t`'s contribution to the sum accumulator at channel `ch` (zero past the last block). -/
def blkS (c : Dev nD) (ch : Fin 64) (t : ℕ) : EReal :=
  if h : t < cfg2.N then ∑ a : Fin 20, ∑ r : Fin 256,
    k2_pay5 (iblk2 V c 1 ⟨t, h⟩) (iblk2 V c 0 ⟨t, h⟩) (iblk2 V c 2 ⟨t, h⟩) (iblk2 V c 3 ⟨t, h⟩) (iblk2 V c 4 ⟨t, h⟩) (ix3 a r ch) else 0

/-- Block `t`'s contribution to the square accumulator at channel `ch`. -/
def blkQ (c : Dev nD) (ch : Fin 64) (t : ℕ) : EReal :=
  if h : t < cfg2.N then ∑ a : Fin 20, ∑ r : Fin 256,
    k2_pay5 (iblk2 V c 1 ⟨t, h⟩) (iblk2 V c 0 ⟨t, h⟩) (iblk2 V c 2 ⟨t, h⟩) (iblk2 V c 3 ⟨t, h⟩) (iblk2 V c 4 ⟨t, h⟩) (ix3 a r ch)
      * k2_pay4 (iblk2 V c 1 ⟨t, h⟩) (iblk2 V c 0 ⟨t, h⟩) (iblk2 V c 2 ⟨t, h⟩) (iblk2 V c 3 ⟨t, h⟩) (iblk2 V c 4 ⟨t, h⟩) (ix3 a r ch) else 0

theorem blkS_of_lt (c : Dev nD) (ch : Fin 64) {t : ℕ} (h : t < cfg2.N) :
    blkS V c ch t = ∑ a : Fin 20, ∑ r : Fin 256,
      k2_pay5 (iblk2 V c 1 ⟨t, h⟩) (iblk2 V c 0 ⟨t, h⟩) (iblk2 V c 2 ⟨t, h⟩) (iblk2 V c 3 ⟨t, h⟩) (iblk2 V c 4 ⟨t, h⟩) (ix3 a r ch) := dif_pos h
theorem blkQ_of_lt (c : Dev nD) (ch : Fin 64) {t : ℕ} (h : t < cfg2.N) :
    blkQ V c ch t = ∑ a : Fin 20, ∑ r : Fin 256,
      k2_pay5 (iblk2 V c 1 ⟨t, h⟩) (iblk2 V c 0 ⟨t, h⟩) (iblk2 V c 2 ⟨t, h⟩) (iblk2 V c 3 ⟨t, h⟩) (iblk2 V c 4 ⟨t, h⟩) (ix3 a r ch)
        * k2_pay4 (iblk2 V c 1 ⟨t, h⟩) (iblk2 V c 0 ⟨t, h⟩) (iblk2 V c 2 ⟨t, h⟩) (iblk2 V c 3 ⟨t, h⟩) (iblk2 V c 4 ⟨t, h⟩) (ix3 a r ch) := dif_pos h

/-- After point `n` the sum accumulator holds, at channel `ch`, the contributions of blocks `0 … n` added up. -/
theorem acc_fst (c : Dev nD) (z : Fin 1) (ch : Fin 64) : ∀ (n : ℕ) (h : n < cfg2.N),
    (acc V c n h).1 (ix2 z ch) = ∑ t ∈ Finset.range (n + 1), blkS V c ch t
  | 0, h => by
    refine (pay7_apply (iblk2 V c 1 ⟨0, h⟩) (iblk2 V c 0 ⟨0, h⟩) (iblk2 V c 2 ⟨0, h⟩) (iblk2 V c 3 ⟨0, h⟩) (iblk2 V c 4 ⟨0, h⟩) (k2_pay6 (F := Ideal)) z ch).trans ?_
    rw [Finset.sum_range_one, blkS_of_lt V c ch h, pay6_apply, zero_add]
  | n + 1, h => by
    refine (pay7_apply (iblk2 V c 1 ⟨n + 1, h⟩) (iblk2 V c 0 ⟨n + 1, h⟩) (iblk2 V c 2 ⟨n + 1, h⟩) (iblk2 V c 3 ⟨n + 1, h⟩) (iblk2 V c 4 ⟨n + 1, h⟩) (acc V c n (Nat.lt_of_succ_lt h)).1 z ch).trans ?_
    rw [acc_fst c z ch n, Finset.sum_range_succ _ (n + 1), blkS_of_lt V c ch h]

/-- After point `n` the square accumulator holds the square contributions of blocks `0 … n` added up. -/
theorem acc_snd (c : Dev nD) (z : Fin 1) (ch : Fin 64) : ∀ (n : ℕ) (h : n < cfg2.N),
    (acc V c n h).2.1 (ix2 z ch) = ∑ t ∈ Finset.range (n + 1), blkQ V c ch t
  | 0, h => by
    refine (pay2_apply _ _ (k2_pay1 (F := Ideal)) z ch).trans ?_
    rw [Finset.sum_range_one, blkQ_of_lt V c ch h, pay1_apply, zero_add]
  | n + 1, h => by
    refine (pay2_apply _ _ (acc V c n (Nat.lt_of_succ_lt h)).2.1 z ch).trans ?_
    rw [acc_snd c z ch n, Finset.sum_range_succ _ (n + 1), blkQ_of_lt V c ch h]

/-- After every point the third output's buffer holds the point's block of the third layer. -/
theorem acc_trd (c : Dev nD) : ∀ (n : ℕ) (h : n < cfg2.N),
    (acc V c n h).2.2 = k2_pay4 (iblk2 V c 1 ⟨n, h⟩) (iblk2 V c 0 ⟨n, h⟩) (iblk2 V c 2 ⟨n, h⟩) (iblk2 V c 3 ⟨n, h⟩) (iblk2 V c 4 ⟨n, h⟩)
  | 0, _ => rfl
  | _ + 1, _ => rfl

/-! ## The blocks as parts of the arrays -/

/-- Where each window's block sits at point `t`: block `t` along the polyline axis for the second layer, the mask and
    the third layer, block zero on every other axis and for the small arrays. -/
theorem idx_facts : ∀ t : Fin cfg2.N,
    (win2_0.index t 0 = 0 ∧ win2_0.index t 1 = t.val ∧ win2_0.index t 2 = 0)
    ∧ (win2_1.index t 0 = 0 ∧ win2_1.index t 1 = t.val)
    ∧ (win2_2.index t 0 = 0 ∧ win2_2.index t 1 = 0) ∧ (win2_3.index t 0 = 0 ∧ win2_3.index t 1 = 0)
    ∧ (win2_4.index t 0 = 0 ∧ win2_4.index t 1 = 0)
    ∧ (win2_7.index t 0 = 0 ∧ win2_7.index t 1 = t.val ∧ win2_7.index t 2 = 0) :=
  (by decide +kernel : ∀ t : Fin grid2.N, _)

/-- Polyline `r` of block `t` is polyline `256 t + r`. -/
theorem row_lt (t : Fin cfg2.N) (r : Fin 256) : 256 * t.val + r.val < 12288 := by
  have hN : cfg2.N = 48 := N_2
  have := t.isLt; have := r.isLt; omega

/-- Polyline `r` of block `t`. -/
def rowOf (t : Fin cfg2.N) (r : Fin 256) : Fin 12288 := ⟨256 * t.val + r.val, row_lt t r⟩

/-- The second layer's block at point `t` reads the second layer's array at polyline `256 t + r`. -/
theorem iblk2_x (c : Dev nD) (t : Fin cfg2.N) (n : Fin 20) (r : Fin 256) (k : Fin 64) :
    (iblk2 V c 0 t : Vec Ideal S20x256x64 .f32) (ix3 n r k)
      = (V c main_v34_2 : Vec Ideal S20x12288x64 .f32) (ix3 n (rowOf t r) k) := by
  unfold iblk2
  rw [View.read_apply]
  show V c main_v34_2 _ = V c main_v34_2 _
  refine congrArg (V c main_v34_2) ?_
  funext d
  apply Fin.ext
  match d with
  | ⟨0, _⟩ => show win2_0.index t 0 * 20 + 1 * n.val = n.val; rw [(idx_facts t).1.1]; omega
  | ⟨1, _⟩ => show win2_0.index t 1 * 256 + 1 * r.val = 256 * t.val + r.val; rw [(idx_facts t).1.2.1]; omega
  | ⟨2, _⟩ => show win2_0.index t 2 * 64 + 1 * k.val = k.val; rw [(idx_facts t).1.2.2]; omega

/-- The mask block at point `t` reads the mask array at polyline `256 t + r`. -/
theorem iblk2_m (c : Dev nD) (t : Fin cfg2.N) (n : Fin 20) (r : Fin 256) :
    (iblk2 V c 1 t : Vec Ideal S20x256 .f32) (ix2 n r)
      = (V c main_v4 : Vec Ideal S20x12288 .f32) (ix2 n (rowOf t r)) := by
  unfold iblk2
  rw [View.read_apply]
  show V c main_v4 _ = V c main_v4 _
  refine congrArg (V c main_v4) ?_
  funext d
  apply Fin.ext
  match d with
  | ⟨0, _⟩ => show win2_1.index t 0 * 20 + 1 * n.val = n.val; rw [(idx_facts t).2.1.1]; omega
  | ⟨1, _⟩ => show win2_1.index t 1 * 256 + 1 * r.val = 256 * t.val + r.val; rw [(idx_facts t).2.1.2]; omega

/-- The scale block at every point is the whole scale row. -/
theorem iblk2_2 (c : Dev nD) (t : Fin cfg2.N) (z : Fin 1) (k : Fin 64) :
    (iblk2 V c 2 t : Vec Ideal S1x64 .f32) (ix2 z k) = (V c main_v51 : Vec Ideal S1x64 .f32) (ix2 z k) := by
  unfold iblk2
  rw [View.read_apply]
  show V c main_v51 _ = V c main_v51 _
  refine congrArg (V c main_v51) ?_
  funext d
  apply Fin.ext
  match d with
  | ⟨0, _⟩ => show win2_2.index t 0 * 1 + 1 * z.val = z.val; rw [(idx_facts t).2.2.1.1]; omega
  | ⟨1, _⟩ => show win2_2.index t 1 * 64 + 1 * k.val = k.val; rw [(idx_facts t).2.2.1.2]; omega

/-- The shift block at every point is the whole shift row. -/
theorem iblk2_3 (c : Dev nD) (t : Fin cfg2.N) (z : Fin 1) (k : Fin 64) :
    (iblk2 V c 3 t : Vec Ideal S1x64 .f32) (ix2 z k) = (V c main_v52 : Vec Ideal S1x64 .f32) (ix2 z k) := by
  unfold iblk2
  rw [View.read_apply]
  show V c main_v52 _ = V c main_v52 _
  refine congrArg (V c main_v52) ?_
  funext d
  apply Fin.ext
  match d with
  | ⟨0, _⟩ => show win2_3.index t 0 * 1 + 1 * z.val = z.val; rw [(idx_facts t).2.2.2.1.1]; omega
  | ⟨1, _⟩ => show win2_3.index t 1 * 64 + 1 * k.val = k.val; rw [(idx_facts t).2.2.2.1.2]; omega

/-- The weight block at every point is the whole weight array. -/
theorem iblk2_4 (c : Dev nD) (t : Fin cfg2.N) (k ch : Fin 64) :
    (iblk2 V c 4 t : Vec Ideal S64x64 .f32) (ix2 k ch) = (V c main_v10 : Vec Ideal S64x64 .f32) (ix2 k ch) := by
  unfold iblk2
  rw [View.read_apply]
  show V c main_v10 _ = V c main_v10 _
  refine congrArg (V c main_v10) ?_
  funext d
  apply Fin.ext
  match d with
  | ⟨0, _⟩ => show win2_4.index t 0 * 64 + 1 * k.val = k.val; rw [(idx_facts t).2.2.2.2.1.1]; omega
  | ⟨1, _⟩ => show win2_4.index t 1 * 64 + 1 * ch.val = ch.val; rw [(idx_facts t).2.2.2.2.1.2]; omega

/-! ## The region's contract -/

/-- The masked normalized second layer at point `n` of polyline `j`, channel `k`, from the second layer `X2`, the mask
    `M`, and the scale and shift rows. -/
def zed (X2 : Vec Ideal S20x12288x64 .f32) (M : Vec Ideal S20x12288 .f32) (sc1 sh1 : Vec Ideal S1x64 .f32)
    (n : Fin 20) (j : Fin 12288) (k : Fin 64) : EReal :=
  max (X2 (ix3 n j k) * sc1 (ix2 0 k) + sh1 (ix2 0 k)) 0 * M (ix2 n j)

/-- The third layer at point `n` of polyline `j`, channel `ch`: the masked normalized second layer times the weights. -/
def h3 (X2 : Vec Ideal S20x12288x64 .f32) (M : Vec Ideal S20x12288 .f32) (sc1 sh1 : Vec Ideal S1x64 .f32)
    (w2 : Vec Ideal S64x64 .f32) (n : Fin 20) (j : Fin 12288) (ch : Fin 64) : EReal :=
  ∑ k : Fin 64, zed X2 M sc1 sh1 n j k * w2 (ix2 k ch)

/-- The third layer from the arrays as the region finds them. -/
abbrev H3 (c : Dev nD) (n : Fin 20) (j : Fin 12288) (ch : Fin 64) : EReal :=
  h3 (V c main_v34_2) (V c main_v4) (V c main_v51) (V c main_v52) (V c main_v10) n j ch

/-- The block's third layer at point `a` of its polyline `r` is the third layer at polyline `256 t + r`. -/
theorem pay4_blk (c : Dev nD) (t : Fin cfg2.N) (a : Fin 20) (r : Fin 256) (ch : Fin 64) :
    k2_pay4 (iblk2 V c 1 t) (iblk2 V c 0 t) (iblk2 V c 2 t) (iblk2 V c 3 t) (iblk2 V c 4 t) (ix3 a r ch) = H3 V c a (rowOf t r) ch := by
  refine (pay4_apply (iblk2 V c 1 t) (iblk2 V c 0 t) (iblk2 V c 2 t) (iblk2 V c 3 t) (iblk2 V c 4 t) a r ch).trans ?_
  refine Finset.sum_congr rfl fun k _ => ?_
  rw [iblk2_x V c t a r k, iblk2_m V c t a r, iblk2_2 V c t 0 k, iblk2_3 V c t 0 k, iblk2_4 V c t k ch]
  rfl

/-- The block's masked third layer likewise. -/
theorem pay5_blk (c : Dev nD) (t : Fin cfg2.N) (a : Fin 20) (r : Fin 256) (ch : Fin 64) :
    k2_pay5 (iblk2 V c 1 t) (iblk2 V c 0 t) (iblk2 V c 2 t) (iblk2 V c 3 t) (iblk2 V c 4 t) (ix3 a r ch)
      = H3 V c a (rowOf t r) ch * (V c main_v4 : Vec Ideal S20x12288 .f32) (ix2 a (rowOf t r)) := by
  refine (pay5_apply (iblk2 V c 1 t) (iblk2 V c 0 t) (iblk2 V c 2 t) (iblk2 V c 3 t) (iblk2 V c 4 t) a r ch).trans ?_
  rw [pay4_blk V c t a r ch, iblk2_m V c t a r]

/-! ## The arrays after the region -/

/-- The last point of the grid. -/
abbrev tLast : Fin cfg2.N := ⟨47, by rw [show cfg2.N = 48 from N_2]; decide⟩

/-- The one write-back of window 5, at the last point, writes what the recursion holds there: its block is the whole
    array read through zero offsets. -/
theorem flushed5 (c : Dev nD) (t : Fin cfg2.N) (hf : (cfg2.win 5).flush t = true) :
    (dat2 V c).flushed 5 t = ((cfg2.win 5).blk t).view.read (Elt Ideal) ((acc V c 47 tLast.isLt).1) := by
  have hN : cfg2.N = 48 := N_2
  have h47 : t.val = 47 := by have := (flush2_5 t).mp hf; have := t.isLt; omega
  obtain rfl : t = tLast := Fin.ext h47
  show (cfg2.win 5).cut (grid2.coords tLast) ((dat2 V c).after 5 tLast) = _
  rw [after2_5, outsAt_eq]
  have hz' : (fun a => win2_5.index tLast a * main_v53_0.ty.shape.size a) = fun _ => 0 :=
    funext fun a => by fin_cases a <;> decide +kernel
  exact (Memref.read_access_unit_zero (Elt Ideal) main_v53_0 hz' (fun a => by rw [congrFun hz' a]; simp) _).symm

/-- So after the region the array of window 5 holds the sum accumulator after the last point. -/
theorem final5 (c : Dev nD) : (dat2 V c).arrAt 5 cfg2.N = (acc V c 47 tLast.isLt).1 :=
  (dat2 V c).arrAt_eq_of_cover 5 _ (flushed5 V c) fun i =>
    ⟨tLast, (flush2_5 tLast).mpr rfl, by
      show i ∈ ((View.whole main_v53_0).slice (win2_5.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win2_5.index tLast 0 * win2_5.size 0 ≤ (i 0 : Nat) ∧ (i 0 : Nat) < win2_5.index tLast 0 * win2_5.size 0 + win2_5.xsize (grid2.coords tLast) 0
        rw [show win2_5.index tLast 0 * win2_5.size 0 = 0 from by decide +kernel, show win2_5.xsize (grid2.coords tLast) 0 = 1 from by decide +kernel]; omega
      | ⟨1, _⟩ =>
        show win2_5.index tLast 1 * win2_5.size 1 ≤ (i 1 : Nat) ∧ (i 1 : Nat) < win2_5.index tLast 1 * win2_5.size 1 + win2_5.xsize (grid2.coords tLast) 1
        rw [show win2_5.index tLast 1 * win2_5.size 1 = 0 from by decide +kernel, show win2_5.xsize (grid2.coords tLast) 1 = 64 from by decide +kernel]; omega⟩

/-- The one write-back of window 6, at the last point, writes what the recursion holds there: its block is the whole
    array read through zero offsets. -/
theorem flushed6 (c : Dev nD) (t : Fin cfg2.N) (hf : (cfg2.win 6).flush t = true) :
    (dat2 V c).flushed 6 t = ((cfg2.win 6).blk t).view.read (Elt Ideal) ((acc V c 47 tLast.isLt).2.1) := by
  have hN : cfg2.N = 48 := N_2
  have h47 : t.val = 47 := by have := (flush2_6 t).mp hf; have := t.isLt; omega
  obtain rfl : t = tLast := Fin.ext h47
  show (cfg2.win 6).cut (grid2.coords tLast) ((dat2 V c).after 6 tLast) = _
  rw [after2_6, outsAt_eq]
  have hz' : (fun a => win2_6.index tLast a * main_v53_1.ty.shape.size a) = fun _ => 0 :=
    funext fun a => by fin_cases a <;> decide +kernel
  exact (Memref.read_access_unit_zero (Elt Ideal) main_v53_1 hz' (fun a => by rw [congrFun hz' a]; simp) _).symm

/-- So after the region the array of window 6 holds the square accumulator after the last point. -/
theorem final6 (c : Dev nD) : (dat2 V c).arrAt 6 cfg2.N = (acc V c 47 tLast.isLt).2.1 :=
  (dat2 V c).arrAt_eq_of_cover 6 _ (flushed6 V c) fun i =>
    ⟨tLast, (flush2_6 tLast).mpr rfl, by
      show i ∈ ((View.whole main_v53_1).slice (win2_6.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win2_6.index tLast 0 * win2_6.size 0 ≤ (i 0 : Nat) ∧ (i 0 : Nat) < win2_6.index tLast 0 * win2_6.size 0 + win2_6.xsize (grid2.coords tLast) 0
        rw [show win2_6.index tLast 0 * win2_6.size 0 = 0 from by decide +kernel, show win2_6.xsize (grid2.coords tLast) 0 = 1 from by decide +kernel]; omega
      | ⟨1, _⟩ =>
        show win2_6.index tLast 1 * win2_6.size 1 ≤ (i 1 : Nat) ∧ (i 1 : Nat) < win2_6.index tLast 1 * win2_6.size 1 + win2_6.xsize (grid2.coords tLast) 1
        rw [show win2_6.index tLast 1 * win2_6.size 1 = 0 from by decide +kernel, show win2_6.xsize (grid2.coords tLast) 1 = 64 from by decide +kernel]; omega⟩

/-- The third layer's array the region ends with, as a function of its index. -/
def H3arr (c : Dev nD) : S20x12288x64.Idx → EReal := fun i => H3 V c (i 0) (i 1) (i 2)

/-- Where the third layer's block entry `(a, r, ch)` sits in the array at point `t`: polyline `256 t + r`. -/
theorem emb7 (t : Fin cfg2.N) (a : Fin 20) (r : Fin 256) (ch : Fin 64) :
    ((cfg2.win 7).blk t).view.emb (ix3 a r ch : S20x256x64.Idx) = (ix3 a (rowOf t r) ch : S20x12288x64.Idx) := by
  funext d
  apply Fin.ext
  match d with
  | ⟨0, _⟩ => show win2_7.index t 0 * 20 + 1 * a.val = a.val; rw [(idx_facts t).2.2.2.2.2.1]; omega
  | ⟨1, _⟩ => show win2_7.index t 1 * 256 + 1 * r.val = 256 * t.val + r.val; rw [(idx_facts t).2.2.2.2.2.2.1]; omega
  | ⟨2, _⟩ => show win2_7.index t 2 * 64 + 1 * ch.val = ch.val; rw [(idx_facts t).2.2.2.2.2.2.2]; omega

/-- Point `t`'s block of the third layer is block `t` of that array. -/
theorem out_eq_read7 (c : Dev nD) (t : Fin cfg2.N) :
    (k2_pay4 (iblk2 V c 1 t) (iblk2 V c 0 t) (iblk2 V c 2 t) (iblk2 V c 3 t) (iblk2 V c 4 t) : Vec Ideal S20x256x64 .f32)
      = ((cfg2.win 7).blk t).view.read (Elt Ideal) (H3arr V c) := by
  funext y
  obtain ⟨a, r, ch, rfl⟩ : ∃ (a : Fin 20) (r : Fin 256) (ch : Fin 64), y = ix3 a r ch := ⟨y 0, y 1, y 2, eq_ix3 y⟩
  refine (pay4_blk V c t a r ch).trans ?_
  show H3arr V c (ix3 a (rowOf t r) ch) = H3arr V c (((cfg2.win 7).blk t).view.emb (ix3 a r ch : S20x256x64.Idx))
  rw [emb7]

/-- What point `t` writes back of the third layer is block `t` of that array. -/
theorem flushed7 (c : Dev nD) (t : Fin cfg2.N) :
    (dat2 V c).flushed 7 t = ((cfg2.win 7).blk t).view.read (Elt Ideal) (H3arr V c) := by
  show (cfg2.win 7).cut (grid2.coords t) ((dat2 V c).after 7 t) = _
  rw [after2_7, outsAt_eq, acc_trd]
  exact out_eq_read7 V c t

/-- An index of the third layer's array is in point `t`'s block iff each coordinate is in the block's range on its axis. -/
theorem mem_blk7 (t : Fin cfg2.N) (i : S20x12288x64.Idx) :
    i ∈ ((cfg2.win 7).blk t).view.set ↔ ∀ a : Fin 3, win2_7.index t a * S20x256x64.size a ≤ (i a).val ∧ (i a).val < win2_7.index t a * S20x256x64.size a + S20x256x64.size a := by
  show i ∈ ((View.whole main_v53_2).slice (win2_7.rect t)).set ↔ _
  rw [View.set_slice_whole, Rect.mem_set_unit]
  exact Iff.rfl

/-- Every polyline is some point's (polyline `j` is in block `j / 256`), so after the region the third layer's array is
    that function. -/
theorem final7 (c : Dev nD) : (dat2 V c).arrAt 7 cfg2.N = H3arr V c :=
  (dat2 V c).arrAt_eq_of_cover 7 _ (fun t _ => flushed7 V c t) fun i => by
    have hN : cfg2.N = 48 := N_2
    have h0 : (i 0 : Nat) < 20 := (i 0).isLt
    have h1 : (i 1 : Nat) < 12288 := (i 1).isLt
    have h2 : (i 2 : Nat) < 64 := (i 2).isLt
    let t : Fin cfg2.N := ⟨(i 1 : Nat) / 256, by omega⟩
    have ht : t.val = (i 1 : Nat) / 256 := rfl
    obtain ⟨-, -, -, -, -, e0, e1, e2⟩ := idx_facts t
    refine ⟨t, flush2_7 t, (mem_blk7 t i).mpr fun a => ?_⟩
    match a with
    | ⟨0, _⟩ =>
      show win2_7.index t 0 * 20 ≤ (i 0 : Nat) ∧ (i 0 : Nat) < win2_7.index t 0 * 20 + 20
      rw [e0]; omega
    | ⟨1, _⟩ =>
      show win2_7.index t 1 * 256 ≤ (i 1 : Nat) ∧ (i 1 : Nat) < win2_7.index t 1 * 256 + 256
      rw [e1, ht]; omega
    | ⟨2, _⟩ =>
      show win2_7.index t 2 * 64 ≤ (i 2 : Nat) ∧ (i 2 : Nat) < win2_7.index t 2 * 64 + 64
      rw [e2]; omega

/-! ## The contract -/

/-- After the region the third layer's array holds, at point `n` of polyline `j` and channel `ch`, the third layer of
    the arrays as the region finds them. -/
theorem region2_h3 (c : Dev nD) (n : Fin 20) (j : Fin 12288) (ch : Fin 64) :
    (dat2 V c).arrAt 7 cfg2.N (ix3 n j ch) = h3 (V c main_v34_2) (V c main_v4) (V c main_v51) (V c main_v52) (V c main_v10) n j ch :=
  congrFun (final7 V c) (ix3 n j ch)

/-- A sum over the first forty-eight naturals is the sum over the forty-eight blocks. -/
theorem sum_range_48 (f : ℕ → EReal) : ∑ t ∈ Finset.range (47 + 1), f t = ∑ t : Fin 48, f t.val :=
  (Fin.sum_univ_eq_sum_range f 48).symm

/-- A block number is a point of the grid. -/
theorem lt48 (t : Fin 48) : t.val < cfg2.N := by rw [show cfg2.N = 48 from N_2]; exact t.isLt

/-- After the region the sum array holds, at channel `ch`, the masked third layer summed over every block, point and
    polyline. -/
theorem region2_sum (c : Dev nD) (z : Fin 1) (ch : Fin 64) :
    (dat2 V c).arrAt 5 cfg2.N (ix2 z ch)
      = ∑ t : Fin 48, ∑ a : Fin 20, ∑ r : Fin 256,
          h3 (V c main_v34_2) (V c main_v4) (V c main_v51) (V c main_v52) (V c main_v10) a ⟨256 * t.val + r.val, Cert.BlockSum.blk_lt (A := 48) t r⟩ ch
            * (V c main_v4 : Vec Ideal S20x12288 .f32) (ix2 a ⟨256 * t.val + r.val, Cert.BlockSum.blk_lt (A := 48) t r⟩) := by
  rw [final5 V c]
  refine (acc_fst V c z ch 47 tLast.isLt).trans ?_
  rw [sum_range_48]
  refine Finset.sum_congr rfl fun t _ => ?_
  rw [blkS_of_lt V c ch (lt48 t)]
  exact Finset.sum_congr rfl fun a _ => Finset.sum_congr rfl fun r _ => pay5_blk V c ⟨t.val, lt48 t⟩ a r ch

/-- After the region the square array holds the masked third layer times the third layer, summed likewise. -/
theorem region2_sq (c : Dev nD) (z : Fin 1) (ch : Fin 64) :
    (dat2 V c).arrAt 6 cfg2.N (ix2 z ch)
      = ∑ t : Fin 48, ∑ a : Fin 20, ∑ r : Fin 256,
          (h3 (V c main_v34_2) (V c main_v4) (V c main_v51) (V c main_v52) (V c main_v10) a ⟨256 * t.val + r.val, Cert.BlockSum.blk_lt (A := 48) t r⟩ ch
            * (V c main_v4 : Vec Ideal S20x12288 .f32) (ix2 a ⟨256 * t.val + r.val, Cert.BlockSum.blk_lt (A := 48) t r⟩))
            * h3 (V c main_v34_2) (V c main_v4) (V c main_v51) (V c main_v52) (V c main_v10) a ⟨256 * t.val + r.val, Cert.BlockSum.blk_lt (A := 48) t r⟩ ch := by
  rw [final6 V c]
  refine (acc_snd V c z ch 47 tLast.isLt).trans ?_
  rw [sum_range_48]
  refine Finset.sum_congr rfl fun t _ => ?_
  rw [blkQ_of_lt V c ch (lt48 t)]
  refine Finset.sum_congr rfl fun a _ => Finset.sum_congr rfl fun r _ => ?_
  rw [pay5_blk V c ⟨t.val, lt48 t⟩ a r ch, pay4_blk V c ⟨t.val, lt48 t⟩ a r ch]
  rfl

end Cert.KernelIdeal.R2

end
-- ==== Proof.KernelStage2.lean ====
/-
  The third region's results and the third norm's constants, in the network's terms.

  Region 2 finds the second layer as region 1 left it, the mask numbers, the second norm's scale and shift as the
  third stretch computed them, and the third layer's weights transposed. With the second layer the network's, the
  scale and shift the moment spelling's of the second layer, and the mask numbers the network's, the masked normalized
  second layer the region computes is the network's; multiplied by the transposed weights it is the network's third
  layer. The region's three result arrays are then the network's third layer at polyline `768 b + p`, and its masked
  sum and masked sum of squares over all rows: sums over blocks, points and positions are sums over rows. The fourth
  stretch turns the two sums, the count and the gain and bias arguments into the third norm's scale and shift, which
  are therefore the moment spelling's of the third layer.
-/
import proofs.«135113_g11922829214230_retrytranche1_1894_3_alg».proof.Proof.KernelCarry
import proofs.«135113_g11922829214230_retrytranche1_1894_3_alg».proof.Proof.KernelValue
import proofs.«135113_g11922829214230_retrytranche1_1894_3_alg».proof.Proof.KernelStage1
import proofs.«135113_g11922829214230_retrytranche1_1894_3_alg».proof.Proof.Region2
import Idealize.ShloMosaic.Lib.ValueLayout

open scoped BigOperators

noncomputable section

namespace Cert.KernelIdeal.Stage2

open Cert.KernelIdeal Cert.KernelIdeal.Gen Cert.KernelIdeal.Carry Cert.KernelIdeal.Value
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 2's entry arrays in the network's terms -/

/-- The second layer as region 2 finds it, at polyline `768 b + p`, is the network's second layer. -/
theorem x2_apply (c : Dev nD) (b : Fin 16) (p : Fin 768) (n : Fin 20) (k : Fin 64) :
    (V5 m ρ c main_v34_2 : Vec Ideal S20x12288x64 .f32) (ix3 n (poly b p) k) = Cert.Net.h2 (argsK m c) (b, p, n) k :=
  (congrFun (keep_v34_2_5 m ρ c) (ix3 n (poly b p) k)).trans (Stage1.h2_eq m ρ c b p n k)

/-- The mask numbers as region 2 finds them are the network's. -/
theorem m5_apply (c : Dev nD) (b : Fin 16) (p : Fin 768) (n : Fin 20) :
    (V5 m ρ c main_v4 : Vec Ideal S20x12288 .f32) (ix2 n (poly b p)) = Cert.Net.mu (argsK m c) (b, p, n) :=
  Stage1.m5_eq m ρ c b p n

/-- The third layer's weights as region 2 finds them: the argument's, transposed. -/
theorem w2_apply (c : Dev nD) (k ch : Fin 64) :
    (V5 m ρ c main_v10 : Vec Ideal S64x64 .f32) (ix2 k ch) = (argsK m c).w2 (ix2 ch k) :=
  (congrFun (keep_v10_5 m ρ c) (ix2 k ch)).trans (entW2_apply m ρ c k ch)

/-- The masked normalized second layer as region 2 computes it is the network's. -/
theorem zed_eq (c : Dev nD) (b : Fin 16) (p : Fin 768) (n : Fin 20) (k : Fin 64) :
    R2.zed (V5 m ρ c main_v34_2) (V5 m ρ c main_v4) (V5 m ρ c main_v51) (V5 m ρ c main_v52) n (poly b p) k = Cert.Net.f2 (argsK m c) (b, p, n) k := by
  have hn := Stage1.norm1 m ρ c 0 k
  unfold R2.zed
  rw [x2_apply m ρ c b p n k, m5_apply m ρ c b p n]
  show max (Cert.Net.h2 (argsK m c) (b, p, n) k * sc1 m ρ c (ix2 0 k) + sh1 m ρ c (ix2 0 k)) 0 * Cert.Net.mu (argsK m c) (b, p, n) = _
  rw [hn.1, hn.2]
  rfl

/-- The third layer as region 2 computes it, at polyline `768 b + p`, is the network's third layer. -/
theorem h3V_eq (c : Dev nD) (b : Fin 16) (p : Fin 768) (n : Fin 20) (ch : Fin 64) :
    R2.h3 (V5 m ρ c main_v34_2) (V5 m ρ c main_v4) (V5 m ρ c main_v51) (V5 m ρ c main_v52) (V5 m ρ c main_v10) n (poly b p) ch = Cert.Net.h3 (argsK m c) (b, p, n) ch := by
  unfold R2.h3 Cert.Net.h3
  refine Finset.sum_congr rfl fun k _ => ?_
  rw [zed_eq m ρ c b p n k, w2_apply m ρ c k ch]

/-! ## Region 2's results -/

/-- After region 2 the third layer's array holds the network's third layer. -/
theorem h3_eq (c : Dev nD) (b : Fin 16) (p : Fin 768) (n : Fin 20) (ch : Fin 64) :
    h3arr m ρ c (ix3 n (poly b p) ch) = Cert.Net.h3 (argsK m c) (b, p, n) ch :=
  (congrFun (W6_arr m ρ c 7) (ix3 n (poly b p) ch)).trans
    ((R2.region2_h3 (V5 m ρ) c n (poly b p) ch).trans (h3V_eq m ρ c b p n ch))

/-- After region 2 the sum array holds the third layer's masked sum over all rows. -/
theorem S2_eq (c : Dev nD) (z : Fin 1) (ch : Fin 64) :
    s2arr m ρ c (ix2 z ch) = ∑ q : Cert.Net.Row, Cert.Net.h3 (argsK m c) q ch * Cert.Net.mu (argsK m c) q := by
  refine (congrFun (W6_arr m ρ c 5) (ix2 z ch)).trans ?_
  refine (R2.region2_sum (V5 m ρ) c z ch).trans ?_
  refine (sum_rows (fun a j => R2.h3 (V5 m ρ c main_v34_2) (V5 m ρ c main_v4) (V5 m ρ c main_v51) (V5 m ρ c main_v52) (V5 m ρ c main_v10) a j ch
    * (V5 m ρ c main_v4 : Vec Ideal S20x12288 .f32) (ix2 a j))).trans ?_
  exact Finset.sum_congr rfl fun q _ =>
    congrArg₂ (· * ·) (h3V_eq m ρ c q.1 q.2.1 q.2.2 ch) (m5_apply m ρ c q.1 q.2.1 q.2.2)

/-- After region 2 the square array holds the third layer's masked sum of squares over all rows. -/
theorem Q2_eq (c : Dev nD) (z : Fin 1) (ch : Fin 64) :
    q2arr m ρ c (ix2 z ch)
      = ∑ q : Cert.Net.Row, (Cert.Net.h3 (argsK m c) q ch * Cert.Net.mu (argsK m c) q) * Cert.Net.h3 (argsK m c) q ch := by
  refine (congrFun (W6_arr m ρ c 6) (ix2 z ch)).trans ?_
  refine (R2.region2_sq (V5 m ρ) c z ch).trans ?_
  refine (sum_rows (fun a j => (R2.h3 (V5 m ρ c main_v34_2) (V5 m ρ c main_v4) (V5 m ρ c main_v51) (V5 m ρ c main_v52) (V5 m ρ c main_v10) a j ch
    * (V5 m ρ c main_v4 : Vec Ideal S20x12288 .f32) (ix2 a j))
    * R2.h3 (V5 m ρ c main_v34_2) (V5 m ρ c main_v4) (V5 m ρ c main_v51) (V5 m ρ c main_v52) (V5 m ρ c main_v10) a j ch)).trans ?_
  exact Finset.sum_congr rfl fun q _ =>
    congrArg₂ (· * ·) (congrArg₂ (· * ·) (h3V_eq m ρ c q.1 q.2.1 q.2.2 ch) (m5_apply m ρ c q.1 q.2.1 q.2.2))
      (h3V_eq m ρ c q.1 q.2.1 q.2.2 ch)

/-! ## The fourth stretch: the third norm's constants -/

/-- The count reaches the fourth stretch as the network's. -/
theorem cnt6_apply (c : Dev nD) :
    (W6 m ρ c (Proc.devRef .tc main_v15) : FVec Ideal S_ .f32) ix0 = Cert.BN.cnt (Cert.Net.mu (argsK m c)) :=
  (congrFun (keep_v15_6 m ρ c) ix0).trans (cnt3_apply m ρ c)

/-- Argument arrays, read at the boundary before the fourth stretch, are the launch memory's. -/
theorem g2_apply (c : Dev nD) (ch : Fin 64) :
    ((W6 m ρ c (Proc.devRef .tc main_arg9)) : FVec Ideal S64 .f32) (ix1 ch) = (argsK m c).g2 (ix1 ch) :=
  congrFun (keep_arg9_6 m ρ c) (ix1 ch)
theorem b2_apply (c : Dev nD) (ch : Fin 64) :
    ((W6 m ρ c (Proc.devRef .tc main_arg10)) : FVec Ideal S64 .f32) (ix1 ch) = (argsK m c).b2 (ix1 ch) :=
  congrFun (keep_arg10_6 m ρ c) (ix1 ch)

/-- The third norm's scale and shift, as region 3 finds them, are the moment spelling's of the third layer. -/
theorem norm2 (c : Dev nD) (z : Fin 1) (ch : Fin 64) :
    sc2 m ρ c (ix2 z ch)
        = Cert.BN.scale (fun q => Cert.Net.h3 (argsK m c) q ch) (Cert.Net.mu (argsK m c)) ((argsK m c).g2 (ix1 ch)) Cert.Net.eps
      ∧ sh2 m ρ c (ix2 z ch)
        = Cert.BN.shift (fun q => Cert.Net.h3 (argsK m c) q ch) (Cert.Net.mu (argsK m c)) ((argsK m c).g2 (ix1 ch))
            ((argsK m c).b2 (ix1 ch)) Cert.Net.eps := by
  have key := scale_shift_eq (shapeCast S64 (W6 m ρ c (Proc.devRef .tc main_v53_0)) shapeCasts_S1x64_S64)
    (shapeCast S64 (W6 m ρ c (Proc.devRef .tc main_v53_1)) shapeCasts_S1x64_S64) (W6 m ρ c (Proc.devRef .tc main_v15))
    (W6 m ρ c (Proc.devRef .tc main_arg9)) (W6 m ρ c (Proc.devRef .tc main_arg10))
    (fun q => Cert.Net.h3 (argsK m c) q ch) (Cert.Net.mu (argsK m c)) ch
    ((shapeCast_1a_a_apply _ _ ch).trans (S2_eq m ρ c 0 ch))
    ((shapeCast_1a_a_apply _ _ ch).trans (Q2_eq m ρ c 0 ch))
    (cnt6_apply m ρ c)
  rw [g2_apply, b2_apply] at key
  exact ⟨by rw [sc2_eq, rowOf64_apply]; exact key.1, by rw [sh2_eq, rowOf64_apply]; exact key.2⟩

/-- The mask numbers as region 3 finds them are the network's. -/
theorem m7_eq (c : Dev nD) (b : Fin 16) (p : Fin 768) (n : Fin 20) :
    m7arr m ρ c (ix2 n (poly b p)) = Cert.Net.mu (argsK m c) (b, p, n) :=
  (congrFun (keep_v4_7 m ρ c) (ix2 n (poly b p))).trans (Stage1.m5_eq m ρ c b p n)

end Cert.KernelIdeal.Stage2

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Region3.lean ====
/-
  The last region, read at the extended reals: its output array as one function of its eight input arrays.

  The region runs over forty-eight blocks of 256 polylines. Its body has no conditional and one output, written whole
  at every point: for polyline `r` of the block and output channel `o`, it normalizes the twenty points' 64 channels
  (scale, shift, positive part), multiplies by the points' mask numbers, takes the maximum over the twenty points per
  channel, applies the first output layer (a 64-term sum per channel, plus a bias, positive part) and the second (a
  64-term sum per output channel, plus a bias), and multiplies by the polyline's validity, the maximum of its twenty
  mask numbers. Only the activations and the mask move with the point (block `t` along the polyline axis); the six
  small arrays are read whole at every point. So point `t` writes back rows `256 t … 256 t + 255` of one function of
  the eight arrays, every row is some point's, and the array ends holding that function.
-/
import proofs.«135113_g11922829214230_retrytranche1_1894_3_alg».proof.Proof.Gen.KernelIdeal.Frame
import proofs.«135113_g11922829214230_retrytranche1_1894_3_alg».proof.Proof.LibLayout3
import proofs.«135113_g11922829214230_retrytranche1_1894_3_alg».proof.Proof.LibReduceLeading
import proofs.«135113_g11922829214230_retrytranche1_1894_3_alg».proof.Proof.LibMatmul
import proofs.«135113_g11922829214230_retrytranche1_1894_3_alg».proof.Proof.LibKeepdims
import proofs.«135113_g11922829214230_retrytranche1_1894_3_alg».proof.Proof.LibLayoutMax
import Idealize.ShloMosaic.PureOps.Ideal.Laws
import Idealize.ShloMosaic.Lib.Pipeline.Value
import Idealize.ShloMosaic.Lib.ValueLayout
import Idealize.ShloMosaic.Lib.Tactic

open scoped BigOperators

noncomputable section

namespace Cert.KernelIdeal.R3

open Cert.KernelIdeal Cert.KernelIdeal.Gen
open Idealize.ShloMosaic Idealize.ShloMosaic.TcCoe Idealize.ShloMosaic.ValueIdx Idealize.SL.Sem
open Idealize.ShloMosaic.Pipeline (Dat)
open Cert.LeadMax Idealize.ShloMosaic.Keepdims

/-- The first output layer's contraction is the plain one: `[256, 64]` by `[64, 64]`. -/
theorem dotA_eq : dot_S256x64_S64x64_S256x64_1_0_0_1_n_n = DotDims.plain 256 64 64 := rfl
/-- The second output layer's contraction is the plain one: `[256, 64]` by `[64, 256]`. -/
theorem dotB_eq : dot_S256x64_S64x256_S256x256_1_0_0_1_n_n = DotDims.plain 256 64 256 := rfl

/-- A polyline's validity: the maximum of its twenty mask numbers (bottom for none). -/
theorem pay3_apply (x1 : Vec Ideal S20x256 .f32) (r : Fin 256) :
    k3_pay3 x1 (ix1 r) = (Finset.univ : Finset (Fin 20)).fold max ⊥ fun n => x1 (ix2 n r) := by
  unfold k3_pay3 k3_pay2
  dsimp only
  refine (multiReduction_max_lead2 _ _ _ _ r).trans ?_
  simp only [shapeCast_self]

/-- The last bias row as a vector. -/
theorem pay5_apply (x7 : Vec Ideal S1x256 .f32) (o : Fin 256) : k3_pay5 x7 (ix1 o) = x7 (ix2 0 o) := by
  unfold k3_pay5
  exact shapeCast_1a_a_apply _ _ o

/-- The two output layers of a block at polyline `r`, output channel `o`, before the last bias: the masked normalized
    activations' maximum over the twenty points, through the first layer with its bias and the positive part, through
    the second layer. -/
theorem pay4_apply (x1 : Vec Ideal S20x256 .f32) (x0 : Vec Ideal S20x256x64 .f32) (x2 x3 : Vec Ideal S1x64 .f32)
    (x4 : Vec Ideal S64x64 .f32) (x5 : Vec Ideal S1x64 .f32) (x6 : Vec Ideal S64x256 .f32) (r o : Fin 256) :
    k3_pay4 x1 x0 x2 x3 x4 x5 x6 (ix2 r o)
      = ∑ k : Fin 64, max ((∑ ch : Fin 64, ((Finset.univ : Finset (Fin 20)).fold max ⊥ fun n =>
          max (x0 (ix3 n r ch) * x2 (ix2 0 ch) + x3 (ix2 0 ch)) 0 * x1 (ix2 n r)) * x4 (ix2 ch k)) + x5 (ix2 0 k)) 0 * x6 (ix2 k o) := by
  have hz : (FloatOps.ofBits FTy.f32 0#32 : Ideal .f32) = (0 : EReal) := Ideal.ofBits_zero_f32
  unfold k3_pay4 k3_pay2
  dsimp only
  rw [dotB_eq, Cert.MatOps.matmul_plain_zero_apply]
  refine Finset.sum_congr rfl fun k _ => ?_
  rw [maximumf_apply, addf_apply, broadcast_apply, dotA_eq, Cert.MatOps.matmul_plain_zero_apply,
    broadcastTo_1b_ab_apply, shapeCast_a_1a_apply, shapeCast_1a_a_apply]
  simp only [shapeCast_self]
  rw [hz]
  refine congrArg (fun z => max (z + x5 (ix2 0 k)) 0 * x6 (ix2 k o)) (Finset.sum_congr rfl fun ch _ => ?_)
  refine congrArg (· * x4 (ix2 ch k)) ?_
  refine (multiReduction_max_lead3 _ _ _ _ r ch).trans ?_
  refine congrArg (fun f => Finset.fold max ⊥ f Finset.univ) (funext fun n => ?_)
  rw [mulf_apply, maximumf_apply, addf_apply, mulf_apply, broadcast_apply,
    broadcastTo_11c_abc_apply, shapeCast_c_11c_apply, shapeCast_1a_a_apply,
    broadcastTo_11c_abc_apply, shapeCast_c_11c_apply, shapeCast_1a_a_apply,
    Cert.Layout3.broadcastTo_ab1_abc_apply _ _ n r ch 0, Cert.Layout3.shapeCast_ab_ab1_apply]

/-- The output block from the three values it is assembled of: the second layer plus the bias row, times the
    polyline's validity along its row. -/
theorem pay1_apply (v20 : FVec Ideal S256 .f32) (v33 : FVec Ideal S256x256 .f32) (v35 : FVec Ideal S256 .f32) (r o : Fin 256) :
    k3_pay1 v20 v33 v35 (ix2 r o) = (v33 (ix2 r o) + v35 (ix1 o)) * v20 (ix1 r) := by
  unfold k3_pay1
  rw [mulf_apply, addf_apply, broadcastTo_1b_ab_apply, shapeCast_a_1a_apply,
    broadcastTo_a1_ab_apply _ _ r o 0, shapeCast_a_a1_apply]

/-- The zero offsets of a two-axis rectangle. -/
theorem hz2 : (![0, 0] : Fin 2 → Nat) = fun _ => 0 := funext fun a => by fin_cases a <;> rfl
/-- The zero offsets of a three-axis rectangle. -/
theorem hz3 : (![0, 0, 0] : Fin 3 → Nat) = fun _ => 0 := funext fun a => by fin_cases a <;> rfl

/-- What a block's output is at polyline `r`, output channel `o`, as a function of the eight input blocks. -/
def blockG (x0 : Vec Ideal S20x256x64 .f32) (x1 : Vec Ideal S20x256 .f32) (x2 x3 : Vec Ideal S1x64 .f32)
    (x4 : Vec Ideal S64x64 .f32) (x5 : Vec Ideal S1x64 .f32) (x6 : Vec Ideal S64x256 .f32) (x7 : Vec Ideal S1x256 .f32)
    (r o : Fin 256) : EReal :=
  ((∑ k : Fin 64, max ((∑ ch : Fin 64, ((Finset.univ : Finset (Fin 20)).fold max ⊥ fun n =>
      max (x0 (ix3 n r ch) * x2 (ix2 0 ch) + x3 (ix2 0 ch)) 0 * x1 (ix2 n r)) * x4 (ix2 ch k)) + x5 (ix2 0 k)) 0 * x6 (ix2 k o))
    + x7 (ix2 0 o)) * ((Finset.univ : Finset (Fin 20)).fold max ⊥ fun n => x1 (ix2 n r))

/-- The body's one store, read at an index: the block function of the eight loaded blocks. -/
theorem out_apply (x0 : Vec Ideal S20x256x64 .f32) (x1 : Vec Ideal S20x256 .f32) (x2 x3 : Vec Ideal S1x64 .f32)
    (x4 : Vec Ideal S64x64 .f32) (x5 : Vec Ideal S1x64 .f32) (x6 : Vec Ideal S64x256 .f32) (x7 : Vec Ideal S1x256 .f32)
    (r o : Fin 256) :
    out3_8 x0 x1 x2 x3 x4 x5 x6 x7 (ix2 r o) = blockG x0 x1 x2 x3 x4 x5 x6 x7 r o := by
  unfold out3_8
  rw [View.canon_unit_zero hz2]
  simp only [View.ld_unit_zero (S := S20x256) hz2, View.ld_unit_zero (S := S20x256x64) hz3, View.ld_unit_zero (S := S1x64) hz2,
    View.ld_unit_zero (S := S64x64) hz2, View.ld_unit_zero (S := S64x256) hz2, View.ld_unit_zero (S := S1x256) hz2]
  rw [pay1_apply, pay3_apply, pay5_apply, pay4_apply]
  rfl

/-! ## The blocks as parts of the arrays -/

variable (V : (c : Dev nD) → (b : Ref sig .tc) → Buf (Elt Ideal) ((c : Thread nD τ).loc b))

/-- The region's output at polyline `j`, output channel `o`, as a function of the eight input arrays: the activations
    `H`, the mask `M`, the scale and shift rows, the first layer's weights and bias, the second layer's weights and bias. -/
def G3 (H : Vec Ideal S20x12288x64 .f32) (M : Vec Ideal S20x12288 .f32) (sc sh : Vec Ideal S1x64 .f32)
    (wo1 : Vec Ideal S64x64 .f32) (bo1 : Vec Ideal S1x64 .f32) (wo2 : Vec Ideal S64x256 .f32) (bo2 : Vec Ideal S1x256 .f32)
    (j : Fin 12288) (o : Fin 256) : EReal :=
  ((∑ k : Fin 64, max ((∑ ch : Fin 64, ((Finset.univ : Finset (Fin 20)).fold max ⊥ fun n =>
      max (H (ix3 n j ch) * sc (ix2 0 ch) + sh (ix2 0 ch)) 0 * M (ix2 n j)) * wo1 (ix2 ch k)) + bo1 (ix2 0 k)) 0 * wo2 (ix2 k o))
    + bo2 (ix2 0 o)) * ((Finset.univ : Finset (Fin 20)).fold max ⊥ fun n => M (ix2 n j))

/-- The block function at row `r` is the array function at row `j` when the blocks read the arrays there. -/
theorem blockG_eq_G3 {x0 : Vec Ideal S20x256x64 .f32} {x1 : Vec Ideal S20x256 .f32} {x2 x3 : Vec Ideal S1x64 .f32}
    {x4 : Vec Ideal S64x64 .f32} {x5 : Vec Ideal S1x64 .f32} {x6 : Vec Ideal S64x256 .f32} {x7 : Vec Ideal S1x256 .f32}
    {H : Vec Ideal S20x12288x64 .f32} {M : Vec Ideal S20x12288 .f32} {sc sh : Vec Ideal S1x64 .f32}
    {wo1 : Vec Ideal S64x64 .f32} {bo1 : Vec Ideal S1x64 .f32} {wo2 : Vec Ideal S64x256 .f32} {bo2 : Vec Ideal S1x256 .f32}
    (r : Fin 256) (j : Fin 12288) (o : Fin 256)
    (h0 : ∀ n ch, x0 (ix3 n r ch) = H (ix3 n j ch)) (h1 : ∀ n, x1 (ix2 n r) = M (ix2 n j))
    (h2 : ∀ ch, x2 (ix2 0 ch) = sc (ix2 0 ch)) (h3 : ∀ ch, x3 (ix2 0 ch) = sh (ix2 0 ch))
    (h4 : ∀ ch k, x4 (ix2 ch k) = wo1 (ix2 ch k)) (h5 : ∀ k, x5 (ix2 0 k) = bo1 (ix2 0 k))
    (h6 : ∀ k, x6 (ix2 k o) = wo2 (ix2 k o)) (h7 : x7 (ix2 0 o) = bo2 (ix2 0 o)) :
    blockG x0 x1 x2 x3 x4 x5 x6 x7 r o = G3 H M sc sh wo1 bo1 wo2 bo2 j o := by
  unfold blockG G3
  simp only [h0, h1, h2, h3, h4, h5, h6, h7]

/-- Where each window's block sits at point `t`: block `t` along the polyline axis for the activations, the mask and
    the output, block zero on every other axis and for the six small arrays. -/
theorem idx_facts : ∀ t : Fin cfg3.N,
    (win3_0.index t 0 = 0 ∧ win3_0.index t 1 = t.val ∧ win3_0.index t 2 = 0)
    ∧ (win3_1.index t 0 = 0 ∧ win3_1.index t 1 = t.val)
    ∧ (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0)
    ∧ (win3_6.index t 0 = 0 ∧ win3_6.index t 1 = 0) ∧ (win3_7.index t 0 = 0 ∧ win3_7.index t 1 = 0)
    ∧ (win3_8.index t 0 = t.val ∧ win3_8.index t 1 = 0) :=
  (by decide +kernel : ∀ t : Fin grid3.N, _)

/-- Polyline `r` of block `t` is polyline `256 t + r`. -/
theorem row_lt (t : Fin cfg3.N) (r : Fin 256) : 256 * t.val + r.val < 12288 := by
  have hN : cfg3.N = 48 := N_3
  have := t.isLt; have := r.isLt; omega

/-- The activation block at point `t` reads the activation array at polyline `256 t + r`. -/
theorem iblk3_h (c : Dev nD) (t : Fin cfg3.N) (n : Fin 20) (r : Fin 256) (ch : Fin 64) :
    (iblk3 V c 0 t : Vec Ideal S20x256x64 .f32) (ix3 n r ch)
      = (V c main_v53_2 : Vec Ideal S20x12288x64 .f32) (ix3 n ⟨256 * t.val + r.val, row_lt t r⟩ ch) := by
  unfold iblk3
  rw [View.read_apply]
  show V c main_v53_2 _ = V c main_v53_2 _
  refine congrArg (V c main_v53_2) ?_
  funext d
  apply Fin.ext
  match d with
  | ⟨0, _⟩ => show win3_0.index t 0 * 20 + 1 * n.val = n.val; rw [(idx_facts t).1.1]; omega
  | ⟨1, _⟩ => show win3_0.index t 1 * 256 + 1 * r.val = 256 * t.val + r.val; rw [(idx_facts t).1.2.1]; omega
  | ⟨2, _⟩ => show win3_0.index t 2 * 64 + 1 * ch.val = ch.val; rw [(idx_facts t).1.2.2]; omega

/-- The mask block at point `t` reads the mask array at polyline `256 t + r`. -/
theorem iblk3_m (c : Dev nD) (t : Fin cfg3.N) (n : Fin 20) (r : Fin 256) :
    (iblk3 V c 1 t : Vec Ideal S20x256 .f32) (ix2 n r)
      = (V c main_v4 : Vec Ideal S20x12288 .f32) (ix2 n ⟨256 * t.val + r.val, row_lt t r⟩) := by
  unfold iblk3
  rw [View.read_apply]
  show V c main_v4 _ = V c main_v4 _
  refine congrArg (V c main_v4) ?_
  funext d
  apply Fin.ext
  match d with
  | ⟨0, _⟩ => show win3_1.index t 0 * 20 + 1 * n.val = n.val; rw [(idx_facts t).2.1.1]; omega
  | ⟨1, _⟩ => show win3_1.index t 1 * 256 + 1 * r.val = 256 * t.val + r.val; rw [(idx_facts t).2.1.2]; omega

/-- The scale block at every point is the whole scale row. -/
theorem iblk3_2 (c : Dev nD) (t : Fin cfg3.N) (z : Fin 1) (ch : Fin 64) :
    (iblk3 V c 2 t : Vec Ideal S1x64 .f32) (ix2 z ch) = (V c main_v70 : Vec Ideal S1x64 .f32) (ix2 z ch) := by
  unfold iblk3
  rw [View.read_apply]
  show V c main_v70 _ = V c main_v70 _
  refine congrArg (V c main_v70) ?_
  funext d
  apply Fin.ext
  match d with
  | ⟨0, _⟩ => show win3_2.index t 0 * 1 + 1 * z.val = z.val; rw [(idx_facts t).2.2.1.1]; omega
  | ⟨1, _⟩ => show win3_2.index t 1 * 64 + 1 * ch.val = ch.val; rw [(idx_facts t).2.2.1.2]; omega

/-- The shift block at every point is the whole shift row. -/
theorem iblk3_3 (c : Dev nD) (t : Fin cfg3.N) (z : Fin 1) (ch : Fin 64) :
    (iblk3 V c 3 t : Vec Ideal S1x64 .f32) (ix2 z ch) = (V c main_v71 : Vec Ideal S1x64 .f32) (ix2 z ch) := by
  unfold iblk3
  rw [View.read_apply]
  show V c main_v71 _ = V c main_v71 _
  refine congrArg (V c main_v71) ?_
  funext d
  apply Fin.ext
  match d with
  | ⟨0, _⟩ => show win3_3.index t 0 * 1 + 1 * z.val = z.val; rw [(idx_facts t).2.2.2.1.1]; omega
  | ⟨1, _⟩ => show win3_3.index t 1 * 64 + 1 * ch.val = ch.val; rw [(idx_facts t).2.2.2.1.2]; omega

/-- The first layer's weight block at every point is the whole weight array. -/
theorem iblk3_4 (c : Dev nD) (t : Fin cfg3.N) (ch k : Fin 64) :
    (iblk3 V c 4 t : Vec Ideal S64x64 .f32) (ix2 ch k) = (V c main_v11 : Vec Ideal S64x64 .f32) (ix2 ch k) := by
  unfold iblk3
  rw [View.read_apply]
  show V c main_v11 _ = V c main_v11 _
  refine congrArg (V c main_v11) ?_
  funext d
  apply Fin.ext
  match d with
  | ⟨0, _⟩ => show win3_4.index t 0 * 64 + 1 * ch.val = ch.val; rw [(idx_facts t).2.2.2.2.1.1]; omega
  | ⟨1, _⟩ => show win3_4.index t 1 * 64 + 1 * k.val = k.val; rw [(idx_facts t).2.2.2.2.1.2]; omega

/-- The first layer's bias block at every point is the whole bias row. -/
theorem iblk3_5 (c : Dev nD) (t : Fin cfg3.N) (z : Fin 1) (k : Fin 64) :
    (iblk3 V c 5 t : Vec Ideal S1x64 .f32) (ix2 z k) = (V c main_v72 : Vec Ideal S1x64 .f32) (ix2 z k) := by
  unfold iblk3
  rw [View.read_apply]
  show V c main_v72 _ = V c main_v72 _
  refine congrArg (V c main_v72) ?_
  funext d
  apply Fin.ext
  match d with
  | ⟨0, _⟩ => show win3_5.index t 0 * 1 + 1 * z.val = z.val; rw [(idx_facts t).2.2.2.2.2.1.1]; omega
  | ⟨1, _⟩ => show win3_5.index t 1 * 64 + 1 * k.val = k.val; rw [(idx_facts t).2.2.2.2.2.1.2]; omega

/-- The second layer's weight block at every point is the whole weight array. -/
theorem iblk3_6 (c : Dev nD) (t : Fin cfg3.N) (k : Fin 64) (o : Fin 256) :
    (iblk3 V c 6 t : Vec Ideal S64x256 .f32) (ix2 k o) = (V c main_v12 : Vec Ideal S64x256 .f32) (ix2 k o) := by
  unfold iblk3
  rw [View.read_apply]
  show V c main_v12 _ = V c main_v12 _
  refine congrArg (V c main_v12) ?_
  funext d
  apply Fin.ext
  match d with
  | ⟨0, _⟩ => show win3_6.index t 0 * 64 + 1 * k.val = k.val; rw [(idx_facts t).2.2.2.2.2.2.1.1]; omega
  | ⟨1, _⟩ => show win3_6.index t 1 * 256 + 1 * o.val = o.val; rw [(idx_facts t).2.2.2.2.2.2.1.2]; omega

/-- The second layer's bias block at every point is the whole bias row. -/
theorem iblk3_7 (c : Dev nD) (t : Fin cfg3.N) (z : Fin 1) (o : Fin 256) :
    (iblk3 V c 7 t : Vec Ideal S1x256 .f32) (ix2 z o) = (V c main_v73 : Vec Ideal S1x256 .f32) (ix2 z o) := by
  unfold iblk3
  rw [View.read_apply]
  show V c main_v73 _ = V c main_v73 _
  refine congrArg (V c main_v73) ?_
  funext d
  apply Fin.ext
  match d with
  | ⟨0, _⟩ => show win3_7.index t 0 * 1 + 1 * z.val = z.val; rw [(idx_facts t).2.2.2.2.2.2.2.1.1]; omega
  | ⟨1, _⟩ => show win3_7.index t 1 * 256 + 1 * o.val = o.val; rw [(idx_facts t).2.2.2.2.2.2.2.1.2]; omega

/-! ## What each point writes back, and the array after the region -/

/-- The array the region ends with, as a function of its index. -/
def G3arr (c : Dev nD) : S12288x256.Idx → EReal := fun i =>
  G3 (V c main_v53_2) (V c main_v4) (V c main_v70) (V c main_v71) (V c main_v11) (V c main_v72) (V c main_v12) (V c main_v73) (i 0) (i 1)

/-- Row `r` of point `t`'s output block is row `256 t + r` of that array. -/
theorem out_blk (c : Dev nD) (t : Fin cfg3.N) (r o : Fin 256) :
    out3_8 (iblk3 V c 0 t) (iblk3 V c 1 t) (iblk3 V c 2 t) (iblk3 V c 3 t) (iblk3 V c 4 t) (iblk3 V c 5 t) (iblk3 V c 6 t) (iblk3 V c 7 t) (ix2 r o)
      = G3arr V c (ix2 ⟨256 * t.val + r.val, row_lt t r⟩ o) :=
  (out_apply _ _ _ _ _ _ _ _ r o).trans
    (blockG_eq_G3 r ⟨256 * t.val + r.val, row_lt t r⟩ o (fun n ch => iblk3_h V c t n r ch) (fun n => iblk3_m V c t n r)
      (fun ch => iblk3_2 V c t 0 ch) (fun ch => iblk3_3 V c t 0 ch) (fun ch k => iblk3_4 V c t ch k) (fun k => iblk3_5 V c t 0 k)
      (fun k => iblk3_6 V c t k o) (iblk3_7 V c t 0 o))

/-- Where the output block's entry `(r, o)` sits in the array at point `t`: row `256 t + r`, column `o`. -/
theorem emb8 (t : Fin cfg3.N) (r o : Fin 256) :
    ((cfg3.win 8).blk t).view.emb (ix2 r o : S256x256.Idx) = (ix2 ⟨256 * t.val + r.val, row_lt t r⟩ o : S12288x256.Idx) := by
  funext d
  apply Fin.ext
  match d with
  | ⟨0, _⟩ => show win3_8.index t 0 * 256 + 1 * r.val = 256 * t.val + r.val; rw [(idx_facts t).2.2.2.2.2.2.2.2.1]; omega
  | ⟨1, _⟩ => show win3_8.index t 1 * 256 + 1 * o.val = o.val; rw [(idx_facts t).2.2.2.2.2.2.2.2.2]; omega

/-- Point `t`'s output block is block `t` of that array. -/
theorem out_eq_read (c : Dev nD) (t : Fin cfg3.N) :
    (out3_8 (iblk3 V c 0 t) (iblk3 V c 1 t) (iblk3 V c 2 t) (iblk3 V c 3 t) (iblk3 V c 4 t) (iblk3 V c 5 t) (iblk3 V c 6 t) (iblk3 V c 7 t) : Vec Ideal S256x256 .f32)
      = ((cfg3.win 8).blk t).view.read (Elt Ideal) (G3arr V c) := by
  funext y
  obtain ⟨r, o, rfl⟩ : ∃ (r o : Fin 256), y = ix2 r o := ⟨y 0, y 1, eq_ix2 y⟩
  refine (out_blk V c t r o).trans ?_
  show G3arr V c _ = G3arr V c (((cfg3.win 8).blk t).view.emb (ix2 r o : S256x256.Idx))
  rw [emb8]

/-- What point `t` writes back is block `t` of that array. -/
theorem flushed8 (c : Dev nD) (t : Fin cfg3.N) :
    (dat3 V c).flushed 8 t = ((cfg3.win 8).blk t).view.read (Elt Ideal) (G3arr V c) := by
  show (cfg3.win 8).cut (grid3.coords t) ((dat3 V c).after 8 t) = _
  rw [after3_8]
  exact out_eq_read V c t

/-- An index of the output array is in point `t`'s block iff each coordinate is in the block's range on its axis. -/
theorem mem_blk8 (t : Fin cfg3.N) (i : S12288x256.Idx) :
    i ∈ ((cfg3.win 8).blk t).view.set ↔ ∀ a : Fin 2, win3_8.index t a * S256x256.size a ≤ (i a).val ∧ (i a).val < win3_8.index t a * S256x256.size a + S256x256.size a := by
  show i ∈ ((View.whole main_v74).slice (win3_8.rect t)).set ↔ _
  rw [View.set_slice_whole, Rect.mem_set_unit]
  exact Iff.rfl

/-- Every row is some point's (row `j` is in block `j / 256`), so after the region the output array is that function. -/
theorem final8 (c : Dev nD) : (dat3 V c).arrAt 8 cfg3.N = G3arr V c :=
  (dat3 V c).arrAt_eq_of_cover 8 _ (fun t _ => flushed8 V c t) fun i => by
    have hN : cfg3.N = 48 := N_3
    have h0 : (i 0 : Nat) < 12288 := (i 0).isLt
    have h1 : (i 1 : Nat) < 256 := (i 1).isLt
    let t : Fin cfg3.N := ⟨(i 0 : Nat) / 256, by omega⟩
    have ht : t.val = (i 0 : Nat) / 256 := rfl
    obtain ⟨-, -, -, -, -, -, -, -, e0, e1⟩ := idx_facts t
    refine ⟨t, flush3_8 t, (mem_blk8 t i).mpr fun a => ?_⟩
    match a with
    | ⟨0, _⟩ =>
      show win3_8.index t 0 * 256 ≤ (i 0 : Nat) ∧ (i 0 : Nat) < win3_8.index t 0 * 256 + 256
      rw [e0, ht]; omega
    | ⟨1, _⟩ =>
      show win3_8.index t 1 * 256 ≤ (i 1 : Nat) ∧ (i 1 : Nat) < win3_8.index t 1 * 256 + 256
      rw [e1]; omega

/-- The region's output array at polyline `j`, output channel `o`, from the eight arrays as the region finds them. -/
theorem region3_value (c : Dev nD) (j : Fin 12288) (o : Fin 256) :
    (dat3 V c).arrAt 8 cfg3.N (ix2 j o)
      = G3 (V c main_v53_2) (V c main_v4) (V c main_v70) (V c main_v71) (V c main_v11) (V c main_v72) (V c main_v12) (V c main_v73) j o :=
  congrFun (final8 V c) (ix2 j o)

end Cert.KernelIdeal.R3

end
-- ==== Proof.KernelStage3.lean ====
/-
  The kernel's value, concluded.

  Region 3 finds the third layer, the mask numbers, the third norm's scale and shift, the hidden and output layers'
  weights transposed and their biases as rows; in the network's terms its result at polyline `768 b + p` is the
  network's output there: the third norm, the pool over the points, the hidden layer with the rectifier, the output
  layer, gated by the polyline's validity. The last stretch splits the polylines back into batches.
-/
import proofs.«135113_g11922829214230_retrytranche1_1894_3_alg».proof.Proof.KernelStage2
import proofs.«135113_g11922829214230_retrytranche1_1894_3_alg».proof.Proof.Region3
import Idealize.ShloMosaic.Lib.ValueLayout

open scoped BigOperators

noncomputable section

namespace Cert.KernelIdeal.Stage3

open Cert.KernelIdeal Cert.KernelIdeal.Gen Cert.KernelIdeal.Carry Cert.KernelIdeal.Value
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 3's entry arrays in the network's terms -/

/-- The third layer as region 3 finds it. -/
theorem ent_h (c : Dev nD) (b : Fin 16) (p : Fin 768) (n : Fin 20) (ch : Fin 64) :
    ((V7 m ρ c main_v53_2) : Vec Ideal S20x12288x64 .f32) (ix3 n (poly b p) ch) = Cert.Net.h3 (argsK m c) (b, p, n) ch := by
  show (W7 m ρ c (Proc.devRef .tc main_v53_2) : Vec Ideal S20x12288x64 .f32) (ix3 n (poly b p) ch) = _
  rw [keep_v53_2_7 m ρ c]
  exact Cert.KernelIdeal.Stage2.h3_eq m ρ c b p n ch

/-- The mask numbers as region 3 finds them. -/
theorem ent_m (c : Dev nD) (b : Fin 16) (p : Fin 768) (n : Fin 20) :
    ((V7 m ρ c main_v4) : Vec Ideal S20x12288 .f32) (ix2 n (poly b p)) = Cert.Net.mu (argsK m c) (b, p, n) :=
  Cert.KernelIdeal.Stage2.m7_eq m ρ c b p n

/-- The third norm's scale as region 3 finds it. -/
theorem ent_sc (c : Dev nD) (z : Fin 1) (ch : Fin 64) :
    ((V7 m ρ c main_v70) : Vec Ideal S1x64 .f32) (ix2 z ch)
      = Cert.BN.scale (fun q => Cert.Net.h3 (argsK m c) q ch) (Cert.Net.mu (argsK m c)) ((argsK m c).g2 (ix1 ch)) Cert.Net.eps :=
  (Cert.KernelIdeal.Stage2.norm2 m ρ c z ch).1

/-- The third norm's shift as region 3 finds it. -/
theorem ent_sh (c : Dev nD) (z : Fin 1) (ch : Fin 64) :
    ((V7 m ρ c main_v71) : Vec Ideal S1x64 .f32) (ix2 z ch)
      = Cert.BN.shift (fun q => Cert.Net.h3 (argsK m c) q ch) (Cert.Net.mu (argsK m c)) ((argsK m c).g2 (ix1 ch))
          ((argsK m c).b2 (ix1 ch)) Cert.Net.eps :=
  (Cert.KernelIdeal.Stage2.norm2 m ρ c z ch).2

/-- The hidden layer's weights as region 3 finds them: transposed. -/
theorem ent_wo1 (c : Dev nD) (ch k : Fin 64) :
    ((V7 m ρ c main_v11) : Vec Ideal S64x64 .f32) (ix2 ch k) = (argsK m c).wo1 (ix2 k ch) := by
  show (W7 m ρ c (Proc.devRef .tc main_v11) : Vec Ideal S64x64 .f32) (ix2 ch k) = _
  rw [keep_v11_7 m ρ c]
  exact entWo1_apply m ρ c ch k

/-- The output layer's weights as region 3 finds them: transposed. -/
theorem ent_wo2 (c : Dev nD) (k : Fin 64) (o : Fin 256) :
    ((V7 m ρ c main_v12) : Vec Ideal S64x256 .f32) (ix2 k o) = (argsK m c).wo2 (ix2 o k) := by
  show (W7 m ρ c (Proc.devRef .tc main_v12) : Vec Ideal S64x256 .f32) (ix2 k o) = _
  rw [keep_v12_7 m ρ c]
  exact entWo2_apply m ρ c k o

/-- The hidden layer's bias as region 3 finds it: a row. -/
theorem ent_bo1 (c : Dev nD) (z : Fin 1) (k : Fin 64) :
    ((V7 m ρ c main_v72) : Vec Ideal S1x64 .f32) (ix2 z k) = (argsK m c).bo1 (ix1 k) := by
  show bo1row m ρ c (ix2 z k) = _
  rw [bo1row_eq, shapeCast_a_1a_apply]
  exact congrFun (keep_arg12_6 m ρ c) (ix1 k)

/-- The output layer's bias as region 3 finds it: a row. -/
theorem ent_bo2 (c : Dev nD) (z : Fin 1) (o : Fin 256) :
    ((V7 m ρ c main_v73) : Vec Ideal S1x256 .f32) (ix2 z o) = (argsK m c).bo2 (ix1 o) := by
  show bo2row m ρ c (ix2 z o) = _
  rw [bo2row_eq, shapeCast_a_1a_apply]
  exact congrFun (keep_arg14_6 m ρ c) (ix1 o)

/-! ## Region 3's result and the program's -/

/-- Region 3's array at polyline `768 b + p`, channel `o`, is the network's result there. -/
theorem out_eq (c : Dev nD) (b : Fin 16) (p : Fin 768) (o : Fin 256) :
    outK m ρ c (ix2 (poly b p) o) = Cert.Net.out (argsK m c) b p o := by
  rw [show outK m ρ c = (dat3 (V7 m ρ) c).arrAt 8 cfg3.N from W8_arr m ρ c 8,
    Cert.KernelIdeal.R3.region3_value (V7 m ρ) c (poly b p) o]
  unfold Cert.KernelIdeal.R3.G3
  simp only [ent_h m ρ c b p, ent_m m ρ c b p, ent_sc m ρ c, ent_sh m ρ c, ent_wo1 m ρ c, ent_wo2 m ρ c, ent_bo1 m ρ c, ent_bo2 m ρ c]
  rfl

/-- THE KERNEL'S VALUE: at the last boundary the result buffer holds the network of the arguments. -/
theorem kernel_value (c : Dev nD) :
    (W9 m ρ c (Proc.devRef .tc main_v75) : FVec Ideal S16x768x256 .f32) = Cert.Net.result (argsK m c) := by
  funext i
  obtain ⟨b, p, o, rfl⟩ : ∃ (b : Fin 16) (p : Fin 768) (o : Fin 256), i = ix3 b p o := ⟨i 0, i 1, i 2, eq_ix3 i⟩
  show outArr m ρ c (ix3 b p o) = _
  rw [outArr_apply]
  exact out_eq m ρ c b p o

end Cert.KernelIdeal.Stage3

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefValueFold.lean ====
import proofs.«135113_g11922829214230_retrytranche1_1894_3_alg».proof.Proof.ReferenceRun
import proofs.«135113_g11922829214230_retrytranche1_1894_3_alg».proof.Proof.ReadP
import proofs.«135113_g11922829214230_retrytranche1_1894_3_alg».proof.Proof.LibAfterAssign

/-!
# The reference's fold, read one operation at a time

The reference program is a straight line of 173 operations in single-assignment form. The contents of
its buffers after the line are the fold `after ops V` of the operations over the contents `V` at entry.
Each operation has a named value `val_main_vN`: the function of the program's arguments that the
operation computes from the named values of its operands.

This module proves, in program order, that the fold at each operation's result is that named value at
the arguments' entry contents (`a_vN`). An argument is written by no operation and keeps its entry
contents (`a_argK`). An operation's result holds the operation's function of the fold at its operands,
and those are the named values already obtained; so every right-hand side stays one application of a
named value and no composed term is formed. The last equation, taken at the launch contents, is
`fold_eq_val`.

The equations hold for an arbitrary float instance: they use nothing about the arithmetic, only the
shape of the line.
-/

noncomputable section

namespace Cert.RefValue

open Idealize.ShloMosaic Idealize.ShloMosaic.ValueIdx Idealize.SL.Sem Idealize.ShloMosaic.StableHlo
open Cert.ReferenceIdeal Cert.ReferenceIdeal.Gen Cert.ReferenceIdeal.ReadP
open Cert.Lib.AfterAssign

/-- The reference each of the 173 operations writes, in program order. -/
abbrev ws : List (Ref sig .tc) :=
  [main_v0, main_v1, main_v2, main_v3, main_v4, main_v5, main_cst, main_v6, main_cst_0, main_v7,
   main_v8, main_v9, main_cst_1, main_v10, main_v11, main_v12, main_v13, main_v14, main_v15, main_v16,
   main_v17, main_v18, main_cst_2, main_v19, main_v20, main_v21, main_v22, main_v23, main_v24, main_cst_3,
   main_v25, main_v26, main_v27, main_v28, main_v29, main_v30, main_v31, main_v32, main_v33, main_v34,
   main_v35, main_v36, main_call0_cst, main_call0_v0, main_v37, main_v38, main_v39, main_v40, main_cst_4, main_v41,
   main_v42, main_v43, main_v44, main_v45, main_v46, main_v47, main_v48, main_v49, main_cst_5, main_v50,
   main_cst_6, main_v51, main_v52, main_v53, main_cst_7, main_v54, main_v55, main_v56, main_v57, main_v58,
   main_v59, main_v60, main_v61, main_v62, main_cst_8, main_v63, main_v64, main_v65, main_v66, main_v67,
   main_v68, main_cst_9, main_v69, main_v70, main_v71, main_v72, main_v73, main_v74, main_v75, main_v76,
   main_v77, main_v78, main_v79, main_v80, main_call1_cst, main_call1_v0, main_v81, main_v82, main_v83, main_v84,
   main_v85, main_v86, main_v87, main_cst_10, main_v88, main_cst_11, main_v89, main_v90, main_v91, main_cst_12,
   main_v92, main_v93, main_v94, main_v95, main_v96, main_v97, main_v98, main_v99, main_v100, main_cst_13,
   main_v101, main_v102, main_v103, main_v104, main_v105, main_v106, main_cst_14, main_v107, main_v108, main_v109,
   main_v110, main_v111, main_v112, main_v113, main_v114, main_v115, main_v116, main_v117, main_v118, main_call2_cst,
   main_call2_v0, main_v119, main_v120, main_v121, main_v122, main_cst_15, main_v123, main_v124, main_c, main_v125,
   main_c_16, main_v126, main_v127, main_v128, main_v129, main_v130, main_v131, main_v132, main_v133, main_v134,
   main_v135, main_v136, main_call3_cst, main_call3_v0, main_v137, main_v138, main_v139, main_v140, main_v141, main_v142,
   main_v143, main_v144, main_v145]

variable {F : FTy → Type} [FloatOps F]

set_option maxRecDepth 8192 in
/-- The line is in single-assignment form: its k-th operation writes exactly the k-th reference of `ws`. -/
theorem hW : WritesAre (ValueP.ops (F := F)) ws :=
  ⟨rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, rfl, rfl, rfl, rfl, rfl, rfl, rfl,
   rfl, rfl, rfl, trivial⟩

variable (V : Valuation τ sig (Elt F))

local notation "aft" r:max => after (ValueP.ops (F := F)) V (Proc.devRef Proc.tc r)
local notation "X0" => V (Proc.devRef Proc.tc main_arg0)
local notation "X1" => V (Proc.devRef Proc.tc main_arg1)
local notation "X2" => V (Proc.devRef Proc.tc main_arg2)
local notation "X3" => V (Proc.devRef Proc.tc main_arg3)
local notation "X4" => V (Proc.devRef Proc.tc main_arg4)
local notation "X5" => V (Proc.devRef Proc.tc main_arg5)
local notation "X6" => V (Proc.devRef Proc.tc main_arg6)
local notation "X7" => V (Proc.devRef Proc.tc main_arg7)
local notation "X8" => V (Proc.devRef Proc.tc main_arg8)
local notation "X9" => V (Proc.devRef Proc.tc main_arg9)
local notation "X10" => V (Proc.devRef Proc.tc main_arg10)
local notation "X11" => V (Proc.devRef Proc.tc main_arg11)
local notation "X12" => V (Proc.devRef Proc.tc main_arg12)
local notation "X13" => V (Proc.devRef Proc.tc main_arg13)
local notation "X14" => V (Proc.devRef Proc.tc main_arg14)

/-! ## An argument is written by no operation: it keeps its launch value -/

theorem a_arg0 : aft main_arg0 = X0 := after_of_not_written hW V (by decide)
theorem a_arg1 : aft main_arg1 = X1 := after_of_not_written hW V (by decide)
theorem a_arg2 : aft main_arg2 = X2 := after_of_not_written hW V (by decide)
theorem a_arg3 : aft main_arg3 = X3 := after_of_not_written hW V (by decide)
theorem a_arg4 : aft main_arg4 = X4 := after_of_not_written hW V (by decide)
theorem a_arg5 : aft main_arg5 = X5 := after_of_not_written hW V (by decide)
theorem a_arg6 : aft main_arg6 = X6 := after_of_not_written hW V (by decide)
theorem a_arg7 : aft main_arg7 = X7 := after_of_not_written hW V (by decide)
theorem a_arg8 : aft main_arg8 = X8 := after_of_not_written hW V (by decide)
theorem a_arg9 : aft main_arg9 = X9 := after_of_not_written hW V (by decide)
theorem a_arg10 : aft main_arg10 = X10 := after_of_not_written hW V (by decide)
theorem a_arg11 : aft main_arg11 = X11 := after_of_not_written hW V (by decide)
theorem a_arg12 : aft main_arg12 = X12 := after_of_not_written hW V (by decide)
theorem a_arg13 : aft main_arg13 = X13 := after_of_not_written hW V (by decide)
theorem a_arg14 : aft main_arg14 = X14 := after_of_not_written hW V (by decide)

/-! ## One equation per operation, in program order: the fold at the operation's result is the
operation's value as a function of the arguments' launch values -/

theorem a_v0 : aft main_v0 = val_main_v0 (F := F) X1 := by
  rw [after_reshape hW 0 rfl V (by decide) (by decide), a_arg1]; rfl
theorem a_v1 : aft main_v1 = val_main_v1 (F := F) X0 := by
  rw [after_reshape hW 1 rfl V (by decide) (by decide), a_arg0]; rfl
theorem a_v2 : aft main_v2 = val_main_v2 (F := F) X2 := by
  rw [after_unary hW 2 rfl V (by decide) (by decide), a_arg2]; rfl
theorem a_v3 : aft main_v3 = val_main_v3 (F := F) X0 X2 := by
  rw [after_binary hW 3 rfl V (by decide) (by decide) (by decide), a_v1, a_v2]; rfl
theorem a_v4 : aft main_v4 = val_main_v4 (F := F) X1 := by
  rw [after_unary hW 4 rfl V (by decide) (by decide), a_v0]; rfl
theorem a_v5 : aft main_v5 = val_main_v5 (F := F) X1 := by
  rw [after_unary hW 5 rfl V (by decide) (by decide), a_v4]; rfl
theorem a_cst : aft main_cst = val_main_cst (F := F) := by
  rw [after_nullary hW 6 rfl V (by decide)]; rfl
theorem a_v6 : aft main_v6 = val_main_v6 (F := F) X1 := by
  rw [after_binary hW 7 rfl V (by decide) (by decide) (by decide), a_v5, a_cst]; rfl
theorem a_cst_0 : aft main_cst_0 = val_main_cst_0 (F := F) := by
  rw [after_nullary hW 8 rfl V (by decide)]; rfl
theorem a_v7 : aft main_v7 = val_main_v7 (F := F) X1 := by
  rw [after_binary hW 9 rfl V (by decide) (by decide) (by decide), a_v6, a_cst_0]; rfl
theorem a_v8 : aft main_v8 = val_main_v8 (F := F) X1 := by
  rw [after_unary hW 10 rfl V (by decide) (by decide), a_v5]; rfl
theorem a_v9 : aft main_v9 = val_main_v9 (F := F) X0 X1 X2 := by
  rw [after_binary hW 11 rfl V (by decide) (by decide) (by decide), a_v3, a_v8]; rfl
theorem a_cst_1 : aft main_cst_1 = val_main_cst_1 (F := F) := by
  rw [after_nullary hW 12 rfl V (by decide)]; rfl
theorem a_v10 : aft main_v10 = val_main_v10 (F := F) X0 X1 X2 := by
  rw [after_binary hW 13 rfl V (by decide) (by decide) (by decide), a_v9, a_cst_1]; rfl
theorem a_v11 : aft main_v11 = val_main_v11 (F := F) X1 := by
  rw [after_unary hW 14 rfl V (by decide) (by decide), a_v7]; rfl
theorem a_v12 : aft main_v12 = val_main_v12 (F := F) X0 X1 X2 := by
  rw [after_binary hW 15 rfl V (by decide) (by decide) (by decide), a_v10, a_v11]; rfl
theorem a_v13 : aft main_v13 = val_main_v13 (F := F) X0 X1 X2 := by
  rw [after_unary hW 16 rfl V (by decide) (by decide), a_v12]; rfl
theorem a_v14 : aft main_v14 = val_main_v14 (F := F) X0 X1 X2 := by
  rw [after_unary hW 17 rfl V (by decide) (by decide), a_v13]; rfl
theorem a_v15 : aft main_v15 = val_main_v15 (F := F) X0 X1 X2 := by
  rw [after_binary hW 18 rfl V (by decide) (by decide) (by decide), a_v3, a_v14]; rfl
theorem a_v16 : aft main_v16 = val_main_v16 (F := F) X0 X1 X2 := by
  rw [after_binary hW 19 rfl V (by decide) (by decide) (by decide), a_v15]; rfl
theorem a_v17 : aft main_v17 = val_main_v17 (F := F) X1 := by
  rw [after_unary hW 20 rfl V (by decide) (by decide), a_v5]; rfl
theorem a_v18 : aft main_v18 = val_main_v18 (F := F) X0 X1 X2 := by
  rw [after_binary hW 21 rfl V (by decide) (by decide) (by decide), a_v16, a_v17]; rfl
theorem a_cst_2 : aft main_cst_2 = val_main_cst_2 (F := F) := by
  rw [after_nullary hW 22 rfl V (by decide)]; rfl
theorem a_v19 : aft main_v19 = val_main_v19 (F := F) X0 X1 X2 := by
  rw [after_binary hW 23 rfl V (by decide) (by decide) (by decide), a_v18, a_cst_2]; rfl
theorem a_v20 : aft main_v20 = val_main_v20 (F := F) X1 := by
  rw [after_unary hW 24 rfl V (by decide) (by decide), a_v7]; rfl
theorem a_v21 : aft main_v21 = val_main_v21 (F := F) X0 X1 X2 := by
  rw [after_binary hW 25 rfl V (by decide) (by decide) (by decide), a_v19, a_v20]; rfl
theorem a_v22 : aft main_v22 = val_main_v22 (F := F) X0 X1 X2 := by
  rw [after_unary hW 26 rfl V (by decide) (by decide), a_v12]; rfl
theorem a_v23 : aft main_v23 = val_main_v23 (F := F) X0 X1 X2 := by
  rw [after_unary hW 27 rfl V (by decide) (by decide), a_v22]; rfl
theorem a_v24 : aft main_v24 = val_main_v24 (F := F) X0 X1 X2 := by
  rw [after_binary hW 28 rfl V (by decide) (by decide) (by decide), a_v3, a_v23]; rfl
theorem a_cst_3 : aft main_cst_3 = val_main_cst_3 (F := F) := by
  rw [after_nullary hW 29 rfl V (by decide)]; rfl
theorem a_v25 : aft main_v25 = val_main_v25 (F := F) := by
  rw [after_unary hW 30 rfl V (by decide) (by decide), a_cst_3]; rfl
theorem a_v26 : aft main_v26 = val_main_v26 (F := F) X0 X1 X2 := by
  rw [after_binary hW 31 rfl V (by decide) (by decide) (by decide), a_v21, a_v25]; rfl
theorem a_v27 : aft main_v27 = val_main_v27 (F := F) X0 X1 X2 := by
  rw [after_unary hW 32 rfl V (by decide) (by decide), a_v26]; rfl
theorem a_v28 : aft main_v28 = val_main_v28 (F := F) X0 X1 X2 := by
  rw [after_unary hW 33 rfl V (by decide) (by decide), a_v27]; rfl
theorem a_v29 : aft main_v29 = val_main_v29 (F := F) X0 X1 X2 := by
  rw [after_unary hW 34 rfl V (by decide) (by decide), a_v28]; rfl
theorem a_v30 : aft main_v30 = val_main_v30 (F := F) X0 X1 X2 := by
  rw [after_binary hW 35 rfl V (by decide) (by decide) (by decide), a_v24, a_v29]; rfl
theorem a_v31 : aft main_v31 = val_main_v31 (F := F) X3 := by
  rw [after_unary hW 36 rfl V (by decide) (by decide), a_arg3]; rfl
theorem a_v32 : aft main_v32 = val_main_v32 (F := F) X3 := by
  rw [after_unary hW 37 rfl V (by decide) (by decide), a_v31]; rfl
theorem a_v33 : aft main_v33 = val_main_v33 (F := F) X0 X1 X2 X3 := by
  rw [after_binary hW 38 rfl V (by decide) (by decide) (by decide), a_v30, a_v32]; rfl
theorem a_v34 : aft main_v34 = val_main_v34 (F := F) X4 := by
  rw [after_unary hW 39 rfl V (by decide) (by decide), a_arg4]; rfl
theorem a_v35 : aft main_v35 = val_main_v35 (F := F) X4 := by
  rw [after_unary hW 40 rfl V (by decide) (by decide), a_v34]; rfl
theorem a_v36 : aft main_v36 = val_main_v36 (F := F) X0 X1 X2 X3 X4 := by
  rw [after_binary hW 41 rfl V (by decide) (by decide) (by decide), a_v33, a_v35]; rfl

theorem a_call0_cst : aft main_call0_cst = val_main_call0_cst (F := F) := by
  rw [after_nullary hW 42 rfl V (by decide)]; exact cast_eq _ _
theorem a_call0_v0 : aft main_call0_v0 = val_main_call0_v0 (F := F) := by
  rw [after_unary hW 43 rfl V (by decide) (by decide), a_call0_cst]
  unfold val_main_call0_v0
  generalize val_main_call0_cst (F := F) = A
  rfl
theorem a_v37 : aft main_v37 = val_main_v37 (F := F) X0 X1 X2 X3 X4 := by
  rw [after_binary hW 44 rfl V (by decide) (by decide) (by decide), a_v36, a_call0_v0]
  unfold val_main_v37
  generalize val_main_v36 (F := F) X0 X1 X2 X3 X4 = A
  generalize val_main_call0_v0 (F := F) = B
  rfl
theorem a_v38 : aft main_v38 = val_main_v38 (F := F) X1 := by
  rw [after_unary hW 45 rfl V (by decide) (by decide), a_v5]; rfl
theorem a_v39 : aft main_v39 = val_main_v39 (F := F) X0 X1 X2 X3 X4 := by
  rw [after_binary hW 46 rfl V (by decide) (by decide) (by decide), a_v37, a_v38]; rfl
theorem a_v40 : aft main_v40 = val_main_v40 (F := F) X0 X1 X2 X3 X4 := by
  rw [after_reshape hW 47 rfl V (by decide) (by decide), a_v39]
  unfold val_main_v40
  generalize val_main_v39 (F := F) X0 X1 X2 X3 X4 = A
  rfl
theorem a_cst_4 : aft main_cst_4 = val_main_cst_4 (F := F) := by
  rw [after_nullary hW 48 rfl V (by decide)]; rfl
theorem a_v41 : aft main_v41 = val_main_v41 (F := F) X0 X1 X2 X3 X4 := by
  rw [after_binary hW 49 rfl V (by decide) (by decide) (by decide), a_v40, a_cst_4]; rfl
theorem a_v42 : aft main_v42 = val_main_v42 (F := F) X0 X1 X2 X3 X4 := by
  rw [after_unary hW 50 rfl V (by decide) (by decide), a_v41]; rfl
theorem a_v43 : aft main_v43 = val_main_v43 (F := F) X0 X1 X2 X3 X4 := by
  rw [after_unary hW 51 rfl V (by decide) (by decide), a_v42]; rfl
theorem a_v44 : aft main_v44 = val_main_v44 (F := F) X0 X1 X2 X3 X4 := by
  rw [after_binary hW 52 rfl V (by decide) (by decide) (by decide), a_v40, a_v43]; rfl
theorem a_v45 : aft main_v45 = val_main_v45 (F := F) X0 X1 X2 X3 X4 := by
  rw [after_reshape hW 53 rfl V (by decide) (by decide), a_v44]
  unfold val_main_v45
  generalize val_main_v44 (F := F) X0 X1 X2 X3 X4 = A
  rfl
theorem a_v46 : aft main_v46 = val_main_v46 (F := F) X5 := by
  rw [after_unary hW 54 rfl V (by decide) (by decide), a_arg5]; rfl
theorem a_v47 : aft main_v47 = val_main_v47 (F := F) X0 X1 X2 X3 X4 X5 := by
  rw [after_binary hW 55 rfl V (by decide) (by decide) (by decide), a_v45, a_v46]; rfl

theorem a_v48 : aft main_v48 = val_main_v48 (F := F) X1 := by
  rw [after_unary hW 56 rfl V (by decide) (by decide), a_v0]; rfl
theorem a_v49 : aft main_v49 = val_main_v49 (F := F) X1 := by
  rw [after_unary hW 57 rfl V (by decide) (by decide), a_v48]; rfl
theorem a_cst_5 : aft main_cst_5 = val_main_cst_5 (F := F) := by
  rw [after_nullary hW 58 rfl V (by decide)]; rfl
theorem a_v50 : aft main_v50 = val_main_v50 (F := F) X1 := by
  rw [after_binary hW 59 rfl V (by decide) (by decide) (by decide), a_v49, a_cst_5]; rfl
theorem a_cst_6 : aft main_cst_6 = val_main_cst_6 (F := F) := by
  rw [after_nullary hW 60 rfl V (by decide)]; rfl
theorem a_v51 : aft main_v51 = val_main_v51 (F := F) X1 := by
  rw [after_binary hW 61 rfl V (by decide) (by decide) (by decide), a_v50, a_cst_6]; rfl
theorem a_v52 : aft main_v52 = val_main_v52 (F := F) X1 := by
  rw [after_unary hW 62 rfl V (by decide) (by decide), a_v49]; rfl
theorem a_v53 : aft main_v53 = val_main_v53 (F := F) X0 X1 X2 X3 X4 X5 := by
  rw [after_binary hW 63 rfl V (by decide) (by decide) (by decide), a_v47, a_v52]; rfl
theorem a_cst_7 : aft main_cst_7 = val_main_cst_7 (F := F) := by
  rw [after_nullary hW 64 rfl V (by decide)]; rfl
theorem a_v54 : aft main_v54 = val_main_v54 (F := F) X0 X1 X2 X3 X4 X5 := by
  rw [after_binary hW 65 rfl V (by decide) (by decide) (by decide), a_v53, a_cst_7]; rfl
theorem a_v55 : aft main_v55 = val_main_v55 (F := F) X1 := by
  rw [after_unary hW 66 rfl V (by decide) (by decide), a_v51]; rfl
theorem a_v56 : aft main_v56 = val_main_v56 (F := F) X0 X1 X2 X3 X4 X5 := by
  rw [after_binary hW 67 rfl V (by decide) (by decide) (by decide), a_v54, a_v55]; rfl
theorem a_v57 : aft main_v57 = val_main_v57 (F := F) X0 X1 X2 X3 X4 X5 := by
  rw [after_unary hW 68 rfl V (by decide) (by decide), a_v56]; rfl
theorem a_v58 : aft main_v58 = val_main_v58 (F := F) X0 X1 X2 X3 X4 X5 := by
  rw [after_unary hW 69 rfl V (by decide) (by decide), a_v57]; rfl
theorem a_v59 : aft main_v59 = val_main_v59 (F := F) X0 X1 X2 X3 X4 X5 := by
  rw [after_binary hW 70 rfl V (by decide) (by decide) (by decide), a_v47, a_v58]; rfl
theorem a_v60 : aft main_v60 = val_main_v60 (F := F) X0 X1 X2 X3 X4 X5 := by
  rw [after_binary hW 71 rfl V (by decide) (by decide) (by decide), a_v59]; rfl
theorem a_v61 : aft main_v61 = val_main_v61 (F := F) X1 := by
  rw [after_unary hW 72 rfl V (by decide) (by decide), a_v49]; rfl
theorem a_v62 : aft main_v62 = val_main_v62 (F := F) X0 X1 X2 X3 X4 X5 := by
  rw [after_binary hW 73 rfl V (by decide) (by decide) (by decide), a_v60, a_v61]; rfl
theorem a_cst_8 : aft main_cst_8 = val_main_cst_8 (F := F) := by
  rw [after_nullary hW 74 rfl V (by decide)]; rfl
theorem a_v63 : aft main_v63 = val_main_v63 (F := F) X0 X1 X2 X3 X4 X5 := by
  rw [after_binary hW 75 rfl V (by decide) (by decide) (by decide), a_v62, a_cst_8]; rfl
theorem a_v64 : aft main_v64 = val_main_v64 (F := F) X1 := by
  rw [after_unary hW 76 rfl V (by decide) (by decide), a_v51]; rfl
theorem a_v65 : aft main_v65 = val_main_v65 (F := F) X0 X1 X2 X3 X4 X5 := by
  rw [after_binary hW 77 rfl V (by decide) (by decide) (by decide), a_v63, a_v64]; rfl
theorem a_v66 : aft main_v66 = val_main_v66 (F := F) X0 X1 X2 X3 X4 X5 := by
  rw [after_unary hW 78 rfl V (by decide) (by decide), a_v56]; rfl
theorem a_v67 : aft main_v67 = val_main_v67 (F := F) X0 X1 X2 X3 X4 X5 := by
  rw [after_unary hW 79 rfl V (by decide) (by decide), a_v66]; rfl
theorem a_v68 : aft main_v68 = val_main_v68 (F := F) X0 X1 X2 X3 X4 X5 := by
  rw [after_binary hW 80 rfl V (by decide) (by decide) (by decide), a_v47, a_v67]; rfl
theorem a_cst_9 : aft main_cst_9 = val_main_cst_9 (F := F) := by
  rw [after_nullary hW 81 rfl V (by decide)]; rfl
theorem a_v69 : aft main_v69 = val_main_v69 (F := F) := by
  rw [after_unary hW 82 rfl V (by decide) (by decide), a_cst_9]; rfl
theorem a_v70 : aft main_v70 = val_main_v70 (F := F) X0 X1 X2 X3 X4 X5 := by
  rw [after_binary hW 83 rfl V (by decide) (by decide) (by decide), a_v65, a_v69]; rfl
theorem a_v71 : aft main_v71 = val_main_v71 (F := F) X0 X1 X2 X3 X4 X5 := by
  rw [after_unary hW 84 rfl V (by decide) (by decide), a_v70]; rfl
theorem a_v72 : aft main_v72 = val_main_v72 (F := F) X0 X1 X2 X3 X4 X5 := by
  rw [after_unary hW 85 rfl V (by decide) (by decide), a_v71]; rfl
theorem a_v73 : aft main_v73 = val_main_v73 (F := F) X0 X1 X2 X3 X4 X5 := by
  rw [after_unary hW 86 rfl V (by decide) (by decide), a_v72]; rfl
theorem a_v74 : aft main_v74 = val_main_v74 (F := F) X0 X1 X2 X3 X4 X5 := by
  rw [after_binary hW 87 rfl V (by decide) (by decide) (by decide), a_v68, a_v73]; rfl
theorem a_v75 : aft main_v75 = val_main_v75 (F := F) X6 := by
  rw [after_unary hW 88 rfl V (by decide) (by decide), a_arg6]; rfl
theorem a_v76 : aft main_v76 = val_main_v76 (F := F) X6 := by
  rw [after_unary hW 89 rfl V (by decide) (by decide), a_v75]; rfl
theorem a_v77 : aft main_v77 = val_main_v77 (F := F) X0 X1 X2 X3 X4 X5 X6 := by
  rw [after_binary hW 90 rfl V (by decide) (by decide) (by decide), a_v74, a_v76]; rfl
theorem a_v78 : aft main_v78 = val_main_v78 (F := F) X7 := by
  rw [after_unary hW 91 rfl V (by decide) (by decide), a_arg7]; rfl
theorem a_v79 : aft main_v79 = val_main_v79 (F := F) X7 := by
  rw [after_unary hW 92 rfl V (by decide) (by decide), a_v78]; rfl
theorem a_v80 : aft main_v80 = val_main_v80 (F := F) X0 X1 X2 X3 X4 X5 X6 X7 := by
  rw [after_binary hW 93 rfl V (by decide) (by decide) (by decide), a_v77, a_v79]; rfl
theorem a_call1_cst : aft main_call1_cst = val_main_call1_cst (F := F) := by
  rw [after_nullary hW 94 rfl V (by decide)]; exact cast_eq _ _
theorem a_call1_v0 : aft main_call1_v0 = val_main_call1_v0 (F := F) := by
  rw [after_unary hW 95 rfl V (by decide) (by decide), a_call1_cst]
  unfold val_main_call1_v0
  generalize val_main_call1_cst (F := F) = A
  rfl
theorem a_v81 : aft main_v81 = val_main_v81 (F := F) X0 X1 X2 X3 X4 X5 X6 X7 := by
  rw [after_binary hW 96 rfl V (by decide) (by decide) (by decide), a_v80, a_call1_v0]
  unfold val_main_v81
  generalize val_main_v80 (F := F) X0 X1 X2 X3 X4 X5 X6 X7 = A
  generalize val_main_call1_v0 (F := F) = B
  rfl
theorem a_v82 : aft main_v82 = val_main_v82 (F := F) X1 := by
  rw [after_unary hW 97 rfl V (by decide) (by decide), a_v49]; rfl
theorem a_v83 : aft main_v83 = val_main_v83 (F := F) X0 X1 X2 X3 X4 X5 X6 X7 := by
  rw [after_binary hW 98 rfl V (by decide) (by decide) (by decide), a_v81, a_v82]; rfl
theorem a_v84 : aft main_v84 = val_main_v84 (F := F) X8 := by
  rw [after_unary hW 99 rfl V (by decide) (by decide), a_arg8]; rfl
theorem a_v85 : aft main_v85 = val_main_v85 (F := F) X0 X1 X2 X3 X4 X5 X6 X7 X8 := by
  rw [after_binary hW 100 rfl V (by decide) (by decide) (by decide), a_v83, a_v84]; rfl

theorem a_v86 : aft main_v86 = val_main_v86 (F := F) X1 := by
  rw [after_unary hW 101 rfl V (by decide) (by decide), a_v0]; rfl
theorem a_v87 : aft main_v87 = val_main_v87 (F := F) X1 := by
  rw [after_unary hW 102 rfl V (by decide) (by decide), a_v86]; rfl
theorem a_cst_10 : aft main_cst_10 = val_main_cst_10 (F := F) := by
  rw [after_nullary hW 103 rfl V (by decide)]; rfl
theorem a_v88 : aft main_v88 = val_main_v88 (F := F) X1 := by
  rw [after_binary hW 104 rfl V (by decide) (by decide) (by decide), a_v87, a_cst_10]; rfl
theorem a_cst_11 : aft main_cst_11 = val_main_cst_11 (F := F) := by
  rw [after_nullary hW 105 rfl V (by decide)]; rfl
theorem a_v89 : aft main_v89 = val_main_v89 (F := F) X1 := by
  rw [after_binary hW 106 rfl V (by decide) (by decide) (by decide), a_v88, a_cst_11]; rfl
theorem a_v90 : aft main_v90 = val_main_v90 (F := F) X1 := by
  rw [after_unary hW 107 rfl V (by decide) (by decide), a_v87]; rfl
theorem a_v91 : aft main_v91 = val_main_v91 (F := F) X0 X1 X2 X3 X4 X5 X6 X7 X8 := by
  rw [after_binary hW 108 rfl V (by decide) (by decide) (by decide), a_v85, a_v90]; rfl
theorem a_cst_12 : aft main_cst_12 = val_main_cst_12 (F := F) := by
  rw [after_nullary hW 109 rfl V (by decide)]; rfl
theorem a_v92 : aft main_v92 = val_main_v92 (F := F) X0 X1 X2 X3 X4 X5 X6 X7 X8 := by
  rw [after_binary hW 110 rfl V (by decide) (by decide) (by decide), a_v91, a_cst_12]; rfl
theorem a_v93 : aft main_v93 = val_main_v93 (F := F) X1 := by
  rw [after_unary hW 111 rfl V (by decide) (by decide), a_v89]; rfl
theorem a_v94 : aft main_v94 = val_main_v94 (F := F) X0 X1 X2 X3 X4 X5 X6 X7 X8 := by
  rw [after_binary hW 112 rfl V (by decide) (by decide) (by decide), a_v92, a_v93]; rfl
theorem a_v95 : aft main_v95 = val_main_v95 (F := F) X0 X1 X2 X3 X4 X5 X6 X7 X8 := by
  rw [after_unary hW 113 rfl V (by decide) (by decide), a_v94]; rfl
theorem a_v96 : aft main_v96 = val_main_v96 (F := F) X0 X1 X2 X3 X4 X5 X6 X7 X8 := by
  rw [after_unary hW 114 rfl V (by decide) (by decide), a_v95]; rfl
theorem a_v97 : aft main_v97 = val_main_v97 (F := F) X0 X1 X2 X3 X4 X5 X6 X7 X8 := by
  rw [after_binary hW 115 rfl V (by decide) (by decide) (by decide), a_v85, a_v96]; rfl
theorem a_v98 : aft main_v98 = val_main_v98 (F := F) X0 X1 X2 X3 X4 X5 X6 X7 X8 := by
  rw [after_binary hW 116 rfl V (by decide) (by decide) (by decide), a_v97]; rfl
theorem a_v99 : aft main_v99 = val_main_v99 (F := F) X1 := by
  rw [after_unary hW 117 rfl V (by decide) (by decide), a_v87]; rfl
theorem a_v100 : aft main_v100 = val_main_v100 (F := F) X0 X1 X2 X3 X4 X5 X6 X7 X8 := by
  rw [after_binary hW 118 rfl V (by decide) (by decide) (by decide), a_v98, a_v99]; rfl
theorem a_cst_13 : aft main_cst_13 = val_main_cst_13 (F := F) := by
  rw [after_nullary hW 119 rfl V (by decide)]; rfl
theorem a_v101 : aft main_v101 = val_main_v101 (F := F) X0 X1 X2 X3 X4 X5 X6 X7 X8 := by
  rw [after_binary hW 120 rfl V (by decide) (by decide) (by decide), a_v100, a_cst_13]; rfl
theorem a_v102 : aft main_v102 = val_main_v102 (F := F) X1 := by
  rw [after_unary hW 121 rfl V (by decide) (by decide), a_v89]; rfl
theorem a_v103 : aft main_v103 = val_main_v103 (F := F) X0 X1 X2 X3 X4 X5 X6 X7 X8 := by
  rw [after_binary hW 122 rfl V (by decide) (by decide) (by decide), a_v101, a_v102]; rfl
theorem a_v104 : aft main_v104 = val_main_v104 (F := F) X0 X1 X2 X3 X4 X5 X6 X7 X8 := by
  rw [after_unary hW 123 rfl V (by decide) (by decide), a_v94]; rfl
theorem a_v105 : aft main_v105 = val_main_v105 (F := F) X0 X1 X2 X3 X4 X5 X6 X7 X8 := by
  rw [after_unary hW 124 rfl V (by decide) (by decide), a_v104]; rfl
theorem a_v106 : aft main_v106 = val_main_v106 (F := F) X0 X1 X2 X3 X4 X5 X6 X7 X8 := by
  rw [after_binary hW 125 rfl V (by decide) (by decide) (by decide), a_v85, a_v105]; rfl
theorem a_cst_14 : aft main_cst_14 = val_main_cst_14 (F := F) := by
  rw [after_nullary hW 126 rfl V (by decide)]; rfl
theorem a_v107 : aft main_v107 = val_main_v107 (F := F) := by
  rw [after_unary hW 127 rfl V (by decide) (by decide), a_cst_14]; rfl
theorem a_v108 : aft main_v108 = val_main_v108 (F := F) X0 X1 X2 X3 X4 X5 X6 X7 X8 := by
  rw [after_binary hW 128 rfl V (by decide) (by decide) (by decide), a_v103, a_v107]; rfl
theorem a_v109 : aft main_v109 = val_main_v109 (F := F) X0 X1 X2 X3 X4 X5 X6 X7 X8 := by
  rw [after_unary hW 129 rfl V (by decide) (by decide), a_v108]; rfl
theorem a_v110 : aft main_v110 = val_main_v110 (F := F) X0 X1 X2 X3 X4 X5 X6 X7 X8 := by
  rw [after_unary hW 130 rfl V (by decide) (by decide), a_v109]; rfl
theorem a_v111 : aft main_v111 = val_main_v111 (F := F) X0 X1 X2 X3 X4 X5 X6 X7 X8 := by
  rw [after_unary hW 131 rfl V (by decide) (by decide), a_v110]; rfl
theorem a_v112 : aft main_v112 = val_main_v112 (F := F) X0 X1 X2 X3 X4 X5 X6 X7 X8 := by
  rw [after_binary hW 132 rfl V (by decide) (by decide) (by decide), a_v106, a_v111]; rfl
theorem a_v113 : aft main_v113 = val_main_v113 (F := F) X9 := by
  rw [after_unary hW 133 rfl V (by decide) (by decide), a_arg9]; rfl
theorem a_v114 : aft main_v114 = val_main_v114 (F := F) X9 := by
  rw [after_unary hW 134 rfl V (by decide) (by decide), a_v113]; rfl
theorem a_v115 : aft main_v115 = val_main_v115 (F := F) X0 X1 X2 X3 X4 X5 X6 X7 X8 X9 := by
  rw [after_binary hW 135 rfl V (by decide) (by decide) (by decide), a_v112, a_v114]; rfl
theorem a_v116 : aft main_v116 = val_main_v116 (F := F) X10 := by
  rw [after_unary hW 136 rfl V (by decide) (by decide), a_arg10]; rfl
theorem a_v117 : aft main_v117 = val_main_v117 (F := F) X10 := by
  rw [after_unary hW 137 rfl V (by decide) (by decide), a_v116]; rfl
theorem a_v118 : aft main_v118 = val_main_v118 (F := F) X0 X1 X2 X3 X4 X5 X6 X7 X8 X9 X10 := by
  rw [after_binary hW 138 rfl V (by decide) (by decide) (by decide), a_v115, a_v117]; rfl
theorem a_call2_cst : aft main_call2_cst = val_main_call2_cst (F := F) := by
  rw [after_nullary hW 139 rfl V (by decide)]; exact cast_eq _ _
theorem a_call2_v0 : aft main_call2_v0 = val_main_call2_v0 (F := F) := by
  rw [after_unary hW 140 rfl V (by decide) (by decide), a_call2_cst]
  unfold val_main_call2_v0
  generalize val_main_call2_cst (F := F) = A
  rfl
theorem a_v119 : aft main_v119 = val_main_v119 (F := F) X0 X1 X2 X3 X4 X5 X6 X7 X8 X9 X10 := by
  rw [after_binary hW 141 rfl V (by decide) (by decide) (by decide), a_v118, a_call2_v0]
  unfold val_main_v119
  generalize val_main_v118 (F := F) X0 X1 X2 X3 X4 X5 X6 X7 X8 X9 X10 = A
  generalize val_main_call2_v0 (F := F) = B
  rfl
theorem a_v120 : aft main_v120 = val_main_v120 (F := F) X1 := by
  rw [after_unary hW 142 rfl V (by decide) (by decide), a_v87]; rfl
theorem a_v121 : aft main_v121 = val_main_v121 (F := F) X0 X1 X2 X3 X4 X5 X6 X7 X8 X9 X10 := by
  rw [after_binary hW 143 rfl V (by decide) (by decide) (by decide), a_v119, a_v120]; rfl

theorem a_v122 : aft main_v122 = val_main_v122 (F := F) X0 X1 X2 X3 X4 X5 X6 X7 X8 X9 X10 := by
  rw [after_reshape hW 144 rfl V (by decide) (by decide), a_v121]
  unfold val_main_v122
  generalize val_main_v121 (F := F) X0 X1 X2 X3 X4 X5 X6 X7 X8 X9 X10 = A
  rfl
theorem a_cst_15 : aft main_cst_15 = val_main_cst_15 (F := F) := by
  rw [after_nullary hW 145 rfl V (by decide)]; rfl
theorem a_v123 : aft main_v123 = val_main_v123 (F := F) X0 X1 X2 X3 X4 X5 X6 X7 X8 X9 X10 := by
  rw [after_binary hW 146 rfl V (by decide) (by decide) (by decide), a_v122, a_cst_15]; rfl
theorem a_v124 : aft main_v124 = val_main_v124 (F := F) X1 := by
  rw [after_unary hW 147 rfl V (by decide) (by decide), a_arg1]; rfl
theorem a_c : aft main_c = val_main_c (F := F) := by
  rw [after_nullary hW 148 rfl V (by decide)]; rfl
theorem a_v125 : aft main_v125 = val_main_v125 (F := F) X1 := by
  rw [after_binary hW 149 rfl V (by decide) (by decide) (by decide), a_v124, a_c]; rfl
theorem a_c_16 : aft main_c_16 = val_main_c_16 (F := F) := by
  rw [after_nullary hW 150 rfl V (by decide)]; rfl
theorem a_v126 : aft main_v126 = val_main_v126 (F := F) := by
  rw [after_unary hW 151 rfl V (by decide) (by decide), a_c_16]; rfl
theorem a_v127 : aft main_v127 = val_main_v127 (F := F) X1 := by
  rw [after_binary hW 152 rfl V (by decide) (by decide) (by decide), a_v125, a_v126]; rfl
theorem a_v128 : aft main_v128 = val_main_v128 (F := F) X1 := by
  rw [after_reshape hW 153 rfl V (by decide) (by decide), a_v127]
  unfold val_main_v128
  generalize val_main_v127 (F := F) X1 = A
  rfl
theorem a_v129 : aft main_v129 = val_main_v129 (F := F) X1 := by
  rw [after_unary hW 154 rfl V (by decide) (by decide), a_v128]; rfl
theorem a_v130 : aft main_v130 = val_main_v130 (F := F) X1 := by
  rw [after_unary hW 155 rfl V (by decide) (by decide), a_v129]; rfl
theorem a_v131 : aft main_v131 = val_main_v131 (F := F) X0 X1 X2 X3 X4 X5 X6 X7 X8 X9 X10 := by
  rw [after_reshape hW 156 rfl V (by decide) (by decide), a_v123]
  unfold val_main_v131
  generalize val_main_v123 (F := F) X0 X1 X2 X3 X4 X5 X6 X7 X8 X9 X10 = A
  rfl
theorem a_v132 : aft main_v132 = val_main_v132 (F := F) X11 := by
  rw [after_unary hW 157 rfl V (by decide) (by decide), a_arg11]; rfl
theorem a_v133 : aft main_v133 = val_main_v133 (F := F) X0 X1 X2 X3 X4 X5 X6 X7 X8 X9 X10 X11 := by
  rw [after_binary hW 158 rfl V (by decide) (by decide) (by decide), a_v131, a_v132]; rfl
theorem a_v134 : aft main_v134 = val_main_v134 (F := F) X12 := by
  rw [after_unary hW 159 rfl V (by decide) (by decide), a_arg12]; rfl
theorem a_v135 : aft main_v135 = val_main_v135 (F := F) X12 := by
  rw [after_unary hW 160 rfl V (by decide) (by decide), a_v134]; rfl
theorem a_v136 : aft main_v136 = val_main_v136 (F := F) X0 X1 X2 X3 X4 X5 X6 X7 X8 X9 X10 X11 X12 := by
  rw [after_binary hW 161 rfl V (by decide) (by decide) (by decide), a_v133, a_v135]; rfl
theorem a_call3_cst : aft main_call3_cst = val_main_call3_cst (F := F) := by
  rw [after_nullary hW 162 rfl V (by decide)]; exact cast_eq _ _
theorem a_call3_v0 : aft main_call3_v0 = val_main_call3_v0 (F := F) := by
  rw [after_unary hW 163 rfl V (by decide) (by decide), a_call3_cst]
  unfold val_main_call3_v0
  generalize val_main_call3_cst (F := F) = A
  rfl
theorem a_v137 : aft main_v137 = val_main_v137 (F := F) X0 X1 X2 X3 X4 X5 X6 X7 X8 X9 X10 X11 X12 := by
  rw [after_binary hW 164 rfl V (by decide) (by decide) (by decide), a_v136, a_call3_v0]
  unfold val_main_v137
  generalize val_main_v136 (F := F) X0 X1 X2 X3 X4 X5 X6 X7 X8 X9 X10 X11 X12 = A
  generalize val_main_call3_v0 (F := F) = B
  rfl
theorem a_v138 : aft main_v138 = val_main_v138 (F := F) X13 := by
  rw [after_unary hW 165 rfl V (by decide) (by decide), a_arg13]; rfl
theorem a_v139 : aft main_v139 = val_main_v139 (F := F) X0 X1 X2 X3 X4 X5 X6 X7 X8 X9 X10 X11 X12 X13 := by
  rw [after_binary hW 166 rfl V (by decide) (by decide) (by decide), a_v137, a_v138]; rfl
theorem a_v140 : aft main_v140 = val_main_v140 (F := F) X14 := by
  rw [after_unary hW 167 rfl V (by decide) (by decide), a_arg14]; rfl
theorem a_v141 : aft main_v141 = val_main_v141 (F := F) X14 := by
  rw [after_unary hW 168 rfl V (by decide) (by decide), a_v140]; rfl
theorem a_v142 : aft main_v142 = val_main_v142 (F := F) X0 X1 X2 X3 X4 X5 X6 X7 X8 X9 X10 X11 X12 X13 X14 := by
  rw [after_binary hW 169 rfl V (by decide) (by decide) (by decide), a_v139, a_v141]; rfl
theorem a_v143 : aft main_v143 = val_main_v143 (F := F) X1 := by
  rw [after_unary hW 170 rfl V (by decide) (by decide), a_v130]; rfl
theorem a_v144 : aft main_v144 = val_main_v144 (F := F) X0 X1 X2 X3 X4 X5 X6 X7 X8 X9 X10 X11 X12 X13 X14 := by
  rw [after_binary hW 171 rfl V (by decide) (by decide) (by decide), a_v142, a_v143]; rfl
theorem a_v145 : aft main_v145 = val_main_v145 (F := F) X0 X1 X2 X3 X4 X5 X6 X7 X8 X9 X10 X11 X12 X13 X14 := by
  rw [after_reshape hW 172 rfl V (by decide) (by decide), a_v144]
  unfold val_main_v145
  generalize val_main_v144 (F := F) X0 X1 X2 X3 X4 X5 X6 X7 X8 X9 X10 X11 X12 X13 X14 = A
  rfl

/-- The reference's result, read off the fold of its 173 operations over the launch contents, is the
    named value of the last operation at the arguments' launch contents. -/
theorem fold_eq_val (m' : (ℓ : Loc nD τ sig) → Buf (Elt Ideal) ℓ) (c : Dev nD) :
    after (Cert.ReferenceIdeal.ValueP.ops (F := Ideal)) (launchContents m' c) (Proc.devRef .tc main_v145)
      = val_main_v145 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) :=
  a_v145 (F := Ideal) (launchContents m' c)

end Cert.RefValue
-- ==== Proof.LibBatchNormEquiv.lean ====
import proofs.«135113_g11922829214230_retrytranche1_1894_3_alg».proof.Proof.LibMaskedBatchNorm

/-!
# Masked batch normalisation does not depend on how the rows are indexed

The count, the masked mean, the variance of deviations and the normalised value are built from
sums over the whole (finite) row type. A bijection `e : ι ≃ κ` of row types only renames the
summation variable, so each quantity computed from `h ∘ e`, `μ ∘ e` over `ι` equals the one computed
from `h`, `μ` over `κ`.
-/

open scoped BigOperators

noncomputable section

namespace Cert.Lib.BatchNormEquiv

/-- The clamped count of unmasked rows is unchanged by reindexing the rows along a bijection. -/
theorem cnt_equiv {ι κ : Type*} [Fintype ι] [Fintype κ] (e : ι ≃ κ) (mu : κ → EReal) :
    Cert.BN.cnt (fun i => mu (e i)) = Cert.BN.cnt mu := by
  unfold Cert.BN.cnt
  rw [Equiv.sum_comp e (fun k => mu k)]

/-- The masked mean is unchanged by reindexing the rows along a bijection. -/
theorem mean_equiv {ι κ : Type*} [Fintype ι] [Fintype κ] (e : ι ≃ κ) (h mu : κ → EReal) :
    Cert.BN.mean (fun i => h (e i)) (fun i => mu (e i)) = Cert.BN.mean h mu := by
  unfold Cert.BN.mean
  rw [cnt_equiv e mu, Equiv.sum_comp e (fun k => h k * mu k)]

/-- The masked mean of squared deviations is unchanged by reindexing the rows along a bijection. -/
theorem varDeviations_equiv {ι κ : Type*} [Fintype ι] [Fintype κ] (e : ι ≃ κ) (h mu : κ → EReal) :
    Cert.BN.varDeviations (fun i => h (e i)) (fun i => mu (e i)) = Cert.BN.varDeviations h mu := by
  unfold Cert.BN.varDeviations
  rw [cnt_equiv e mu, mean_equiv e h mu,
    Equiv.sum_comp e (fun k => ((h k - Cert.BN.mean h mu) * (h k - Cert.BN.mean h mu)) * mu k)]

/-- The normalised value at a point is unchanged by reindexing the rows along a bijection. -/
theorem normDeviations_equiv {ι κ : Type*} [Fintype ι] [Fintype κ] (e : ι ≃ κ) (h mu : κ → EReal)
    (g b eps x : EReal) :
    Cert.BN.normDeviations (fun i => h (e i)) (fun i => mu (e i)) g b eps x
      = Cert.BN.normDeviations h mu g b eps x := by
  unfold Cert.BN.normDeviations
  rw [mean_equiv e h mu, varDeviations_equiv e h mu]

end Cert.Lib.BatchNormEquiv
-- ==== Proof.RefValueNorm.lean ====
import proofs.«135113_g11922829214230_retrytranche1_1894_3_alg».proof.Proof.ReadP
import proofs.«135113_g11922829214230_retrytranche1_1894_3_alg».proof.Proof.Net
import Idealize.ShloMosaic.Lib.IdealHost

/-!
# The reference's three normalisation stretches are one function

The reference program normalises three times: operations 4–39, 48–83 and 86–121 of its main
function. Each stretch takes a `245760 × 64` array `h`, the mask argument, a gain `g` and a bias
`b`, and computes, channel by channel,

  `cnt = max (∑ μ) 1`,  `mean = (∑ h·μ) / cnt`,  `var = (∑ ((h - mean)·(h - mean))·μ) / cnt`,
  `y = max ((h - mean) / √(var + ε) · g + b) 0 · μ`,

where `μ` is the row's mask bit read as the number 0 or 1 and the sums run over all rows.

`NB` below is that function, written as a chain of small definitions `nbK` that follow operations
`4 … 39` one for one (an operation that repeats an earlier one reuses its definition). The three
stretches are instances of `NB` by unfolding definitions. `NB_apply` reads `NB` at an index as the
masked batch normalisation `Cert.BN.normDeviations`, clamped at zero and masked.
-/

open scoped BigOperators

noncomputable section

namespace Cert.RefValue

open Idealize.ShloMosaic Idealize.ShloMosaic.ValueIdx Idealize.SL.Sem Idealize.ShloMosaic.StableHlo
open Cert.ReferenceIdeal Cert.ReferenceIdeal.Gen Cert.ReferenceIdeal.ReadP

/-! ## The chain -/

/-- A flat row's mask bit as the number 0 or 1. -/
def muF (x1 : (⟨S16x768x20, .i1⟩ : BufTy).Contents (Elt Ideal)) (r : Fin 245760) : EReal :=
  (((val_main_v0 (F := Ideal) x1 (ix1 r)).toNat : ℝ) : EReal)

/-- The flat mask as a column (operation 4). -/
def nb4 (x1 : (⟨S16x768x20, .i1⟩ : BufTy).Contents (Elt Ideal)) : (⟨S245760x1, .i1⟩ : BufTy).Contents (Elt Ideal) :=
  broadcastInDim S245760x1 ![0] bcast_S245760_S245760x1_0 (val_main_v0 (F := Ideal) x1)

/-- The mask column as numbers (operation 5). -/
def nb5 (x1 : (⟨S16x768x20, .i1⟩ : BufTy).Contents (Elt Ideal)) : (⟨S245760x1, .f32⟩ : BufTy).Contents (Elt Ideal) :=
  uitofp (F := Ideal) .f32 (nb4 x1)

/-- The number of unmasked rows (operation 6). -/
def nb6 (x1 : (⟨S16x768x20, .i1⟩ : BufTy).Contents (Elt Ideal)) : (⟨S_, .f32⟩ : BufTy).Contents (Elt Ideal) :=
  Host.reduceAdd (nb5 x1) (constant (F := Ideal) S_ .f32 0x00000000#32) reducesTo_S245760x1_S_d0_1 h_S_

/-- The count, at least one (operation 7). -/
def nb7 (x1 : (⟨S16x768x20, .i1⟩ : BufTy).Contents (Elt Ideal)) : (⟨S_, .f32⟩ : BufTy).Contents (Elt Ideal) :=
  maximumf (F := Ideal) (φ := .f32) (nb6 x1) (constant (F := Ideal) S_ .f32 0x3F800000#32)

/-- The mask spread over the channels (operations 8, 17, 38). -/
def nb8 (x1 : (⟨S16x768x20, .i1⟩ : BufTy).Contents (Elt Ideal)) : (⟨S245760x64, .f32⟩ : BufTy).Contents (Elt Ideal) :=
  broadcastInDim S245760x64 ![0, 1] bcast_S245760x1_S245760x64_0_1 (nb5 x1)

/-- The masked data (operation 9). -/
def nb9 (h : (⟨S245760x64, .f32⟩ : BufTy).Contents (Elt Ideal)) (x1 : (⟨S16x768x20, .i1⟩ : BufTy).Contents (Elt Ideal)) : (⟨S245760x64, .f32⟩ : BufTy).Contents (Elt Ideal) :=
  mulf (F := Ideal) (φ := .f32) h (nb8 x1)

/-- The masked column sums (operation 10). -/
def nb10 (h : (⟨S245760x64, .f32⟩ : BufTy).Contents (Elt Ideal)) (x1 : (⟨S16x768x20, .i1⟩ : BufTy).Contents (Elt Ideal)) : (⟨S64, .f32⟩ : BufTy).Contents (Elt Ideal) :=
  Host.reduceAdd (nb9 h x1) (constant (F := Ideal) S_ .f32 0x00000000#32) reducesTo_S245760x64_S64_d0 h_S_

/-- The count, once per channel (operations 11, 20). -/
def nb11 (x1 : (⟨S16x768x20, .i1⟩ : BufTy).Contents (Elt Ideal)) : (⟨S64, .f32⟩ : BufTy).Contents (Elt Ideal) :=
  broadcastInDim S64 ![] bcast_S_S64 (nb7 x1)

/-- The masked mean of each channel (operation 12). -/
def nb12 (h : (⟨S245760x64, .f32⟩ : BufTy).Contents (Elt Ideal)) (x1 : (⟨S16x768x20, .i1⟩ : BufTy).Contents (Elt Ideal)) : (⟨S64, .f32⟩ : BufTy).Contents (Elt Ideal) :=
  Host.divf (F := Ideal) (φ := .f32) (nb10 h x1) (nb11 x1)

/-- The mean as a row (operations 13, 22). -/
def nb13 (h : (⟨S245760x64, .f32⟩ : BufTy).Contents (Elt Ideal)) (x1 : (⟨S16x768x20, .i1⟩ : BufTy).Contents (Elt Ideal)) : (⟨S1x64, .f32⟩ : BufTy).Contents (Elt Ideal) :=
  broadcastInDim S1x64 ![1] bcast_S64_S1x64_1 (nb12 h x1)

/-- The mean spread over the rows (operations 14, 23). -/
def nb14 (h : (⟨S245760x64, .f32⟩ : BufTy).Contents (Elt Ideal)) (x1 : (⟨S16x768x20, .i1⟩ : BufTy).Contents (Elt Ideal)) : (⟨S245760x64, .f32⟩ : BufTy).Contents (Elt Ideal) :=
  broadcastInDim S245760x64 ![0, 1] bcast_S1x64_S245760x64_0_1 (nb13 h x1)

/-- The deviations from the mean (operations 15, 24). -/
def nb15 (h : (⟨S245760x64, .f32⟩ : BufTy).Contents (Elt Ideal)) (x1 : (⟨S16x768x20, .i1⟩ : BufTy).Contents (Elt Ideal)) : (⟨S245760x64, .f32⟩ : BufTy).Contents (Elt Ideal) :=
  subf (F := Ideal) (φ := .f32) h (nb14 h x1)

/-- The squared deviations (operation 16). -/
def nb16 (h : (⟨S245760x64, .f32⟩ : BufTy).Contents (Elt Ideal)) (x1 : (⟨S16x768x20, .i1⟩ : BufTy).Contents (Elt Ideal)) : (⟨S245760x64, .f32⟩ : BufTy).Contents (Elt Ideal) :=
  mulf (F := Ideal) (φ := .f32) (nb15 h x1) (nb15 h x1)

/-- The masked squared deviations (operation 18). -/
def nb18 (h : (⟨S245760x64, .f32⟩ : BufTy).Contents (Elt Ideal)) (x1 : (⟨S16x768x20, .i1⟩ : BufTy).Contents (Elt Ideal)) : (⟨S245760x64, .f32⟩ : BufTy).Contents (Elt Ideal) :=
  mulf (F := Ideal) (φ := .f32) (nb16 h x1) (nb8 x1)

/-- Their column sums (operation 19). -/
def nb19 (h : (⟨S245760x64, .f32⟩ : BufTy).Contents (Elt Ideal)) (x1 : (⟨S16x768x20, .i1⟩ : BufTy).Contents (Elt Ideal)) : (⟨S64, .f32⟩ : BufTy).Contents (Elt Ideal) :=
  Host.reduceAdd (nb18 h x1) (constant (F := Ideal) S_ .f32 0x00000000#32) reducesTo_S245760x64_S64_d0 h_S_

/-- The variance of each channel (operation 21). -/
def nb21 (h : (⟨S245760x64, .f32⟩ : BufTy).Contents (Elt Ideal)) (x1 : (⟨S16x768x20, .i1⟩ : BufTy).Contents (Elt Ideal)) : (⟨S64, .f32⟩ : BufTy).Contents (Elt Ideal) :=
  Host.divf (F := Ideal) (φ := .f32) (nb19 h x1) (nb11 x1)

/-- The constant `ε`, once per channel (operation 25). -/
def nb25 : (⟨S64, .f32⟩ : BufTy).Contents (Elt Ideal) :=
  broadcastInDim S64 ![] bcast_S_S64 (constant (F := Ideal) S_ .f32 0x3727C5AC#32)

/-- The variance plus `ε` (operation 26). -/
def nb26 (h : (⟨S245760x64, .f32⟩ : BufTy).Contents (Elt Ideal)) (x1 : (⟨S16x768x20, .i1⟩ : BufTy).Contents (Elt Ideal)) : (⟨S64, .f32⟩ : BufTy).Contents (Elt Ideal) :=
  addf (F := Ideal) (φ := .f32) (nb21 h x1) nb25

/-- The standard deviation (operation 27). -/
def nb27 (h : (⟨S245760x64, .f32⟩ : BufTy).Contents (Elt Ideal)) (x1 : (⟨S16x768x20, .i1⟩ : BufTy).Contents (Elt Ideal)) : (⟨S64, .f32⟩ : BufTy).Contents (Elt Ideal) :=
  Host.sqrt (F := Ideal) (φ := .f32) (nb26 h x1)

/-- A per-channel vector spread over the rows, through a one-row array (operations 28–29, 31–32, 34–35). -/
def nbRow (v : (⟨S64, .f32⟩ : BufTy).Contents (Elt Ideal)) : (⟨S245760x64, .f32⟩ : BufTy).Contents (Elt Ideal) :=
  broadcastInDim S245760x64 ![0, 1] bcast_S1x64_S245760x64_0_1 (broadcastInDim S1x64 ![1] bcast_S64_S1x64_1 v)

/-- The deviations over the standard deviation (operation 30). -/
def nb30 (h : (⟨S245760x64, .f32⟩ : BufTy).Contents (Elt Ideal)) (x1 : (⟨S16x768x20, .i1⟩ : BufTy).Contents (Elt Ideal)) : (⟨S245760x64, .f32⟩ : BufTy).Contents (Elt Ideal) :=
  Host.divf (F := Ideal) (φ := .f32) (nb15 h x1) (nbRow (nb27 h x1))

/-- Times the gain (operation 33). -/
def nb33 (h : (⟨S245760x64, .f32⟩ : BufTy).Contents (Elt Ideal)) (x1 : (⟨S16x768x20, .i1⟩ : BufTy).Contents (Elt Ideal)) (g : (⟨S64, .f32⟩ : BufTy).Contents (Elt Ideal)) : (⟨S245760x64, .f32⟩ : BufTy).Contents (Elt Ideal) :=
  mulf (F := Ideal) (φ := .f32) (nb30 h x1) (nbRow g)

/-- Plus the bias (operation 36). -/
def nb36 (h : (⟨S245760x64, .f32⟩ : BufTy).Contents (Elt Ideal)) (x1 : (⟨S16x768x20, .i1⟩ : BufTy).Contents (Elt Ideal)) (g b : (⟨S64, .f32⟩ : BufTy).Contents (Elt Ideal)) : (⟨S245760x64, .f32⟩ : BufTy).Contents (Elt Ideal) :=
  addf (F := Ideal) (φ := .f32) (nb33 h x1 g) (nbRow b)

/-- Clamped at zero (operation 37). -/
def nb37 (h : (⟨S245760x64, .f32⟩ : BufTy).Contents (Elt Ideal)) (x1 : (⟨S16x768x20, .i1⟩ : BufTy).Contents (Elt Ideal)) (g b : (⟨S64, .f32⟩ : BufTy).Contents (Elt Ideal)) : (⟨S245760x64, .f32⟩ : BufTy).Contents (Elt Ideal) :=
  maximumf (F := Ideal) (φ := .f32) (nb36 h x1 g b) (broadcastInDim S245760x64 ![] bcast_S_S245760x64 (constant (F := Ideal) S_ .f32 0x00000000#32))

/-- One normalisation stretch: masked batch normalisation of `h` with gain `g` and bias `b`,
    clamped at zero, masked (operation 39). -/
def NB (h : (⟨S245760x64, .f32⟩ : BufTy).Contents (Elt Ideal)) (x1 : (⟨S16x768x20, .i1⟩ : BufTy).Contents (Elt Ideal)) (g b : (⟨S64, .f32⟩ : BufTy).Contents (Elt Ideal)) : (⟨S245760x64, .f32⟩ : BufTy).Contents (Elt Ideal) :=
  mulf (F := Ideal) (φ := .f32) (nb37 h x1 g b) (nb8 x1)

/-! ## The three stretches are instances -/

set_option maxRecDepth 8192 in
/-- Operations 4–39 are `NB` of the first matrix product. -/
theorem val_main_v39_eq_NB (x0 : (⟨S16x768x20x9, .f32⟩ : BufTy).Contents (Elt Ideal)) (x1 : (⟨S16x768x20, .i1⟩ : BufTy).Contents (Elt Ideal))
    (x2 : (⟨S64x9, .f32⟩ : BufTy).Contents (Elt Ideal)) (x3 x4 : (⟨S64, .f32⟩ : BufTy).Contents (Elt Ideal)) :
    val_main_v39 (F := Ideal) x0 x1 x2 x3 x4 = NB (val_main_v3 (F := Ideal) x0 x2) x1 x3 x4 := rfl

set_option maxRecDepth 8192 in
/-- Operations 48–83 are `NB` of the second matrix product. -/
theorem val_main_v83_eq_NB (x0 : (⟨S16x768x20x9, .f32⟩ : BufTy).Contents (Elt Ideal)) (x1 : (⟨S16x768x20, .i1⟩ : BufTy).Contents (Elt Ideal))
    (x2 : (⟨S64x9, .f32⟩ : BufTy).Contents (Elt Ideal)) (x3 x4 : (⟨S64, .f32⟩ : BufTy).Contents (Elt Ideal))
    (x5 : (⟨S64x128, .f32⟩ : BufTy).Contents (Elt Ideal)) (x6 x7 : (⟨S64, .f32⟩ : BufTy).Contents (Elt Ideal)) :
    val_main_v83 (F := Ideal) x0 x1 x2 x3 x4 x5 x6 x7
      = NB (val_main_v47 (F := Ideal) x0 x1 x2 x3 x4 x5) x1 x6 x7 := rfl

set_option maxRecDepth 8192 in
/-- Operations 86–121 are `NB` of the third matrix product. -/
theorem val_main_v121_eq_NB (x0 : (⟨S16x768x20x9, .f32⟩ : BufTy).Contents (Elt Ideal)) (x1 : (⟨S16x768x20, .i1⟩ : BufTy).Contents (Elt Ideal))
    (x2 : (⟨S64x9, .f32⟩ : BufTy).Contents (Elt Ideal)) (x3 x4 : (⟨S64, .f32⟩ : BufTy).Contents (Elt Ideal))
    (x5 : (⟨S64x128, .f32⟩ : BufTy).Contents (Elt Ideal)) (x6 x7 : (⟨S64, .f32⟩ : BufTy).Contents (Elt Ideal))
    (x8 : (⟨S64x64, .f32⟩ : BufTy).Contents (Elt Ideal)) (x9 x10 : (⟨S64, .f32⟩ : BufTy).Contents (Elt Ideal)) :
    val_main_v121 (F := Ideal) x0 x1 x2 x3 x4 x5 x6 x7 x8 x9 x10
      = NB (val_main_v85 (F := Ideal) x0 x1 x2 x3 x4 x5 x6 x7 x8) x1 x9 x10 := rfl

/-! ## Reading the chain at an index -/

/-- A sum over a `245760 × 1` index set of a function of the row is the sum over the rows. -/
theorem sum_unit_axis (f : Fin 245760 → EReal) :
    ∑ j : S245760x1.Idx, f (j 0) = ∑ r : Fin 245760, f r := by
  refine (sum_idx2 (n0 := 245760) (n1 := 1) (fun j => f (j 0))).trans ?_
  refine Finset.sum_congr rfl fun a _ => ?_
  exact Fin.sum_univ_one _

/-- The column sum of a `245760 × 64` array from zero, at a channel: the sum over the rows. -/
theorem colsum_apply (y : (⟨S245760x64, .f32⟩ : BufTy).Contents (Elt Ideal)) (c : Fin 64) :
    (Host.reduceAdd y (constant (F := Ideal) S_ .f32 0x00000000#32) reducesTo_S245760x64_S64_d0 h_S_ : (⟨S64, .f32⟩ : BufTy).Contents (Elt Ideal)) (ix1 c)
      = ∑ k : Fin 245760, y (ix2 k c) := by
  simp only [Host.reduceAdd, Ideal.hostReduceAdd_def]
  rw [Ideal.hostReduceAdd_single reducesTo_S245760x64_S64_d0 (by decide)]
  refine (congrArg (· + _) Ideal.ofBits_zero_f32).trans ((zero_add _).trans ?_)
  refine Finset.sum_congr rfl fun k _ => ?_
  exact congrArg y (funext fun a => Fin.ext (by match a with | ⟨0, _⟩ => rfl | ⟨1, _⟩ => rfl))

/-- A per-channel vector spread over the rows, at a row and a channel: the vector at the channel. -/
theorem nbRow_apply_idx (v : (⟨S64, .f32⟩ : BufTy).Contents (Elt Ideal)) (i : S245760x64.Idx) : nbRow v i = v (ix1 (i 1)) := by
  unfold nbRow
  generalize hy : broadcastInDim S1x64 ![1] bcast_S64_S1x64_1 v = y
  have h1 : broadcastInDim S245760x64 ![0, 1] bcast_S1x64_S245760x64_0_1 y i = y (idx_main_v14 i) :=
    broadcastInDim_apply _ bcast_S1x64_S245760x64_0_1 y i (idx_main_v14 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [h1, ← hy]
  have h2 : broadcastInDim S1x64 ![1] bcast_S64_S1x64_1 v (idx_main_v14 i) = v (idx_main_v13 (idx_main_v14 i)) :=
    broadcastInDim_apply _ bcast_S64_S1x64_1 v (idx_main_v14 i) (idx_main_v13 (idx_main_v14 i)) (fun a => match a with
      | ⟨0, _⟩ => by show ((idx_main_v14 i) 1).val = if (64 : Nat) = 1 then 0 else ((idx_main_v14 i) 1).val; rw [if_neg (by decide)])
  rw [h2]
  exact congrArg v (funext fun a => match a with | ⟨0, _⟩ => rfl)

/-- The mask column at a row is the row's mask number. -/
theorem nb5_apply (x1 : (⟨S16x768x20, .i1⟩ : BufTy).Contents (Elt Ideal)) (i : S245760x1.Idx) : nb5 x1 i = muF x1 (i 0) := by
  have h1 : nb4 x1 i = val_main_v0 (F := Ideal) x1 (idx_main_v4 i) := by
    unfold nb4
    generalize val_main_v0 (F := Ideal) x1 = y
    exact broadcastInDim_apply _ bcast_S245760_S245760x1_0 y i (idx_main_v4 i) (fun a => match a with
      | ⟨0, _⟩ => by show (i 0).val = if (245760 : Nat) = 1 then 0 else (i 0).val; rw [if_neg (by decide)])
  show (((nb4 x1 i).toNat : ℝ) : EReal) = _
  rw [h1]
  unfold muF
  exact congrArg (fun j => (((val_main_v0 (F := Ideal) x1 j).toNat : ℝ) : EReal))
    (funext fun a => match a with | ⟨0, _⟩ => rfl)

/-- The spread mask at a row and a channel is the row's mask number. -/
theorem nb8_apply_idx (x1 : (⟨S16x768x20, .i1⟩ : BufTy).Contents (Elt Ideal)) (i : S245760x64.Idx) : nb8 x1 i = muF x1 (i 0) := by
  have h1 : nb8 x1 i = nb5 x1 (idx_main_v8 i) := by
    unfold nb8
    generalize nb5 x1 = y
    exact broadcastInDim_apply _ bcast_S245760x1_S245760x64_0_1 y i (idx_main_v8 i) (fun a => match a with
      | ⟨0, _⟩ => by show (i 0).val = if (245760 : Nat) = 1 then 0 else (i 0).val; rw [if_neg (by decide)]
      | ⟨1, _⟩ => by show 0 = if (1 : Nat) = 1 then 0 else (i 1).val; rw [if_pos rfl])
  exact h1.trans (nb5_apply x1 (idx_main_v8 i))

/-- The float sum of the mask column is the sum of the mask numbers. -/
theorem nb6_apply (x1 : (⟨S16x768x20, .i1⟩ : BufTy).Contents (Elt Ideal)) (i : S_.Idx) : nb6 x1 i = ∑ r : Fin 245760, muF x1 r := by
  have h1 : nb6 x1 i = Ideal.ofBits .f32 0x00000000#32 + ∑ j : S245760x1.Idx, nb5 x1 j := by
    unfold nb6
    generalize nb5 x1 = y0
    simp only [Host.reduceAdd, Ideal.hostReduceAdd_def]
    exact Ideal.hostReduceAdd_total reducesTo_S245760x1_S_d0_1 (fun b => b.elim0) y0 _ i
  rw [h1, Ideal.ofBits_zero_f32, zero_add]
  simp only [nb5_apply]
  exact sum_unit_axis (muF x1)

/-- The clamped count is `Cert.BN.cnt` of the mask numbers. -/
theorem nb7_apply (x1 : (⟨S16x768x20, .i1⟩ : BufTy).Contents (Elt Ideal)) (i : S_.Idx) : nb7 x1 i = Cert.BN.cnt (muF x1) := by
  unfold nb7 Cert.BN.cnt
  rw [maximumf_apply, constant_apply, nb6_apply, Ideal.ofBits_one_f32]

/-- The count spread over the channels is still the count. -/
theorem nb11_apply (x1 : (⟨S16x768x20, .i1⟩ : BufTy).Contents (Elt Ideal)) (i : S64.Idx) : nb11 x1 i = Cert.BN.cnt (muF x1) := by
  have h1 : nb11 x1 i = nb7 x1 (idx_main_v11 i) := by
    unfold nb11
    generalize nb7 x1 = y
    exact broadcastInDim_apply _ bcast_S_S64 y i (idx_main_v11 i) (fun a => a.elim0)
  rw [h1, nb7_apply]

/-- A per-channel vector spread over the rows, at row `r` and channel `c`. -/
theorem nbRow_apply (v : (⟨S64, .f32⟩ : BufTy).Contents (Elt Ideal)) (r : Fin 245760) (c : Fin 64) : nbRow v (ix2 r c) = v (ix1 c) :=
  nbRow_apply_idx v (ix2 r c)

/-- The spread mask at row `r` and channel `c` is the row's mask number. -/
theorem nb8_apply (x1 : (⟨S16x768x20, .i1⟩ : BufTy).Contents (Elt Ideal)) (r : Fin 245760) (c : Fin 64) : nb8 x1 (ix2 r c) = muF x1 r :=
  nb8_apply_idx x1 (ix2 r c)

/-- The mean of a channel is `Cert.BN.mean` of the channel's column and the mask numbers. -/
theorem nb12_apply (h : (⟨S245760x64, .f32⟩ : BufTy).Contents (Elt Ideal)) (x1 : (⟨S16x768x20, .i1⟩ : BufTy).Contents (Elt Ideal)) (c : Fin 64) :
    nb12 h x1 (ix1 c) = Cert.BN.mean (fun r' : Fin 245760 => h (ix2 r' c)) (muF x1) := by
  unfold nb12 nb10 Cert.BN.mean
  rw [hostDivf_apply, nb11_apply, colsum_apply]
  refine congrArg (fun s => Ideal.div s (Cert.BN.cnt (muF x1))) (Finset.sum_congr rfl fun k _ => ?_)
  unfold nb9
  rw [mulf_apply, nb8_apply]

/-- The mean spread over the rows is the per-channel spreading of the mean. -/
theorem nb14_eq (h : (⟨S245760x64, .f32⟩ : BufTy).Contents (Elt Ideal)) (x1 : (⟨S16x768x20, .i1⟩ : BufTy).Contents (Elt Ideal)) : nb14 h x1 = nbRow (nb12 h x1) := rfl

/-- The deviations at a row and a channel. -/
theorem nb15_apply (h : (⟨S245760x64, .f32⟩ : BufTy).Contents (Elt Ideal)) (x1 : (⟨S16x768x20, .i1⟩ : BufTy).Contents (Elt Ideal)) (r : Fin 245760) (c : Fin 64) :
    nb15 h x1 (ix2 r c) = h (ix2 r c) - Cert.BN.mean (fun r' : Fin 245760 => h (ix2 r' c)) (muF x1) := by
  unfold nb15
  rw [subf_apply, nb14_eq, nbRow_apply, nb12_apply]

/-- The variance of a channel is `Cert.BN.varDeviations` of the channel's column and the mask numbers. -/
theorem nb21_apply (h : (⟨S245760x64, .f32⟩ : BufTy).Contents (Elt Ideal)) (x1 : (⟨S16x768x20, .i1⟩ : BufTy).Contents (Elt Ideal)) (c : Fin 64) :
    nb21 h x1 (ix1 c) = Cert.BN.varDeviations (fun r' : Fin 245760 => h (ix2 r' c)) (muF x1) := by
  unfold nb21 nb19 Cert.BN.varDeviations
  rw [hostDivf_apply, nb11_apply, colsum_apply]
  refine congrArg (fun s => Ideal.div s (Cert.BN.cnt (muF x1))) (Finset.sum_congr rfl fun k _ => ?_)
  unfold nb18 nb16
  rw [mulf_apply, mulf_apply, nb15_apply, nb8_apply]

/-- The constant `ε` at a channel. -/
theorem nb25_apply (c : Fin 64) : nb25 (ix1 c) = Cert.Net.eps := by
  unfold nb25 Cert.Net.eps
  exact broadcastInDim_apply _ bcast_S_S64 (constant (F := Ideal) S_ .f32 0x3727C5AC#32) (ix1 c)
    (idx_main_v25 (ix1 c)) (fun a => a.elim0)

/-- The host's square root at an index is the exact square root of the element. -/
theorem hostSqrt_apply {s : Shape} {φ : FTy} (a : FVec Ideal s φ) (i : s.Idx) :
    Host.sqrt a i = Ideal.sqrt (a i) := rfl

/-- The standard deviation of a channel. -/
theorem nb27_apply (h : (⟨S245760x64, .f32⟩ : BufTy).Contents (Elt Ideal)) (x1 : (⟨S16x768x20, .i1⟩ : BufTy).Contents (Elt Ideal)) (c : Fin 64) :
    nb27 h x1 (ix1 c)
      = Ideal.sqrt (Cert.BN.varDeviations (fun r' : Fin 245760 => h (ix2 r' c)) (muF x1) + Cert.Net.eps) := by
  unfold nb27 nb26
  rw [hostSqrt_apply, addf_apply, nb21_apply, nb25_apply]

/-- The zero the clamp compares with, at a row and a channel. -/
theorem relu_zero_apply (r : Fin 245760) (c : Fin 64) :
    (broadcastInDim S245760x64 ![] bcast_S_S245760x64 (constant (F := Ideal) S_ .f32 0x00000000#32) : (⟨S245760x64, .f32⟩ : BufTy).Contents (Elt Ideal)) (ix2 r c) = 0 :=
  (broadcastInDim_apply _ bcast_S_S245760x64 (constant (F := Ideal) S_ .f32 0x00000000#32) (ix2 r c) (idx_main_call0_v0 (ix2 r c))
    (fun a => a.elim0)).trans Ideal.ofBits_zero_f32

/-- One normalisation stretch at a row and a channel: the channel's masked batch normalisation of the
    entry, clamped at zero, times the row's mask number. -/
theorem NB_apply (h : (⟨S245760x64, .f32⟩ : BufTy).Contents (Elt Ideal)) (x1 : (⟨S16x768x20, .i1⟩ : BufTy).Contents (Elt Ideal)) (g b : (⟨S64, .f32⟩ : BufTy).Contents (Elt Ideal)) (r : Fin 245760) (c : Fin 64) :
    NB h x1 g b (ix2 r c)
      = max (Cert.BN.normDeviations (fun r' : Fin 245760 => h (ix2 r' c)) (muF x1) (g (ix1 c)) (b (ix1 c))
          Cert.Net.eps (h (ix2 r c))) 0 * muF x1 r := by
  unfold NB nb37 nb36 nb33 nb30 Cert.BN.normDeviations
  rw [mulf_apply, maximumf_apply, addf_apply, mulf_apply, hostDivf_apply, relu_zero_apply, nb15_apply,
    nbRow_apply, nbRow_apply, nbRow_apply, nb27_apply, nb8_apply]

end Cert.RefValue
-- ==== Proof.RefValueLayers.lean ====
/-
  The reference's composed term is the network, read layer by layer.

  A row (batch `b`, polyline `p`, point `n`) sits at the flat position `(b * 768 + p) * 20 + n` of the reference's
  `[245760, ·]` arrays, and a polyline at the flat position `b * 768 + p` of its `[12288, ·]` arrays; both
  correspondences are bijections, so a sum or a statistic over the flat positions is the same sum or statistic over
  the rows.

  Reading the operations' values at a flat position, in program order:
    * the first contraction is `h1`; a masked-norm block of row-indexed features is the network's norm-and-rectify of
      the same features (masked batch normalisation does not depend on how the rows are indexed);
    * the reshape to `[16, 768, 20, 64]` followed by the maximum over the point axis from minus infinity is the pool;
    * the concatenation on the feature axis, reshaped back and contracted with the `[64, 128]` weight, is the one
      128-wide sum of the second layer; the third layer is a 64-wide contraction;
    * the twenty mask bits of a polyline, widened to 32 bits and summed, are positive as a signed word exactly when
      some bit is one (the sum is at most twenty, far from wrapping), which is the polyline's validity;
    * the head: contraction with the first output weight, bias, rectifier; contraction with the second, bias, times
      the validity.
  Each step only re-indexes: no finiteness of any value is used.
-/
import proofs.«135113_g11922829214230_retrytranche1_1894_3_alg».proof.Proof.ReadP
import proofs.«135113_g11922829214230_retrytranche1_1894_3_alg».proof.Proof.Net
import proofs.«135113_g11922829214230_retrytranche1_1894_3_alg».proof.Proof.LibBatchNormEquiv
import proofs.«135113_g11922829214230_retrytranche1_1894_3_alg».proof.Proof.RefValueNorm

open scoped BigOperators

noncomputable section

namespace Cert.RefValue

open Idealize.ShloMosaic Idealize.ShloMosaic.ValueIdx Idealize.SL.Sem Idealize.ShloMosaic.StableHlo
open Cert.ReferenceIdeal Cert.ReferenceIdeal.Gen Cert.ReferenceIdeal.ReadP

/-- The flat position of a row: `(b * 768 + p) * 20 + n`. -/
def rowF (r : Cert.Net.Row) : Fin 245760 :=
  ⟨(r.1.val * 768 + r.2.1.val) * 20 + r.2.2.val, by
    have h0 := r.1.isLt; have h1 := r.2.1.isLt; have h2 := r.2.2.isLt; omega⟩

theorem rowF_val (b : Fin 16) (p : Fin 768) (n : Fin 20) :
    (rowF (b, p, n)).val = (b.val * 768 + p.val) * 20 + n.val := rfl

/-- Rows and flat positions correspond one to one. -/
def rowE : Cert.Net.Row ≃ Fin 245760 where
  toFun := rowF
  invFun i := (⟨i.val / 15360, by have := i.isLt; omega⟩, ⟨i.val / 20 % 768, Nat.mod_lt _ (by decide)⟩,
    ⟨i.val % 20, Nat.mod_lt _ (by decide)⟩)
  left_inv r := by
    obtain ⟨b, p, n⟩ := r
    have h0 := b.isLt; have h1 := p.isLt; have h2 := n.isLt
    refine Prod.ext (Fin.ext ?_) (Prod.ext (Fin.ext ?_) (Fin.ext ?_))
    · show ((b.val * 768 + p.val) * 20 + n.val) / 15360 = b.val; omega
    · show ((b.val * 768 + p.val) * 20 + n.val) / 20 % 768 = p.val; omega
    · show ((b.val * 768 + p.val) * 20 + n.val) % 20 = n.val; omega
  right_inv i := by
    apply Fin.ext
    show (i.val / 15360 * 768 + i.val / 20 % 768) * 20 + i.val % 20 = i.val
    have := i.isLt; omega

theorem rowE_apply (r : Cert.Net.Row) : rowE r = rowF r := rfl

/-- The mask's flat reshape read at a row's flat position is the mask at the row's coordinates. -/
theorem idx_v0_rowF (r : Cert.Net.Row) : idx_main_v0 (ix1 (rowF r)) = ix3 r.1 r.2.1 r.2.2 := by
  obtain ⟨b, p, n⟩ := r
  have h0 := b.isLt; have h1 := p.isLt; have h2 := n.isLt
  funext a
  match a with
  | ⟨0, _⟩ => exact Fin.ext (by show ((b.val * 768 + p.val) * 20 + n.val) / 15360 = b.val; omega)
  | ⟨1, _⟩ => exact Fin.ext (by show ((b.val * 768 + p.val) * 20 + n.val) / 20 % 768 = p.val; omega)
  | ⟨2, _⟩ => exact Fin.ext (by show ((b.val * 768 + p.val) * 20 + n.val) % 20 = n.val; omega)

section
variable (x0 : (⟨S16x768x20x9, .f32⟩ : BufTy).Contents (Elt Ideal)) (x1 : (⟨S16x768x20, .i1⟩ : BufTy).Contents (Elt Ideal)) (x2 : (⟨S64x9, .f32⟩ : BufTy).Contents (Elt Ideal)) (x3 x4 : (⟨S64, .f32⟩ : BufTy).Contents (Elt Ideal)) (x5 : (⟨S64x128, .f32⟩ : BufTy).Contents (Elt Ideal)) (x6 x7 : (⟨S64, .f32⟩ : BufTy).Contents (Elt Ideal)) (x8 : (⟨S64x64, .f32⟩ : BufTy).Contents (Elt Ideal)) (x9 x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S256x64, .f32⟩ : BufTy).Contents (Elt Ideal)) (x14 : (⟨S256, .f32⟩ : BufTy).Contents (Elt Ideal))

/-- The fifteen arguments as the network's argument record. -/
abbrev AA : Cert.Net.Args := ⟨x0, x1, x2, x3, x4, x5, x6, x7, x8, x9, x10, x11, x12, x13, x14⟩

/-- The first linear layer: the contraction over the nine features, read at a row's flat position. -/
theorem v3_row (r : Cert.Net.Row) (c : Fin 64) :
    val_main_v3 (F := Ideal) x0 x2 (ix2 (rowF r) c) = Cert.Net.h1 (AA x0 x1 x2 x3 x4 x5 x6 x7 x8 x9 x10 x11 x12 x13 x14) r c := by
  obtain ⟨b, p, n⟩ := r
  have h0 := b.isLt; have h1 := p.isLt; have h2 := n.isLt
  rw [val_main_v3_apply]
  unfold Cert.Net.h1
  refine Finset.sum_congr rfl fun k _ => ?_
  have hk := k.isLt
  rw [val_main_v1_apply, val_main_v2_apply]
  have e1 : idx_main_v1 (lidx_main_v3 (ix2 (rowF (b, p, n)) c) k) = ix4 b p n k := by
    funext a
    match a with
    | ⟨0, _⟩ => exact Fin.ext (by show (((b.val * 768 + p.val) * 20 + n.val) * 9 + k.val) / 138240 = b.val; omega)
    | ⟨1, _⟩ => exact Fin.ext (by show (((b.val * 768 + p.val) * 20 + n.val) * 9 + k.val) / 180 % 768 = p.val; omega)
    | ⟨2, _⟩ => exact Fin.ext (by show (((b.val * 768 + p.val) * 20 + n.val) * 9 + k.val) / 9 % 20 = n.val; omega)
    | ⟨3, _⟩ => exact Fin.ext (by show (((b.val * 768 + p.val) * 20 + n.val) * 9 + k.val) % 9 = k.val; omega)
  have e2 : idx_main_v2 (ridx_main_v3 (ix2 (rowF (b, p, n)) c) k) = ix2 c k := by
    funext a
    match a with
    | ⟨0, _⟩ => rfl
    | ⟨1, _⟩ => rfl
  rw [e1, e2]

end

section
variable (x0 : (⟨S16x768x20x9, .f32⟩ : BufTy).Contents (Elt Ideal)) (x1 : (⟨S16x768x20, .i1⟩ : BufTy).Contents (Elt Ideal)) (x2 : (⟨S64x9, .f32⟩ : BufTy).Contents (Elt Ideal)) (x3 x4 : (⟨S64, .f32⟩ : BufTy).Contents (Elt Ideal)) (x5 : (⟨S64x128, .f32⟩ : BufTy).Contents (Elt Ideal)) (x6 x7 : (⟨S64, .f32⟩ : BufTy).Contents (Elt Ideal)) (x8 : (⟨S64x64, .f32⟩ : BufTy).Contents (Elt Ideal)) (x9 x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S256x64, .f32⟩ : BufTy).Contents (Elt Ideal)) (x14 : (⟨S256, .f32⟩ : BufTy).Contents (Elt Ideal))

/-- A flat row's mask number is the row's. -/
theorem muF_row (r : Cert.Net.Row) : muF x1 (rowF r) = Cert.Net.mu (AA x0 x1 x2 x3 x4 x5 x6 x7 x8 x9 x10 x11 x12 x13 x14) r := by
  unfold muF Cert.Net.mu
  rw [val_main_v0_apply, idx_v0_rowF]

/-- The masked-norm block over the flat rows, read at a row: the network's norm-and-rectify of the same features
    indexed by rows. -/
theorem NB_row (h : (⟨S245760x64, .f32⟩ : BufTy).Contents (Elt Ideal)) (g b : (⟨S64, .f32⟩ : BufTy).Contents (Elt Ideal))
    (H : Cert.Net.Row → Fin 64 → EReal) (hH : ∀ r c, h (ix2 (rowF r) c) = H r c) (r : Cert.Net.Row) (c : Fin 64) :
    NB h x1 g b (ix2 (rowF r) c) = Cert.Net.normReluDev (AA x0 x1 x2 x3 x4 x5 x6 x7 x8 x9 x10 x11 x12 x13 x14) H g b r c := by
  rw [NB_apply]
  unfold Cert.Net.normReluDev
  rw [← Cert.Lib.BatchNormEquiv.normDeviations_equiv rowE (fun r' : Fin 245760 => h (ix2 r' c)) (muF x1)]
  have e1 : (fun i : Cert.Net.Row => h (ix2 (rowE i) c)) = fun r' => H r' c := funext fun i => hH i c
  have e2 : (fun i : Cert.Net.Row => muF x1 (rowE i)) = Cert.Net.mu (AA x0 x1 x2 x3 x4 x5 x6 x7 x8 x9 x10 x11 x12 x13 x14) := funext fun i => muF_row x0 x1 x2 x3 x4 x5 x6 x7 x8 x9 x10 x11 x12 x13 x14 i
  rw [e1, e2, hH, muF_row x0 x1 x2 x3 x4 x5 x6 x7 x8 x9 x10 x11 x12 x13 x14]

/-- The maximum over a polyline's twenty points of row-indexed features: the reshape to [16, 768, 20, 64] and the
    max-reduction over the point axis from minus infinity. -/
theorem pool_rows (y : (⟨S245760x64, .f32⟩ : BufTy).Contents (Elt Ideal)) (H : Cert.Net.Row → Fin 64 → EReal)
    (hH : ∀ r c, y (ix2 (rowF r) c) = H r c) (b : Fin 16) (p : Fin 768) (c : Fin 64) :
    (Host.reduce (FloatOps.maximumf (F := Ideal) (φ := .f32)) (shapeCast S16x768x20x64 y shapeCasts_S245760x64_S16x768x20x64)
        (val_main_cst_4 (F := Ideal)) reducesTo_S16x768x20x64_S16x768x64_d2 h_S_
          : (⟨S16x768x64, .f32⟩ : BufTy).Contents (Elt Ideal)) (ix3 b p c)
      = Cert.Net.pool H b p c := by
  have hred : Shape.Reduces S16x768x20x64 [2] S16x768x64 := by decide
  refine (Host.reduce_eq_fold_single (FloatOps.maximumf (F := Ideal) (φ := .f32)) _ _ reducesTo_S16x768x20x64_S16x768x64_d2 hred h_S_ (ix3 b p c)).trans ?_
  unfold Cert.Net.pool
  show (Finset.univ : Finset (Fin 20)).fold max _ _ = (Finset.univ : Finset (Fin 20)).fold max ⊥ _
  have hinit : val_main_cst_4 (F := Ideal) (Shape.Idx.first h_S_) = (⊥ : EReal) := by
    show Ideal.ofBits .f32 0xFF800000#32 = ⊥
    simp [Ideal.ofBits, Ideal.ieee]
  rw [hinit]
  congr 1
  funext n
  have h0 := b.isLt; have h1 := p.isLt; have h2 := n.isLt; have h3 := c.isLt
  show shapeCast S16x768x20x64 y shapeCasts_S245760x64_S16x768x20x64 (hred.lift (ix3 b p c) n) = H (b, p, n) c
  rw [shapeCast_apply y shapeCasts_S245760x64_S16x768x20x64 (hred.lift (ix3 b p c) n) (ix2 (rowF (b, p, n)) c)
    (by rewrite [Shape.rowMajor_val_two, Shape.rowMajor_val_four]
        show ((b.val * 768 + p.val) * 20 + n.val) * 64 + c.val = ((b.val * 768 + p.val) * 20 + n.val) * 64 + c.val
        rfl)]
  exact hH (b, p, n) c

end

section
variable (x0 : (⟨S16x768x20x9, .f32⟩ : BufTy).Contents (Elt Ideal)) (x1 : (⟨S16x768x20, .i1⟩ : BufTy).Contents (Elt Ideal)) (x2 : (⟨S64x9, .f32⟩ : BufTy).Contents (Elt Ideal)) (x3 x4 : (⟨S64, .f32⟩ : BufTy).Contents (Elt Ideal)) (x5 : (⟨S64x128, .f32⟩ : BufTy).Contents (Elt Ideal)) (x6 x7 : (⟨S64, .f32⟩ : BufTy).Contents (Elt Ideal)) (x8 : (⟨S64x64, .f32⟩ : BufTy).Contents (Elt Ideal)) (x9 x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S256x64, .f32⟩ : BufTy).Contents (Elt Ideal)) (x14 : (⟨S256, .f32⟩ : BufTy).Contents (Elt Ideal))

/-- The concatenation on the feature axis, read at (row, k): a row's own feature for `k < 64`, its polyline's pooled
    feature `k - 64` otherwise. -/
theorem v44_cat (H : Cert.Net.Row → Fin 64 → EReal)
    (hH : ∀ r c, val_main_v39 (F := Ideal) x0 x1 x2 x3 x4 (ix2 (rowF r) c) = H r c)
    (b : Fin 16) (p : Fin 768) (n : Fin 20) (k : Fin 128) :
    val_main_v44 (F := Ideal) x0 x1 x2 x3 x4 (ix4 b p n k) = Cert.Net.cat H (b, p, n) k := by
  have h0 := b.isLt; have h1 := p.isLt; have h2 := n.isLt; have h3 := k.isLt
  unfold val_main_v44 Cert.Net.cat
  by_cases hk : k.val < 64
  · rw [dif_pos hk]
    rw [concatenate_pair_apply_left 3 _ _ concatenates_S16x768x20x64_S16x768x20x64_S16x768x20x128_d3 (ix4 b p n k) rfl
      (ix4 b p n ⟨k.val, hk⟩) (fun a => match a with
        | ⟨0, _⟩ => rfl
        | ⟨1, _⟩ => rfl
        | ⟨2, _⟩ => rfl
        | ⟨3, _⟩ => rfl)]
    rw [val_main_v40_apply]
    have e : idx_main_v40 (ix4 b p n (⟨k.val, hk⟩ : Fin 64)) = ix2 (rowF (b, p, n)) ⟨k.val, hk⟩ := by
      funext a
      match a with
      | ⟨0, _⟩ => exact Fin.ext (by show ((((b.val * 768 + p.val) * 20 + n.val) * 64 + k.val) / 64 = (b.val * 768 + p.val) * 20 + n.val); omega)
      | ⟨1, _⟩ => exact Fin.ext (by show ((((b.val * 768 + p.val) * 20 + n.val) * 64 + k.val) % 64 = k.val); omega)
    rw [e, hH]
  · rw [dif_neg hk]
    have hk' : k.val - 64 < 64 := by omega
    rw [concatenate_pair_apply_right 3 _ _ concatenates_S16x768x20x64_S16x768x20x64_S16x768x20x128_d3 (ix4 b p n k) rfl rfl
      (ix4 b p n ⟨k.val - 64, hk'⟩) (fun a => match a with
        | ⟨0, _⟩ => fun _ => rfl
        | ⟨1, _⟩ => fun _ => rfl
        | ⟨2, _⟩ => fun _ => rfl
        | ⟨3, _⟩ => fun hne => absurd rfl hne)
      (by show (k.val - 64) + 64 = k.val; omega)]
    rw [val_main_v43_apply, val_main_v42_apply]
    have e : idx_main_v42 (idx_main_v43 (ix4 b p n (⟨k.val - 64, hk'⟩ : Fin 64))) = ix3 b p ⟨k.val - 64, hk'⟩ := by
      funext a
      match a with
      | ⟨0, _⟩ => rfl
      | ⟨1, _⟩ => rfl
      | ⟨2, _⟩ => rfl
    rw [e]
    unfold val_main_v41 val_main_v40
    exact pool_rows _ H hH b p ⟨k.val - 64, hk'⟩

/-- The second linear layer: one contraction over the 128 concatenated features. -/
theorem v47_row (H : Cert.Net.Row → Fin 64 → EReal)
    (hH : ∀ r c, val_main_v39 (F := Ideal) x0 x1 x2 x3 x4 (ix2 (rowF r) c) = H r c) (r : Cert.Net.Row) (c : Fin 64) :
    val_main_v47 (F := Ideal) x0 x1 x2 x3 x4 x5 (ix2 (rowF r) c) = ∑ k : Fin 128, Cert.Net.cat H r k * x5 (ix2 c k) := by
  obtain ⟨b, p, n⟩ := r
  have h0 := b.isLt; have h1 := p.isLt; have h2 := n.isLt
  rw [val_main_v47_apply]
  refine Finset.sum_congr rfl fun k _ => ?_
  have h3 := k.isLt
  rw [val_main_v45_apply, val_main_v46_apply]
  have e1 : idx_main_v45 (lidx_main_v47 (ix2 (rowF (b, p, n)) c) k) = ix4 b p n k := by
    funext a
    match a with
    | ⟨0, _⟩ => exact Fin.ext (by show (((b.val * 768 + p.val) * 20 + n.val) * 128 + k.val) / 1966080 = b.val; omega)
    | ⟨1, _⟩ => exact Fin.ext (by show (((b.val * 768 + p.val) * 20 + n.val) * 128 + k.val) / 2560 % 768 = p.val; omega)
    | ⟨2, _⟩ => exact Fin.ext (by show (((b.val * 768 + p.val) * 20 + n.val) * 128 + k.val) / 128 % 20 = n.val; omega)
    | ⟨3, _⟩ => exact Fin.ext (by show (((b.val * 768 + p.val) * 20 + n.val) * 128 + k.val) % 128 = k.val; omega)
  have e2 : idx_main_v46 (ridx_main_v47 (ix2 (rowF (b, p, n)) c) k) = ix2 c k := by
    funext a
    match a with
    | ⟨0, _⟩ => rfl
    | ⟨1, _⟩ => rfl
  rw [e1, e2, v44_cat x0 x1 x2 x3 x4 H hH]

/-- The third linear layer: a contraction over the sixty-four features of a row. -/
theorem v85_row (H : Cert.Net.Row → Fin 64 → EReal)
    (hH : ∀ r c, val_main_v83 (F := Ideal) x0 x1 x2 x3 x4 x5 x6 x7 (ix2 (rowF r) c) = H r c) (r : Cert.Net.Row) (c : Fin 64) :
    val_main_v85 (F := Ideal) x0 x1 x2 x3 x4 x5 x6 x7 x8 (ix2 (rowF r) c) = ∑ k : Fin 64, H r k * x8 (ix2 c k) := by
  rw [val_main_v85_apply]
  refine Finset.sum_congr rfl fun k _ => ?_
  rw [val_main_v84_apply]
  have e1 : lidx_main_v85 (ix2 (rowF r) c) k = ix2 (rowF r) k := by
    funext a
    match a with
    | ⟨0, _⟩ => rfl
    | ⟨1, _⟩ => rfl
  have e2 : idx_main_v84 (ridx_main_v85 (ix2 (rowF r) c) k) = ix2 c k := by
    funext a
    match a with
    | ⟨0, _⟩ => rfl
    | ⟨1, _⟩ => rfl
  rw [e1, e2, hH]

end

section
variable (x0 : (⟨S16x768x20x9, .f32⟩ : BufTy).Contents (Elt Ideal)) (x1 : (⟨S16x768x20, .i1⟩ : BufTy).Contents (Elt Ideal)) (x2 : (⟨S64x9, .f32⟩ : BufTy).Contents (Elt Ideal)) (x3 x4 : (⟨S64, .f32⟩ : BufTy).Contents (Elt Ideal)) (x5 : (⟨S64x128, .f32⟩ : BufTy).Contents (Elt Ideal)) (x6 x7 : (⟨S64, .f32⟩ : BufTy).Contents (Elt Ideal)) (x8 : (⟨S64x64, .f32⟩ : BufTy).Contents (Elt Ideal)) (x9 x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S256x64, .f32⟩ : BufTy).Contents (Elt Ideal)) (x14 : (⟨S256, .f32⟩ : BufTy).Contents (Elt Ideal))

/-- After the first norm block a row holds the network's first features. -/
theorem v39_f1 (r : Cert.Net.Row) (c : Fin 64) :
    val_main_v39 (F := Ideal) x0 x1 x2 x3 x4 (ix2 (rowF r) c) = Cert.Net.f1Ref (AA x0 x1 x2 x3 x4 x5 x6 x7 x8 x9 x10 x11 x12 x13 x14) r c := by
  rw [val_main_v39_eq_NB]
  exact NB_row x0 x1 x2 x3 x4 x5 x6 x7 x8 x9 x10 x11 x12 x13 x14 (val_main_v3 (F := Ideal) x0 x2) x3 x4 (Cert.Net.h1 (AA x0 x1 x2 x3 x4 x5 x6 x7 x8 x9 x10 x11 x12 x13 x14)) (v3_row x0 x1 x2 x3 x4 x5 x6 x7 x8 x9 x10 x11 x12 x13 x14) r c

theorem v47_h2 (r : Cert.Net.Row) (c : Fin 64) :
    val_main_v47 (F := Ideal) x0 x1 x2 x3 x4 x5 (ix2 (rowF r) c) = Cert.Net.h2Ref (AA x0 x1 x2 x3 x4 x5 x6 x7 x8 x9 x10 x11 x12 x13 x14) r c :=
  v47_row x0 x1 x2 x3 x4 x5 (Cert.Net.f1Ref (AA x0 x1 x2 x3 x4 x5 x6 x7 x8 x9 x10 x11 x12 x13 x14)) (v39_f1 x0 x1 x2 x3 x4 x5 x6 x7 x8 x9 x10 x11 x12 x13 x14) r c

theorem v83_f2 (r : Cert.Net.Row) (c : Fin 64) :
    val_main_v83 (F := Ideal) x0 x1 x2 x3 x4 x5 x6 x7 (ix2 (rowF r) c) = Cert.Net.f2Ref (AA x0 x1 x2 x3 x4 x5 x6 x7 x8 x9 x10 x11 x12 x13 x14) r c := by
  rw [val_main_v83_eq_NB]
  exact NB_row x0 x1 x2 x3 x4 x5 x6 x7 x8 x9 x10 x11 x12 x13 x14 (val_main_v47 (F := Ideal) x0 x1 x2 x3 x4 x5) x6 x7 (Cert.Net.h2Ref (AA x0 x1 x2 x3 x4 x5 x6 x7 x8 x9 x10 x11 x12 x13 x14)) (v47_h2 x0 x1 x2 x3 x4 x5 x6 x7 x8 x9 x10 x11 x12 x13 x14) r c

theorem v85_h3 (r : Cert.Net.Row) (c : Fin 64) :
    val_main_v85 (F := Ideal) x0 x1 x2 x3 x4 x5 x6 x7 x8 (ix2 (rowF r) c) = Cert.Net.h3Ref (AA x0 x1 x2 x3 x4 x5 x6 x7 x8 x9 x10 x11 x12 x13 x14) r c :=
  v85_row x0 x1 x2 x3 x4 x5 x6 x7 x8 (Cert.Net.f2Ref (AA x0 x1 x2 x3 x4 x5 x6 x7 x8 x9 x10 x11 x12 x13 x14)) (v83_f2 x0 x1 x2 x3 x4 x5 x6 x7 x8 x9 x10 x11 x12 x13 x14) r c

theorem v121_f3 (r : Cert.Net.Row) (c : Fin 64) :
    val_main_v121 (F := Ideal) x0 x1 x2 x3 x4 x5 x6 x7 x8 x9 x10 (ix2 (rowF r) c) = Cert.Net.f3Ref (AA x0 x1 x2 x3 x4 x5 x6 x7 x8 x9 x10 x11 x12 x13 x14) r c := by
  rw [val_main_v121_eq_NB]
  exact NB_row x0 x1 x2 x3 x4 x5 x6 x7 x8 x9 x10 x11 x12 x13 x14 (val_main_v85 (F := Ideal) x0 x1 x2 x3 x4 x5 x6 x7 x8) x9 x10 (Cert.Net.h3Ref (AA x0 x1 x2 x3 x4 x5 x6 x7 x8 x9 x10 x11 x12 x13 x14)) (v85_h3 x0 x1 x2 x3 x4 x5 x6 x7 x8 x9 x10 x11 x12 x13 x14) r c

/-- The second max-pool: a polyline's pooled third features. -/
theorem v123_pool (b : Fin 16) (p : Fin 768) (c : Fin 64) :
    val_main_v123 (F := Ideal) x0 x1 x2 x3 x4 x5 x6 x7 x8 x9 x10 (ix3 b p c) = Cert.Net.pool (Cert.Net.f3Ref (AA x0 x1 x2 x3 x4 x5 x6 x7 x8 x9 x10 x11 x12 x13 x14)) b p c := by
  unfold val_main_v123 val_main_v122
  exact pool_rows _ (Cert.Net.f3Ref (AA x0 x1 x2 x3 x4 x5 x6 x7 x8 x9 x10 x11 x12 x13 x14)) (v121_f3 x0 x1 x2 x3 x4 x5 x6 x7 x8 x9 x10 x11 x12 x13 x14) b p c

end

/-! ## Twenty mask bits counted in a 32-bit word -/

/-- A one-bit word is at most one. -/
theorem bit_toNat_le (x : BitVec 1) : x.toNat ≤ 1 := by have := x.isLt; omega

/-- A one-bit word is the word one exactly when its number is one. -/
theorem bit_eq_one_iff (x : BitVec 1) : x = 1#1 ↔ x.toNat = 1 := by
  constructor
  · intro h; rw [h]; rfl
  · intro h; exact BitVec.eq_of_toNat_eq (by rw [h]; rfl)

/-- The wrapping sum of 32-bit words over a finite set, as a number: the sum of the numbers modulo `2 ^ 32`. -/
theorem fold_addi_toNat {ι : Type*} [DecidableEq ι] (g : ι → BitVec 32) (s : Finset ι) :
    (s.fold IntOp.addi 0#32 g).toNat = (∑ i ∈ s, (g i).toNat) % 2 ^ 32 := by
  induction s using Finset.induction_on with
  | empty => simp
  | insert a s ha ih =>
    rw [Finset.fold_insert ha, Finset.sum_insert ha]
    show (g a + _).toNat = _
    rw [BitVec.toNat_add, ih, Nat.add_mod_mod]

/-- Twenty bits, widened to 32 bits and summed: the sum is positive as a signed word exactly when some bit is one;
    the comparison's result bit, read as a number, is one or zero accordingly. -/
theorem validWord (f : Fin 20 → BitVec 1) [Decidable (∃ n, f n = 1#1)] :
    (((IntOp.cmpi .sgt ((Finset.univ : Finset (Fin 20)).fold IntOp.addi (0#32) (fun n => (f n).setWidth 32)) (0#32)).toNat : ℝ) : EReal)
      = if ∃ n, f n = 1#1 then 1 else 0 := by
  generalize hS : (Finset.univ : Finset (Fin 20)).fold IntOp.addi (0#32) (fun n => (f n).setWidth 32) = S
  have hsum : S.toNat = (∑ n : Fin 20, (f n).toNat) % 2 ^ 32 := by
    rw [← hS, fold_addi_toNat]
    congr 1
  have hle : (∑ n : Fin 20, (f n).toNat) ≤ 20 := by
    calc (∑ n : Fin 20, (f n).toNat) ≤ ∑ n : Fin 20, 1 := Finset.sum_le_sum fun n _ => bit_toNat_le (f n)
      _ = 20 := by simp
  have hS' : S.toNat = ∑ n : Fin 20, (f n).toNat := by rw [hsum]; omega
  have hpos : (0 < S.toNat) ↔ ∃ n, f n = 1#1 := by
    rw [hS']
    constructor
    · intro h
      by_contra hne
      have hz : ∑ n : Fin 20, (f n).toNat = 0 := Finset.sum_eq_zero fun n _ => by
        have h1 := bit_toNat_le (f n)
        have h2 : ¬ (f n).toNat = 1 := fun e => hne ⟨n, (bit_eq_one_iff _).2 e⟩
        omega
      omega
    · rintro ⟨n, hn⟩
      have hmem : (f n).toNat ≤ ∑ n : Fin 20, (f n).toNat :=
        Finset.single_le_sum (f := fun n => (f n).toNat) (fun i _ => Nat.zero_le _) (Finset.mem_univ n)
      rw [(bit_eq_one_iff _).1 hn] at hmem
      omega
  have hint : S.toInt = (S.toNat : Int) := BitVec.toInt_eq_toNat_of_lt (by rw [hS']; omega)
  have hslt : (0#32).slt S = decide (0 < S.toNat) := by
    rw [BitVec.slt, hint, BitVec.toInt_zero]
    simp
  show (((BitVec.ofBool ((0#32).slt S)).toNat : ℝ) : EReal) = _
  rw [hslt]
  by_cases h : ∃ n, f n = 1#1
  · rw [if_pos h, decide_eq_true (hpos.2 h)]; simp
  · rw [if_neg h, decide_eq_false (mt hpos.1 h)]; simp

/-! ## The head of the network: validity, the hidden layer, the output -/

/-- The flat position of a polyline: `b * 768 + p`. -/
def polyF (b : Fin 16) (p : Fin 768) : Fin 12288 :=
  ⟨b.val * 768 + p.val, by have h0 := b.isLt; have h1 := p.isLt; omega⟩

section
variable (x0 : (⟨S16x768x20x9, .f32⟩ : BufTy).Contents (Elt Ideal)) (x1 : (⟨S16x768x20, .i1⟩ : BufTy).Contents (Elt Ideal)) (x2 : (⟨S64x9, .f32⟩ : BufTy).Contents (Elt Ideal)) (x3 x4 : (⟨S64, .f32⟩ : BufTy).Contents (Elt Ideal)) (x5 : (⟨S64x128, .f32⟩ : BufTy).Contents (Elt Ideal)) (x6 x7 : (⟨S64, .f32⟩ : BufTy).Contents (Elt Ideal)) (x8 : (⟨S64x64, .f32⟩ : BufTy).Contents (Elt Ideal)) (x9 x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S256x64, .f32⟩ : BufTy).Contents (Elt Ideal)) (x14 : (⟨S256, .f32⟩ : BufTy).Contents (Elt Ideal))

/-- A polyline's validity: its twenty mask bits widened and summed, compared with zero, converted. -/
theorem v130_valid (b : Fin 16) (p : Fin 768) :
    val_main_v130 (F := Ideal) x1 (ix2 (polyF b p) (0 : Fin 1)) = Cert.Net.validRef (AA x0 x1 x2 x3 x4 x5 x6 x7 x8 x9 x10 x11 x12 x13 x14) b p := by
  have h0 := b.isLt; have h1 := p.isLt
  rw [val_main_v130_apply, val_main_v129_apply, val_main_v128_apply, val_main_v127_apply, val_main_v126_apply,
    val_main_c_16_apply]
  have e : idx_main_v128 (idx_main_v129 (ix2 (polyF b p) (0 : Fin 1))) = ix2 b p := by
    funext a
    match a with
    | ⟨0, _⟩ => exact Fin.ext (by show (b.val * 768 + p.val) / 768 = b.val; omega)
    | ⟨1, _⟩ => exact Fin.ext (by show (b.val * 768 + p.val) % 768 = p.val; omega)
  rw [e]
  unfold val_main_v125
  have hred : Shape.Reduces S16x768x20 [2] S16x768 := by decide
  rw [Host.reduce_eq_fold_single IntOp.addi _ _ reducesTo_S16x768x20_S16x768_d2 hred h_S_ (ix2 b p)]
  have hl : ∀ n : Fin 20, hred.lift (ix2 b p) n = ix3 b p n := fun n => funext fun a =>
    match a with
    | ⟨0, _⟩ => Fin.ext rfl
    | ⟨1, _⟩ => Fin.ext rfl
    | ⟨2, _⟩ => Fin.ext rfl
  have hfun : (val_main_v124 (F := Ideal) x1 ∘ hred.lift (ix2 b p)) = fun n : Fin 20 => (x1 (ix3 b p n)).setWidth 32 :=
    funext fun n => congrArg (fun j => (x1 j).setWidth 32) (hl n)
  rw [hfun]
  unfold Cert.Net.validRef
  exact @validWord (fun n => x1 (ix3 b p n)) (Nat.decidableExistsFin _)

/-- The hidden layer at a polyline: the contraction of the pooled features, the bias, the rectifier. -/
theorem v137_hidden
    (hp : ∀ (b : Fin 16) (p : Fin 768) (k : Fin 64), val_main_v123 (F := Ideal) x0 x1 x2 x3 x4 x5 x6 x7 x8 x9 x10 (ix3 b p k) = Cert.Net.pool (Cert.Net.f3Ref (AA x0 x1 x2 x3 x4 x5 x6 x7 x8 x9 x10 x11 x12 x13 x14)) b p k)
    (b : Fin 16) (p : Fin 768) (k : Fin 64) :
    val_main_v137 (F := Ideal) x0 x1 x2 x3 x4 x5 x6 x7 x8 x9 x10 x11 x12 (ix2 (polyF b p) k) = Cert.Net.hiddenRef (AA x0 x1 x2 x3 x4 x5 x6 x7 x8 x9 x10 x11 x12 x13 x14) b p k := by
  have h0 := b.isLt; have h1 := p.isLt
  rw [val_main_v137_apply, val_main_v136_apply, val_main_v133_apply, val_main_v135_apply, val_main_v134_apply,
    val_main_call3_v0_apply, val_main_call3_cst_apply]
  unfold Cert.Net.hiddenRef
  simp only [Ideal.maximumf_def, Ideal.addf_def, Ideal.ofBits_def, Ideal.ofBits_zero_f32]
  refine congrArg (max · 0) (congrArg₂ (· + ·) ?_ ?_)
  · refine Finset.sum_congr rfl fun c _ => ?_
    have h2 := c.isLt
    rw [val_main_v131_apply, val_main_v132_apply]
    have e1 : idx_main_v131 (lidx_main_v133 (ix2 (polyF b p) k) c) = ix3 b p c := by
      funext a
      match a with
      | ⟨0, _⟩ => exact Fin.ext (by show ((b.val * 768 + p.val) * 64 + c.val) / 49152 = b.val; omega)
      | ⟨1, _⟩ => exact Fin.ext (by show ((b.val * 768 + p.val) * 64 + c.val) / 64 % 768 = p.val; omega)
      | ⟨2, _⟩ => exact Fin.ext (by show ((b.val * 768 + p.val) * 64 + c.val) % 64 = c.val; omega)
    have e2 : idx_main_v132 (ridx_main_v133 (ix2 (polyF b p) k) c) = ix2 k c := by
      funext a
      match a with
      | ⟨0, _⟩ => rfl
      | ⟨1, _⟩ => rfl
    rw [e1, e2, hp]
  · exact congrArg x12 (funext fun a => match a with | ⟨0, _⟩ => rfl)

/-- The result at a polyline and an output channel. -/
theorem tail_apply
    (hp : ∀ (b : Fin 16) (p : Fin 768) (k : Fin 64), val_main_v123 (F := Ideal) x0 x1 x2 x3 x4 x5 x6 x7 x8 x9 x10 (ix3 b p k) = Cert.Net.pool (Cert.Net.f3Ref (AA x0 x1 x2 x3 x4 x5 x6 x7 x8 x9 x10 x11 x12 x13 x14)) b p k)
    (b : Fin 16) (p : Fin 768) (o : Fin 256) :
    val_main_v145 (F := Ideal) x0 x1 x2 x3 x4 x5 x6 x7 x8 x9 x10 x11 x12 x13 x14 (ix3 b p o) = Cert.Net.outRef (AA x0 x1 x2 x3 x4 x5 x6 x7 x8 x9 x10 x11 x12 x13 x14) b p o := by
  have h0 := b.isLt; have h1 := p.isLt; have h2 := o.isLt
  have e0 : idx_main_v145 (ix3 b p o) = ix2 (polyF b p) o := by
    funext a
    match a with
    | ⟨0, _⟩ => exact Fin.ext (by show ((b.val * 768 + p.val) * 256 + o.val) / 256 = b.val * 768 + p.val; omega)
    | ⟨1, _⟩ => exact Fin.ext (by show ((b.val * 768 + p.val) * 256 + o.val) % 256 = o.val; omega)
  rw [val_main_v145_apply, e0, val_main_v144_apply, val_main_v142_apply, val_main_v139_apply, val_main_v141_apply,
    val_main_v140_apply, val_main_v143_apply]
  unfold Cert.Net.outRef
  simp only [Ideal.mulf_def, Ideal.addf_def]
  refine congrArg₂ (· * ·) (congrArg₂ (· + ·) ?_ ?_) ?_
  · refine Finset.sum_congr rfl fun k _ => ?_
    rw [val_main_v138_apply]
    have e1 : lidx_main_v139 (ix2 (polyF b p) o) k = ix2 (polyF b p) k := by
      funext a
      match a with
      | ⟨0, _⟩ => rfl
      | ⟨1, _⟩ => rfl
    have e2 : idx_main_v138 (ridx_main_v139 (ix2 (polyF b p) o) k) = ix2 o k := by
      funext a
      match a with
      | ⟨0, _⟩ => rfl
      | ⟨1, _⟩ => rfl
    rw [e1, e2, v137_hidden x0 x1 x2 x3 x4 x5 x6 x7 x8 x9 x10 x11 x12 x13 x14 hp]
  · exact congrArg x14 (funext fun a => match a with | ⟨0, _⟩ => rfl)
  · have e3 : idx_main_v143 (ix2 (polyF b p) o) = ix2 (polyF b p) (0 : Fin 1) := by
      funext a
      match a with
      | ⟨0, _⟩ => rfl
      | ⟨1, _⟩ => rfl
    rw [e3]
    exact v130_valid x0 x1 x2 x3 x4 x5 x6 x7 x8 x9 x10 x11 x12 x13 x14 b p

/-- The whole term is the network's result array. -/
theorem val_eq_net :
    val_main_v145 (F := Ideal) x0 x1 x2 x3 x4 x5 x6 x7 x8 x9 x10 x11 x12 x13 x14 = Cert.Net.resultRef (AA x0 x1 x2 x3 x4 x5 x6 x7 x8 x9 x10 x11 x12 x13 x14) := by
  funext i
  rw [eq_ix3 i]
  exact tail_apply x0 x1 x2 x3 x4 x5 x6 x7 x8 x9 x10 x11 x12 x13 x14 (v123_pool x0 x1 x2 x3 x4 x5 x6 x7 x8 x9 x10 x11 x12 x13 x14) (i 0) (i 1) (i 2)

end

end Cert.RefValue

end
-- ==== Proof.RefValue.lean ====
/-
  The reference's value, assembled.

  The fold of the reference's 173 operations over the launch contents leaves in the result buffer the composed term
  of the operations at the arguments' launch contents (one operation at a time, each operation's equation rewritten by
  the earlier ones), and that term is the network in the reference's spelling (read layer by layer at flat positions).
-/
import proofs.«135113_g11922829214230_retrytranche1_1894_3_alg».proof.Proof.ReferenceRun
import proofs.«135113_g11922829214230_retrytranche1_1894_3_alg».proof.Proof.ReadP
import proofs.«135113_g11922829214230_retrytranche1_1894_3_alg».proof.Proof.Net
import proofs.«135113_g11922829214230_retrytranche1_1894_3_alg».proof.Proof.RefValueFold
import proofs.«135113_g11922829214230_retrytranche1_1894_3_alg».proof.Proof.RefValueLayers

noncomputable section

namespace Cert.RefValue

open Idealize.ShloMosaic Idealize.ShloMosaic.ValueIdx Idealize.SL.Sem Idealize.ShloMosaic.StableHlo
open Cert.ReferenceIdeal Cert.ReferenceIdeal.Gen Cert.ReferenceIdeal.ReadP

/-- The reference's fifteen argument arrays on device `c` of a memory. -/
def argsR (m' : (ℓ : Loc Cert.ReferenceIdeal.nD Cert.ReferenceIdeal.τ Cert.ReferenceIdeal.sig) → Buf (Elt Ideal) ℓ) (c : Dev Cert.ReferenceIdeal.nD) : Cert.Net.Args where
  x := m' ((c.tc : Thread Cert.ReferenceIdeal.nD Cert.ReferenceIdeal.τ).loc Cert.ReferenceIdeal.main_arg0)
  msk := m' ((c.tc : Thread Cert.ReferenceIdeal.nD Cert.ReferenceIdeal.τ).loc Cert.ReferenceIdeal.main_arg1)
  wp := m' ((c.tc : Thread Cert.ReferenceIdeal.nD Cert.ReferenceIdeal.τ).loc Cert.ReferenceIdeal.main_arg2)
  gp := m' ((c.tc : Thread Cert.ReferenceIdeal.nD Cert.ReferenceIdeal.τ).loc Cert.ReferenceIdeal.main_arg3)
  bp := m' ((c.tc : Thread Cert.ReferenceIdeal.nD Cert.ReferenceIdeal.τ).loc Cert.ReferenceIdeal.main_arg4)
  w1 := m' ((c.tc : Thread Cert.ReferenceIdeal.nD Cert.ReferenceIdeal.τ).loc Cert.ReferenceIdeal.main_arg5)
  g1 := m' ((c.tc : Thread Cert.ReferenceIdeal.nD Cert.ReferenceIdeal.τ).loc Cert.ReferenceIdeal.main_arg6)
  b1 := m' ((c.tc : Thread Cert.ReferenceIdeal.nD Cert.ReferenceIdeal.τ).loc Cert.ReferenceIdeal.main_arg7)
  w2 := m' ((c.tc : Thread Cert.ReferenceIdeal.nD Cert.ReferenceIdeal.τ).loc Cert.ReferenceIdeal.main_arg8)
  g2 := m' ((c.tc : Thread Cert.ReferenceIdeal.nD Cert.ReferenceIdeal.τ).loc Cert.ReferenceIdeal.main_arg9)
  b2 := m' ((c.tc : Thread Cert.ReferenceIdeal.nD Cert.ReferenceIdeal.τ).loc Cert.ReferenceIdeal.main_arg10)
  wo1 := m' ((c.tc : Thread Cert.ReferenceIdeal.nD Cert.ReferenceIdeal.τ).loc Cert.ReferenceIdeal.main_arg11)
  bo1 := m' ((c.tc : Thread Cert.ReferenceIdeal.nD Cert.ReferenceIdeal.τ).loc Cert.ReferenceIdeal.main_arg12)
  wo2 := m' ((c.tc : Thread Cert.ReferenceIdeal.nD Cert.ReferenceIdeal.τ).loc Cert.ReferenceIdeal.main_arg13)
  bo2 := m' ((c.tc : Thread Cert.ReferenceIdeal.nD Cert.ReferenceIdeal.τ).loc Cert.ReferenceIdeal.main_arg14)

/-- THE REFERENCE'S VALUE. The fold of the reference's 173 operations over the launch contents leaves, in the result
    buffer, the network, in the reference's spelling, of the arguments: the fold is the composed term of the
    operations, one operation at a time, and that term, read layer by layer, is the network. -/
theorem reference_value (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (StableHlo.launchContents m' c)
        (Proc.devRef .tc Cert.ReferenceIdeal.main_v145) = Cert.Net.resultRef (argsR m' c) :=
  (fold_eq_val m' c).trans (val_eq_net (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)))

end Cert.RefValue

end
-- ==== Proof.Bridge.lean ====
import proofs.«135113_g11922829214230_retrytranche1_1894_3_alg».proof.Proof.Net

/-!
# The network in the kernel's spelling equals the network in the reference's spelling

Both spellings compute, stage by stage, the same extended reals, provided every float argument is a
real. The argument, by stage:

* A mask number is the coercion of `0` or `1` (the value of a one-bit word), and the stabiliser
  `eps` is the coercion of a positive real (its bit pattern is a positive normal number).
* "Is the coercion of a real" is closed under finite sums, products, differences and maxima, and under
  the maximum, taken from `⊥`, of a NONEMPTY finite family: that maximum is attained at a member.
* For a real-valued pre-activation and real gain and bias, the moment spelling and the deviation
  spelling of masked batch normalisation agree channel by channel, and their common value is a real;
  so is its rectification times the mask. Hence the first features agree and are real, and so are
  their per-polyline maxima.
* The 128-wide contraction over the concatenated features splits into the contraction over the first
  sixty-four indices and the one over the last sixty-four; on the first the concatenation is the
  row's own feature, on the last it is the polyline's pooled feature. This is re-association only.
* The second and third feature maps agree by the same normalisation argument, their pre-activations
  being real because the previous features are.
* The maximum from `⊥` of twenty numbers each `0` or `1` is `1` if one of them is `1` and `0` otherwise.
* The remaining layers are the same expressions of equal things.
-/

open scoped BigOperators

noncomputable section

namespace Cert.Net

open Idealize.ShloMosaic Idealize.ShloMosaic.ValueIdx

/-! ## Coerced reals -/

/-- An extended real that is the coercion of a real. -/
abbrev IsReal (x : EReal) : Prop := ∃ r : ℝ, x = (r : EReal)

/-- A coercion is a coerced real. -/
theorem isReal_coe (r : ℝ) : IsReal (r : EReal) := ⟨r, rfl⟩

/-- Zero is a coerced real. -/
theorem isReal_zero : IsReal (0 : EReal) := ⟨0, rfl⟩

/-- Coerced reals are closed under addition. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- Coerced reals are closed under multiplication. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- Coerced reals are closed under the binary maximum. -/
theorem isReal_max {x y : EReal} (hx : IsReal x) (hy : IsReal y) : IsReal (max x y) := by
  obtain ⟨a, rfl⟩ := hx
  obtain ⟨b, rfl⟩ := hy
  exact ⟨max a b, (Cert.Lib.MaskedBatchNorm.coe_max a b).symm⟩

/-- Coerced reals are closed under finite sums. -/
theorem isReal_sum {κ : Type*} (s : Finset κ) (f : κ → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s))
      (ih (fun i hi => h i (Finset.mem_insert_of_mem hi)))

/-- The maximum from `⊥` of a nonempty finite family is attained at a member. -/
theorem fold_max_mem {κ : Type*} (s : Finset κ) (hs : s.Nonempty) (f : κ → EReal) :
    ∃ i ∈ s, s.fold max ⊥ f = f i := by
  classical
  induction s using Finset.induction_on with
  | empty => exact absurd hs Finset.not_nonempty_empty
  | insert a s ha ih =>
    rw [Finset.fold_insert ha]
    rcases s.eq_empty_or_nonempty with he | hne
    · subst he
      exact ⟨a, Finset.mem_insert_self a ∅, by rw [Finset.fold_empty, max_bot_right]⟩
    · obtain ⟨i, hi, hfi⟩ := ih hne
      rcases max_choice (f a) (s.fold max ⊥ f) with h | h
      · exact ⟨a, Finset.mem_insert_self a s, h⟩
      · exact ⟨i, Finset.mem_insert_of_mem hi, h.trans hfi⟩

/-- The maximum from `⊥` of a nonempty finite family of coerced reals is a coerced real. -/
theorem isReal_fold_max {κ : Type*} (s : Finset κ) (hs : s.Nonempty) (f : κ → EReal)
    (h : ∀ i ∈ s, IsReal (f i)) : IsReal (s.fold max ⊥ f) := by
  obtain ⟨i, hi, hfi⟩ := fold_max_mem s hs f
  rw [hfi]
  exact h i hi

/-! ## The mask and the stabiliser -/

variable (A : Args)

/-- A row's mask number as a real. -/
def muR (r : Row) : ℝ := ((A.msk (ix3 r.1 r.2.1 r.2.2)).toNat : ℝ)

/-- The mask number is the coercion of the real mask number. -/
theorem mu_eq_coe (r : Row) : mu A r = ((muR A r : ℝ) : EReal) := rfl

/-- A one-bit word has value `0` or `1`. -/
theorem bit_toNat (v : BitVec 1) : v.toNat = 0 ∨ v.toNat = 1 := by
  have := v.isLt
  omega

/-- The real mask number is `0` or `1`. -/
theorem muR_cases (r : Row) : muR A r = 0 ∨ muR A r = 1 := by
  unfold muR
  rcases bit_toNat (A.msk (ix3 r.1 r.2.1 r.2.2)) with h | h
  · left; rw [h]; exact Nat.cast_zero
  · right; rw [h]; exact Nat.cast_one

/-- The mask number is `0` or `1`. -/
theorem mu_cases (r : Row) : mu A r = 0 ∨ mu A r = 1 := by
  rw [mu_eq_coe]
  rcases muR_cases A r with h | h
  · left; rw [h]; rfl
  · right; rw [h]; rfl

/-- The stabiliser is the coercion of a positive real: its exponent field is `110`, neither all
    zeros nor all ones, and its sign bit is clear, so it denotes
    `(2 ^ 23 + fraction) · 2 ^ (110 - 127 - 23)`. -/
theorem eps_real : ∃ e : ℝ, 0 < e ∧ eps = ((e : ℝ) : EReal) := by
  have hex : ((0x3727C5AC#32 : BitVec 32).extractLsb' 23 8).toNat = 110 := by decide
  have hfr : ((0x3727C5AC#32 : BitVec 32).extractLsb' 0 23).toNat = 2606508 := by decide
  have hneg : ((0x3727C5AC#32 : BitVec 32).extractLsb' 31 1 == 1#1) = false := by decide
  refine ⟨?e, ?pos, ?eq⟩
  case eq =>
    show Ideal.ieee 8 23 (0x3727C5AC#32 : BitVec 32) = _
    unfold Ideal.ieee
    simp only [show (8 + 23 : ℕ) = 31 from rfl, hex, hfr, hneg]
    rw [if_neg (by norm_num), if_neg (by norm_num), if_neg (by simp)]
  case pos => positivity

/-! ## Normalisation, rectifier, mask: the two spellings -/

/-- For a real-valued pre-activation and real gain and bias, the two spellings of
    "normalise, rectify, mask" agree, and every value is a coerced real. -/
theorem normRelu_eq (h : Row → Fin 64 → EReal) (g b : (⟨1, ![64]⟩ : Shape).Idx → EReal)
    (hh : ∀ r c, IsReal (h r c)) (hg : ∀ i, IsReal (g i)) (hb : ∀ i, IsReal (b i)) :
    normRelu A h g b = normReluDev A h g b ∧ ∀ r c, IsReal (normRelu A h g b r c) := by
  obtain ⟨e, he0, hee⟩ := eps_real
  choose hr hhr using hh
  choose gr hgr using hg
  choose br hbr using hb
  refine ⟨?_, ?_⟩
  · funext r c
    unfold normRelu normReluDev
    rw [Cert.Lib.MaskedBatchNorm.normMoments_eq_normDeviations_of_eq
      (h := fun r' => h r' c) (mu := mu A) (hr := fun r' => hr r' c) (mur := muR A)
      (fun r' => hhr r' c) (fun r' => mu_eq_coe A r') (hgr (ix1 c)) (hbr (ix1 c)) hee (hhr r c)
      (muR_cases A) he0]
  · intro r c
    unfold normRelu
    obtain ⟨y, hy⟩ := Cert.Lib.MaskedBatchNorm.normMoments_finite_of_eq
      (h := fun r' => h r' c) (mu := mu A) (hr := fun r' => hr r' c) (mur := muR A)
      (fun r' => hhr r' c) (fun r' => mu_eq_coe A r') (hgr (ix1 c)) (hbr (ix1 c)) hee (hhr r c) he0
    rw [hy]
    exact isReal_mul (isReal_max (isReal_coe y) isReal_zero) ⟨muR A r, mu_eq_coe A r⟩

/-- The per-polyline maximum of a real-valued feature map is a coerced real. -/
theorem isReal_pool (f : Row → Fin 64 → EReal) (hf : ∀ r c, IsReal (f r c))
    (b : Fin 16) (p : Fin 768) (c : Fin 64) : IsReal (pool f b p c) := by
  unfold pool
  exact isReal_fold_max _ Finset.univ_nonempty _ (fun n _ => hf (b, p, n) c)

/-! ## Stage 1 -/

/-- The first pre-activation is real. -/
theorem isReal_h1 (hA : A.AllReal) (r : Row) (c : Fin 64) : IsReal (h1 A r c) := by
  unfold h1
  exact isReal_sum _ _ (fun k _ => isReal_mul (hA.x _) (hA.wp _))

/-- The first features agree in the two spellings and are real. -/
theorem stage1 (hA : A.AllReal) : f1 A = f1Ref A ∧ ∀ r c, IsReal (f1 A r c) :=
  normRelu_eq A (h1 A) A.gp A.bp (isReal_h1 A hA) hA.gp hA.bp

/-! ## Stage 2: the concatenated contraction -/

/-- On the first sixty-four indices the concatenation is the row's own feature. -/
theorem cat_castAdd (f : Row → Fin 64 → EReal) (r : Row) (k : Fin 64) :
    cat f r (Fin.castAdd 64 k) = f r k := by
  unfold cat
  rw [dif_pos (show (Fin.castAdd 64 k).val < 64 from k.isLt)]
  rfl

/-- On the last sixty-four indices the concatenation is the polyline's pooled feature. -/
theorem cat_natAdd (f : Row → Fin 64 → EReal) (r : Row) (k : Fin 64) :
    cat f r (Fin.natAdd 64 k) = pool f r.1 r.2.1 k := by
  unfold cat
  rw [dif_neg (show ¬ (Fin.natAdd 64 k).val < 64 from by simp)]
  congr 1
  apply Fin.ext
  simp

/-- The 128-wide contraction over the concatenation is the sum of the two 64-wide contractions. -/
theorem sum_cat (f : Row → Fin 64 → EReal) (r : Row) (c : Fin 64) :
    ∑ k : Fin 128, cat f r k * A.w1 (ix2 c k)
      = (∑ k : Fin 64, f r k * A.w1 (ix2 c (Fin.castAdd 64 k)))
        + ∑ k : Fin 64, pool f r.1 r.2.1 k * A.w1 (ix2 c (Fin.natAdd 64 k)) := by
  have hsplit := Fin.sum_univ_add (a := 64) (b := 64) (fun k => cat f r k * A.w1 (ix2 c k))
  rw [show (∑ k : Fin 128, cat f r k * A.w1 (ix2 c k))
      = ∑ k : Fin (64 + 64), cat f r k * A.w1 (ix2 c k) from rfl, hsplit]
  simp only [cat_castAdd, cat_natAdd]

/-- The second pre-activations agree. -/
theorem h2_eq (hA : A.AllReal) : h2 A = h2Ref A := by
  funext r c
  unfold h2 h2Ref
  rw [sum_cat, (stage1 A hA).1]

/-- The second pre-activation is real. -/
theorem isReal_h2 (hA : A.AllReal) (r : Row) (c : Fin 64) : IsReal (h2 A r c) := by
  have hf := (stage1 A hA).2
  unfold h2
  exact isReal_add
    (isReal_sum _ _ (fun k _ => isReal_mul (hf r k) (hA.w1 _)))
    (isReal_sum _ _ (fun k _ => isReal_mul (isReal_pool (f1 A) hf r.1 r.2.1 k) (hA.w1 _)))

/-- The second features agree in the two spellings and are real. -/
theorem stage2 (hA : A.AllReal) : f2 A = f2Ref A ∧ ∀ r c, IsReal (f2 A r c) := by
  have h := normRelu_eq A (h2 A) A.g1 A.b1 (isReal_h2 A hA) hA.g1 hA.b1
  refine ⟨?_, h.2⟩
  show normRelu A (h2 A) A.g1 A.b1 = normReluDev A (h2Ref A) A.g1 A.b1
  rw [← h2_eq A hA]
  exact h.1

/-! ## Stage 3 -/

/-- The third pre-activations agree. -/
theorem h3_eq (hA : A.AllReal) : h3 A = h3Ref A := by
  funext r c
  unfold h3 h3Ref
  rw [(stage2 A hA).1]

/-- The third pre-activation is real. -/
theorem isReal_h3 (hA : A.AllReal) (r : Row) (c : Fin 64) : IsReal (h3 A r c) := by
  have hf := (stage2 A hA).2
  unfold h3
  exact isReal_sum _ _ (fun k _ => isReal_mul (hf r k) (hA.w2 _))

/-- The third features agree in the two spellings and are real. -/
theorem stage3 (hA : A.AllReal) : f3 A = f3Ref A ∧ ∀ r c, IsReal (f3 A r c) := by
  have h := normRelu_eq A (h3 A) A.g2 A.b2 (isReal_h3 A hA) hA.g2 hA.b2
  refine ⟨?_, h.2⟩
  show normRelu A (h3 A) A.g2 A.b2 = normReluDev A (h3Ref A) A.g2 A.b2
  rw [← h3_eq A hA]
  exact h.1

/-! ## Validity -/

/-- A set mask bit gives mask number one. -/
theorem mu_eq_one_of_bit {b : Fin 16} {p : Fin 768} {n : Fin 20}
    (hn : A.msk (ix3 b p n) = 1#1) : mu A (b, p, n) = 1 := by
  show (((A.msk (ix3 b p n)).toNat : ℝ) : EReal) = 1
  rw [hn]
  simp

/-- A mask bit that is not set gives mask number zero. -/
theorem mu_eq_zero_of_not_bit {b : Fin 16} {p : Fin 768} {n : Fin 20}
    (hn : ¬ A.msk (ix3 b p n) = 1#1) : mu A (b, p, n) = 0 := by
  show (((A.msk (ix3 b p n)).toNat : ℝ) : EReal) = 0
  rcases bit_toNat (A.msk (ix3 b p n)) with h | h
  · rw [h]; simp
  · exact absurd (BitVec.eq_of_toNat_eq (by rw [h]; rfl)) hn

/-- The maximum of a polyline's mask numbers is one if some bit is set and zero otherwise. -/
theorem valid_eq (b : Fin 16) (p : Fin 768) : valid A b p = validRef A b p := by
  unfold valid validRef
  split_ifs with h
  · obtain ⟨n, hn⟩ := h
    apply le_antisymm
    · rw [Finset.fold_max_le]
      refine ⟨bot_le, fun x _ => ?_⟩
      rcases mu_cases A (b, p, x) with h0 | h1
      · rw [h0]; exact zero_le_one
      · rw [h1]
    · rw [Finset.le_fold_max]
      exact Or.inr ⟨n, Finset.mem_univ n, (mu_eq_one_of_bit A hn).ge⟩
  · have h0 : ∀ n : Fin 20, mu A (b, p, n) = 0 :=
      fun n => mu_eq_zero_of_not_bit A (fun hn => h ⟨n, hn⟩)
    apply le_antisymm
    · rw [Finset.fold_max_le]
      exact ⟨bot_le, fun x _ => (h0 x).le⟩
    · rw [Finset.le_fold_max]
      exact Or.inr ⟨0, Finset.mem_univ _, (h0 0).ge⟩

/-! ## The head -/

/-- The hidden layers agree. -/
theorem hidden_eq (hA : A.AllReal) (b : Fin 16) (p : Fin 768) (k : Fin 64) :
    hidden A b p k = hiddenRef A b p k := by
  unfold hidden hiddenRef
  rw [(stage3 A hA).1]

/-- The outputs agree. -/
theorem out_eq (hA : A.AllReal) (b : Fin 16) (p : Fin 768) (o : Fin 256) :
    out A b p o = outRef A b p o := by
  unfold out outRef
  rw [valid_eq A b p]
  simp only [hidden_eq A hA]

/-- **The two spellings of the network agree** when every float argument is a real. -/
theorem result_eq_resultRef (A : Cert.Net.Args) (hA : A.AllReal) :
    Cert.Net.result A = Cert.Net.resultRef A := by
  funext i
  unfold result resultRef
  exact out_eq A hA (i 0) (i 1) (i 2)

end Cert.Net

end
-- ==== Proof.FiniteInputs.lean ====
/-
  FINITE INPUTS, READ BACK FROM THE PRINTED PRECONDITION.

  The precondition is a pure function of the argument arrays: for each float array `x` it compares `|x|`
  with a broadcast of the word of plus infinity by "ordered less than", folds the resulting array of `i1`
  words by "and" over all axes starting from 1, and joins the fourteen results by "and". Over the extended
  reals `|a|` is `max a (-a)`, the word of plus infinity denotes `⊤`, and the comparison is the strict order:
  so the precondition being 1 says `max a (-a) < ⊤` for every entry `a` of every float array, and an extended
  real with `max a (-a) < ⊤` is neither `⊤` nor `⊥`, hence a real number.

  `real_of_abs_lt_top` is that last step for one extended real; `allReal_of_reduce` is the statement for one
  array of any shape; `allReal_of_pre` splits the joined "and" and applies it to each of the fourteen arrays.
-/
import proofs.«135113_g11922829214230_retrytranche1_1894_3_alg».proof.Pre_finite_inputs
import proofs.«135113_g11922829214230_retrytranche1_1894_3_alg».proof.Proof.Gen.Pre_finite_inputs
import Idealize.ShloMosaic.Lib.ReduceAll
import Idealize.ShloMosaic.Lib.ValueIdx
import Idealize.ShloMosaic.PureOps.Ideal

namespace Cert.FiniteInputs

open Idealize.ShloMosaic Cert.Pre_finite_inputs

/-- Every entry of an array of extended reals is a real number (neither infinity). -/
def AllReal {s : Shape} (x : s.Idx → EReal) : Prop := ∀ i, ∃ r : ℝ, x i = (r : EReal)

/-- The rank-0 shape has exactly one index. -/
instance subsingleton_S_ : Subsingleton S_.Idx := ⟨fun a b => funext fun d => d.elim0⟩

/-- The word `0x7F800000` denotes plus infinity. -/
theorem ofBits_inf : Ideal.ofBits .f32 0x7F800000#32 = (⊤ : EReal) := by simp [Ideal.ofBits, Ideal.ieee]

/-- An extended real whose absolute value `max a (-a)` compares "ordered less than" plus infinity is a real number. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- One array: if the fold by "and", over all axes and from 1, of `|x| < +∞` is 1, every entry of `x` is real. -/
theorem allReal_of_reduce {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi
          (cmpf .olt (Host.absf x) (broadcastInDim s ![] hb (constant (F := Ideal) S_ .f32 0x7F800000#32)))
          (constantI S_ 1 1#1) hr hu j = 1#1) : AllReal x := by
  intro i
  have e := Host.reduce_andi_all _ _ hr hu j h i
  apply real_of_abs_lt_top
  rw [← ofBits_inf]
  exact e

/-- The precondition read back: if the printed function is 1, every entry of every float argument is a real number. -/
theorem allReal_of_pre (x0 : FVec Ideal S16x768x20x9 .f32) (x1 : IVec S16x768x20 1) (x2 : FVec Ideal S64x9 .f32)
    (x3 x4 : FVec Ideal S64 .f32) (x5 : FVec Ideal S64x128 .f32) (x6 x7 : FVec Ideal S64 .f32)
    (x8 : FVec Ideal S64x64 .f32) (x9 x10 : FVec Ideal S64 .f32) (x11 : FVec Ideal S64x64 .f32)
    (x12 : FVec Ideal S64 .f32) (x13 : FVec Ideal S256x64 .f32) (x14 : FVec Ideal S256 .f32)
    (h : Cert.Pre_finite_inputs.fn (F := Ideal) x0 x1 x2 x3 x4 x5 x6 x7 x8 x9 x10 x11 x12 x13 x14 = fun _ => 1#1) :
    AllReal x0 ∧ AllReal x2 ∧ AllReal x3 ∧ AllReal x4 ∧ AllReal x5 ∧ AllReal x6 ∧ AllReal x7 ∧ AllReal x8 ∧
      AllReal x9 ∧ AllReal x10 ∧ AllReal x11 ∧ AllReal x12 ∧ AllReal x13 ∧ AllReal x14 := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := e
  exact ⟨allReal_of_reduce _ _ _ x0 _ e0, allReal_of_reduce _ _ _ x2 _ e2, allReal_of_reduce _ _ _ x3 _ e3,
    allReal_of_reduce _ _ _ x4 _ e4, allReal_of_reduce _ _ _ x5 _ e5, allReal_of_reduce _ _ _ x6 _ e6,
    allReal_of_reduce _ _ _ x7 _ e7, allReal_of_reduce _ _ _ x8 _ e8, allReal_of_reduce _ _ _ x9 _ e9,
    allReal_of_reduce _ _ _ x10 _ e10, allReal_of_reduce _ _ _ x11 _ e11, allReal_of_reduce _ _ _ x12 _ e12,
    allReal_of_reduce _ _ _ x13 _ e13, allReal_of_reduce _ _ _ x14 _ e14⟩

end Cert.FiniteInputs
-- ==== Proof.Algebraic.lean ====
/-
  The algebraic conjunct, assembled.

  Both idealized programs end with their result at ONE function of the argument arrays, the network of the module that
  states it. The kernel's run ends with every buffer at the last boundary's contents, and the result buffer's contents
  there are the network, in the kernel's spelling, of the kernel's arguments. The reference's run ends with its result
  at the composed term of its operations, which is the network, in the reference's spelling, of the reference's
  arguments. The two spellings agree when every float argument is a real number; the precondition says so of the
  kernel's arguments, and the two memories agree on the arguments.
-/
import proofs.«135113_g11922829214230_retrytranche1_1894_3_alg».proof.Proof.Frames
import proofs.«135113_g11922829214230_retrytranche1_1894_3_alg».proof.Proof.RefFrame
import proofs.«135113_g11922829214230_retrytranche1_1894_3_alg».proof.Proof.KernelRun
import proofs.«135113_g11922829214230_retrytranche1_1894_3_alg».proof.Proof.KernelStage3
import proofs.«135113_g11922829214230_retrytranche1_1894_3_alg».proof.Proof.RefValue
import proofs.«135113_g11922829214230_retrytranche1_1894_3_alg».proof.Proof.Net
import proofs.«135113_g11922829214230_retrytranche1_1894_3_alg».proof.Proof.Bridge
import proofs.«135113_g11922829214230_retrytranche1_1894_3_alg».proof.Proof.FiniteInputs

noncomputable section

namespace Cert.Proof.Algebraic

open Idealize.ShloMosaic Idealize.SL.Sem
open Cert.KernelIdeal.Value (argsK)
open Cert.RefValue (argsR)

/-- THE KERNEL'S VALUE. At the last boundary the result buffer holds the network, in the kernel's spelling, of the
    arguments: the fold through five stretches of host operations and four regions, read back. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W9 m ρ c (Proc.devRef .tc Cert.KernelIdeal.main_v75) = Cert.Net.result (argsK m c) :=
  Cert.KernelIdeal.Stage3.kernel_value m ρ c

/-- THE REFERENCE'S VALUE. The fold of the reference's 173 operations over the launch contents leaves, in the result
    buffer, the network, in the reference's spelling, of the arguments. -/
theorem reference_value (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (StableHlo.launchContents m' c)
        (Proc.devRef .tc Cert.ReferenceIdeal.main_v145) = Cert.Net.resultRef (argsR m' c) :=
  Cert.RefValue.reference_value m' c

/-- The precondition makes every float argument of the kernel a real number. -/
theorem allReal_of_pre (m : (ℓ : Loc Cert.KernelIdeal.nD Cert.KernelIdeal.τ Cert.KernelIdeal.sig) → Buf (Elt Ideal) ℓ) (hpre : Cert.Pre_KernelIdeal m)
    (c : Dev Cert.KernelIdeal.nD) : (argsK m c).AllReal := by
  obtain ⟨h0, h2, h3, h4, h5, h6, h7, h8, h9, h10, h11, h12, h13, h14⟩ :=
    Cert.FiniteInputs.allReal_of_pre _ _ _ _ _ _ _ _ _ _ _ _ _ _ _ (hpre c)
  exact ⟨h0, h2, h3, h4, h5, h6, h7, h8, h9, h10, h11, h12, h13, h14⟩

/-- Memories that agree on the arguments give the same argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    argsR m' c = argsK m c := by
  obtain ⟨e0, e1, e2, e3, e4, e5, e6, e7, e8, e9, e10, e11, e12, e13, e14⟩ := h
  unfold Cert.RefValue.argsR Cert.KernelIdeal.Value.argsK
  rw [e0, e1, e2, e3, e4, e5, e6, e7, e8, e9, e10, e11, e12, e13, e14]

/-- The two idealized programs, from memories that agree on the arguments, end with the same result. -/
theorem algebraic : Cert.algebraic_KernelIdeal_ReferenceIdeal := by
  intro m ρ m' ρ' hpre hagree
  refine ⟨fun c => Cert.Net.result (argsK m c), ?_, ?_⟩
  · refine (θ_run Cert.KernelIdeal.defs _ _).mono (fun _ h c => ⟨?_, ((h c _ (Cert.KernelIdeal.Gen.mem_uc Cert.KernelIdeal.main_arg0 (by decide))).trans (Cert.KernelIdeal.Gen.W9_main_arg0 m ρ c)),
      ((h c _ (Cert.KernelIdeal.Gen.mem_uc Cert.KernelIdeal.main_arg1 (by decide))).trans (Cert.KernelIdeal.Gen.W9_main_arg1 m ρ c)),
      ((h c _ (Cert.KernelIdeal.Gen.mem_uc Cert.KernelIdeal.main_arg2 (by decide))).trans (Cert.KernelIdeal.Gen.W9_main_arg2 m ρ c)),
      ((h c _ (Cert.KernelIdeal.Gen.mem_uc Cert.KernelIdeal.main_arg3 (by decide))).trans (Cert.KernelIdeal.Gen.W9_main_arg3 m ρ c)),
      ((h c _ (Cert.KernelIdeal.Gen.mem_uc Cert.KernelIdeal.main_arg4 (by decide))).trans (Cert.KernelIdeal.Gen.W9_main_arg4 m ρ c)),
      ((h c _ (Cert.KernelIdeal.Gen.mem_uc Cert.KernelIdeal.main_arg5 (by decide))).trans (Cert.KernelIdeal.Gen.W9_main_arg5 m ρ c)),
      ((h c _ (Cert.KernelIdeal.Gen.mem_uc Cert.KernelIdeal.main_arg6 (by decide))).trans (Cert.KernelIdeal.Gen.W9_main_arg6 m ρ c)),
      ((h c _ (Cert.KernelIdeal.Gen.mem_uc Cert.KernelIdeal.main_arg7 (by decide))).trans (Cert.KernelIdeal.Gen.W9_main_arg7 m ρ c)),
      ((h c _ (Cert.KernelIdeal.Gen.mem_uc Cert.KernelIdeal.main_arg8 (by decide))).trans (Cert.KernelIdeal.Gen.W9_main_arg8 m ρ c)),
      ((h c _ (Cert.KernelIdeal.Gen.mem_uc Cert.KernelIdeal.main_arg9 (by decide))).trans (Cert.KernelIdeal.Gen.W9_main_arg9 m ρ c)),
      ((h c _ (Cert.KernelIdeal.Gen.mem_uc Cert.KernelIdeal.main_arg10 (by decide))).trans (Cert.KernelIdeal.Gen.W9_main_arg10 m ρ c)),
      ((h c _ (Cert.KernelIdeal.Gen.mem_uc Cert.KernelIdeal.main_arg11 (by decide))).trans (Cert.KernelIdeal.Gen.W9_main_arg11 m ρ c)),
      ((h c _ (Cert.KernelIdeal.Gen.mem_uc Cert.KernelIdeal.main_arg12 (by decide))).trans (Cert.KernelIdeal.Gen.W9_main_arg12 m ρ c)),
      ((h c _ (Cert.KernelIdeal.Gen.mem_uc Cert.KernelIdeal.main_arg13 (by decide))).trans (Cert.KernelIdeal.Gen.W9_main_arg13 m ρ c)),
      ((h c _ (Cert.KernelIdeal.Gen.mem_uc Cert.KernelIdeal.main_arg14 (by decide))).trans (Cert.KernelIdeal.Gen.W9_main_arg14 m ρ c))⟩)
      (Cert.KernelIdeal.Named.run_named (F := Ideal) m ρ)
    exact (h c _ Cert.KernelIdeal.Named.result_unscoped).trans (kernel_value m ρ c)
  · refine (θ_run Cert.ReferenceIdeal.defs _ _).mono (fun _ h c => ⟨(h c).1.trans ?_, (h c).2⟩)
      (Cert.ReferenceIdeal.ValueP.run (F := Ideal) m' ρ')
    rw [reference_value m' c, args_agree m m' c (hagree c)]
    exact (Cert.Net.result_eq_resultRef (argsK m c) (allReal_of_pre m hpre c)).symm

end Cert.Proof.Algebraic

end
-- ==== Proof.lean ====
/-
  The certificate's claim, proved.

  The kernel is a point network over 12288 polylines of twenty points with nine features each: a linear layer, a masked
  batch normalisation with the rectifier, a pool over each polyline's points, a second linear layer on a row's own and
  its polyline's pooled features, a second norm, a third linear layer, a third norm, a pool, and a two-layer head gated
  by each polyline's validity. Each norm's statistics run over ALL rows, so the kernel is four pipelined regions, each
  over forty-eight blocks of 256 polylines, with the statistics finished on the host between them; the reference is a
  straight line of host operations.

  Frames: each kernel program's is its run over the nine segments; the reference's is its run with the result dropped.
  The ideal pass rewrote nothing, so there is nothing to preserve.
  The two idealized programs end with equal results: both results are ONE function of the fifteen argument arrays, the
  network, which the kernel computes in the moment spelling of the norm (variance as the clamped difference of
  moments; one multiplication and one addition per value) and the reference in the deviation spelling (variance as the
  masked mean of squared deviations; subtract, divide by the square root, scale, shift). The spellings agree when every
  float argument is a real number, which the precondition says: the two variances are equal because the mask is 0 or 1
  and the count is at least one, and the two normalisations are one expression of the reals.
-/
import proofs.«135113_g11922829214230_retrytranche1_1894_3_alg».proof.Defs
import proofs.«135113_g11922829214230_retrytranche1_1894_3_alg».proof.Proof.Gen.Kernel
import proofs.«135113_g11922829214230_retrytranche1_1894_3_alg».proof.Proof.Gen.Kernel.Skeleton
import proofs.«135113_g11922829214230_retrytranche1_1894_3_alg».proof.Proof.Gen.Kernel.Launch
import proofs.«135113_g11922829214230_retrytranche1_1894_3_alg».proof.Proof.Gen.Kernel.Points
import proofs.«135113_g11922829214230_retrytranche1_1894_3_alg».proof.Proof.Gen.Kernel.Frame
import proofs.«135113_g11922829214230_retrytranche1_1894_3_alg».proof.Proof.Gen.KernelIdeal
import proofs.«135113_g11922829214230_retrytranche1_1894_3_alg».proof.Proof.Gen.KernelIdeal.Skeleton
import proofs.«135113_g11922829214230_retrytranche1_1894_3_alg».proof.Proof.Gen.KernelIdeal.Launch
import proofs.«135113_g11922829214230_retrytranche1_1894_3_alg».proof.Proof.Gen.KernelIdeal.Points
import proofs.«135113_g11922829214230_retrytranche1_1894_3_alg».proof.Proof.Gen.KernelIdeal.Frame
import proofs.«135113_g11922829214230_retrytranche1_1894_3_alg».proof.Proof.Gen.ReferenceIdeal
import proofs.«135113_g11922829214230_retrytranche1_1894_3_alg».proof.Proof.Gen.Pre_finite_inputs
import proofs.«135113_g11922829214230_retrytranche1_1894_3_alg».proof.Proof.Frames
import proofs.«135113_g11922829214230_retrytranche1_1894_3_alg».proof.Proof.RefFrame
import proofs.«135113_g11922829214230_retrytranche1_1894_3_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Frames.frame_kernel, Frames.frame_kernelIdeal, Frames.frame_referenceIdeal, Frames.preserves, Algebraic.algebraic⟩

end Cert.Proof

end
